-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000000x64 : Shape := ⟨2, ![1000000, 64]⟩
abbrev S1x64 : Shape := ⟨2, ![1, 64]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_v13 : IVec S_ 1) (main_v15 : IVec S4096x200 1) (main_c_5 : IVec S_ 32) : IVec S_ 1 :=
  let main_v16 : IVec S4096x200 32 := broadcastInDim S4096x200 ![] bcast_S_S4096x200 main_c_5
  let main_v17 : IVec S4096x200 1 := cmpi .sle main_arg0 main_v16
  let main_v18 : IVec S4096x200 1 := andi main_v15 main_v17
  let main_c_6 : IVec S_ 1 := constantI S_ 1 1#1
  let main_v19 : IVec S_ 1 := (fun x v => Host.reduce IntOp.andi x v reducesTo_S4096x200_S_d0_1 h_S_) main_v18 main_c_6
  let main_v20 : IVec S_ 1 := andi main_v13 main_v19
  main_v20

def fn {F : FTy → Type} [FloatOps F] (main_arg0 : IVec S4096x200 32) (main_arg1 : FVec F S1000000x64 .f32) (main_arg2 : FVec F S1x64 .f32) (main_arg3 : FVec F S1 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S4096x200 32 := broadcastInDim S4096x200 ![] bcast_S_S4096x200 main_c_4
  let main_v15 : IVec S4096x200 1 := cmpi .sge main_arg0 main_v14
  let main_c_5 : IVec S_ 32 := constantI S_ 32 999999#32
  fn_part1 (F := F) main_arg0 main_v13 main_v15 main_c_5
-- ==== Kernel.lean ====
abbrev S4096x200 : Shape := ⟨2, ![4096, 200]⟩
abbrev S1000000x64 : Shape := ⟨2, ![1000000, 64]⟩
abbrev S1x64 : Shape := ⟨2, ![1, 64]⟩
abbrev S1 : Shape := ⟨1, ![1]⟩
abbrev S64x1000000 : Shape := ⟨2, ![64, 1000000]⟩
abbrev S200x4096 : Shape := ⟨2, ![200, 4096]⟩
abbrev S32x1x31360 : Shape := ⟨3, ![32, 1, 31360]⟩
abbrev S32x200x128 : Shape := ⟨3, ![32, 200, 128]⟩
abbrev S64x31360 : Shape := ⟨2, ![64, 31360]⟩
abbrev S200x128 : Shape := ⟨2, ![200, 128]⟩
abbrev S1x1x31360 : Shape := ⟨3, ![1, 1, 31360]⟩
abbrev S1x200x128 : Shape := ⟨3, ![1, 200, 128]⟩
abbrev S8x64 : Shape := ⟨2, ![8, 64]⟩
abbrev S8x31360 : Shape := ⟨2, ![8, 31360]⟩
abbrev S1x31360 : Shape := ⟨2, ![1, 31360]⟩
abbrev S1003520 : Shape := ⟨1, ![1003520]⟩
abbrev S819200 : Shape := ⟨1, ![819200]⟩
abbrev S4096 : Shape := ⟨1, ![4096]⟩
abbrev S25600 : Shape := ⟨1, ![25600]⟩
abbrev S128 : Shape := ⟨1, ![128]⟩
abbrev S_ : Shape := ⟨0, ![]⟩
abbrev S62720 : Shape := ⟨1, ![62720]⟩
abbrev S12800 : Shape := ⟨1, ![12800]⟩
abbrev S16 : Shape := ⟨1, ![16]⟩
abbrev S4096x1 : Shape := ⟨2, ![4096, 1]⟩

abbrev nBuf : Table → Nat
  | .hbm => 12
  | .local .tc .vmem => 9
  | .local .tc .smem => 1
  | .shared => 1
  | .local .scVector .vmem => 3
  | _ => 0

abbrev bufTy : (tb : Table) → Fin (nBuf tb) → BufTy
  | .hbm, ⟨0, _⟩ => ⟨S4096x200, .i32⟩
  | .hbm, ⟨1, _⟩ => ⟨S1000000x64, .f32⟩
  | .hbm, ⟨2, _⟩ => ⟨S1x64, .f32⟩
  | .hbm, ⟨3, _⟩ => ⟨S1, .f32⟩
  | .hbm, ⟨4, _⟩ => ⟨S64x1000000, .f32⟩
  | .hbm, ⟨5, _⟩ => ⟨S200x4096, .i32⟩
  | .hbm, ⟨6, _⟩ => ⟨S32x1x31360, .f32⟩
  | .hbm, ⟨7, _⟩ => ⟨S32x200x128, .i32⟩
  | .hbm, ⟨8, _⟩ => ⟨S1003520, .f32⟩
  | .hbm, ⟨9, _⟩ => ⟨S819200, .i32⟩
  | .hbm, ⟨10, _⟩ => ⟨S4096, .f32⟩
  | .hbm, ⟨11, _⟩ => ⟨S4096x1, .f32⟩
  | .local .tc .vmem, ⟨0, _⟩ => ⟨S64x31360, .f32⟩
  | .local .tc .vmem, ⟨1, _⟩ => ⟨S64x31360, .f32⟩
  | .local .tc .vmem, ⟨2, _⟩ => ⟨S1x64, .f32⟩
  | .local .tc .vmem, ⟨3, _⟩ => ⟨S200x128, .i32⟩
  | .local .tc .vmem, ⟨4, _⟩ => ⟨S200x128, .i32⟩
  | .local .tc .vmem, ⟨5, _⟩ => ⟨S1x1x31360, .f32⟩
  | .local .tc .vmem, ⟨6, _⟩ => ⟨S1x1x31360, .f32⟩
  | .local .tc .vmem, ⟨7, _⟩ => ⟨S1x200x128, .i32⟩
  | .local .tc .vmem, ⟨8, _⟩ => ⟨S1x200x128, .i32⟩
  | .local .tc .smem, ⟨0, _⟩ => ⟨S1, .f32⟩
  | .shared, ⟨0, _⟩ => ⟨S1003520, .f32⟩
  | .local .scVector .vmem, ⟨0, _⟩ => ⟨S25600, .i32⟩
  | .local .scVector .vmem, ⟨1, _⟩ => ⟨S25600, .f32⟩
  | .local .scVector .vmem, ⟨2, _⟩ => ⟨S128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | _ => false

abbrev sig : RefSig :=
  ofTables nBuf rfl bufTy 5 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v4_scv : Ref sig .scVector := ⟨.hbm, 9, rfl⟩
abbrev main_v3_scv : Ref sig .scVector := ⟨.hbm, 8, rfl⟩
abbrev main_v5_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg2_0 : Ref sig .tc := ⟨.smem, 0, rfl⟩
abbrev cc1_scratch3 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x31360 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x31360 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x200x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k1_off2 (i : grid1.Coords) : Fin 1 → Nat :=
  let arg1 : BitVec 32 := BitVec.ofNat 32 (i 1).val
  let c62720_i32_0 : BitVec 32 := 62720#32
  let v6 : BitVec 32 := Scalar.muli arg1 c62720_i32_0
  ![v6.toNat]
@[reducible] def k1_t1_loop : Scf.Loop 32 :=
  let c0_i32_15 : BitVec 32 := 0#32
  let c100_i32 : BitVec 32 := 100#32
  let v26 : BitVec 32 := Scalar.addi c0_i32_15 c100_i32
  let c1_i32 : BitVec 32 := 1#32
  ⟨c0_i32_15, v26, c1_i32⟩
def k1_off3 (k1_t1 : Fin k1_t1_loop.trips) (c0_i32_51 : BitVec 32) : Fin 1 → Nat :=
  let c0_i32_50 : BitVec 32 := 0#32
  let c0_i32_15 : BitVec 32 := 0#32
  let c1_i32 : BitVec 32 := 1#32
  let arg12 : BitVec 32 := Scf.iv c0_i32_15 c1_i32 k1_t1
  let c128_i32_49 : BitVec 32 := 128#32
  let v114 : BitVec 32 := Scalar.muli arg12 c128_i32_49
  let v115 : BitVec 32 := Scalar.addi c0_i32_50 v114
  let v116 : BitVec 32 := Scalar.addi v115 c0_i32_51
  let v117 : Index := Scalar.indexCast v116
  ![v117.toNat]
@[reducible] def k1_t2_loop : Scf.Loop 32 :=
  let c0_i32_20 : BitVec 32 := 0#32
  let c100_i32_21 : BitVec 32 := 100#32
  let v31 : BitVec 32 := Scalar.addi c0_i32_20 c100_i32_21
  let c1_i32_22 : BitVec 32 := 1#32
  ⟨c0_i32_20, v31, c1_i32_22⟩
def k1_off4 (k1_t2 : Fin k1_t2_loop.trips) (c0_i32_51 : BitVec 32) : Fin 1 → Nat :=
  let c12800_i32_50 : BitVec 32 := 12800#32
  let c0_i32_20 : BitVec 32 := 0#32
  let c1_i32_22 : BitVec 32 := 1#32
  let arg12 : BitVec 32 := Scf.iv c0_i32_20 c1_i32_22 k1_t2
  let c128_i32_49 : BitVec 32 := 128#32
  let v114 : BitVec 32 := Scalar.muli arg12 c128_i32_49
  let v115 : BitVec 32 := Scalar.addi c12800_i32_50 v114
  let v116 : BitVec 32 := Scalar.addi v115 c0_i32_51
  let v117 : Index := Scalar.indexCast v116
  ![v117.toNat]
def k1_off5 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v113 : BitVec 32 := Scalar.muli v1 c128_i32
  ![v113.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  transposes_S4096x200_S200x4096_1_0 : S4096x200.Transposes [1, 0] S200x4096
  inb_S64x31360_S64x31360_0_0 : ∀ a, (![0, 0] : Fin 2 → Nat) a + S64x31360.size a ≤ S64x31360.size a
  h_S64x31360 : 0 < S64x31360.numel
  shapeCasts_S64x31360_S64x31360 : S64x31360.ShapeCasts S64x31360
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8x64 : S1x64.Broadcasts S8x64
  slices_S8x31360_o0_0_S1x31360 : S8x31360.Slices ![0, 0] S1x31360
  inb_S1_S1_0 : ∀ a, (![0] : Fin 1 → Nat) a + S1.size a ≤ S1.size a
  numel1_S1 : S1.numel = 1
  shapeCasts_S1x31360_S1x1x31360 : S1x31360.ShapeCasts S1x1x31360
  inb_S1x1x31360_S1x1x31360_0_0_0 : ∀ a, (![0, 0, 0] : Fin 3 → Nat) a + S1x1x31360.size a ≤ S1x1x31360.size a
  h_S1x1x31360 : 0 < S1x1x31360.numel
  inb_S200x128_S200x128_0_0 : ∀ a, (![0, 0] : Fin 2 → Nat) a + S200x128.size a ≤ S200x128.size a
  h_S200x128 : 0 < S200x128.numel
  shapeCasts_S200x128_S200x128 : S200x128.ShapeCasts S200x128
  shapeCasts_S200x128_S1x200x128 : S200x128.ShapeCasts S1x200x128
  inb_S1x200x128_S1x200x128_0_0_0 : ∀ a, (![0, 0, 0] : Fin 3 → Nat) a + S1x200x128.size a ≤ S1x200x128.size a
  h_S1x200x128 : 0 < S1x200x128.numel
  shapeCasts_S32x1x31360_S1003520 : S32x1x31360.ShapeCasts S1003520
  shapeCasts_S32x200x128_S819200 : S32x200x128.ShapeCasts S819200
  inb_S25600_S12800_0 : ∀ a, (![0] : Fin 1 → Nat) a + S12800.size a ≤ S25600.size a
  inb_S1003520_S1003520_0 : ∀ a, (![0] : Fin 1 → Nat) a + S1003520.size a ≤ S1003520.size a
  gathers_S1003520_S12800 : S1003520.Gathers 0 S12800
  inb_S25600_S12800_12800 : ∀ a, (![12800] : Fin 1 → Nat) a + S12800.size a ≤ S25600.size a
  h_S16 : 0 < S16.numel
  shapeCasts_S16_S16 : S16.ShapeCasts S16
  inb_S128_S16_0 : ∀ a, (![0] : Fin 1 → Nat) a + S16.size a ≤ S128.size a
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  shapeCasts_S4096_S4096x1 : S4096.ShapeCasts S4096x1
  dot_S8x64_S64x31360_S8x31360_1_0_0_1_n_n_wf : DotDims.WF S8x64 S64x31360 S8x31360 [1] [0] [0] [1] [] []
  hcc1_scratch4 : 10 + S_.numel ≤ 15
  hcc1_scratch5 : 11 + S_.numel ≤ 15
  hcc1_scratch6 : 12 + S_.numel ≤ 15
  hcc1_scoped0 : 13 + S_.numel ≤ 15
  hcc1_scoped1 : 14 + S_.numel ≤ 15
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x31360.size a < S64x1000000.size a
  hwx0_0 : ∀ i : grid0.Coords, EltTy.bits .f32 = 32 ∨ (Rect.unit (s := S64x1000000) (fun a => cc0_transform_0 i a * S64x31360.size a) (fun a => (Pipeline.Clip.of (cc0_transform_0 i a) (S64x31360.size a) (S64x1000000.size a)).extent (S64x31360.size a)) fun a => Pipeline.Clip.inb (Pipeline.Clip.ok_of (hstart0_0 i a))).WholeWords (EltTy.packing .f32)
  hwxs0_0 : ∀ i : grid0.Coords, EltTy.bits .f32 = 32 ∨ (Rect.unit (s := S64x31360) (fun _ => 0) (fun a => (Pipeline.Clip.of (cc0_transform_0 i a) (S64x31360.size a) (S64x1000000.size a)).extent (S64x31360.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S200x4096.size a
  hwx0_3 : ∀ i : grid0.Coords, EltTy.bits .i32 = 32 ∨ (Rect.block (s := S200x4096) S200x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x31360.size a ≤ S32x1x31360.size a
  hwx0_4 : ∀ i : grid0.Coords, EltTy.bits .f32 = 32 ∨ (Rect.block (s := S32x1x31360) S1x1x31360.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x200x128.size a ≤ S32x200x128.size a
  hwx0_5 : ∀ i : grid0.Coords, EltTy.bits .i32 = 32 ∨ (Rect.block (s := S32x200x128) S1x200x128.size (cc0_transform_5 i) (hinb0_5 i)).WholeWords (EltTy.packing .i32)
  hcore1 : grid1.bound 0 ≤ τ.nSC
  hsub1 : grid1.bound 1 ≤ τ.nSub
  k1_off1_inb : ∀ i : grid1.Coords, ∀ a, (k1_off1 i) a + S25600.size a ≤ S819200.size a
  k1_off2_inb : ∀ i : grid1.Coords, ∀ a, (k1_off2 i) a + S62720.size a ≤ S1003520.size a
  k1_t1_ok : k1_t1_loop.OK
  k1_off3_inb : ∀ k1_t1 : Fin k1_t1_loop.trips, ∀ (r : Fin 8), ∀ a, (k1_off3 k1_t1 (BitVec.ofNat 32 (16 * r.val))) a + S16.size a ≤ S25600.size a
  k1_t2_ok : k1_t2_loop.OK
  k1_off4_inb : ∀ k1_t2 : Fin k1_t2_loop.trips, ∀ (r : Fin 8), ∀ a, (k1_off4 k1_t2 (BitVec.ofNat 32 (16 * r.val))) a + S16.size a ≤ S25600.size a
  k1_off5_inb : ∀ i : grid1.Coords, ∀ a, (k1_off5 i) a + S128.size a ≤ S4096.size a

variable [Facts₀]

abbrev cc1_scratch4 : DmaSems sig S_ := SemArray.consecutive 10 S_ hcc1_scratch4
abbrev cc1_scratch5 : DmaSems sig S_ := SemArray.consecutive 11 S_ hcc1_scratch5
abbrev cc1_scratch6 : DmaSems sig S_ := SemArray.consecutive 12 S_ hcc1_scratch6
abbrev cc1_scoped0 : DmaSems sig S_ := SemArray.consecutive 13 S_ hcc1_scoped0
abbrev cc1_scoped1 : DmaSems sig S_ := SemArray.consecutive 14 S_ hcc1_scoped1
def dot_S8x64_S64x31360_S8x31360_1_0_0_1_n_n : DotDims S8x64 S64x31360 S8x31360 where
  lhsContracting := [1]
  rhsContracting := [0]
  lhsNonContracting := [0]
  rhsNonContracting := [1]
  lhsBatch := []
  rhsBatch := []
  wf := dot_S8x64_S64x31360_S8x31360_1_0_0_1_n_n_wf

abbrev win0_0 : Pipeline.Window sig grid0 :=
  Pipeline.Window.ofSpecClip (Memref.whole main_v0) S64x31360.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x31360.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x200 : Shape := ⟨2, ![4096, 200]⟩
abbrev S1000000x64 : Shape := ⟨2, ![1000000, 64]⟩
abbrev S1x64 : Shape := ⟨2, ![1, 64]⟩
abbrev S1 : Shape := ⟨1, ![1]⟩
abbrev S_ : Shape := ⟨0, ![]⟩
abbrev S4096x200x1 : Shape := ⟨3, ![4096, 200, 1]⟩
abbrev S1x1x1 : Shape := ⟨3, ![1, 1, 1]⟩
abbrev S4096x200x64 : Shape := ⟨3, ![4096, 200, 64]⟩
abbrev S4096x64 : Shape := ⟨2, ![4096, 64]⟩
abbrev S64x1 : Shape := ⟨2, ![64, 1]⟩
abbrev S4096x1 : Shape := ⟨2, ![4096, 1]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S1x64, .f32⟩
  | .hbm, ⟨3, _⟩ => ⟨S1, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x64, .f32⟩
  | .hbm, ⟨23, _⟩ => ⟨S4096x200x64, .i1⟩
  | .hbm, ⟨24, _⟩ => ⟨S_, .f32⟩
  | .hbm, ⟨25, _⟩ => ⟨S4096x200x64, .f32⟩
  | .hbm, ⟨26, _⟩ => ⟨S4096x200x64, .f32⟩
  | .hbm, ⟨27, _⟩ => ⟨S_, .f32⟩
  | .hbm, ⟨28, _⟩ => ⟨S4096x64, .f32⟩
  | .hbm, ⟨29, _⟩ => ⟨S_, .f32⟩
  | .hbm, ⟨30, _⟩ => ⟨S4096x64, .f32⟩
  | .hbm, ⟨31, _⟩ => ⟨S4096x64, .f32⟩
  | .hbm, ⟨32, _⟩ => ⟨S64x1, .f32⟩
  | .hbm, ⟨33, _⟩ => ⟨S4096x1, .f32⟩
  | .hbm, ⟨34, _⟩ => ⟨S1x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  reducesTo_S4096x200x64_S4096x64_d1 : S4096x200x64.ReducesTo [1] S4096x64
  bcast_S_S4096x64 : S_.BroadcastsInDim S4096x64 (![] : Fin 0 → Fin S4096x64.rank)
  transposes_S1x64_S64x1_1_0 : S1x64.Transposes [1, 0] S64x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  gather_S1000000x64_S4096x200x1_S4096x200x64_2_0_n_n_0_2_164_wf : GatherDims.WF S1000000x64 S4096x200x1 S4096x200x64 [2] [0] [] [0] [] 2 ![1, 64]
  dot_S4096x64_S64x1_S4096x1_1_0_0_1_n_n_wf : DotDims.WF S4096x64 S64x1 S4096x1 [1] [0] [0] [1] [] []

variable [Facts₀]

def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.Setup.lean ====
/-
  The kernel program as the SparseCore launch theorem sees it, and what its handshakes carry.

  The program: the TensorCore computes, for every vocabulary row, its SCORE (the affine form of the row, scaled by 1/200) into
  a flat array `t` of 16 · 62720 words, and re-lays the tokens into a flat array `xt` of 32 · 25600 words, piece `w` holding
  the tokens of examples 128·w … 128·w + 127, token position by token position.  Then 32 vector subcores run, subcore `s` of
  SparseCore `c` working on piece `w = 2·s + c`: it copies piece `w` of `xt` into its own memory, copies slice `s` of `t`
  (62720 words) into slice `s` of its SparseCore's SHARED memory, meets the fifteen other subcores of its SparseCore at the
  barrier — after which the shared memory holds all of `t` —, gathers the 25600 scores its tokens name (two gathers of
  12800, on two semaphores), adds them up per example (two loops of 100 trips, eight vectors of 16 examples) and writes the
  logistic function of the 128 sums to piece `w` of the result.

  The protocol.  Slice `s` of the shared memory is written by subcore `s` alone, before the barrier, and read by all sixteen
  after it: subcore `s` splits what it holds of its slice into sixteen read shares and hands share `j` to subcore `j` with
  its arrival at `j`'s barrier cell; leaving the barrier, a subcore holds share `j` of every slice, that is of the whole
  shared array, read-only, at the contents `t`.  Nothing writes the shared memory after the barrier.  Every other transfer
  is local to its subcore and waited for on a semaphore of its own before its target is read.
-/
import proofs.«203335_g10582799417878_cont_week2_139_36_alg».proof.Defs
import proofs.«203335_g10582799417878_cont_week2_139_36_alg».proof.Proof.Gen.KernelIdeal
import proofs.«203335_g10582799417878_cont_week2_139_36_alg».proof.Proof.Gen.KernelIdeal.Skeleton
import proofs.«203335_g10582799417878_cont_week2_139_36_alg».proof.Proof.Gen.KernelIdeal.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] [Named F] : Labels := Pipeline.Sig Λ₀ (Fin 1) fun p => (pcfgs (F := F) p).Adm
abbrev K [FloatOps F] [Named F] : SparseCore.Cfg τ sig (ΛP (F := F)) 1 := sc (F := F)
theorem nSub_zero [FloatOps F] [Named F] : (K (F := F)).nSub 0 = 16 := rfl
theorem nCore_zero [FloatOps F] [Named F] : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells', the TensorCore pipeline's staging cells', the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline's staging cells' rounds library. -/
def EP : Emb UP (MT nD τ sig (HIx 1) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays the SparseCore call works on -/

abbrev xtLoc (d : Dev nD) : Loc nD τ sig := (SparseCore.T d).loc main_v4
abbrev tLoc (d : Dev nD) : Loc nD τ sig := (SparseCore.T d).loc main_v3
abbrev oLoc (d : Dev nD) : Loc nD τ sig := (SparseCore.T d).loc main_v5
/-- SparseCore `c`'s shared memory, as every subcore of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

theorem hdivT : 16 ∣ S1003520.size 0 := ⟨62720, rfl⟩
theorem hdivX : 32 ∣ S819200.size 0 := ⟨25600, rfl⟩
theorem hdivO : 32 ∣ S4096.size 0 := ⟨128, rfl⟩
/-- Slice `i` of the scores (62720 words), piece `w` of the tokens (25600 words), piece `w` of the result (128 words). -/
abbrev tRow (i : Fin 16) : Rect S1003520 := Rect.part (s := S1003520) (a₀ := 0) hdivT i
abbrev xRow (w : Fin 32) : Rect S819200 := Rect.part (s := S819200) (a₀ := 0) hdivX w
abbrev oRow (w : Fin 32) : Rect S4096 := Rect.part (s := S4096) (a₀ := 0) hdivO w
abbrev tSet (i : Fin 16) : Finset S1003520.Idx := (tRow i).set
abbrev xSet (w : Fin 32) : Finset S819200.Idx := (xRow w).set
abbrev oSet (w : Fin 32) : Finset S4096.Idx := (oRow w).set

/-- The piece subcore `s` of SparseCore `c` works on: `2·s + c`. -/
def wid (c : Fin 2) (s : Fin 16) : Fin 32 := ⟨2 * s.val + c.val, by omega⟩

/-! ## What the arrays hold when the SparseCore call begins and ends

`xtF d`: the re-laid tokens; `tF d`: the scores, which the score array holds at every index below `nG` (at the ideal
instance `nG` is the vocabulary's size; where nothing is claimed of the values it is 0); `oF d g`: the result the subcores
compute when the shared memory holds `g`.  The SparseCore side is stated over them as parameters. -/

section Pay

variable [FloatOps F] [Named F]
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

/-- Contents of the score array that are RIGHT ON EVERY VOCABULARY ROW: they are `tF d` at every index below `nG`.  The
    indices from the vocabulary's size on are the overhang of the table's last block of columns: what the TensorCore's kernel computes
    there comes from staging contents no one names, so those words are anything — and no token names them. -/
def TGood (d : Dev nD) (f : Buf (Elt F) (tLoc d)) : Prop := ∀ j : S1003520.Idx, (j 0).val < nG → f j = tF d j
/-- The elements `I` of the score array in HBM, at some contents right on every vocabulary row, at share `q`; -/
def tPts (d : Dev nD) (I : Finset S1003520.Idx) (q : PosShare TreeShare) : sProp 𝕄 :=
  iprop(∃ f : Buf (Elt F) (tLoc d), ⌜TGood tF nG d f⌝ ∗ tLoc d ↦[I]{q} f)
/-- the same of SparseCore `c`'s shared memory. -/
def shPts (d : Dev nD) (c : Fin τ.nSC) (I : Finset S1003520.Idx) (q : PosShare TreeShare) : sProp 𝕄 :=
  iprop(∃ f : Buf (Elt F) (tLoc d), ⌜TGood tF nG d f⌝ ∗ shLoc d c ↦[I]{q} (f : Buf (Elt F) (shLoc d c)))

/-! ### The barrier cells -/

/-- Subcore `(c, j)`'s barrier semaphore of device `d`. -/
abbrev bcell (d : Dev nD) (c : Fin τ.nSC) (j : Fin τ.nSub) : GSem nD τ sig := (V d c j, .reg sc_bar0)

omit [FloatOps F] [Named F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] [Named F] in
@[simp] theorem isBar_bcell (d : Dev nD) (c : Fin τ.nSC) (j : Fin τ.nSub) : isBar (bcell d c j) = true := by simp [isBar]

/-- What subcore `n`'s arrival at subcore `j`'s cell hands over: read share `j` of slice `n` of the shared memory, at the scores. -/
def bPay (g : GSem nD τ sig) (n : ℕ) : sProp 𝕄 :=
  match g with
  | ((d, .scVector c j), _) =>
    if h : n < 16 then shPts tF nG d c (tSet ⟨n, h⟩) (Transfers.shareTok fullShare 16 (Fin.cast nSub_eq j)) else iprop(emp)
  | _ => iprop(emp)

/-- The barrier cells' schedule: one round on each, of one unit duty per subcore of the SparseCore (named by its number),
    each handing over its read share of its slice. -/
def bRd : Rounds.Schedule (GSem nD τ sig) ℕ 𝕄 where
  duties g r := if isBar g ∧ r = 0 then (Finset.univ : Finset (Fin τ.nSub)).image Fin.val else ∅
  amount _ _ _ := 1
  payload g _ n := bPay tF nG g n
  amount_pos _ _ _ _ := Nat.one_pos

instance bRd_payload_storable (g : GSem nD τ sig) (r n : ℕ) : BI.Storable (upEmb : UEmb _ 𝕄) ((bRd tF nG).payload g r n) := by
  show BI.Storable upEmb (bPay tF nG g n)
  unfold bPay
  rcases g with ⟨⟨d, _ | c | ⟨c, i⟩⟩, sm⟩ <;> dsimp only <;> (repeat' split) <;> (try unfold shPts) <;> infer_instance

omit [FloatOps F] [Named F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd tF nG).duties (bcell d c j) 0 = (Finset.univ : Finset (Fin τ.nSub)).image Fin.val := by
  simp [bRd, isBar]
theorem bRd_mem₀ (d : Dev nD) (c : Fin τ.nSC) (j i : Fin τ.nSub) : i.val ∈ (bRd tF nG).duties (bcell d c j) 0 := by
  rw [bRd_duties₀]; exact Finset.mem_image_of_mem _ (Finset.mem_univ i)
theorem bRd_expect (d : Dev nD) (c : Fin τ.nSC) (j : Fin τ.nSub) : 0 + grid1.bound 1 = (bRd tF nG).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: a unit on every subcore's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] [Named F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] [Named F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every cell invariant of its SparseCore, its duty token in every cell's round 0, that each
    cell has reached round 0, its own position at the origin of round 0, and the credit for the sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd tF nG) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ### What the handshakes carry -/

/-- What subcore `(c, i)` is handed of the HBM arrays: its piece of the tokens, slice `i` of the scores (SparseCore `c`'s
    read share: both SparseCores read every slice), its piece of the result at whatever it holds. -/
def goRes (d : Dev nD) (c : Fin 2) (i : Fin 16) : sProp 𝕄 :=
  iprop((xtLoc d ↦[xSet (wid c i)]{fullShare} xtF d) ∗ tPts tF nG d (tSet i) (Transfers.shareTok fullShare 2 c)
    ∗ ∃ f, oLoc d ↦[oSet (wid c i)]{fullShare} f)
/-- What it hands back: its piece of the result, at the result computed from what the shared memory held — contents right
    at every index below `nG` (the tokens and the scores are not needed again). -/
def tdRes (d : Dev nD) (c : Fin 2) (i : Fin 16) : sProp 𝕄 :=
  iprop(∃ g : Buf (Elt F) (tLoc d), ⌜TGood tF nG d g⌝ ∗ oLoc d ↦[oSet (wid c i)]{fullShare} oF d g)
/-- Of its SparseCore's shared memory it is handed slice `i`, at whatever it holds, -/
def shGo (d : Dev nD) (c : Fin τ.nSC) (i : Fin 16) : sProp 𝕄 := iprop(∃ f, shLoc d c ↦[tSet i]{fullShare} f)
/-- and hands back what is left of that slice after the sixteen read shares, and its read share of the whole memory. -/
def shTd (d : Dev nD) (c : Fin τ.nSC) (i : Fin 16) : sProp 𝕄 :=
  iprop((∃ f, shLoc d c ↦[tSet i]{Transfers.shareDrop fullShare 16} f) ∗ ∃ f, shLoc d c ↦{Transfers.shareTok fullShare 16 i} f)

abbrev coreOf (c : Fin ((K (F := F)).nCore 0)) : Fin τ.nSC := (K (F := F)).core 0 c

def P : (K (F := F)).Pay (nD := nD) (Val := Elt F) (Name := ℕ) (U := UU) where
  st := fun q d c => match q with | 0 => bigSep Finset.univ fun i : Fin 16 => goRes xtF tF nG d (Fin.cast nCore_zero c) i
  dn := fun q d c => match q with | 0 => bigSep Finset.univ fun i : Fin 16 => tdRes tF nG oF d (Fin.cast nCore_zero c) i
  go := fun q d c i => match q with
    | 0 => iprop(goRes xtF tF nG d (Fin.cast nCore_zero c) (Fin.cast nSub_zero i) ∗ shGo d (coreOf c) (Fin.cast nSub_zero i))
  td := fun q d c i => match q with
    | 0 => iprop(tdRes tF nG oF d (Fin.cast nCore_zero c) (Fin.cast nSub_zero i) ∗ shTd d (coreOf c) (Fin.cast nSub_zero i))
  x := fun _ thr => match thr with
    | (d, .scVector c i) => bkit tF nG d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P xtF tF nG oF).IsStorable where
  st q d c := match q with
    | 0 => by unfold P goRes tPts; dsimp only; infer_instance
  dn q d c := match q with
    | 0 => by unfold P tdRes; dsimp only; infer_instance
  go q d c i := match q with
    | 0 => by unfold P goRes tPts shGo; dsimp only; infer_instance
  td q d c i := match q with
    | 0 => by unfold P tdRes shTd; dsimp only; infer_instance

end Pay

end Cert.Proof.KI

end
-- ==== Proof.Split.lean ====
/-
  How a SparseCore's operands split among its sixteen subcores and gather back from them.  The HBM pieces are handed as
  they come (one piece of the tokens, one slice of the scores at the SparseCore's read share, one piece of the result per
  subcore).  The SparseCore's shared memory is the sequencer's own: it is cut into its sixteen slices, one per subcore;
  what comes back is, per subcore, the remainder of its slice after sixteen read shares were split off and ONE read share of
  the whole memory — sixteen remainders tile the memory, sixteen shares of the whole and the remainder make it whole again.
-/
import proofs.«203335_g10582799417878_cont_week2_139_36_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

omit [FloatOps F] [Named F] in
theorem tSets_disjoint : ∀ i ∈ (Finset.univ : Finset (Fin 16)), ∀ j ∈ (Finset.univ : Finset (Fin 16)), i ≠ j → Disjoint (tSet i) (tSet j) :=
  fun i _ j _ h => Rect.part_disjoint hdivT h
omit [FloatOps F] [Named F] in
theorem tSets_cover : (Finset.univ : Finset (Fin 16)).biUnion tSet = Finset.univ := Rect.biUnion_part hdivT

omit [FloatOps F] [Named F] in
/-- The shared memory held whole, at any share, is its sixteen slices held at that share. -/
theorem shPts_rows (d : Dev nD) (c : Fin τ.nSC) (q : PosShare TreeShare) (f : Buf (Elt F) (shLoc d c)) :
    (shLoc d c ↦{q} f : sProp 𝕄) = bigSep Finset.univ fun i : Fin 16 => shLoc d c ↦[tSet i]{q} f := by
  rw [← pointsTo_biUnion Finset.univ (ℓ := shLoc d c) tSet tSets_disjoint, tSets_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] [Named F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] [Named F] in
/-- Read shares of one location held at contents of their own are shares at ONE contents: holders of a common element
    agree on it.  The remainder after `n` shares and the `n` shares, each at whatever it holds, are the whole. -/
theorem toks_join_any {ℓ : Loc nD τ sig} (q : PosShare TreeShare) (f : Buf (Elt F) ℓ) : ∀ n : ℕ,
    iprop((ℓ ↦{Transfers.shareDrop q n} f) ∗ bigSep (Finset.range n) fun i => iprop(∃ g, ℓ ↦{Transfers.shareTokN q i} g)) ⊢ (ℓ ↦{q} f : sProp 𝕄)
  | 0 => by rw [Finset.range_zero, bigSep_empty]; exact sep_elim_left
  | n + 1 => by
    rw [Finset.range_add_one, SparseCore.bigSep_insert' Finset.notMem_range_self]
    iintro ⟨Hd, ⟨%g, Hg⟩, Hrest⟩
    ihave Hag := (persistent_entails_right (pointsTo_agree (ℓ := ℓ) (I := Finset.univ) (J := Finset.univ) (q₁ := Transfers.shareDrop q (n + 1)) (q₂ := Transfers.shareTokN q n) (f := f) (g := g))) $$ [Hd Hg]
    · isplitl [Hd]; · iexact Hd
      iexact Hg
    icases Hag with ⟨%hag, Hd, Hg⟩
    have hfg : ∀ i ∈ (Finset.univ : Finset (Idx ℓ)), g i = f i := fun i hi => ((hag i (Finset.mem_inter.mpr ⟨hi, hi⟩)).1).symm
    ihave Hg' := (Entails.of_eq (pointsTo_congr (ℓ := ℓ) (I := Finset.univ) (q := Transfers.shareTokN q n) hfg)) $$ Hg
    iapply (toks_join_any q f n)
    isplitl [Hd Hg']
    · iapply (pointsTo_share (ℓ := ℓ) (I := Finset.univ) (f := f) (q := Transfers.shareDrop q n) (q₁ := Transfers.shareDrop q (n + 1)) (q₂ := Transfers.shareTokN q n)
        (PosShare.mem_left_op_right _)).2
      isplitl [Hd]; · iexact Hd
      iexact Hg'
    iexact Hrest

/-- What the sixteen subcores hand back of the shared memory — each the remainder of its slice and its read share of the
    whole — is the memory, whole. -/
theorem sh_join (d : Dev nD) (c : Fin τ.nSC) :
    (bigSep Finset.univ fun i : Fin 16 => shTd (F := F) d c i) ⊢ (iprop(∃ f, shLoc d c ↦{fullShare} f) : sProp 𝕄) := by
  unfold shTd
  rw [bigSep_sep']
  iintro ⟨Hd, Ht⟩
  ihave Hd' := (bigSep_exists_pi Finset.univ (fun (i : Fin 16) (f : Buf (Elt F) (shLoc d c)) => (shLoc d c ↦[tSet i]{Transfers.shareDrop fullShare 16} f : sProp 𝕄))) $$ Hd
  icases Hd' with ⟨%fs, Hd⟩
  ihave Hj := (pointsTo_biUnion_join (ℓ := shLoc d c) (q := Transfers.shareDrop fullShare 16) Finset.univ tSet fs (fs 0) tSets_disjoint) $$ Hd
  icases Hj with ⟨%g, -, Hg⟩
  rw [tSets_cover]
  iexists g
  iapply (toks_join_any (ℓ := shLoc d c) fullShare g 16)
  isplitl [Hg]; · iexact Hg
  rw [show (bigSep (Finset.range 16) fun i => iprop(∃ g', (shLoc d c ↦{Transfers.shareTokN fullShare i} g' : sProp 𝕄)))
      = bigSep Finset.univ fun i : Fin 16 => iprop(∃ g', (shLoc d c ↦{Transfers.shareTok fullShare 16 i} g' : sProp 𝕄)) by
    rw [← Nat.Iio_eq_range, ← Fin.map_valEmbedding_univ, BI.bigSep_map]; rfl]
  iexact Ht

theorem vecSplit : (K (F := F)).VecSplit (P xtF tF nG oF) 0 := by
  intro d c
  show iprop((bigSep Finset.univ fun i : Fin 16 => goRes xtF tF nG d (Fin.cast nCore_zero c) i) ∗ ownBufs (S d (coreOf c))) ⊢ |={Set.univ}=> iprop(
      (bigSep Finset.univ fun i : Fin ((K (F := F)).nSub 0) => iprop(goRes xtF tF nG d (Fin.cast nCore_zero c) (Fin.cast nSub_zero i) ∗ shGo d (coreOf c) (Fin.cast nSub_zero i)))
      ∗ ((bigSep Finset.univ fun i : Fin ((K (F := F)).nSub 0) => iprop(tdRes tF nG oF d (Fin.cast nCore_zero c) (Fin.cast nSub_zero i) ∗ shTd d (coreOf c) (Fin.cast nSub_zero i)))
          -∗ iprop((bigSep Finset.univ fun i : Fin 16 => tdRes tF nG oF d (Fin.cast nCore_zero c) i) ∗ ownBufs (S d (coreOf c)))))
  rw [bigSep_tasks (F := F) (fun i => iprop(goRes xtF tF nG d (Fin.cast nCore_zero c) i ∗ shGo d (coreOf c) i)),
    bigSep_tasks (F := F) (fun i => iprop(tdRes tF nG oF d (Fin.cast nCore_zero c) i ∗ shTd d (coreOf c) i)),
    bigSep_sep', bigSep_sep', ownBufs_S]
  iintro ⟨Hgo, ⟨%fsh, Hsh⟩, Hrest⟩; imodintro
  isplitl [Hgo Hsh]
  · isplitl [Hgo]; · iexact Hgo
    unfold shGo
    ihave Hsh' := ((Entails.of_eq (shPts_rows d (coreOf c) fullShare fsh)).trans (SparseCore.ent (bigSep_mono (Φ := fun i => (shLoc d (coreOf c) ↦[tSet i]{fullShare} fsh : sProp 𝕄))
      (Ψ := fun i => iprop(∃ f, shLoc d (coreOf c) ↦[tSet i]{fullShare} f))
      fun i _ => BI.BIClass.exists_intro (Φ := fun f => (shLoc d (coreOf c) ↦[tSet i]{fullShare} f : sProp 𝕄)) fsh))) $$ Hsh
    iexact Hsh'
  iintro ⟨Htd, Hsh⟩
  isplitl [Htd]; · iexact Htd
  isplitl [Hsh]; · iapply (sh_join d (coreOf c)); iexact Hsh
  iexact Hrest

end Cert.Proof.KI

end
-- ==== Proof.Elem.lean ====
/-
  The launch element of the certificate's ghost state.  It has three parts beside the transfers' counters: the handshakes'
  rounds (the launch theorem's own), the barrier cells' rounds — one cell per vector subcore, one round, a unit duty per
  subcore of the SparseCore, all allocated at the launch so that a subcore may arrive at a sibling whose task has not begun —,
  and the TensorCore pipeline's staging cells' rounds, funded here and kept by the TensorCore until its kernel region.
-/
import proofs.«203335_g10582799417878_cont_week2_139_36_alg».proof.Proof.Setup
import proofs.«203335_g10582799417878_cont_week2_139_36_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid1.bound 1) => (bcell x.1.1 x.1.2.1 (x.2.castLE hsub1), 0, x.1.2.2.val)

abbrev pCells : Finset (GSem nD τ sig) := Pipeline.cells (nD := nD) (τ := τ) cfgs cellOf_inj
abbrev pToks : Finset (GSem nD τ sig × ℕ × Unit) := Pipeline.launchToks (nD := nD) (τ := τ) cfgs cellOf_inj

def u₀ : UU := (initOf (K (F := F)).hsCells (K (F := F)).hsToks, (initOf bCells bToks, (initOf pCells pToks, 1)))

/-- What the launch leaves the TensorCore for its kernel region: the staging cells' launch state and duty tokens. -/
def G (d : Dev nD) : sProp 𝕄 := iprop(Pipeline.cellsGhost cfgs EP 0 d ∗ Pipeline.toksInit cfgs EP 0 d)

omit [FloatOps F] [Named F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] [Named F] in
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ BI.own ((uEmb (nD := nD) (sig := sig) (Ix := HIx 1) (Val := Elt F) (Name := ℕ) (U := UU) (Lvl := ℕ)).toEmb ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((p, 1) : UP × Counters)))))
  have h2 : (BI.own ((uEmb (nD := nD) (sig := sig) (Ix := HIx 1) (Val := Elt F) (Name := ℕ) (U := UU) (Lvl := ℕ)).toEmb ((1, (b, (p, 1))) : UU)) : sProp 𝕄)
      ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((p, 1) : UP × Counters)))))
  iintro H
  ihave H' := h1 $$ H
  icases H' with ⟨HH, HR⟩
  isplitl [HH]; · iexact HH
  iapply h2; iexact HR

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd tF nG) g 0)
    ⊢ |={Set.univ}=> iprop(∃ κ : GSem nD τ sig → ℕ, bigSep bCells fun g => cellInv EB (bRd tF nG) (κ g) g) := by
  refine (Rounds.bodies_intro EB (bRd tF nG) bCells).trans ((inv_alloc_family bCells (Rounds.body EB (bRd tF nG)) ∅ (E := Set.univ)).trans ?_)
  iintro H
  imod H with ⟨%κ, -, Hinv⟩
  imodintro; iexists κ; iexact Hinv

omit [FloatOps F] [Named F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the subcores' own debts, regrouped: each subcore the sixteen units of its own cell. -/
theorem creds_b : ((P xtF tF nG oF).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P xtF tF nG oF).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P xtF tF nG oF).oxFrom 0 (V d c i) = oxV d c := fun i => by
    rw [show (0 : ℕ) = (0 : Fin 1).val from rfl, (P xtF tF nG oF).oxFrom_step, (P xtF tF nG oF).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] [Named F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] [Named F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P xtF tF nG oF).x q (SparseCore.T d)) = iprop(emp) :=
  bigSep_univ_of_subsingleton (0 : Fin 1)
theorem Px_S (d : Dev nD) (c : Fin τ.nSC) : (bigSep Finset.univ fun q : Fin 1 => (P xtF tF nG oF).x q (S d c)) = iprop(emp) :=
  bigSep_univ_of_subsingleton (0 : Fin 1)
theorem Px_V (d : Dev nD) (c : Fin τ.nSC) (i : Fin τ.nSub) :
    (bigSep Finset.univ fun q : Fin 1 => (P xtF tF nG oF).x q (V d c i)) = bkit tF nG d c i :=
  bigSep_univ_of_subsingleton (0 : Fin 1)

omit [FloatOps F] [Named F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd tF nG) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One subcore's kit out of those. -/
theorem kit_intro (dci : DCI) : iprop(shared tF nG ∗ mine (F := F) dci) ⊢ (bkit tF nG dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd tF nG) (κ (bcell₃ x)) (bcell₃ x)) fun j _ =>
        sep_elim_left.trans (bigSep_elim (Φ := fun x : DCI => (cellInv EB (bRd tF nG) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄))
          (i := (d, c, Fin.castLE hsub1 j)) (Finset.mem_univ _))))
    isplitl; · iexact Hr
    rw [bigSep_emp']; iempintro
  isplitl [Hat]; · iexact Hat
  iexact Hcred

/-- Each subcore its kit. -/
theorem kits_deal :
    iprop(shared tF nG ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P xtF tF nG oF).x q thr : sProp 𝕄) := by
  rw [SparseCore.Cfg.bigSep_threads (fun thr : Thread nD τ => bigSep Finset.univ fun q : Fin 1 => (P xtF tF nG oF).x q thr)]
  simp only [Px_T, Px_S, Px_V, bigSep_emp']
  iintro ⟨#Hsh, Hat, Htok, Hcred⟩
  isplitr; · iempintro
  isplitr; · iempintro
  iapply (bigSep_mono_frame (R := shared tF nG) (Φ := mine (F := F)) fun dci _ => kit_intro tF nG dci)
  isplitr; · iexact Hsh
  unfold mine
  rw [bigSep_sep', bigSep_sep']
  isplitl [Hat]; · iexact Hat
  isplitl [Htok]; · iexact Htok
  iexact Hcred

omit [FloatOps F] [Named F] in
theorem G_eq : (bigSep Finset.univ fun d : Dev nD => G (F := F) d)
    = iprop((bigSep Finset.univ fun c : Dev nD => bigSep Finset.univ fun p : Fin 1 => Pipeline.cellsGhost cfgs EP p c)
        ∗ (bigSep Finset.univ fun c : Dev nD => bigSep Finset.univ fun p : Fin 1 => (Pipeline.toksInit cfgs EP p c : sProp 𝕄))) := by
  unfold G
  rw [bigSep_sep']
  congr 1 <;> exact bigSep_congr fun c _ => by rw [bigSep_univ_of_subsingleton (0 : Fin 1)]

theorem hu₀ : iprop(ownU (u₀ (F := F)) ∗ (P xtF tF nG oF).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P xtF tF nG oF).x q thr) : sProp 𝕄) := by
  unfold u₀
  iintro ⟨Hu, Hcred, Hfree⟩
  ihave H := (ownU_split (F := F) _ _ _) $$ Hu
  icases H with ⟨HH, HB, HP⟩
  imod (Rounds.fund EB (bRd tF nG) bCells bToks) $$ HB with ⟨Hst, #Hr, Hat, Htok⟩
  imod (Pipeline.fund_ghost (nD := nD) (τ := τ) cfgs EP cellOf_inj) $$ HP with HG
  ihave Hsems := (sems_b (F := F)) $$ Hfree
  imod (invs_b tF nG) $$ [Hsems Hst] with ⟨%κ, #Hinv⟩
  · isplitl [Hsems] <;> iassumption
  ihave Hcred' := (creds_b xtF tF nG oF) $$ Hcred
  ihave Hinv' := (Entails.of_eq (bCells_eq (F := F) fun g => cellInv EB (bRd tF nG) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · rw [G_eq]; iexact HG
  iapply (kits_deal xtF tF nG oF)
  isplitr
  · isplitl; · iexists κ; iexact Hinv'
    iexact Hr'
  isplitl [Hat']; · iexact Hat'
  isplitl [Htok']; · iexact Htok'
  iexact Hcred'

end Cert.Proof.KI

end
-- ==== Proof.RegionBody.lean ====
import proofs.«203335_g10582799417878_cont_week2_139_36_alg».proof.Proof.Gen.KernelIdeal.Launch
import proofs.«203335_g10582799417878_cont_week2_139_36_alg».proof.Proof.Gen.KernelIdeal.Skeleton
import proofs.«203335_g10582799417878_cont_week2_139_36_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-! ## The body of the row-dot kernel on its six staging buffers

At one grid point the body reads four staging buffers whole — a 64 × 31360 block of the transposed table, the
1 × 64 weight row, the one-word bias, a 200 × 128 block of the transposed tokens — and overwrites the other two
whole: the 1 × 1 × 31360 result block with the weight row times the table block, plus the bias, times the named
constant; the 1 × 200 × 128 result block with the token block as it is. Every access is through the rectangle at
offset zero of the buffer's own sizes, so a load reads the contents and a store leaves its payload. -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The whole-buffer rectangles of the body's accesses. -/
abbrev r0 : Rect S64x31360 := Rect.unit (s := S64x31360) ![0, 0] S64x31360.size inb_S64x31360_S64x31360_0_0
abbrev r1 : Rect S1x64 := Rect.unit (s := S1x64) ![0, 0] S1x64.size inb_S1x64_S1x64_0_0
abbrev r2 : Rect S1 := Rect.unit (s := S1) ![0] S1.size inb_S1_S1_0
abbrev r3 : Rect S200x128 := Rect.unit (s := S200x128) ![0, 0] S200x128.size inb_S200x128_S200x128_0_0
abbrev r4 : Rect S1x1x31360 := Rect.unit (s := S1x1x31360) ![0, 0, 0] S1x1x31360.size inb_S1x1x31360_S1x1x31360_0_0_0
abbrev r5 : Rect S1x200x128 := Rect.unit (s := S1x200x128) ![0, 0, 0] S1x200x128.size inb_S1x200x128_S1x200x128_0_0_0

/-- The one index of the bias. -/
abbrev i0 : S1.Idx := Shape.Idx.first numel1_S1.symm.le

/-- What the body leaves in the first result's staging buffer, from the contents of the table block, the weight
    row and the bias word; -/
abbrev out4 (x0 : Vec F S64x31360 .f32) (x1 : Vec F S1x64 .f32) (x2 : Vec F S1 .f32) : Vec F S1x1x31360 .f32 :=
  k0_pay1 x0 x1 (x2 i0)
/-- and in the second's, from the token block. -/
abbrev out5 (x3 : Vec F S200x128 .i32) : Vec F S1x200x128 .i32 := k0_pay2 (F := F) x3

set_option maxHeartbeats 1000000 in
/-- The body on whole staging memrefs, the four it reads at contents `x0 … x3`, the two it writes at anything: it
    runs to the continuation holding the four as they were and the two at `out4`, `out5` of them. -/
theorem sound_kernel (c : Dev nD) (E : Set Name) (i : grid0.Coords)
    (arg1 : Memref sig .tc .vmem S64x31360 .f32) (harg1 : arg1.IsWhole) (arg2 : Memref sig .tc .vmem S1x64 .f32) (harg2 : arg2.IsWhole)
    (arg3 : Memref sig .tc .smem S1 .f32) (harg3 : arg3.IsWhole) (arg4 : Memref sig .tc .vmem S200x128 .i32) (harg4 : arg4.IsWhole)
    (arg5 : Memref sig .tc .vmem S1x1x31360 .f32) (harg5 : arg5.IsWhole) (arg6 : Memref sig .tc .vmem S1x200x128 .i32) (harg6 : arg6.IsWhole)
    (x0 : Vec F S64x31360 .f32) (x1 : Vec F S1x64 .f32) (x2 : Vec F S1 .f32) (x3 : Vec F S200x128 .i32)
    (y4 : Vec F S1x1x31360 .f32) (y5 : Vec F S1x200x128 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2)
            ∗ owns (c : Thread nD τ) arg6 fullShare (out5 x3)) -∗ K ⟨⟩))
      ⊢ wp frame (wpE (defs₀ (F := F)) Variants.none c none) E (cc0__rowdot_body i arg1 harg1 arg2 harg2 arg3 harg3 arg4 harg4 arg5 harg5 arg6 harg6) K := by
  simp only [cc0__rowdot_body_eq_skeleton]; unfold cc0__rowdot_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz3 inb_S1x1x31360_S1x1x31360_0_0_0 y⟩), View.canon_unit_zero hz3]
    show k0_pay1 (View.ld (arg1.view.read (Elt F) f0) r0) (View.ld (arg2.view.read (Elt F) f1) r1) _ = _
    rw [View.ld_unit_zero hz2, View.ld_unit_zero hz2]
    unfold sound_kernel.sl.r
    show k0_pay1 _ _ (View.ld (arg3.view.read (Elt F) f2) r2 _) = _
    rw [View.ld_unit_zero hz1]
  iexists _; isplitr
  swap; · iexact H5
  ipureintro
  rw [View.read_writes_eq_canon _ _ _ (fun y => ⟨_, List.mem_singleton_self _, View.mem_set_unit_zero hz3 inb_S1x200x128_S1x200x128_0_0_0 y⟩), View.canon_unit_zero hz3]
  show k0_pay2 (View.ld (arg4.view.read (Elt F) f3) r3) = _
  rw [View.ld_unit_zero hz2]

end Cert.KernelIdeal.Region

end
-- ==== Proof.RegionData.lean ====
import proofs.«203335_g10582799417878_cont_week2_139_36_alg».proof.Proof.RegionBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-! ## The pipeline's proof data, as relations

The grid has 32 points. At point `t` the pipeline stages block `t` of the transposed table (64 rows, columns
`31360·t … 31360·t + 31359`), the weight row, the bias, and block `t` of the transposed tokens (200 rows, columns
`128·t … 128·t + 127`), and writes back the two result blocks of index `t`. The table has 1000000 columns and
32 · 31360 = 1003520, so the last block overhangs the array by 3520 columns: its fetch fills the first 27840 columns
of the staging buffer and leaves in the rest words that nothing names. The body multiplies the WHOLE buffer, so the
last 3520 entries of the last result block are computed from those words: no function of the arrays names them.
The data is therefore relational: what the body leaves in the first result's buffer is the payload of SOME contents
of the table's buffer that agree with the table's block on the part the fetch fills. -/

section Data

variable (c : Dev nD) (V : (b : Ref sig .tc) → Buf (Elt F) ((c : Thread nD τ).loc b))
  (O : CellTallies nD τ sig Ix) (B₀ : Set (SemLoc sig × Ix))

/-- Window `w`'s block at point `t`, read off its array as the region finds it: the part inside the array. -/
def iblk (w : Fin cfg0.W) (t : Fin cfg0.N) : ((cfg0.win w).xblock (cfg0.grid.coords t)).Idx → Elt F (cfg0.win w).elt :=
  ((cfg0.win w).blk t).view.read (Elt F) (V (Pipeline.arrRef spec0 w))

/-- The table's staging buffer after the fetch at point `t`, if it held `d`: the block where the fetch fills it
    (everywhere but at the last point's overhang), `d` elsewhere. -/
def tab (t : Fin cfg0.N) (d : S64x31360.Idx → Elt F .f32) : Vec F S64x31360 .f32 :=
  win0_0.fill (grid0.coords t) d (iblk c V 0 t)

/-- The proof data of the pipeline on core `c`: the arrays as the region finds them (`V`); the body leaves each
    input's buffer as it found it, the second result's at the token block, the first result's at the payload of the
    table's buffer as SOME fetch left it; no invariant; the core owes `O` throughout, its recorded waits within `B₀`. -/
def rdats : RDat τ (Elt F) Ix Name U Lvl cfg0 c where
  A w := V (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => ∃ d, X = out4 (tab c V t d) (iblk c V 1 t) (iblk c V 2 t)
    | ⟨5, _⟩ => fun _ X => X = out5 (F := F) (iblk c V 3 t)
  Φ _ := iprop(emp)
  q _ := fullShare
  owed _ := O
  recorded _ := B₀

theorem A_eq (w : Fin cfg0.W) : (rdats (Name := Name) (U := U) (Lvl := Lvl) c V O B₀).A w = V (Pipeline.arrRef spec0 w) := by
  dsimp only [rdats]

/-- The relations, window by window. -/
theorem after0 (t : Fin cfg0.N) (Y X) : (rdats (Name := Name) (U := U) (Lvl := Lvl) c V O B₀).after 0 t Y X ↔ X = Y := by dsimp only [rdats]; exact Iff.rfl
theorem after1 (t : Fin cfg0.N) (Y X) : (rdats (Name := Name) (U := U) (Lvl := Lvl) c V O B₀).after 1 t Y X ↔ X = Y := by dsimp only [rdats]; exact Iff.rfl
theorem after2 (t : Fin cfg0.N) (Y X) : (rdats (Name := Name) (U := U) (Lvl := Lvl) c V O B₀).after 2 t Y X ↔ X = Y := by dsimp only [rdats]; exact Iff.rfl
theorem after3 (t : Fin cfg0.N) (Y X) : (rdats (Name := Name) (U := U) (Lvl := Lvl) c V O B₀).after 3 t Y X ↔ X = Y := by dsimp only [rdats]; exact Iff.rfl
theorem after4 (t : Fin cfg0.N) (Y X) : (rdats (Name := Name) (U := U) (Lvl := Lvl) c V O B₀).after 4 t Y X
    ↔ ∃ d, X = out4 (tab c V t d) (iblk c V 1 t) (iblk c V 2 t) := by dsimp only [rdats]; exact Iff.rfl
theorem after5 (t : Fin cfg0.N) (Y X) : (rdats (Name := Name) (U := U) (Lvl := Lvl) c V O B₀).after 5 t Y X
    ↔ X = out5 (F := F) (iblk c V 3 t) := by dsimp only [rdats]; exact Iff.rfl

/-! ## What the body finds in the input windows' buffers -/

/-- The table's window is fetched at every point: its buffer holds the block where the fetch fills it. -/
theorem finds0 (t : Fin cfg0.N) (Y) (h : (rdats (Name := Name) (U := U) (Lvl := Lvl) c V O B₀).Finds 0 t Y) : ∃ d, Y = tab c V t d := by
  obtain ⟨d, hd⟩ := ((rdats (Name := Name) (U := U) (Lvl := Lvl) c V O B₀).finds_of_fetch (fetch0_0 t) Y).mp h
  exact ⟨d, hd⟩

/-- The weight row, the bias and the token block: fetched or not, the buffer holds the window's block (these
    windows' blocks tile their arrays, so a fetch fills the whole buffer, and the body leaves it as found). -/
theorem finds1 (t : Fin cfg0.N) (Y) (h : (rdats (Name := Name) (U := U) (Lvl := Lvl) c V O B₀).Finds 1 t Y) : Y = iblk c V 1 t := by
  obtain ⟨d, hd⟩ := (rdats (Name := Name) (U := U) (Lvl := Lvl) c V O B₀).finds_in_eq_fetched 1 rfl (fun _ _ _ => rfl)
    (fun t Y X h => (after1 c V O B₀ t Y X).mp h) t Y h
  rw [hd]; rfl
theorem finds2 (t : Fin cfg0.N) (Y) (h : (rdats (Name := Name) (U := U) (Lvl := Lvl) c V O B₀).Finds 2 t Y) : Y = iblk c V 2 t := by
  obtain ⟨d, hd⟩ := (rdats (Name := Name) (U := U) (Lvl := Lvl) c V O B₀).finds_in_eq_fetched 2 rfl (fun _ _ _ => rfl)
    (fun t Y X h => (after2 c V O B₀ t Y X).mp h) t Y h
  rw [hd]; rfl
theorem finds3 (t : Fin cfg0.N) (Y) (h : (rdats (Name := Name) (U := U) (Lvl := Lvl) c V O B₀).Finds 3 t Y) : Y = iblk c V 3 t := by
  obtain ⟨d, hd⟩ := (rdats (Name := Name) (U := U) (Lvl := Lvl) c V O B₀).finds_in_eq_fetched 3 rfl (fun _ _ _ => rfl)
    (fun t Y X h => (after3 c V O B₀ t Y X).mp h) t Y h
  rw [hd]; rfl

/-! ## The body obligation -/

/-- At every point, on whatever the buffers may then hold: the body runs (`sound_kernel`) and leaves each buffer in
    its relation to what it was handed; the invariant is empty and the core's `owes` passes through untouched. -/
theorem hbody (ι : Ix) : (rdats (Name := Name) (U := U) (Lvl := Lvl) c V O B₀).BodyObligation (defs₀ (F := F)) Variants.none ι Set.univ := fun t Y hY => by
  rw [bigSep_W0, bigSep_W0]
  obtain ⟨d, h0⟩ := finds0 c V O B₀ t (Y 0) (hY 0)
  have h1 := finds1 c V O B₀ t (Y 1) (hY 1)
  have h2 := finds2 c V O B₀ t (Y 2) (hY 2)
  have h3 := finds3 c V O B₀ t (Y 3) (hY 3)
  show _ ⊢ wp frame (wpE (defs₀ (F := F)) Variants.none c none) Set.univ (bodyAt0 t) _
  unfold bodyAt0
  rw [show (rdats (Name := Name) (U := U) (Lvl := Lvl) c V O B₀).Φ t.succ = (rdats (Name := Name) (U := U) (Lvl := Lvl) c V O B₀).Φ t.castSucc from rfl,
    show (rdats (Name := Name) (U := U) (Lvl := Lvl) c V O B₀).owesAt ι t.succ = (rdats (Name := Name) (U := U) (Lvl := Lvl) c V O B₀).owesAt ι t.castSucc from rfl]
  iintro ⟨HΦ, Ho, H0, H1, H2, H3, H4, H5⟩
  iapply (sound_kernel c Set.univ (grid0.coords t) _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists (Y 0); isplitr; · ipureintro; exact (after0 c V O B₀ t _ _).mpr rfl
    iexact H0
  isplitl [H1]
  · iexists (Y 1); isplitr; · ipureintro; exact (after1 c V O B₀ t _ _).mpr rfl
    iexact H1
  isplitl [H2]
  · iexists (Y 2); isplitr; · ipureintro; exact (after2 c V O B₀ t _ _).mpr rfl
    iexact H2
  isplitl [H3]
  · iexists (Y 3); isplitr; · ipureintro; exact (after3 c V O B₀ t _ _).mpr rfl
    iexact H3
  isplitl [H4]
  · iexists _; isplitr
    swap; · iexact H4
    ipureintro; exact (after4 c V O B₀ t _ _).mpr ⟨d, by rw [h0, h1, h2]⟩
  iexists _; isplitr
  swap; · iexact H5
  ipureintro; exact (after5 c V O B₀ t _ _).mpr (by rw [h3])

end Data

end Cert.KernelIdeal.Region

end
-- ==== Proof.RegionFacts.lean ====
import proofs.«203335_g10582799417878_cont_week2_139_36_alg».proof.Proof.Gen.KernelIdeal.Launch

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-! ## The region's layout facts

What a launch asks of the pipeline's windows apart from the body: the six arrays are unscoped buffers, the ten
staging buffers scoped and pairwise distinct, their semaphores scoped; no block is empty; every staging memref is a
whole buffer; and the kernel names no semaphore of its own. -/

/-- The windows as the launch lays them out. -/
theorem win : Pipeline.WinFacts₀ spec0 := winFacts0.to₀
theorem block_pos : ∀ w : Fin 6, 0 < (spec0 w).block.numel := block_pos0
theorem stage_whole : ∀ (w : Fin 6) (s : Fin (spec0 w).nbuf), ((spec0 w).stage s).IsWhole := stage_whole0

/-- The kernel's own semaphores: none. -/
abbrev K : Type := PEmpty
abbrev osem : K → SemLoc sig := fun k => k.elim
theorem ho : Pipeline.OwnSemFacts spec0 osem := Pipeline.OwnSemFacts.none _

/-- The same at the pipeline's configuration with prefetched tables (it has none): its specs are the windows'. -/
example : (pcfgs (F := F) 0).spec = spec0 := rfl
example (a : (pcfgs (F := F) 0).Adm) : (pcfgs (F := F) 0).at a = cfg0 := rfl

end Cert.KernelIdeal.Region

end
-- ==== Proof.RegionSeg.lean ====
import proofs.«203335_g10582799417878_cont_week2_139_36_alg».proof.Proof.RegionData
import proofs.«203335_g10582799417878_cont_week2_139_36_alg».proof.Proof.RegionFacts

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-! ## The region as a segment

The plainest protocol: the region is entered holding the six arrays at the contents the proof data starts from and
the core's `owes`, and is left holding the arrays at some contents they may have after every write-back and the same
`owes`; nothing enters the pipeline's invariant and nothing bypasses it. The pipeline has no prefetched table, no
semaphore of the kernel's own, and no scoped buffer beside the staging buffers, so the four entailments only regroup. -/

section Seg

variable (V : (c : Dev nD) → (b : Ref sig .tc) → Buf (Elt F) ((c : Thread nD τ).loc b))
  (O : CellTallies nD τ sig Ix) (B₀ : Set (SemLoc sig × Ix)) (ι : Ix)
  (L : GSem nD τ sig → Finset Ix) (lv : GSem nD τ sig → Ix → Lvl)

/-- The pipeline's proof data, one per pipeline (there is one) and core. -/
abbrev rds : (p : Fin 1) → (c : Dev nD) → RDat τ (Elt F) Ix Name U Lvl (Pipeline.pin (pcfgs (F := F)) (fun p => (cfgs p).toPCfg_adm) p) c :=
  fun _ c => rdats c (V c) O B₀

set_option backward.isDefEq.respectTransparency.types false in
/-- The region: entered holding the six arrays at their entry contents and the core's `owes`, left holding the arrays
    at some contents they may have after the 32 write-backs and the same `owes`. -/
def seg (hwaits : ∀ c, (levAts L lv : sProp 𝕄) ⊢ Pipeline.RDat.cellsWaits (Pipeline.pin (pcfgs (F := F)) (fun p => (cfgs p).toPCfg_adm)) (rds (Name := Name) (U := U) (Lvl := Lvl) V O B₀) ι 0 c) :
    Pipeline.RDat.RegionSeg (pcfgs (F := F)) (fun p => (cfgs p).toPCfg_adm) (rds (Name := Name) (U := U) (Lvl := Lvl) V O B₀) ι (defs₀ (F := F)) Variants.none L lv 0 where
  win := win
  block_pos := block_pos
  stage_whole := stage_whole
  K := PEmpty
  osem k := k.elim
  ho := Pipeline.OwnSemFacts.none _
  hbody c := hbody c (V c) O B₀ ι
  hwaits := hwaits
  pre c := iprop((rdats (Name := Name) (U := U) (Lvl := Lvl) c (V c) O B₀).arrays (rdats (Name := Name) (U := U) (Lvl := Lvl) c (V c) O B₀).A
    ∗ (rdats (Name := Name) (U := U) (Lvl := Lvl) c (V c) O B₀).owesAt ι 0)
  post c := iprop((rdats (Name := Name) (U := U) (Lvl := Lvl) c (V c) O B₀).arraysAt cfg0.N
    ∗ (rdats (Name := Name) (U := U) (Lvl := Lvl) c (V c) O B₀).owesAt ι (Fin.last cfg0.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show _ ⊢ (BI.emp : sProp 𝕄)
    iintro -
    iempintro
  hout c := by
    rw [Pipeline.ownSems0_none]
    show _ ⊢ iprop(emp ∗ emp ∗ Pipeline.scopedRest spec0 c)
    rw [scopedRest0_eq]
    iintro -
    isplitr; · iempintro
    isplitr <;> iempintro
  hexit c := by
    iintro ⟨Ha, HO, -, -⟩
    imodintro
    isplitl [Ha]; · iexact Ha
    iexact HO

end Seg

end Cert.KernelIdeal.Region

end
-- ==== Proof.Pieces.lean ====
/-
  The SparseCore call's arrays cut into the pieces the subcores work on: the tokens and the result into 32 pieces, piece
  `2·s + c` for subcore `s` of SparseCore `c`; the scores into 16 slices.  The pieces tile their arrays.
-/
import proofs.«203335_g10582799417878_cont_week2_139_36_alg».proof.Proof.Setup
import proofs.«203335_g10582799417878_cont_week2_139_36_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- Subcore `s` of SparseCore `c` works on piece `2·s + c`: the pairs (c, s) are the 32 pieces. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    apply Prod.ext <;> apply Fin.ext <;> simp only [wid] <;> omega
  right_inv w := by
    apply Fin.ext; simp only [wid]; omega

omit [FloatOps F] [Named F] in
theorem bigSep_pieces (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

omit [FloatOps F] [Named F] in
theorem xSets_disjoint : ∀ i ∈ (Finset.univ : Finset (Fin 32)), ∀ j ∈ (Finset.univ : Finset (Fin 32)), i ≠ j → Disjoint (xSet i) (xSet j) :=
  fun i _ j _ h => Rect.part_disjoint hdivX h
omit [FloatOps F] [Named F] in
theorem xSets_cover : (Finset.univ : Finset (Fin 32)).biUnion xSet = Finset.univ := Rect.biUnion_part hdivX
omit [FloatOps F] [Named F] in
theorem oSets_disjoint : ∀ i ∈ (Finset.univ : Finset (Fin 32)), ∀ j ∈ (Finset.univ : Finset (Fin 32)), i ≠ j → Disjoint (oSet i) (oSet j) :=
  fun i _ j _ h => Rect.part_disjoint hdivO h
omit [FloatOps F] [Named F] in
theorem oSets_cover : (Finset.univ : Finset (Fin 32)).biUnion oSet = Finset.univ := Rect.biUnion_part hdivO

omit [FloatOps F] [Named F] in
/-- The token array held whole is its 32 pieces. -/
theorem xt_pieces (d : Dev nD) (q : PosShare TreeShare) (f : Buf (Elt F) (xtLoc d)) :
    (xtLoc d ↦{q} f : sProp 𝕄) = bigSep Finset.univ fun c : Fin 2 => bigSep Finset.univ fun i : Fin 16 => xtLoc d ↦[xSet (wid c i)]{q} f := by
  rw [← bigSep_pieces (fun w => (xtLoc d ↦[xSet w]{q} f : sProp 𝕄)), ← pointsTo_biUnion Finset.univ (ℓ := xtLoc d) xSet xSets_disjoint, xSets_cover]; try rfl
omit [FloatOps F] [Named F] in
/-- The result array held whole is its 32 pieces. -/
theorem o_pieces (d : Dev nD) (q : PosShare TreeShare) (f : Buf (Elt F) (oLoc d)) :
    (oLoc d ↦{q} f : sProp 𝕄) = bigSep Finset.univ fun c : Fin 2 => bigSep Finset.univ fun i : Fin 16 => oLoc d ↦[oSet (wid c i)]{q} f := by
  rw [← bigSep_pieces (fun w => (oLoc d ↦[oSet w]{q} f : sProp 𝕄)), ← pointsTo_biUnion Finset.univ (ℓ := oLoc d) oSet oSets_disjoint, oSets_cover]; try rfl
omit [FloatOps F] [Named F] in
/-- The score array held whole, at any share, is its 16 slices. -/
theorem t_slices (d : Dev nD) (q : PosShare TreeShare) (f : Buf (Elt F) (tLoc d)) :
    (tLoc d ↦{q} f : sProp 𝕄) = bigSep Finset.univ fun i : Fin 16 => tLoc d ↦[tSet i]{q} f := by
  rw [← pointsTo_biUnion Finset.univ (ℓ := tLoc d) tSet tSets_disjoint, tSets_cover]; try rfl

end Cert.Proof.KI

end
-- ==== Proof.Vals.lean ====
/-
  @main on the TensorCore, first half: the valuations of its twelve arrays as the operations succeed one another — the two
  transposes, the kernel region (which leaves the score blocks and the re-laid token blocks), the two flattenings —, and the
  passage between holding the arrays as a set under one valuation and holding the kernel region's six arrays as its windows.
-/
import proofs.«203335_g10582799417878_cont_week2_139_36_alg».proof.Proof.Setup
import proofs.«203335_g10582799417878_cont_week2_139_36_alg».proof.Proof.Elem
import proofs.«203335_g10582799417878_cont_week2_139_36_alg».proof.Proof.RegionSeg
import proofs.«203335_g10582799417878_cont_week2_139_36_alg».proof.Proof.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo (held held_split held_sdiff_result wp_hlo_within held_congr held_sub_split)

variable (m : (ℓ : Loc nD τ sig) → Buf (Elt F) ℓ)

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v20' : DevRef τ sig := Proc.devRef .tc (main_v2_0 : Ref sig .tc)
abbrev v21' : DevRef τ sig := Proc.devRef .tc (main_v2_1 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- All twelve. -/
abbrev SAll : Finset (DevRef τ sig) := {a0', a1', a2', a3', v0', v1', v20', v21', v3', v4', v5', v6'}
/-- The kernel region's six arrays (its windows', in window order: the transposed table, W, b, the transposed tokens, the
    score blocks, the re-laid token blocks). -/
abbrev SWin : Finset (DevRef τ sig) := {v0', a2', a3', v1', v20', v21'}
/-- The SparseCore call's three arrays. -/
abbrev SCall : Finset (DevRef τ sig) := {v3', v4', v5'}

omit [FloatOps F] [Named F] in
theorem unscoped_held (d : Dev nD) (Vv : Valuation τ sig (Elt F)) :
    (unscopedBufs d (fun b => Vv (Proc.devRef .tc b)) : sProp 𝕄) = held (SparseCore.T d) SAll Vv := by
  unfold unscopedBufs held
  rw [show (Finset.univ.filter fun b : Ref sig .tc => ¬ b.isScoped)
      = {main_arg0, main_arg1, main_arg2, main_arg3, main_v0, main_v1, main_v2_0, main_v2_1, main_v3, main_v4, main_v5, main_v6} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

open Idealize.ShloMosaic.TcCoe

variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

/-- The launch valuation. -/
def Vd0 (d : Dev nD) : Valuation τ sig (Elt F) := fun b => m (d, b)
abbrev opT1 : HloOp τ sig (Elt F) := StableHlo.unary main_arg1 main_v0 (fun x => transpose S64x1000000 [1, 0] x transposes_S1000000x64_S64x1000000_1_0)
abbrev opT2 : HloOp τ sig (Elt F) := StableHlo.unary main_arg0 main_v1 (fun x => transpose S200x4096 [1, 0] x transposes_S4096x200_S200x4096_1_0)
abbrev opR3 : HloOp τ sig (Elt F) := StableHlo.reshape main_v2_0 main_v3 rfl shapeCasts_S32x1x31360_S1003520
abbrev opR4 : HloOp τ sig (Elt F) := StableHlo.reshape main_v2_1 main_v4 rfl shapeCasts_S32x200x128_S819200
abbrev opR5 : HloOp τ sig (Elt F) := StableHlo.reshape main_v5 main_v6 rfl shapeCasts_S4096_S4096x1
/-- After the two transposes. -/
def Vd2 (d : Dev nD) : Valuation τ sig (Elt F) := (opT2 (F := F)).result ((opT1 (F := F)).result (Vd0 m d))
/-- The same, as the kernel region's proof data reads it. -/
def VR2 (c : Dev nD) : (b : Ref sig .tc) → Buf (Elt F) ((c : Thread nD τ).loc b) := fun b => Vd2 m c (Proc.devRef .tc b)

omit [Named F] in
theorem hT1 : (opT1 (F := F)).bufs ⊆ SAll := show ({a1', v0'} : Finset (DevRef τ sig)) ⊆ SAll by decide
omit [Named F] in
theorem hT2 : (opT2 (F := F)).bufs ⊆ SAll := show ({a0', v1'} : Finset (DevRef τ sig)) ⊆ SAll by decide
omit [Named F] in
theorem hR3 : (opR3 (F := F)).bufs ⊆ SAll := show ({v20', v3'} : Finset (DevRef τ sig)) ⊆ SAll by decide
omit [Named F] in
theorem hR4 : (opR4 (F := F)).bufs ⊆ SAll := show ({v21', v4'} : Finset (DevRef τ sig)) ⊆ SAll by decide
omit [Named F] in
theorem hR5 : (opR5 (F := F)).bufs ⊆ SAll := show ({v5', v6'} : Finset (DevRef τ sig)) ⊆ SAll by decide

/-- Before any call the TensorCore owes nothing at the kernels' own index. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply, if_neg (fun e => nomatch e.2)]
  · rfl

/-- The recorded waits the TensorCore may have before its first call: those at level 0. -/
abbrev B₀ (d : Dev nD) : Set (SemLoc sig × HIx 1) := {p | (K (F := F)).lev (SparseCore.T d, p.1) p.2 ≤ 0}

theorem hwaits (d : Dev nD) (c : Dev nD) : (levAts (K (F := F)).L (K (F := F)).lev : sProp 𝕄)
    ⊢ Pipeline.RDat.cellsWaits (Pipeline.pin (pcfgs (F := F)) (fun p => (cfgs p).toPCfg_adm))
        (Cert.KernelIdeal.Region.rds (Name := ℕ) (U := UU) (Lvl := ℕ) (VR2 m) ((K (F := F)).Otc d 0) (B₀ (F := F) d)) none 0 c :=
  Pipeline.RDat.cellsWaits_intro _ _ none 0 c fun w s t =>
    (K (F := F)).mayWait_none (thr := (c : Thread nD τ)) _ (Otc_none d 0)

end Cert.Proof.KI

end
-- ==== Proof.Run.lean ====
/-
  The program's run, from its two halves taken as given: the subcores' task (the tile obligation) and @main on the
  TensorCore.  The launch theorem of the SparseCore library turns them into the statement that every weakly fair execution
  of all 35 threads ends, with the four argument arrays as launched and the result array at contents the TensorCore's
  proof names.
-/
import proofs.«203335_g10582799417878_cont_week2_139_36_alg».proof.Proof.Setup
import proofs.«203335_g10582799417878_cont_week2_139_36_alg».proof.Proof.Split
import proofs.«203335_g10582799417878_cont_week2_139_36_alg».proof.Proof.Elem
import proofs.«203335_g10582799417878_cont_week2_139_36_alg».proof.Proof.Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))
variable (RG : (d : Dev nD) → Buf (Elt F) ((d, v6') : Loc nD τ sig) → Prop)

/-! ## What the TensorCore holds when @main ends, and what the final memory then is -/

/-- The four argument arrays at their launch contents, and the result array at some contents the relation `RG` admits. -/
def FIN (d : Dev nD) : sProp 𝕄 :=
  iprop((((d, a0') : Loc nD τ sig) ↦{fullShare} m (d, a0')) ∗ (((d, a1') : Loc nD τ sig) ↦{fullShare} m (d, a1'))
    ∗ (((d, a2') : Loc nD τ sig) ↦{fullShare} m (d, a2')) ∗ (((d, a3') : Loc nD τ sig) ↦{fullShare} m (d, a3'))
    ∗ ∃ f, ⌜RG d f⌝ ∗ ((d, v6') : Loc nD τ sig) ↦{fullShare} f)

/-- The same of a final memory. -/
def fq (d : Dev nD) (s' : Phys nD τ sig (Elt F)) : Prop :=
  (∃ f, RG d f ∧ s'.mem.mem ((d, v6') : Loc nD τ sig) = f)
    ∧ s'.mem.mem ((d, a0') : Loc nD τ sig) = m (d, a0') ∧ s'.mem.mem ((d, a1') : Loc nD τ sig) = m (d, a1')
    ∧ s'.mem.mem ((d, a2') : Loc nD τ sig) = m (d, a2') ∧ s'.mem.mem ((d, a3') : Loc nD τ sig) = m (d, a3')

omit [FloatOps F] [Named F] in
/-- Whoever holds an array whole beside the machine's state knows the state's contents of it. -/
theorem hfin (d : Dev nD) (s' : Phys nD τ sig (Elt F)) : iprop(FIN m RG d ∗ SI s') ⊢ (⌜fq m RG d s'⌝ : sProp 𝕄) := by
  unfold FIN
  iintro ⟨⟨H0, H1, H2, H3, ⟨%f, %hf, H6⟩⟩, HSI⟩
  ihave H := (persistent_entails_right (SI_pointsTo_agree (st := s') (ℓ := ((d, a0') : Loc nD τ sig)) (I := Finset.univ) (q := fullShare) (f := m (d, a0')))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := m (d, a1')))) $$ [HSI H1]
  · isplitl [HSI] <;> iassumption
  icases H with ⟨%h1, HSI, -⟩
  ihave H := (persistent_entails_right (SI_pointsTo_agree (st := s') (ℓ := ((d, a2') : Loc nD τ sig)) (I := Finset.univ) (q := fullShare) (f := m (d, a2')))) $$ [HSI H2]
  · isplitl [HSI] <;> iassumption
  icases H with ⟨%h2, HSI, -⟩
  ihave H := (persistent_entails_right (SI_pointsTo_agree (st := s') (ℓ := ((d, a3') : Loc nD τ sig)) (I := Finset.univ) (q := fullShare) (f := m (d, a3')))) $$ [HSI H3]
  · isplitl [HSI] <;> iassumption
  icases H with ⟨%h3, HSI, -⟩
  ihave H := (SI_pointsTo_agree (st := s') (ℓ := ((d, v6') : Loc nD τ sig)) (I := Finset.univ) (q := fullShare) (f := f)) $$ [HSI H6]
  · isplitl [HSI] <;> iassumption
  icases H with %h6
  ipureintro
  exact ⟨⟨f, hf, funext fun i => h6 i (Finset.mem_univ i)⟩, funext fun i => h0 i (Finset.mem_univ i), funext fun i => h1 i (Finset.mem_univ i),
    funext fun i => h2 i (Finset.mem_univ i), funext fun i => h3 i (Finset.mem_univ i)⟩

/-! ## The run -/

/-- What every final state satisfies: on every device the result array holds contents `RG` admits and the four arguments
    hold what they held at launch. -/
def QC : PUnit × MemSt nD τ sig (Elt F) → Prop := fun r => ∀ c : Dev nD,
  (∃ f, RG c f ∧ r.2.mem ((c.tc : Thread nD τ).loc main_v6) = f)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- THE RUN: from any memory with zero counters, every weakly fair execution of the TensorCore's @main, the two
    sequencers and the 32 subcores ends, and every final state is as `QC` says — given the subcores' task and @main. -/
theorem run_main [∀ e, Nonempty (Elt F e)]
    (htile : (K (F := F)).TileObl (D (F := F)) 𝒱 (P xtF tF nG oF) v₀ 0)
    (hmainH : ∀ (κ : GSem nD τ sig → ℕ) (d : Dev nD),
      iprop((K (F := F)).ctx EH (P xtF tF nG oF) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m RG d)) :
    θ_run (Cert.KernelIdeal.defs (F := F)) (Cert.KernelIdeal.threads (F := F)) ⟨m, fun _ => 0, ρ⟩ (QC m RG) :=
  SparseCore.Cfg.θ_run_sc (K := K (F := F)) (D := D (F := F)) (𝒱 := 𝒱) (EH := EH) (P := P xtF tF nG oF) facts v₀
    (fun q hq => match q with | 0 => nomatch hq)
    (fun q _ => match q with | 0 => htile)
    (fun q _ => match q with | 0 => vecSplit xtF tF nG oF)
    m ρ main (G (F := F)) (FIN m RG) (u₀ (F := F)) (hu₀ xtF tF nG oF) hmainH (fq m RG) (hfin m RG) (QC m RG)
    (fun s' h c => h c)

end Cert.Proof.KI

end
-- ==== Proof.SetupK.lean ====
/-
  The kernel program as the SparseCore launch theorem sees it, and what its handshakes carry.

  The program: the TensorCore computes, for every vocabulary row, its SCORE (the affine form of the row, scaled by 1/200) into
  a flat array `t` of 16 · 62720 words, and re-lays the tokens into a flat array `xt` of 32 · 25600 words, piece `w` holding
  the tokens of examples 128·w … 128·w + 127, token position by token position.  Then 32 vector subcores run, subcore `s` of
  SparseCore `c` working on piece `w = 2·s + c`: it copies piece `w` of `xt` into its own memory, copies slice `s` of `t`
  (62720 words) into slice `s` of its SparseCore's SHARED memory, meets the fifteen other subcores of its SparseCore at the
  barrier — after which the shared memory holds all of `t` —, gathers the 25600 scores its tokens name (two gathers of
  12800, on two semaphores), adds them up per example (two loops of 100 trips, eight vectors of 16 examples) and writes the
  logistic function of the 128 sums to piece `w` of the result.

  The protocol.  Slice `s` of the shared memory is written by subcore `s` alone, before the barrier, and read by all sixteen
  after it: subcore `s` splits what it holds of its slice into sixteen read shares and hands share `j` to subcore `j` with
  its arrival at `j`'s barrier cell; leaving the barrier, a subcore holds share `j` of every slice, that is of the whole
  shared array, read-only, at the contents `t`.  Nothing writes the shared memory after the barrier.  Every other transfer
  is local to its subcore and waited for on a semaphore of its own before its target is read.
-/
import proofs.«203335_g10582799417878_cont_week2_139_36_alg».proof.Defs
import proofs.«203335_g10582799417878_cont_week2_139_36_alg».proof.Proof.Gen.Kernel
import proofs.«203335_g10582799417878_cont_week2_139_36_alg».proof.Proof.Gen.Kernel.Skeleton
import proofs.«203335_g10582799417878_cont_week2_139_36_alg».proof.Proof.Gen.Kernel.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells', the TensorCore pipeline's staging cells', the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline's staging cells' rounds library. -/
def EP : Emb UP (MT nD τ sig (HIx 1) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays the SparseCore call works on -/

abbrev xtLoc (d : Dev nD) : Loc nD τ sig := (SparseCore.T d).loc main_v4
abbrev tLoc (d : Dev nD) : Loc nD τ sig := (SparseCore.T d).loc main_v3
abbrev oLoc (d : Dev nD) : Loc nD τ sig := (SparseCore.T d).loc main_v5
/-- SparseCore `c`'s shared memory, as every subcore of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

theorem hdivT : 16 ∣ S1003520.size 0 := ⟨62720, rfl⟩
theorem hdivX : 32 ∣ S819200.size 0 := ⟨25600, rfl⟩
theorem hdivO : 32 ∣ S4096.size 0 := ⟨128, rfl⟩
/-- Slice `i` of the scores (62720 words), piece `w` of the tokens (25600 words), piece `w` of the result (128 words). -/
abbrev tRow (i : Fin 16) : Rect S1003520 := Rect.part (s := S1003520) (a₀ := 0) hdivT i
abbrev xRow (w : Fin 32) : Rect S819200 := Rect.part (s := S819200) (a₀ := 0) hdivX w
abbrev oRow (w : Fin 32) : Rect S4096 := Rect.part (s := S4096) (a₀ := 0) hdivO w
abbrev tSet (i : Fin 16) : Finset S1003520.Idx := (tRow i).set
abbrev xSet (w : Fin 32) : Finset S819200.Idx := (xRow w).set
abbrev oSet (w : Fin 32) : Finset S4096.Idx := (oRow w).set

/-- The piece subcore `s` of SparseCore `c` works on: `2·s + c`. -/
def wid (c : Fin 2) (s : Fin 16) : Fin 32 := ⟨2 * s.val + c.val, by omega⟩

/-! ## What the arrays hold when the SparseCore call begins and ends

`xtF d`: the re-laid tokens; `tF d`: the scores, which the score array holds at every index below `nG` (at the ideal
instance `nG` is the vocabulary's size; where nothing is claimed of the values it is 0); `oF d g`: the result the subcores
compute when the shared memory holds `g`.  The SparseCore side is stated over them as parameters. -/

section Pay

variable [FloatOps F]
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

/-- Contents of the score array that are RIGHT ON EVERY VOCABULARY ROW: they are `tF d` at every index below `nG`.  The
    indices from the vocabulary's size on are the overhang of the table's last block of columns: what the TensorCore's kernel computes
    there comes from staging contents no one names, so those words are anything — and no token names them. -/
def TGood (d : Dev nD) (f : Buf (Elt F) (tLoc d)) : Prop := ∀ j : S1003520.Idx, (j 0).val < nG → f j = tF d j
/-- The elements `I` of the score array in HBM, at some contents right on every vocabulary row, at share `q`; -/
def tPts (d : Dev nD) (I : Finset S1003520.Idx) (q : PosShare TreeShare) : sProp 𝕄 :=
  iprop(∃ f : Buf (Elt F) (tLoc d), ⌜TGood tF nG d f⌝ ∗ tLoc d ↦[I]{q} f)
/-- the same of SparseCore `c`'s shared memory. -/
def shPts (d : Dev nD) (c : Fin τ.nSC) (I : Finset S1003520.Idx) (q : PosShare TreeShare) : sProp 𝕄 :=
  iprop(∃ f : Buf (Elt F) (tLoc d), ⌜TGood tF nG d f⌝ ∗ shLoc d c ↦[I]{q} (f : Buf (Elt F) (shLoc d c)))

/-! ### The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What subcore `n`'s arrival at subcore `j`'s cell hands over: read share `j` of slice `n` of the shared memory, at the scores. -/
def bPay (g : GSem nD τ sig) (n : ℕ) : sProp 𝕄 :=
  match g with
  | ((d, .scVector c j), _) =>
    if h : n < 16 then shPts tF nG d c (tSet ⟨n, h⟩) (Transfers.shareTok fullShare 16 (Fin.cast nSub_eq j)) else iprop(emp)
  | _ => iprop(emp)

/-- The barrier cells' schedule: one round on each, of one unit duty per subcore of the SparseCore (named by its number),
    each handing over its read share of its slice. -/
def bRd : Rounds.Schedule (GSem nD τ sig) ℕ 𝕄 where
  duties g r := if isBar g ∧ r = 0 then (Finset.univ : Finset (Fin τ.nSub)).image Fin.val else ∅
  amount _ _ _ := 1
  payload g _ n := bPay tF nG g n
  amount_pos _ _ _ _ := Nat.one_pos

instance bRd_payload_storable (g : GSem nD τ sig) (r n : ℕ) : BI.Storable (upEmb : UEmb _ 𝕄) ((bRd tF nG).payload g r n) := by
  show BI.Storable upEmb (bPay tF nG g n)
  unfold bPay
  rcases g with ⟨⟨d, _ | c | ⟨c, i⟩⟩, sm⟩ <;> dsimp only <;> (repeat' split) <;> (try unfold shPts) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd tF nG).duties (bcell d c j) 0 = (Finset.univ : Finset (Fin τ.nSub)).image Fin.val := by
  simp [bRd, isBar]
theorem bRd_mem₀ (d : Dev nD) (c : Fin τ.nSC) (j i : Fin τ.nSub) : i.val ∈ (bRd tF nG).duties (bcell d c j) 0 := by
  rw [bRd_duties₀]; exact Finset.mem_image_of_mem _ (Finset.mem_univ i)
theorem bRd_expect (d : Dev nD) (c : Fin τ.nSC) (j : Fin τ.nSub) : 0 + grid1.bound 1 = (bRd tF nG).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: a unit on every subcore's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every cell invariant of its SparseCore, its duty token in every cell's round 0, that each
    cell has reached round 0, its own position at the origin of round 0, and the credit for the sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd tF nG) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ### What the handshakes carry -/

/-- What subcore `(c, i)` is handed of the HBM arrays: its piece of the tokens, slice `i` of the scores (SparseCore `c`'s
    read share: both SparseCores read every slice), its piece of the result at whatever it holds. -/
def goRes (d : Dev nD) (c : Fin 2) (i : Fin 16) : sProp 𝕄 :=
  iprop((xtLoc d ↦[xSet (wid c i)]{fullShare} xtF d) ∗ tPts tF nG d (tSet i) (Transfers.shareTok fullShare 2 c)
    ∗ ∃ f, oLoc d ↦[oSet (wid c i)]{fullShare} f)
/-- What it hands back: its piece of the result, at the result computed from what the shared memory held — contents right
    at every index below `nG` (the tokens and the scores are not needed again). -/
def tdRes (d : Dev nD) (c : Fin 2) (i : Fin 16) : sProp 𝕄 :=
  iprop(∃ g : Buf (Elt F) (tLoc d), ⌜TGood tF nG d g⌝ ∗ oLoc d ↦[oSet (wid c i)]{fullShare} oF d g)
/-- Of its SparseCore's shared memory it is handed slice `i`, at whatever it holds, -/
def shGo (d : Dev nD) (c : Fin τ.nSC) (i : Fin 16) : sProp 𝕄 := iprop(∃ f, shLoc d c ↦[tSet i]{fullShare} f)
/-- and hands back what is left of that slice after the sixteen read shares, and its read share of the whole memory. -/
def shTd (d : Dev nD) (c : Fin τ.nSC) (i : Fin 16) : sProp 𝕄 :=
  iprop((∃ f, shLoc d c ↦[tSet i]{Transfers.shareDrop fullShare 16} f) ∗ ∃ f, shLoc d c ↦{Transfers.shareTok fullShare 16 i} f)

abbrev coreOf (c : Fin ((K (F := F)).nCore 0)) : Fin τ.nSC := (K (F := F)).core 0 c

def P : (K (F := F)).Pay (nD := nD) (Val := Elt F) (Name := ℕ) (U := UU) where
  st := fun q d c => match q with | 0 => bigSep Finset.univ fun i : Fin 16 => goRes xtF tF nG d (Fin.cast nCore_zero c) i
  dn := fun q d c => match q with | 0 => bigSep Finset.univ fun i : Fin 16 => tdRes tF nG oF d (Fin.cast nCore_zero c) i
  go := fun q d c i => match q with
    | 0 => iprop(goRes xtF tF nG d (Fin.cast nCore_zero c) (Fin.cast nSub_zero i) ∗ shGo d (coreOf c) (Fin.cast nSub_zero i))
  td := fun q d c i => match q with
    | 0 => iprop(tdRes tF nG oF d (Fin.cast nCore_zero c) (Fin.cast nSub_zero i) ∗ shTd d (coreOf c) (Fin.cast nSub_zero i))
  x := fun _ thr => match thr with
    | (d, .scVector c i) => bkit tF nG d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P xtF tF nG oF).IsStorable where
  st q d c := match q with
    | 0 => by unfold P goRes tPts; dsimp only; infer_instance
  dn q d c := match q with
    | 0 => by unfold P tdRes; dsimp only; infer_instance
  go q d c i := match q with
    | 0 => by unfold P goRes tPts shGo; dsimp only; infer_instance
  td q d c i := match q with
    | 0 => by unfold P tdRes shTd; dsimp only; infer_instance

end Pay

end Cert.Proof.KB

end
-- ==== Proof.SplitK.lean ====
/-
  How a SparseCore's operands split among its sixteen subcores and gather back from them.  The HBM pieces are handed as
  they come (one piece of the tokens, one slice of the scores at the SparseCore's read share, one piece of the result per
  subcore).  The SparseCore's shared memory is the sequencer's own: it is cut into its sixteen slices, one per subcore;
  what comes back is, per subcore, the remainder of its slice after sixteen read shares were split off and ONE read share of
  the whole memory — sixteen remainders tile the memory, sixteen shares of the whole and the remainder make it whole again.
-/
import proofs.«203335_g10582799417878_cont_week2_139_36_alg».proof.Proof.SetupK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

omit [FloatOps F] in
theorem tSets_disjoint : ∀ i ∈ (Finset.univ : Finset (Fin 16)), ∀ j ∈ (Finset.univ : Finset (Fin 16)), i ≠ j → Disjoint (tSet i) (tSet j) :=
  fun i _ j _ h => Rect.part_disjoint hdivT h
omit [FloatOps F] in
theorem tSets_cover : (Finset.univ : Finset (Fin 16)).biUnion tSet = Finset.univ := Rect.biUnion_part hdivT

omit [FloatOps F] in
/-- The shared memory held whole, at any share, is its sixteen slices held at that share. -/
theorem shPts_rows (d : Dev nD) (c : Fin τ.nSC) (q : PosShare TreeShare) (f : Buf (Elt F) (shLoc d c)) :
    (shLoc d c ↦{q} f : sProp 𝕄) = bigSep Finset.univ fun i : Fin 16 => shLoc d c ↦[tSet i]{q} f := by
  rw [← pointsTo_biUnion Finset.univ (ℓ := shLoc d c) tSet tSets_disjoint, tSets_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- Read shares of one location held at contents of their own are shares at ONE contents: holders of a common element
    agree on it.  The remainder after `n` shares and the `n` shares, each at whatever it holds, are the whole. -/
theorem toks_join_any {ℓ : Loc nD τ sig} (q : PosShare TreeShare) (f : Buf (Elt F) ℓ) : ∀ n : ℕ,
    iprop((ℓ ↦{Transfers.shareDrop q n} f) ∗ bigSep (Finset.range n) fun i => iprop(∃ g, ℓ ↦{Transfers.shareTokN q i} g)) ⊢ (ℓ ↦{q} f : sProp 𝕄)
  | 0 => by rw [Finset.range_zero, bigSep_empty]; exact sep_elim_left
  | n + 1 => by
    rw [Finset.range_add_one, SparseCore.bigSep_insert' Finset.notMem_range_self]
    iintro ⟨Hd, ⟨%g, Hg⟩, Hrest⟩
    ihave Hag := (persistent_entails_right (pointsTo_agree (ℓ := ℓ) (I := Finset.univ) (J := Finset.univ) (q₁ := Transfers.shareDrop q (n + 1)) (q₂ := Transfers.shareTokN q n) (f := f) (g := g))) $$ [Hd Hg]
    · isplitl [Hd]; · iexact Hd
      iexact Hg
    icases Hag with ⟨%hag, Hd, Hg⟩
    have hfg : ∀ i ∈ (Finset.univ : Finset (Idx ℓ)), g i = f i := fun i hi => ((hag i (Finset.mem_inter.mpr ⟨hi, hi⟩)).1).symm
    ihave Hg' := (Entails.of_eq (pointsTo_congr (ℓ := ℓ) (I := Finset.univ) (q := Transfers.shareTokN q n) hfg)) $$ Hg
    iapply (toks_join_any q f n)
    isplitl [Hd Hg']
    · iapply (pointsTo_share (ℓ := ℓ) (I := Finset.univ) (f := f) (q := Transfers.shareDrop q n) (q₁ := Transfers.shareDrop q (n + 1)) (q₂ := Transfers.shareTokN q n)
        (PosShare.mem_left_op_right _)).2
      isplitl [Hd]; · iexact Hd
      iexact Hg'
    iexact Hrest

/-- What the sixteen subcores hand back of the shared memory — each the remainder of its slice and its read share of the
    whole — is the memory, whole. -/
theorem sh_join (d : Dev nD) (c : Fin τ.nSC) :
    (bigSep Finset.univ fun i : Fin 16 => shTd (F := F) d c i) ⊢ (iprop(∃ f, shLoc d c ↦{fullShare} f) : sProp 𝕄) := by
  unfold shTd
  rw [bigSep_sep']
  iintro ⟨Hd, Ht⟩
  ihave Hd' := (bigSep_exists_pi Finset.univ (fun (i : Fin 16) (f : Buf (Elt F) (shLoc d c)) => (shLoc d c ↦[tSet i]{Transfers.shareDrop fullShare 16} f : sProp 𝕄))) $$ Hd
  icases Hd' with ⟨%fs, Hd⟩
  ihave Hj := (pointsTo_biUnion_join (ℓ := shLoc d c) (q := Transfers.shareDrop fullShare 16) Finset.univ tSet fs (fs 0) tSets_disjoint) $$ Hd
  icases Hj with ⟨%g, -, Hg⟩
  rw [tSets_cover]
  iexists g
  iapply (toks_join_any (ℓ := shLoc d c) fullShare g 16)
  isplitl [Hg]; · iexact Hg
  rw [show (bigSep (Finset.range 16) fun i => iprop(∃ g', (shLoc d c ↦{Transfers.shareTokN fullShare i} g' : sProp 𝕄)))
      = bigSep Finset.univ fun i : Fin 16 => iprop(∃ g', (shLoc d c ↦{Transfers.shareTok fullShare 16 i} g' : sProp 𝕄)) by
    rw [← Nat.Iio_eq_range, ← Fin.map_valEmbedding_univ, BI.bigSep_map]; rfl]
  iexact Ht

theorem vecSplit : (K (F := F)).VecSplit (P xtF tF nG oF) 0 := by
  intro d c
  show iprop((bigSep Finset.univ fun i : Fin 16 => goRes xtF tF nG d (Fin.cast nCore_zero c) i) ∗ ownBufs (S d (coreOf c))) ⊢ |={Set.univ}=> iprop(
      (bigSep Finset.univ fun i : Fin ((K (F := F)).nSub 0) => iprop(goRes xtF tF nG d (Fin.cast nCore_zero c) (Fin.cast nSub_zero i) ∗ shGo d (coreOf c) (Fin.cast nSub_zero i)))
      ∗ ((bigSep Finset.univ fun i : Fin ((K (F := F)).nSub 0) => iprop(tdRes tF nG oF d (Fin.cast nCore_zero c) (Fin.cast nSub_zero i) ∗ shTd d (coreOf c) (Fin.cast nSub_zero i)))
          -∗ iprop((bigSep Finset.univ fun i : Fin 16 => tdRes tF nG oF d (Fin.cast nCore_zero c) i) ∗ ownBufs (S d (coreOf c)))))
  rw [bigSep_tasks (F := F) (fun i => iprop(goRes xtF tF nG d (Fin.cast nCore_zero c) i ∗ shGo d (coreOf c) i)),
    bigSep_tasks (F := F) (fun i => iprop(tdRes tF nG oF d (Fin.cast nCore_zero c) i ∗ shTd d (coreOf c) i)),
    bigSep_sep', bigSep_sep', ownBufs_S]
  iintro ⟨Hgo, ⟨%fsh, Hsh⟩, Hrest⟩; imodintro
  isplitl [Hgo Hsh]
  · isplitl [Hgo]; · iexact Hgo
    unfold shGo
    ihave Hsh' := ((Entails.of_eq (shPts_rows d (coreOf c) fullShare fsh)).trans (SparseCore.ent (bigSep_mono (Φ := fun i => (shLoc d (coreOf c) ↦[tSet i]{fullShare} fsh : sProp 𝕄))
      (Ψ := fun i => iprop(∃ f, shLoc d (coreOf c) ↦[tSet i]{fullShare} f))
      fun i _ => BI.BIClass.exists_intro (Φ := fun f => (shLoc d (coreOf c) ↦[tSet i]{fullShare} f : sProp 𝕄)) fsh))) $$ Hsh
    iexact Hsh'
  iintro ⟨Htd, Hsh⟩
  isplitl [Htd]; · iexact Htd
  isplitl [Hsh]; · iapply (sh_join d (coreOf c)); iexact Hsh
  iexact Hrest

end Cert.Proof.KB

end
-- ==== Proof.ElemK.lean ====
/-
  The launch element of the certificate's ghost state.  It has three parts beside the transfers' counters: the handshakes'
  rounds (the launch theorem's own), the barrier cells' rounds — one cell per vector subcore, one round, a unit duty per
  subcore of the SparseCore, all allocated at the launch so that a subcore may arrive at a sibling whose task has not begun —,
  and the TensorCore pipeline's staging cells' rounds, funded here and kept by the TensorCore until its kernel region.
-/
import proofs.«203335_g10582799417878_cont_week2_139_36_alg».proof.Proof.SetupK
import proofs.«203335_g10582799417878_cont_week2_139_36_alg».proof.Proof.SplitK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid1.bound 1) => (bcell x.1.1 x.1.2.1 (x.2.castLE hsub1), 0, x.1.2.2.val)

abbrev pCells : Finset (GSem nD τ sig) := Pipeline.cells (nD := nD) (τ := τ) cfgs cellOf_inj
abbrev pToks : Finset (GSem nD τ sig × ℕ × Unit) := Pipeline.launchToks (nD := nD) (τ := τ) cfgs cellOf_inj

def u₀ : UU := (initOf (K (F := F)).hsCells (K (F := F)).hsToks, (initOf bCells bToks, (initOf pCells pToks, 1)))

/-- What the launch leaves the TensorCore for its kernel region: the staging cells' launch state and duty tokens. -/
def G (d : Dev nD) : sProp 𝕄 := iprop(Pipeline.cellsGhost cfgs EP 0 d ∗ Pipeline.toksInit cfgs EP 0 d)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ BI.own ((uEmb (nD := nD) (sig := sig) (Ix := HIx 1) (Val := Elt F) (Name := ℕ) (U := UU) (Lvl := ℕ)).toEmb ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((p, 1) : UP × Counters)))))
  have h2 : (BI.own ((uEmb (nD := nD) (sig := sig) (Ix := HIx 1) (Val := Elt F) (Name := ℕ) (U := UU) (Lvl := ℕ)).toEmb ((1, (b, (p, 1))) : UU)) : sProp 𝕄)
      ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((p, 1) : UP × Counters)))))
  iintro H
  ihave H' := h1 $$ H
  icases H' with ⟨HH, HR⟩
  isplitl [HH]; · iexact HH
  iapply h2; iexact HR

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd tF nG) g 0)
    ⊢ |={Set.univ}=> iprop(∃ κ : GSem nD τ sig → ℕ, bigSep bCells fun g => cellInv EB (bRd tF nG) (κ g) g) := by
  refine (Rounds.bodies_intro EB (bRd tF nG) bCells).trans ((inv_alloc_family bCells (Rounds.body EB (bRd tF nG)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the subcores' own debts, regrouped: each subcore the sixteen units of its own cell. -/
theorem creds_b : ((P xtF tF nG oF).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P xtF tF nG oF).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P xtF tF nG oF).oxFrom 0 (V d c i) = oxV d c := fun i => by
    rw [show (0 : ℕ) = (0 : Fin 1).val from rfl, (P xtF tF nG oF).oxFrom_step, (P xtF tF nG oF).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P xtF tF nG oF).x q (SparseCore.T d)) = iprop(emp) :=
  bigSep_univ_of_subsingleton (0 : Fin 1)
theorem Px_S (d : Dev nD) (c : Fin τ.nSC) : (bigSep Finset.univ fun q : Fin 1 => (P xtF tF nG oF).x q (S d c)) = iprop(emp) :=
  bigSep_univ_of_subsingleton (0 : Fin 1)
theorem Px_V (d : Dev nD) (c : Fin τ.nSC) (i : Fin τ.nSub) :
    (bigSep Finset.univ fun q : Fin 1 => (P xtF tF nG oF).x q (V d c i)) = bkit tF nG d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd tF nG) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One subcore's kit out of those. -/
theorem kit_intro (dci : DCI) : iprop(shared tF nG ∗ mine (F := F) dci) ⊢ (bkit tF nG dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd tF nG) (κ (bcell₃ x)) (bcell₃ x)) fun j _ =>
        sep_elim_left.trans (bigSep_elim (Φ := fun x : DCI => (cellInv EB (bRd tF nG) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄))
          (i := (d, c, Fin.castLE hsub1 j)) (Finset.mem_univ _))))
    isplitl; · iexact Hr
    rw [bigSep_emp']; iempintro
  isplitl [Hat]; · iexact Hat
  iexact Hcred

/-- Each subcore its kit. -/
theorem kits_deal :
    iprop(shared tF nG ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P xtF tF nG oF).x q thr : sProp 𝕄) := by
  rw [SparseCore.Cfg.bigSep_threads (fun thr : Thread nD τ => bigSep Finset.univ fun q : Fin 1 => (P xtF tF nG oF).x q thr)]
  simp only [Px_T, Px_S, Px_V, bigSep_emp']
  iintro ⟨#Hsh, Hat, Htok, Hcred⟩
  isplitr; · iempintro
  isplitr; · iempintro
  iapply (bigSep_mono_frame (R := shared tF nG) (Φ := mine (F := F)) fun dci _ => kit_intro tF nG dci)
  isplitr; · iexact Hsh
  unfold mine
  rw [bigSep_sep', bigSep_sep']
  isplitl [Hat]; · iexact Hat
  isplitl [Htok]; · iexact Htok
  iexact Hcred

omit [FloatOps F] in
theorem G_eq : (bigSep Finset.univ fun d : Dev nD => G (F := F) d)
    = iprop((bigSep Finset.univ fun c : Dev nD => bigSep Finset.univ fun p : Fin 1 => Pipeline.cellsGhost cfgs EP p c)
        ∗ (bigSep Finset.univ fun c : Dev nD => bigSep Finset.univ fun p : Fin 1 => (Pipeline.toksInit cfgs EP p c : sProp 𝕄))) := by
  unfold G
  rw [bigSep_sep']
  congr 1 <;> exact bigSep_congr fun c _ => by rw [bigSep_univ_of_subsingleton (0 : Fin 1)]

theorem hu₀ : iprop(ownU (u₀ (F := F)) ∗ (P xtF tF nG oF).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P xtF tF nG oF).x q thr) : sProp 𝕄) := by
  unfold u₀
  iintro ⟨Hu, Hcred, Hfree⟩
  ihave H := (ownU_split (F := F) _ _ _) $$ Hu
  icases H with ⟨HH, HB, HP⟩
  imod (Rounds.fund EB (bRd tF nG) bCells bToks) $$ HB with ⟨Hst, #Hr, Hat, Htok⟩
  imod (Pipeline.fund_ghost (nD := nD) (τ := τ) cfgs EP cellOf_inj) $$ HP with HG
  ihave Hsems := (sems_b (F := F)) $$ Hfree
  imod (invs_b tF nG) $$ [Hsems Hst] with ⟨%κ, #Hinv⟩
  · isplitl [Hsems] <;> iassumption
  ihave Hcred' := (creds_b xtF tF nG oF) $$ Hcred
  ihave Hinv' := (Entails.of_eq (bCells_eq (F := F) fun g => cellInv EB (bRd tF nG) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · rw [G_eq]; iexact HG
  iapply (kits_deal xtF tF nG oF)
  isplitr
  · isplitl; · iexists κ; iexact Hinv'
    iexact Hr'
  isplitl [Hat']; · iexact Hat'
  isplitl [Htok']; · iexact Htok'
  iexact Hcred'

end Cert.Proof.KB

end
-- ==== Proof.RegionKBody.lean ====
import proofs.«203335_g10582799417878_cont_week2_139_36_alg».proof.Proof.Gen.Kernel.Launch
import proofs.«203335_g10582799417878_cont_week2_139_36_alg».proof.Proof.Gen.Kernel.Skeleton
import proofs.«203335_g10582799417878_cont_week2_139_36_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body of the row-dot kernel on its six staging buffers

At one grid point the body reads four staging buffers whole — a 64 × 31360 block of the transposed table, the
1 × 64 weight row, the one-word bias, a 200 × 128 block of the transposed tokens — and overwrites the other two
whole: the 1 × 1 × 31360 result block with the weight row times the table block, plus the bias, times the
constant 1/200 rounded to an f32 word; the 1 × 200 × 128 result block with the token block as it is. Every access is through the rectangle at
offset zero of the buffer's own sizes, so a load reads the contents and a store leaves its payload. -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The whole-buffer rectangles of the body's accesses. -/
abbrev r0 : Rect S64x31360 := Rect.unit (s := S64x31360) ![0, 0] S64x31360.size inb_S64x31360_S64x31360_0_0
abbrev r1 : Rect S1x64 := Rect.unit (s := S1x64) ![0, 0] S1x64.size inb_S1x64_S1x64_0_0
abbrev r2 : Rect S1 := Rect.unit (s := S1) ![0] S1.size inb_S1_S1_0
abbrev r3 : Rect S200x128 := Rect.unit (s := S200x128) ![0, 0] S200x128.size inb_S200x128_S200x128_0_0
abbrev r4 : Rect S1x1x31360 := Rect.unit (s := S1x1x31360) ![0, 0, 0] S1x1x31360.size inb_S1x1x31360_S1x1x31360_0_0_0
abbrev r5 : Rect S1x200x128 := Rect.unit (s := S1x200x128) ![0, 0, 0] S1x200x128.size inb_S1x200x128_S1x200x128_0_0_0

/-- The one index of the bias. -/
abbrev i0 : S1.Idx := Shape.Idx.first numel1_S1.symm.le

/-- What the body leaves in the first result's staging buffer, from the contents of the table block, the weight
    row and the bias word; -/
abbrev out4 (x0 : Vec F S64x31360 .f32) (x1 : Vec F S1x64 .f32) (x2 : Vec F S1 .f32) : Vec F S1x1x31360 .f32 :=
  k0_pay1 x0 x1 (x2 i0)
/-- and in the second's, from the token block. -/
abbrev out5 (x3 : Vec F S200x128 .i32) : Vec F S1x200x128 .i32 := k0_pay2 (F := F) x3

set_option maxHeartbeats 1000000 in
/-- The body on whole staging memrefs, the four it reads at contents `x0 … x3`, the two it writes at anything: it
    runs to the continuation holding the four as they were and the two at `out4`, `out5` of them. -/
theorem sound_kernel (c : Dev nD) (E : Set Name) (i : grid0.Coords)
    (arg1 : Memref sig .tc .vmem S64x31360 .f32) (harg1 : arg1.IsWhole) (arg2 : Memref sig .tc .vmem S1x64 .f32) (harg2 : arg2.IsWhole)
    (arg3 : Memref sig .tc .smem S1 .f32) (harg3 : arg3.IsWhole) (arg4 : Memref sig .tc .vmem S200x128 .i32) (harg4 : arg4.IsWhole)
    (arg5 : Memref sig .tc .vmem S1x1x31360 .f32) (harg5 : arg5.IsWhole) (arg6 : Memref sig .tc .vmem S1x200x128 .i32) (harg6 : arg6.IsWhole)
    (x0 : Vec F S64x31360 .f32) (x1 : Vec F S1x64 .f32) (x2 : Vec F S1 .f32) (x3 : Vec F S200x128 .i32)
    (y4 : Vec F S1x1x31360 .f32) (y5 : Vec F S1x200x128 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2)
            ∗ owns (c : Thread nD τ) arg6 fullShare (out5 x3)) -∗ K ⟨⟩))
      ⊢ wp frame (wpE (defs₀ (F := F)) Variants.none c none) E (cc0__rowdot_body i arg1 harg1 arg2 harg2 arg3 harg3 arg4 harg4 arg5 harg5 arg6 harg6) K := by
  simp only [cc0__rowdot_body_eq_skeleton]; unfold cc0__rowdot_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz3 inb_S1x1x31360_S1x1x31360_0_0_0 y⟩), View.canon_unit_zero hz3]
    show k0_pay1 (View.ld (arg1.view.read (Elt F) f0) r0) (View.ld (arg2.view.read (Elt F) f1) r1) _ = _
    rw [View.ld_unit_zero hz2, View.ld_unit_zero hz2]
    unfold sound_kernel.sl.r
    show k0_pay1 _ _ (View.ld (arg3.view.read (Elt F) f2) r2 _) = _
    rw [View.ld_unit_zero hz1]
  iexists _; isplitr
  swap; · iexact H5
  ipureintro
  rw [View.read_writes_eq_canon _ _ _ (fun y => ⟨_, List.mem_singleton_self _, View.mem_set_unit_zero hz3 inb_S1x200x128_S1x200x128_0_0_0 y⟩), View.canon_unit_zero hz3]
  show k0_pay2 (View.ld (arg4.view.read (Elt F) f3) r3) = _
  rw [View.ld_unit_zero hz2]

end Cert.Kernel.Region

end
-- ==== Proof.RegionKData.lean ====
import proofs.«203335_g10582799417878_cont_week2_139_36_alg».proof.Proof.RegionKBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The pipeline's proof data, as relations

The grid has 32 points. At point `t` the pipeline stages block `t` of the transposed table (64 rows, columns
`31360·t … 31360·t + 31359`), the weight row, the bias, and block `t` of the transposed tokens (200 rows, columns
`128·t … 128·t + 127`), and writes back the two result blocks of index `t`. The table has 1000000 columns and
32 · 31360 = 1003520, so the last block overhangs the array by 3520 columns: its fetch fills the first 27840 columns
of the staging buffer and leaves in the rest words that nothing names. The body multiplies the WHOLE buffer, so the
last 3520 entries of the last result block are computed from those words: no function of the arrays names them.
The data is therefore relational: what the body leaves in the first result's buffer is the payload of SOME contents
of the table's buffer that agree with the table's block on the part the fetch fills. -/

section Data

variable (c : Dev nD) (V : (b : Ref sig .tc) → Buf (Elt F) ((c : Thread nD τ).loc b))
  (O : CellTallies nD τ sig Ix) (B₀ : Set (SemLoc sig × Ix))

/-- Window `w`'s block at point `t`, read off its array as the region finds it: the part inside the array. -/
def iblk (w : Fin cfg0.W) (t : Fin cfg0.N) : ((cfg0.win w).xblock (cfg0.grid.coords t)).Idx → Elt F (cfg0.win w).elt :=
  ((cfg0.win w).blk t).view.read (Elt F) (V (Pipeline.arrRef spec0 w))

/-- The table's staging buffer after the fetch at point `t`, if it held `d`: the block where the fetch fills it
    (everywhere but at the last point's overhang), `d` elsewhere. -/
def tab (t : Fin cfg0.N) (d : S64x31360.Idx → Elt F .f32) : Vec F S64x31360 .f32 :=
  win0_0.fill (grid0.coords t) d (iblk c V 0 t)

/-- The proof data of the pipeline on core `c`: the arrays as the region finds them (`V`); the body leaves each
    input's buffer as it found it, the second result's at the token block, the first result's at the payload of the
    table's buffer as SOME fetch left it; no invariant; the core owes `O` throughout, its recorded waits within `B₀`. -/
def rdats : RDat τ (Elt F) Ix Name U Lvl cfg0 c where
  A w := V (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => ∃ d, X = out4 (tab c V t d) (iblk c V 1 t) (iblk c V 2 t)
    | ⟨5, _⟩ => fun _ X => X = out5 (F := F) (iblk c V 3 t)
  Φ _ := iprop(emp)
  q _ := fullShare
  owed _ := O
  recorded _ := B₀

theorem A_eq (w : Fin cfg0.W) : (rdats (Name := Name) (U := U) (Lvl := Lvl) c V O B₀).A w = V (Pipeline.arrRef spec0 w) := by
  dsimp only [rdats]

/-- The relations, window by window. -/
theorem after0 (t : Fin cfg0.N) (Y X) : (rdats (Name := Name) (U := U) (Lvl := Lvl) c V O B₀).after 0 t Y X ↔ X = Y := by dsimp only [rdats]; exact Iff.rfl
theorem after1 (t : Fin cfg0.N) (Y X) : (rdats (Name := Name) (U := U) (Lvl := Lvl) c V O B₀).after 1 t Y X ↔ X = Y := by dsimp only [rdats]; exact Iff.rfl
theorem after2 (t : Fin cfg0.N) (Y X) : (rdats (Name := Name) (U := U) (Lvl := Lvl) c V O B₀).after 2 t Y X ↔ X = Y := by dsimp only [rdats]; exact Iff.rfl
theorem after3 (t : Fin cfg0.N) (Y X) : (rdats (Name := Name) (U := U) (Lvl := Lvl) c V O B₀).after 3 t Y X ↔ X = Y := by dsimp only [rdats]; exact Iff.rfl
theorem after4 (t : Fin cfg0.N) (Y X) : (rdats (Name := Name) (U := U) (Lvl := Lvl) c V O B₀).after 4 t Y X
    ↔ ∃ d, X = out4 (tab c V t d) (iblk c V 1 t) (iblk c V 2 t) := by dsimp only [rdats]; exact Iff.rfl
theorem after5 (t : Fin cfg0.N) (Y X) : (rdats (Name := Name) (U := U) (Lvl := Lvl) c V O B₀).after 5 t Y X
    ↔ X = out5 (F := F) (iblk c V 3 t) := by dsimp only [rdats]; exact Iff.rfl

/-! ## What the body finds in the input windows' buffers -/

/-- The table's window is fetched at every point: its buffer holds the block where the fetch fills it. -/
theorem finds0 (t : Fin cfg0.N) (Y) (h : (rdats (Name := Name) (U := U) (Lvl := Lvl) c V O B₀).Finds 0 t Y) : ∃ d, Y = tab c V t d := by
  obtain ⟨d, hd⟩ := ((rdats (Name := Name) (U := U) (Lvl := Lvl) c V O B₀).finds_of_fetch (fetch0_0 t) Y).mp h
  exact ⟨d, hd⟩

/-- The weight row, the bias and the token block: fetched or not, the buffer holds the window's block (these
    windows' blocks tile their arrays, so a fetch fills the whole buffer, and the body leaves it as found). -/
theorem finds1 (t : Fin cfg0.N) (Y) (h : (rdats (Name := Name) (U := U) (Lvl := Lvl) c V O B₀).Finds 1 t Y) : Y = iblk c V 1 t := by
  obtain ⟨d, hd⟩ := (rdats (Name := Name) (U := U) (Lvl := Lvl) c V O B₀).finds_in_eq_fetched 1 rfl (fun _ _ _ => rfl)
    (fun t Y X h => (after1 c V O B₀ t Y X).mp h) t Y h
  rw [hd]; rfl
theorem finds2 (t : Fin cfg0.N) (Y) (h : (rdats (Name := Name) (U := U) (Lvl := Lvl) c V O B₀).Finds 2 t Y) : Y = iblk c V 2 t := by
  obtain ⟨d, hd⟩ := (rdats (Name := Name) (U := U) (Lvl := Lvl) c V O B₀).finds_in_eq_fetched 2 rfl (fun _ _ _ => rfl)
    (fun t Y X h => (after2 c V O B₀ t Y X).mp h) t Y h
  rw [hd]; rfl
theorem finds3 (t : Fin cfg0.N) (Y) (h : (rdats (Name := Name) (U := U) (Lvl := Lvl) c V O B₀).Finds 3 t Y) : Y = iblk c V 3 t := by
  obtain ⟨d, hd⟩ := (rdats (Name := Name) (U := U) (Lvl := Lvl) c V O B₀).finds_in_eq_fetched 3 rfl (fun _ _ _ => rfl)
    (fun t Y X h => (after3 c V O B₀ t Y X).mp h) t Y h
  rw [hd]; rfl

/-! ## The body obligation -/

/-- At every point, on whatever the buffers may then hold: the body runs (`sound_kernel`) and leaves each buffer in
    its relation to what it was handed; the invariant is empty and the core's `owes` passes through untouched. -/
theorem hbody (ι : Ix) : (rdats (Name := Name) (U := U) (Lvl := Lvl) c V O B₀).BodyObligation (defs₀ (F := F)) Variants.none ι Set.univ := fun t Y hY => by
  rw [bigSep_W0, bigSep_W0]
  obtain ⟨d, h0⟩ := finds0 c V O B₀ t (Y 0) (hY 0)
  have h1 := finds1 c V O B₀ t (Y 1) (hY 1)
  have h2 := finds2 c V O B₀ t (Y 2) (hY 2)
  have h3 := finds3 c V O B₀ t (Y 3) (hY 3)
  show _ ⊢ wp frame (wpE (defs₀ (F := F)) Variants.none c none) Set.univ (bodyAt0 t) _
  unfold bodyAt0
  rw [show (rdats (Name := Name) (U := U) (Lvl := Lvl) c V O B₀).Φ t.succ = (rdats (Name := Name) (U := U) (Lvl := Lvl) c V O B₀).Φ t.castSucc from rfl,
    show (rdats (Name := Name) (U := U) (Lvl := Lvl) c V O B₀).owesAt ι t.succ = (rdats (Name := Name) (U := U) (Lvl := Lvl) c V O B₀).owesAt ι t.castSucc from rfl]
  iintro ⟨HΦ, Ho, H0, H1, H2, H3, H4, H5⟩
  iapply (sound_kernel c Set.univ (grid0.coords t) _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists (Y 0); isplitr; · ipureintro; exact (after0 c V O B₀ t _ _).mpr rfl
    iexact H0
  isplitl [H1]
  · iexists (Y 1); isplitr; · ipureintro; exact (after1 c V O B₀ t _ _).mpr rfl
    iexact H1
  isplitl [H2]
  · iexists (Y 2); isplitr; · ipureintro; exact (after2 c V O B₀ t _ _).mpr rfl
    iexact H2
  isplitl [H3]
  · iexists (Y 3); isplitr; · ipureintro; exact (after3 c V O B₀ t _ _).mpr rfl
    iexact H3
  isplitl [H4]
  · iexists _; isplitr
    swap; · iexact H4
    ipureintro; exact (after4 c V O B₀ t _ _).mpr ⟨d, by rw [h0, h1, h2]⟩
  iexists _; isplitr
  swap; · iexact H5
  ipureintro; exact (after5 c V O B₀ t _ _).mpr (by rw [h3])

end Data

end Cert.Kernel.Region

end
-- ==== Proof.RegionKFacts.lean ====
import proofs.«203335_g10582799417878_cont_week2_139_36_alg».proof.Proof.Gen.Kernel.Launch

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The region's layout facts

What a launch asks of the pipeline's windows apart from the body: the six arrays are unscoped buffers, the ten
staging buffers scoped and pairwise distinct, their semaphores scoped; no block is empty; every staging memref is a
whole buffer; and the kernel names no semaphore of its own. -/

/-- The windows as the launch lays them out. -/
theorem win : Pipeline.WinFacts₀ spec0 := winFacts0.to₀
theorem block_pos : ∀ w : Fin 6, 0 < (spec0 w).block.numel := block_pos0
theorem stage_whole : ∀ (w : Fin 6) (s : Fin (spec0 w).nbuf), ((spec0 w).stage s).IsWhole := stage_whole0

/-- The kernel's own semaphores: none. -/
abbrev K : Type := PEmpty
abbrev osem : K → SemLoc sig := fun k => k.elim
theorem ho : Pipeline.OwnSemFacts spec0 osem := Pipeline.OwnSemFacts.none _

/-- The same at the pipeline's configuration with prefetched tables (it has none): its specs are the windows'. -/
example : (pcfgs (F := F) 0).spec = spec0 := rfl
example (a : (pcfgs (F := F) 0).Adm) : (pcfgs (F := F) 0).at a = cfg0 := rfl

end Cert.Kernel.Region

end
-- ==== Proof.RegionKSeg.lean ====
import proofs.«203335_g10582799417878_cont_week2_139_36_alg».proof.Proof.RegionKData
import proofs.«203335_g10582799417878_cont_week2_139_36_alg».proof.Proof.RegionKFacts

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The region as a segment

The plainest protocol: the region is entered holding the six arrays at the contents the proof data starts from and
the core's `owes`, and is left holding the arrays at some contents they may have after every write-back and the same
`owes`; nothing enters the pipeline's invariant and nothing bypasses it. The pipeline has no prefetched table, no
semaphore of the kernel's own, and no scoped buffer beside the staging buffers, so the four entailments only regroup. -/

section Seg

variable (V : (c : Dev nD) → (b : Ref sig .tc) → Buf (Elt F) ((c : Thread nD τ).loc b))
  (O : CellTallies nD τ sig Ix) (B₀ : Set (SemLoc sig × Ix)) (ι : Ix)
  (L : GSem nD τ sig → Finset Ix) (lv : GSem nD τ sig → Ix → Lvl)

/-- The pipeline's proof data, one per pipeline (there is one) and core. -/
abbrev rds : (p : Fin 1) → (c : Dev nD) → RDat τ (Elt F) Ix Name U Lvl (Pipeline.pin (pcfgs (F := F)) (fun p => (cfgs p).toPCfg_adm) p) c :=
  fun _ c => rdats c (V c) O B₀

set_option backward.isDefEq.respectTransparency.types false in
/-- The region: entered holding the six arrays at their entry contents and the core's `owes`, left holding the arrays
    at some contents they may have after the 32 write-backs and the same `owes`. -/
def seg (hwaits : ∀ c, (levAts L lv : sProp 𝕄) ⊢ Pipeline.RDat.cellsWaits (Pipeline.pin (pcfgs (F := F)) (fun p => (cfgs p).toPCfg_adm)) (rds (Name := Name) (U := U) (Lvl := Lvl) V O B₀) ι 0 c) :
    Pipeline.RDat.RegionSeg (pcfgs (F := F)) (fun p => (cfgs p).toPCfg_adm) (rds (Name := Name) (U := U) (Lvl := Lvl) V O B₀) ι (defs₀ (F := F)) Variants.none L lv 0 where
  win := win
  block_pos := block_pos
  stage_whole := stage_whole
  K := PEmpty
  osem k := k.elim
  ho := Pipeline.OwnSemFacts.none _
  hbody c := hbody c (V c) O B₀ ι
  hwaits := hwaits
  pre c := iprop((rdats (Name := Name) (U := U) (Lvl := Lvl) c (V c) O B₀).arrays (rdats (Name := Name) (U := U) (Lvl := Lvl) c (V c) O B₀).A
    ∗ (rdats (Name := Name) (U := U) (Lvl := Lvl) c (V c) O B₀).owesAt ι 0)
  post c := iprop((rdats (Name := Name) (U := U) (Lvl := Lvl) c (V c) O B₀).arraysAt cfg0.N
    ∗ (rdats (Name := Name) (U := U) (Lvl := Lvl) c (V c) O B₀).owesAt ι (Fin.last cfg0.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show _ ⊢ (BI.emp : sProp 𝕄)
    iintro -
    iempintro
  hout c := by
    rw [Pipeline.ownSems0_none]
    show _ ⊢ iprop(emp ∗ emp ∗ Pipeline.scopedRest spec0 c)
    rw [scopedRest0_eq]
    iintro -
    isplitr; · iempintro
    isplitr <;> iempintro
  hexit c := by
    iintro ⟨Ha, HO, -, -⟩
    imodintro
    isplitl [Ha]; · iexact Ha
    iexact HO

end Seg

end Cert.Kernel.Region

end
-- ==== Proof.PiecesK.lean ====
/-
  The SparseCore call's arrays cut into the pieces the subcores work on: the tokens and the result into 32 pieces, piece
  `2·s + c` for subcore `s` of SparseCore `c`; the scores into 16 slices.  The pieces tile their arrays.
-/
import proofs.«203335_g10582799417878_cont_week2_139_36_alg».proof.Proof.SetupK
import proofs.«203335_g10582799417878_cont_week2_139_36_alg».proof.Proof.SplitK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Subcore `s` of SparseCore `c` works on piece `2·s + c`: the pairs (c, s) are the 32 pieces. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    apply Prod.ext <;> apply Fin.ext <;> simp only [wid] <;> omega
  right_inv w := by
    apply Fin.ext; simp only [wid]; omega

omit [FloatOps F] in
theorem bigSep_pieces (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

omit [FloatOps F] in
theorem xSets_disjoint : ∀ i ∈ (Finset.univ : Finset (Fin 32)), ∀ j ∈ (Finset.univ : Finset (Fin 32)), i ≠ j → Disjoint (xSet i) (xSet j) :=
  fun i _ j _ h => Rect.part_disjoint hdivX h
omit [FloatOps F] in
theorem xSets_cover : (Finset.univ : Finset (Fin 32)).biUnion xSet = Finset.univ := Rect.biUnion_part hdivX
omit [FloatOps F] in
theorem oSets_disjoint : ∀ i ∈ (Finset.univ : Finset (Fin 32)), ∀ j ∈ (Finset.univ : Finset (Fin 32)), i ≠ j → Disjoint (oSet i) (oSet j) :=
  fun i _ j _ h => Rect.part_disjoint hdivO h
omit [FloatOps F] in
theorem oSets_cover : (Finset.univ : Finset (Fin 32)).biUnion oSet = Finset.univ := Rect.biUnion_part hdivO

omit [FloatOps F] in
/-- The token array held whole is its 32 pieces. -/
theorem xt_pieces (d : Dev nD) (q : PosShare TreeShare) (f : Buf (Elt F) (xtLoc d)) :
    (xtLoc d ↦{q} f : sProp 𝕄) = bigSep Finset.univ fun c : Fin 2 => bigSep Finset.univ fun i : Fin 16 => xtLoc d ↦[xSet (wid c i)]{q} f := by
  rw [← bigSep_pieces (fun w => (xtLoc d ↦[xSet w]{q} f : sProp 𝕄)), ← pointsTo_biUnion Finset.univ (ℓ := xtLoc d) xSet xSets_disjoint, xSets_cover]; try rfl
omit [FloatOps F] in
/-- The result array held whole is its 32 pieces. -/
theorem o_pieces (d : Dev nD) (q : PosShare TreeShare) (f : Buf (Elt F) (oLoc d)) :
    (oLoc d ↦{q} f : sProp 𝕄) = bigSep Finset.univ fun c : Fin 2 => bigSep Finset.univ fun i : Fin 16 => oLoc d ↦[oSet (wid c i)]{q} f := by
  rw [← bigSep_pieces (fun w => (oLoc d ↦[oSet w]{q} f : sProp 𝕄)), ← pointsTo_biUnion Finset.univ (ℓ := oLoc d) oSet oSets_disjoint, oSets_cover]; try rfl
omit [FloatOps F] in
/-- The score array held whole, at any share, is its 16 slices. -/
theorem t_slices (d : Dev nD) (q : PosShare TreeShare) (f : Buf (Elt F) (tLoc d)) :
    (tLoc d ↦{q} f : sProp 𝕄) = bigSep Finset.univ fun i : Fin 16 => tLoc d ↦[tSet i]{q} f := by
  rw [← pointsTo_biUnion Finset.univ (ℓ := tLoc d) tSet tSets_disjoint, tSets_cover]; try rfl

end Cert.Proof.KB

end
-- ==== Proof.ValsK.lean ====
/-
  @main on the TensorCore, first half: the valuations of its twelve arrays as the operations succeed one another — the two
  transposes, the kernel region (which leaves the score blocks and the re-laid token blocks), the two flattenings —, and the
  passage between holding the arrays as a set under one valuation and holding the kernel region's six arrays as its windows.
-/
import proofs.«203335_g10582799417878_cont_week2_139_36_alg».proof.Proof.SetupK
import proofs.«203335_g10582799417878_cont_week2_139_36_alg».proof.Proof.ElemK
import proofs.«203335_g10582799417878_cont_week2_139_36_alg».proof.Proof.RegionKSeg
import proofs.«203335_g10582799417878_cont_week2_139_36_alg».proof.Proof.PiecesK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_split held_sdiff_result wp_hlo_within held_congr held_sub_split)

variable (m : (ℓ : Loc nD τ sig) → Buf (Elt F) ℓ)

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v20' : DevRef τ sig := Proc.devRef .tc (main_v2_0 : Ref sig .tc)
abbrev v21' : DevRef τ sig := Proc.devRef .tc (main_v2_1 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- All twelve. -/
abbrev SAll : Finset (DevRef τ sig) := {a0', a1', a2', a3', v0', v1', v20', v21', v3', v4', v5', v6'}
/-- The kernel region's six arrays (its windows', in window order: the transposed table, W, b, the transposed tokens, the
    score blocks, the re-laid token blocks). -/
abbrev SWin : Finset (DevRef τ sig) := {v0', a2', a3', v1', v20', v21'}
/-- The SparseCore call's three arrays. -/
abbrev SCall : Finset (DevRef τ sig) := {v3', v4', v5'}

omit [FloatOps F] in
theorem unscoped_held (d : Dev nD) (Vv : Valuation τ sig (Elt F)) :
    (unscopedBufs d (fun b => Vv (Proc.devRef .tc b)) : sProp 𝕄) = held (SparseCore.T d) SAll Vv := by
  unfold unscopedBufs held
  rw [show (Finset.univ.filter fun b : Ref sig .tc => ¬ b.isScoped)
      = {main_arg0, main_arg1, main_arg2, main_arg3, main_v0, main_v1, main_v2_0, main_v2_1, main_v3, main_v4, main_v5, main_v6} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

open Idealize.ShloMosaic.TcCoe

variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

/-- The launch valuation. -/
def Vd0 (d : Dev nD) : Valuation τ sig (Elt F) := fun b => m (d, b)
abbrev opT1 : HloOp τ sig (Elt F) := StableHlo.unary main_arg1 main_v0 (fun x => transpose S64x1000000 [1, 0] x transposes_S1000000x64_S64x1000000_1_0)
abbrev opT2 : HloOp τ sig (Elt F) := StableHlo.unary main_arg0 main_v1 (fun x => transpose S200x4096 [1, 0] x transposes_S4096x200_S200x4096_1_0)
abbrev opR3 : HloOp τ sig (Elt F) := StableHlo.reshape main_v2_0 main_v3 rfl shapeCasts_S32x1x31360_S1003520
abbrev opR4 : HloOp τ sig (Elt F) := StableHlo.reshape main_v2_1 main_v4 rfl shapeCasts_S32x200x128_S819200
abbrev opR5 : HloOp τ sig (Elt F) := StableHlo.reshape main_v5 main_v6 rfl shapeCasts_S4096_S4096x1
/-- After the two transposes. -/
def Vd2 (d : Dev nD) : Valuation τ sig (Elt F) := (opT2 (F := F)).result ((opT1 (F := F)).result (Vd0 m d))
/-- The same, as the kernel region's proof data reads it. -/
def VR2 (c : Dev nD) : (b : Ref sig .tc) → Buf (Elt F) ((c : Thread nD τ).loc b) := fun b => Vd2 m c (Proc.devRef .tc b)

theorem hT1 : (opT1 (F := F)).bufs ⊆ SAll := show ({a1', v0'} : Finset (DevRef τ sig)) ⊆ SAll by decide
theorem hT2 : (opT2 (F := F)).bufs ⊆ SAll := show ({a0', v1'} : Finset (DevRef τ sig)) ⊆ SAll by decide
theorem hR3 : (opR3 (F := F)).bufs ⊆ SAll := show ({v20', v3'} : Finset (DevRef τ sig)) ⊆ SAll by decide
theorem hR4 : (opR4 (F := F)).bufs ⊆ SAll := show ({v21', v4'} : Finset (DevRef τ sig)) ⊆ SAll by decide
theorem hR5 : (opR5 (F := F)).bufs ⊆ SAll := show ({v5', v6'} : Finset (DevRef τ sig)) ⊆ SAll by decide

/-- Before any call the TensorCore owes nothing at the kernels' own index. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply, if_neg (fun e => nomatch e.2)]
  · rfl

/-- The recorded waits the TensorCore may have before its first call: those at level 0. -/
abbrev B₀ (d : Dev nD) : Set (SemLoc sig × HIx 1) := {p | (K (F := F)).lev (SparseCore.T d, p.1) p.2 ≤ 0}

theorem hwaits (d : Dev nD) (c : Dev nD) : (levAts (K (F := F)).L (K (F := F)).lev : sProp 𝕄)
    ⊢ Pipeline.RDat.cellsWaits (Pipeline.pin (pcfgs (F := F)) (fun p => (cfgs p).toPCfg_adm))
        (Cert.Kernel.Region.rds (Name := ℕ) (U := UU) (Lvl := ℕ) (VR2 m) ((K (F := F)).Otc d 0) (B₀ (F := F) d)) none 0 c :=
  Pipeline.RDat.cellsWaits_intro _ _ none 0 c fun w s t =>
    (K (F := F)).mayWait_none (thr := (c : Thread nD τ)) _ (Otc_none d 0)

end Cert.Proof.KB

end
-- ==== Proof.RunK.lean ====
/-
  The program's run, from its two halves taken as given: the subcores' task (the tile obligation) and @main on the
  TensorCore.  The launch theorem of the SparseCore library turns them into the statement that every weakly fair execution
  of all 35 threads ends, with the four argument arrays as launched and the result array at contents the TensorCore's
  proof names.
-/
import proofs.«203335_g10582799417878_cont_week2_139_36_alg».proof.Proof.SetupK
import proofs.«203335_g10582799417878_cont_week2_139_36_alg».proof.Proof.SplitK
import proofs.«203335_g10582799417878_cont_week2_139_36_alg».proof.Proof.ElemK
import proofs.«203335_g10582799417878_cont_week2_139_36_alg».proof.Proof.ValsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))
variable (RG : (d : Dev nD) → Buf (Elt F) ((d, v6') : Loc nD τ sig) → Prop)

/-! ## What the TensorCore holds when @main ends, and what the final memory then is -/

/-- The four argument arrays at their launch contents, and the result array at some contents the relation `RG` admits. -/
def FIN (d : Dev nD) : sProp 𝕄 :=
  iprop((((d, a0') : Loc nD τ sig) ↦{fullShare} m (d, a0')) ∗ (((d, a1') : Loc nD τ sig) ↦{fullShare} m (d, a1'))
    ∗ (((d, a2') : Loc nD τ sig) ↦{fullShare} m (d, a2')) ∗ (((d, a3') : Loc nD τ sig) ↦{fullShare} m (d, a3'))
    ∗ ∃ f, ⌜RG d f⌝ ∗ ((d, v6') : Loc nD τ sig) ↦{fullShare} f)

/-- The same of a final memory. -/
def fq (d : Dev nD) (s' : Phys nD τ sig (Elt F)) : Prop :=
  (∃ f, RG d f ∧ s'.mem.mem ((d, v6') : Loc nD τ sig) = f)
    ∧ s'.mem.mem ((d, a0') : Loc nD τ sig) = m (d, a0') ∧ s'.mem.mem ((d, a1') : Loc nD τ sig) = m (d, a1')
    ∧ s'.mem.mem ((d, a2') : Loc nD τ sig) = m (d, a2') ∧ s'.mem.mem ((d, a3') : Loc nD τ sig) = m (d, a3')

omit [FloatOps F] in
/-- Whoever holds an array whole beside the machine's state knows the state's contents of it. -/
theorem hfin (d : Dev nD) (s' : Phys nD τ sig (Elt F)) : iprop(FIN m RG d ∗ SI s') ⊢ (⌜fq m RG d s'⌝ : sProp 𝕄) := by
  unfold FIN
  iintro ⟨⟨H0, H1, H2, H3, ⟨%f, %hf, H6⟩⟩, HSI⟩
  ihave H := (persistent_entails_right (SI_pointsTo_agree (st := s') (ℓ := ((d, a0') : Loc nD τ sig)) (I := Finset.univ) (q := fullShare) (f := m (d, a0')))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := m (d, a1')))) $$ [HSI H1]
  · isplitl [HSI] <;> iassumption
  icases H with ⟨%h1, HSI, -⟩
  ihave H := (persistent_entails_right (SI_pointsTo_agree (st := s') (ℓ := ((d, a2') : Loc nD τ sig)) (I := Finset.univ) (q := fullShare) (f := m (d, a2')))) $$ [HSI H2]
  · isplitl [HSI] <;> iassumption
  icases H with ⟨%h2, HSI, -⟩
  ihave H := (persistent_entails_right (SI_pointsTo_agree (st := s') (ℓ := ((d, a3') : Loc nD τ sig)) (I := Finset.univ) (q := fullShare) (f := m (d, a3')))) $$ [HSI H3]
  · isplitl [HSI] <;> iassumption
  icases H with ⟨%h3, HSI, -⟩
  ihave H := (SI_pointsTo_agree (st := s') (ℓ := ((d, v6') : Loc nD τ sig)) (I := Finset.univ) (q := fullShare) (f := f)) $$ [HSI H6]
  · isplitl [HSI] <;> iassumption
  icases H with %h6
  ipureintro
  exact ⟨⟨f, hf, funext fun i => h6 i (Finset.mem_univ i)⟩, funext fun i => h0 i (Finset.mem_univ i), funext fun i => h1 i (Finset.mem_univ i),
    funext fun i => h2 i (Finset.mem_univ i), funext fun i => h3 i (Finset.mem_univ i)⟩

/-! ## The run -/

/-- What every final state satisfies: on every device the result array holds contents `RG` admits and the four arguments
    hold what they held at launch. -/
def QC : PUnit × MemSt nD τ sig (Elt F) → Prop := fun r => ∀ c : Dev nD,
  (∃ f, RG c f ∧ r.2.mem ((c.tc : Thread nD τ).loc main_v6) = f)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- THE RUN: from any memory with zero counters, every weakly fair execution of the TensorCore's @main, the two
    sequencers and the 32 subcores ends, and every final state is as `QC` says — given the subcores' task and @main. -/
theorem run_main [∀ e, Nonempty (Elt F e)]
    (htile : (K (F := F)).TileObl (D (F := F)) 𝒱 (P xtF tF nG oF) v₀ 0)
    (hmainH : ∀ (κ : GSem nD τ sig → ℕ) (d : Dev nD),
      iprop((K (F := F)).ctx EH (P xtF tF nG oF) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m RG d)) :
    θ_run (Cert.Kernel.defs (F := F)) (Cert.Kernel.threads (F := F)) ⟨m, fun _ => 0, ρ⟩ (QC m RG) :=
  SparseCore.Cfg.θ_run_sc (K := K (F := F)) (D := D (F := F)) (𝒱 := 𝒱) (EH := EH) (P := P xtF tF nG oF) facts v₀
    (fun q hq => match q with | 0 => nomatch hq)
    (fun q _ => match q with | 0 => htile)
    (fun q _ => match q with | 0 => vecSplit xtF tF nG oF)
    m ρ main (G (F := F)) (FIN m RG) (u₀ (F := F)) (hu₀ xtF tF nG oF) hmainH (fq m RG) (hfin m RG) (QC m RG)
    (fun s' h c => h c)

end Cert.Proof.KB

end
-- ==== Proof.Spec.lean ====
/-
  The function both programs compute, stated once over the argument arrays: every vocabulary row `v` has a SCORE,
  the affine form `W · table[v] + b` scaled by 1/200; example `r` of the batch sums the scores of its 200 tokens and
  passes the sum through the logistic function `1 / (1 + e^{-z})`.  (The mean of the 200 embedded rows followed by the
  affine form is the same number when every entry is finite: the affine form is linear and 200 · (b / 200) = b.)
-/
import Idealize.ShloMosaic.PureOps.Ideal
import Idealize.ShloMosaic.Lib.ValueIdx

noncomputable section

open scoped BigOperators

namespace Cert.Proof.Spec

open Idealize.ShloMosaic Idealize.ShloMosaic.ValueIdx

abbrev SX : Shape := ⟨2, ![4096, 200]⟩
abbrev STable : Shape := ⟨2, ![1000000, 64]⟩
abbrev SW : Shape := ⟨2, ![1, 64]⟩
abbrev SB : Shape := ⟨1, ![1]⟩
abbrev SOut : Shape := ⟨2, ![4096, 1]⟩

/-- The score of vocabulary row `v`: the affine form `W · table[v] + b`, scaled by 1/200. -/
def score (table : FVec Ideal STable .f32) (W : FVec Ideal SW .f32) (b : FVec Ideal SB .f32) (v : Fin 1000000) : EReal :=
  ((∑ d : Fin 64, W (ix2 0 d) * table (ix2 v d)) + b (ix1 0)) * ((1 / 200 : ℝ) : EReal)

/-- The vocabulary row a token word names: the word read as a natural number, kept inside the table. -/
def row (w : BitVec 32) : Fin 1000000 := ⟨min w.toNat 999999, by omega⟩

/-- Example `r`'s logit: the sum of its 200 tokens' scores. -/
def logit (x : IVec SX 32) (table : FVec Ideal STable .f32) (W : FVec Ideal SW .f32) (b : FVec Ideal SB .f32)
    (r : Fin 4096) : EReal :=
  ∑ s : Fin 200, score table W b (row (x (ix2 r s)))

/-- The result: the logistic function of each example's logit, as a [4096, 1] array. -/
def out (x : IVec SX 32) (table : FVec Ideal STable .f32) (W : FVec Ideal SW .f32) (b : FVec Ideal SB .f32) :
    FVec Ideal SOut .f32 := fun i =>
  Ideal.div 1 (1 + Ideal.exp (0 - logit x table W b (i 0)))

/-- The stated domain of the claim, program by program the same: every float entry is a real number (neither infinity),
    and every token word, read as a natural number, names a row of the table. -/
structure Dom (x : IVec SX 32) (table : FVec Ideal STable .f32) (W : FVec Ideal SW .f32) (b : FVec Ideal SB .f32) : Prop where
  table_real : ∀ i, ∃ r : ℝ, table i = (r : EReal)
  W_real : ∀ i, ∃ r : ℝ, W i = (r : EReal)
  b_real : ∀ i, ∃ r : ℝ, b i = (r : EReal)
  token_lt : ∀ i, (x i).toNat < 1000000

end Cert.Proof.Spec

end
-- ==== Proof.Domain.lean ====
/-
  From the stated precondition to the domain of the specification.

  The precondition is one bit: the conjunction of four `all`s — |table| < +inf entrywise, |W| < +inf entrywise,
  |b| < +inf entrywise, and 0 ≤ x ≤ 999999 entrywise for the token words read as signed integers.  Each `all` is a
  reduction by `and` over every axis, so the bit being 1 gives the compared fact at every index.  For a float entry
  e, max e (-e) < +inf excludes both infinities, so e is a real number; for a token word w, 0 ≤ w ≤ 999999 read
  signed says the sign bit is clear, so w read as a natural number is the same integer and is below 1000000.
-/
import proofs.«203335_g10582799417878_cont_week2_139_36_alg».proof.Proof.Spec
import proofs.«203335_g10582799417878_cont_week2_139_36_alg».proof.Proof.Gen.Pre_input_domain
import Idealize.ShloMosaic.Lib.ReduceAll
import Idealize.ShloMosaic.Lib.ValueIdx

namespace Cert.Proof.Domain

open Idealize.ShloMosaic Idealize.ShloMosaic.ValueIdx

/-- The scalar shape has one index. -/
instance : Subsingleton Cert.Pre_input_domain.S_.Idx := ⟨fun a b => funext fun d => d.elim0⟩

/-- A 32-bit word between 0 and 999999 read signed is below 1000000 read unsigned. -/
theorem toNat_lt_of_signed (w : BitVec 32) (h0 : (0#32 : BitVec 32).toInt ≤ w.toInt)
    (h1 : w.toInt ≤ (999999#32 : BitVec 32).toInt) : w.toNat < 1000000 := by
  have e0 : (0#32 : BitVec 32).toInt = 0 := by decide
  have e1 : (999999#32 : BitVec 32).toInt = 999999 := by decide
  rw [e0] at h0; rw [e1] at h1
  rw [BitVec.toInt_eq_toNat_cond] at h0 h1
  have := w.isLt
  split at h0 <;> omega

/-- An extended real whose absolute value max e (-e) is below +inf is a real number. -/
theorem real_of_abs_lt_top (e : EReal) (h : max e (-e) < (⊤ : EReal)) : ∃ r : ℝ, e = (r : EReal) := by
  induction e using EReal.rec with
  | bot => simp at h
  | coe r => exact ⟨r, rfl⟩
  | top => simp at h

/-- The f32 pattern 0x7F800000 is +inf. -/
theorem inf_bits : Ideal.ofBits .f32 0x7F800000#32 = (⊤ : EReal) := by
  simp [Ideal.ofBits, Ideal.ieee]

theorem token_lt_of_pre {F : FTy → Type} [FloatOps F] (x : IVec Cert.Proof.Spec.SX 32)
    (table : FVec F Cert.Proof.Spec.STable .f32) (W : FVec F Cert.Proof.Spec.SW .f32)
    (b : FVec F Cert.Proof.Spec.SB .f32)
    (h : Cert.Pre_input_domain.fn (F := F) x table W b = (fun _ => 1#1)) : ∀ i, (x i).toNat < 1000000 := by
  intro i
  have h0 := congrFun h ix0
  dsimp only [Cert.Pre_input_domain.fn, Cert.Pre_input_domain.fn_part1] at h0
  -- the fourth conjunct is the `all` over the token words
  obtain ⟨-, h4⟩ := (IntOp.andi_eq_one (c := _) (d := _)).1 h0
  have e := Host.reduce_andi_all _ _ _ _ _ h4 i
  obtain ⟨ea, eb⟩ := (IntOp.andi_eq_one (c := _) (d := _)).1 e
  exact toNat_lt_of_signed (x i) (IntOp.cmpi_sge.1 ea) (IntOp.cmpi_sle.1 eb)

/-- The ordered comparison `<` of two extended reals, as a bit, is 1 only when the first is below the second. -/
theorem lt_of_cmp_olt (a c : EReal) (h : Ideal.cmp .olt a c = 1#1) : a < c := by
  unfold Ideal.cmp at h
  by_contra hn
  simp [hn] at h

/-- One entry of a float array whose `|·| < +inf` bit is 1 is a real number. -/
theorem real_of_bit (e : EReal) (h : Ideal.cmp .olt (max e (-e)) (Ideal.ofBits .f32 0x7F800000#32) = 1#1) :
    ∃ r : ℝ, e = (r : EReal) :=
  real_of_abs_lt_top e (inf_bits ▸ lt_of_cmp_olt _ _ h)

theorem dom_of_pre (x : IVec Cert.Proof.Spec.SX 32) (table : FVec Ideal Cert.Proof.Spec.STable .f32)
    (W : FVec Ideal Cert.Proof.Spec.SW .f32) (b : FVec Ideal Cert.Proof.Spec.SB .f32)
    (h : Cert.Pre_input_domain.fn (F := Ideal) x table W b = (fun _ => 1#1)) : Cert.Proof.Spec.Dom x table W b := by
  have h0 := congrFun h ix0
  dsimp only [Cert.Pre_input_domain.fn, Cert.Pre_input_domain.fn_part1] at h0
  -- the first three conjuncts are the `all`s over the three float arrays
  obtain ⟨h123, -⟩ := (IntOp.andi_eq_one (c := _) (d := _)).1 h0
  obtain ⟨h12, h3⟩ := (IntOp.andi_eq_one (c := _) (d := _)).1 h123
  obtain ⟨h1, h2⟩ := (IntOp.andi_eq_one (c := _) (d := _)).1 h12
  exact
    { table_real := fun i => real_of_bit (table i) (Host.reduce_andi_all _ _ _ _ _ h1 i)
      W_real := fun i => real_of_bit (W i) (Host.reduce_andi_all _ _ _ _ _ h2 i)
      b_real := fun i => real_of_bit (b i) (Host.reduce_andi_all _ _ _ _ _ h3 i)
      token_lt := token_lt_of_pre x table W b h }

end Cert.Proof.Domain
-- ==== Proof.RefRun.lean ====
/-
  The reference program's run.  @main is a straight line of 41 host operations once its two calls are unfolded
  (the take's 23, among them the where's one select, then @main's own 18), so every weakly fair execution
  terminates, without a fault, with each buffer at the fold of the operations over the launch contents.  The
  fold at the result buffer is the composed term `out` below, and the four arguments are written by no operation.

  The composed term, in the order the program computes it:
    `idx`    the token words with 1000000 added to the negative ones (the where's select), as a [4096,200,1] array;
    `mask`   per token, whether that index lies in [0, 999999] read signed (the reduce by `and` over the last axis);
    `taken`  the gathered table rows [4096,200,64] where the mask holds, a NaN pattern elsewhere;
    `out`    1 / (1 + exp (-( (sum over the 200 tokens of `taken` / 200) · Wᵀ + b ))).
-/
import proofs.«203335_g10582799417878_cont_week2_139_36_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The start indices of the gather: a negative token word has 1000000 added, then a unit axis is appended. -/
abbrev idx (x : IVec S4096x200 32) : IVec S4096x200x1 32 :=
  broadcastInDim S4096x200x1 ![0, 1] bcast_S4096x200_S4096x200x1_0_1
    (select (cmpi .slt x (broadcastInDim S4096x200 ![] bcast_S_S4096x200 (constantI S_ 32 0#32)))
      (addi x (broadcastInDim S4096x200 ![] bcast_S_S4096x200 (constantI S_ 32 1000000#32))) x)

/-- Per token: is its start index in [0, 999999], read signed. -/
abbrev mask (x : IVec S4096x200 32) : IVec S4096x200 1 :=
  Host.reduce IntOp.andi
    (andi (cmpi .sge (idx x) (broadcastInDim S4096x200x1 ![] bcast_S_S4096x200x1 (constantI S_ 32 0#32)))
      (cmpi .sle (idx x) (broadcastInDim S4096x200x1 ![0, 1, 2] bcast_S1x1x1_S4096x200x1_0_1_2
        (broadcastInDim S1x1x1 ![2] bcast_S1_S1x1x1_2 (constantI S1 32 999999#32)))))
    (constantI S_ 1 1#1) reducesTo_S4096x200x1_S4096x200_d2 h_S_

/-- The embedded tokens: the gathered rows where the index is in range, the NaN pattern elsewhere. -/
abbrev taken (x : IVec S4096x200 32) (table : FVec F S1000000x64 .f32) : FVec F S4096x200x64 .f32 :=
  select (broadcastInDim S4096x200x64 ![0, 1] bcast_S4096x200_S4096x200x64_0_1 (mask x))
    (Host.gather gather_S1000000x64_S4096x200x1_S4096x200x64_2_0_n_n_0_2_164 table (idx x))
    (broadcastInDim S4096x200x64 ![] bcast_S_S4096x200x64 (constant S_ .f32 0x7FC00000#32))

/-- The mean over the 200 tokens of the embedded rows, [4096,64]. -/
abbrev mean (x : IVec S4096x200 32) (table : FVec F S1000000x64 .f32) : FVec F S4096x64 .f32 :=
  Host.divf (Host.reduceAdd (taken x table) (constant S_ .f32 0x00000000#32) reducesTo_S4096x200x64_S4096x64_d1 h_S_)
    (broadcastInDim S4096x64 ![] bcast_S_S4096x64 (constant S_ .f32 0x43480000#32))

/-- The affine form of the mean: mean · Wᵀ + b, [4096,1]. -/
abbrev affine (x : IVec S4096x200 32) (table : FVec F S1000000x64 .f32) (W : FVec F S1x64 .f32) (b : FVec F S1 .f32) :
    FVec F S4096x1 .f32 :=
  addf (Host.dotGeneral dot_S4096x64_S64x1_S4096x1_1_0_0_1_n_n none (mean x table)
      (transpose S64x1 [1, 0] W transposes_S1x64_S64x1_1_0))
    (broadcastInDim S4096x1 ![0, 1] bcast_S1x1_S4096x1_0_1 (broadcastInDim S1x1 ![1] bcast_S1_S1x1_1 b))

/-- The result: 1 / (1 + exp (-affine)). -/
abbrev out (x : IVec S4096x200 32) (table : FVec F S1000000x64 .f32) (W : FVec F S1x64 .f32) (b : FVec F S1 .f32) :
    FVec F S4096x1 .f32 :=
  Host.divf (broadcastInDim S4096x1 ![] bcast_S_S4096x1 (constant S_ .f32 0x3F800000#32))
    (addf (broadcastInDim S4096x1 ![] bcast_S_S4096x1 (constant S_ .f32 0x3F800000#32))
      (Host.exp (Host.negf (affine x table W b))))

/-- @main's 41 operations in order, the two calls unfolded: the take's into the buffers of `main_call0` (the where's
    select into `main_call0.call0`'s, the take's last select into `main_v0`), then @main's own. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S1000000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    nullary main_cst (constant S_ .f32 0x00000000#32),
    binary main_v0 main_cst main_v1 ((fun x v => Host.reduceAdd x v reducesTo_S4096x200x64_S4096x64_d1 h_S_) : (⟨S4096x200x64, .f32⟩ : BufTy).Contents (Elt F) → (⟨S_, .f32⟩ : BufTy).Contents (Elt F) → (⟨S4096x64, .f32⟩ : BufTy).Contents (Elt F)),
    nullary main_cst_0 (constant S_ .f32 0x43480000#32),
    unary main_cst_0 main_v2 (broadcastInDim S4096x64 ![] bcast_S_S4096x64 : (⟨S_, .f32⟩ : BufTy).Contents (Elt F) → (⟨S4096x64, .f32⟩ : BufTy).Contents (Elt F)),
    binary main_v1 main_v2 main_v3 (Host.divf : (⟨S4096x64, .f32⟩ : BufTy).Contents (Elt F) → (⟨S4096x64, .f32⟩ : BufTy).Contents (Elt F) → (⟨S4096x64, .f32⟩ : BufTy).Contents (Elt F)),
    unary main_arg2 main_v4 ((transpose S64x1 [1, 0] · transposes_S1x64_S64x1_1_0) : (⟨S1x64, .f32⟩ : BufTy).Contents (Elt F) → (⟨S64x1, .f32⟩ : BufTy).Contents (Elt F)),
    binary main_v3 main_v4 main_v5 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_arg3 main_v6 (broadcastInDim S1x1 ![1] bcast_S1_S1x1_1 : (⟨S1, .f32⟩ : BufTy).Contents (Elt F) → (⟨S1x1, .f32⟩ : BufTy).Contents (Elt F)),
    unary main_v6 main_v7 (broadcastInDim S4096x1 ![0, 1] bcast_S1x1_S4096x1_0_1 : (⟨S1x1, .f32⟩ : BufTy).Contents (Elt F) → (⟨S4096x1, .f32⟩ : BufTy).Contents (Elt F)),
    binary main_v5 main_v7 main_v8 (addf : (⟨S4096x1, .f32⟩ : BufTy).Contents (Elt F) → (⟨S4096x1, .f32⟩ : BufTy).Contents (Elt F) → (⟨S4096x1, .f32⟩ : BufTy).Contents (Elt F)),
    unary main_v8 main_v9 (Host.negf : (⟨S4096x1, .f32⟩ : BufTy).Contents (Elt F) → (⟨S4096x1, .f32⟩ : BufTy).Contents (Elt F)),
    unary main_v9 main_v10 (Host.exp : (⟨S4096x1, .f32⟩ : BufTy).Contents (Elt F) → (⟨S4096x1, .f32⟩ : BufTy).Contents (Elt F)),
    nullary main_cst_1 (constant S_ .f32 0x3F800000#32),
    unary main_cst_1 main_v11 (broadcastInDim S4096x1 ![] bcast_S_S4096x1 : (⟨S_, .f32⟩ : BufTy).Contents (Elt F) → (⟨S4096x1, .f32⟩ : BufTy).Contents (Elt F)),
    binary main_v11 main_v10 main_v12 (addf : (⟨S4096x1, .f32⟩ : BufTy).Contents (Elt F) → (⟨S4096x1, .f32⟩ : BufTy).Contents (Elt F) → (⟨S4096x1, .f32⟩ : BufTy).Contents (Elt F)),
    nullary main_cst_2 (constant S_ .f32 0x3F800000#32),
    unary main_cst_2 main_v13 (broadcastInDim S4096x1 ![] bcast_S_S4096x1 : (⟨S_, .f32⟩ : BufTy).Contents (Elt F) → (⟨S4096x1, .f32⟩ : BufTy).Contents (Elt F)),
    binary main_v13 main_v12 main_v14 (Host.divf : (⟨S4096x1, .f32⟩ : BufTy).Contents (Elt F) → (⟨S4096x1, .f32⟩ : BufTy).Contents (Elt F) → (⟨S4096x1, .f32⟩ : BufTy).Contents (Elt F)) ]

-- forty-one binds re-associated under one chain
set_option maxRecDepth 1024 in
/-- @main is that straight line: the two functions' bodies unfolded at their calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..⟩

attribute [local irreducible] Host.reduce Host.gather Host.reduceAdd in
set_option maxRecDepth 8192 in
/-- The fold at the result buffer is the composed term: each operation's result read at its own buffer is its function
    of the operands' contents, and every other buffer keeps what it held.  (What is left after the results are read is
    the same term up to the typed references' transports, which are the identity at these literal references; the
    reductions and the gather are kept folded meanwhile, the equation never looks inside them.) -/
theorem out_eq (V : Valuation τ sig (Elt F)) :
    after ops V (main_v14 : DevRef τ sig)
      = out (V (main_arg0 : DevRef τ sig)) (V (main_arg1 : DevRef τ sig)) (V (main_arg2 : DevRef τ sig))
          (V (main_arg3 : DevRef τ sig)) := by
  after_results_simp
  rfl

/-- No operation writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of @main
    terminates, without a fault, with the result buffer at the composed term of the four arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.Proof.RefRun

end
-- ==== Proof.RefGather.lean ====
/-
  The reference's gather read at an index.  The operand is the table [1000000,64], the start indices the array
  [4096,200,1] (one component per token: a table row), the result [4096,200,64]: axis 0 of the operand is collapsed
  (slice size 1) and addressed by the start index, axis 1 is the offset axis 2 of the result (slice size 64).  So the
  result at (r, s, d) is the table at (the start index of token (r, s), read signed and clamped into [0, 999999]; d).
-/
import proofs.«203335_g10582799417878_cont_week2_139_36_alg».proof.Proof.Gen.ReferenceIdeal
import Idealize.ShloMosaic.Lib.ValueIdx

noncomputable section

namespace Cert.Proof.RefGather

open Cert.ReferenceIdeal Cert.ReferenceIdeal.Gen Idealize.ShloMosaic Idealize.ShloMosaic.ValueIdx

/-- The gather's dimension numbers, by a short name. -/
abbrev D : GatherDims S1000000x64 S4096x200x1 S4096x200x64 := gather_S1000000x64_S4096x200x1_S4096x200x64_2_0_n_n_0_2_164

/-- THE GATHER READ AT `(r, s, d)`: the table's row named by token `(r, s)`'s start index (read signed, clamped into
    [0, 999999]) at column `d`. -/
theorem gather_apply {α : Type} (x : S1000000x64.Idx → α) (idx : IVec S4096x200x1 32) (r : Fin 4096) (s : Fin 200)
    (d : Fin 64) :
    Host.gather D x idx (ix3 r s d)
      = x (ix2 (⟨min (idx (ix3 r s 0)).toInt.toNat 999999, by omega⟩ : Fin 1000000) d) := by
  unfold Host.gather
  congr 1
  funext a
  refine Fin.ext ?_
  show D.start (ix3 r s d) idx a + D.batchCoord (ix3 r s d) a + D.offCoord (ix3 r s d) a = _
  rw [GatherDims.batchCoord_eq_zero _ _ _ List.not_mem_nil, Nat.add_zero]
  match a with
  | ⟨0, h0⟩ =>
    -- the collapsed axis: no offset coordinate; the start is the clamped start index
    have hmem : (⟨0, h0⟩ : Fin S1000000x64.rank) ∈ D.startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hmem]
    have hsi : D.siIdx (ix3 r s d) ⟨List.idxOf (⟨0, h0⟩ : Fin S1000000x64.rank) D.startIndexMap,
        List.idxOf_lt_length_iff.2 hmem⟩ = ix3 r s 0 := by
      funext b; refine Fin.ext ?_
      match b with
      | ⟨0, _⟩ => rfl
      | ⟨1, _⟩ => rfl
      | ⟨2, _⟩ => rfl
    rw [hsi]
    rfl
  | ⟨1, h1⟩ =>
    -- the offset axis: the start index map does not name it, its coordinate is the result's on axis 2
    have hnot : ¬ (⟨1, h1⟩ : Fin S1000000x64.rank) ∈ D.startIndexMap :=
      (by decide : ¬ (⟨1, by decide⟩ : Fin S1000000x64.rank) ∈ D.startIndexMap)
    have hkept : (⟨1, h1⟩ : Fin S1000000x64.rank) ∈ D.sKept :=
      (by decide : (⟨1, by decide⟩ : Fin S1000000x64.rank) ∈ D.sKept)
    unfold GatherDims.start
    rw [dif_neg hnot, Nat.zero_add]
    unfold GatherDims.offCoord
    rw [dif_pos hkept]
    rfl

end Cert.Proof.RefGather

end
-- ==== Proof.RefTaken.lean ====
/-
  The take, read at an index, on the stated domain (every token word below 1000000 read as a natural number).

  Such a word has its sign bit clear, so read signed it is the same nonnegative integer.  Then the where's select keeps
  the word (it is not negative, so 1000000 is not added); the range mask is 1 at every token (0 ≤ word ≤ 999999 read
  signed, and a reduction by `and` of ones from one is one); and the gather's clamp into [0, 999999] is the identity.
  So the embedded token (r, s) at column d is the table at (row of the word x[r, s]; d), and the NaN branch of the
  take's last select is never taken.
-/
import proofs.«203335_g10582799417878_cont_week2_139_36_alg».proof.Proof.RefRun
import proofs.«203335_g10582799417878_cont_week2_139_36_alg».proof.Proof.RefGather
import proofs.«203335_g10582799417878_cont_week2_139_36_alg».proof.Proof.Spec
import Idealize.ShloMosaic.Lib.ReduceAll
import Idealize.ShloMosaic.Lib.ValueIdx

noncomputable section

namespace Cert.Proof.RefTaken

open Cert.ReferenceIdeal Cert.ReferenceIdeal.Gen Idealize.ShloMosaic Idealize.ShloMosaic.ValueIdx

section Broadcasts
variable {α : Type}

/-- Appending a unit axis: the [4096,200,1] array at (r, s, k) is the [4096,200] one at (r, s). -/
theorem bcast_unit_axis (y : S4096x200.Idx → α) (r : Fin 4096) (s : Fin 200) (k : Fin 1) :
    broadcastInDim S4096x200x1 ![0, 1] bcast_S4096x200_S4096x200x1_0_1 y (ix3 r s k) = y (ix2 r s) := by
  unfold broadcastInDim
  congr 1
  funext a
  match a with
  | ⟨0, _⟩ => rfl
  | ⟨1, _⟩ => rfl

/-- Broadcasting along the columns: the [4096,200,64] array at (r, s, d) is the [4096,200] one at (r, s). -/
theorem bcast_cols (y : S4096x200.Idx → α) (r : Fin 4096) (s : Fin 200) (d : Fin 64) :
    broadcastInDim S4096x200x64 ![0, 1] bcast_S4096x200_S4096x200x64_0_1 y (ix3 r s d) = y (ix2 r s) := by
  unfold broadcastInDim
  congr 1
  funext a
  match a with
  | ⟨0, _⟩ => rfl
  | ⟨1, _⟩ => rfl

end Broadcasts

/-- A 32-bit word below 1000000 read unsigned is the same integer read signed. -/
theorem toInt_eq_toNat (w : BitVec 32) (h : w.toNat < 1000000) : w.toInt = (w.toNat : Int) :=
  BitVec.toInt_eq_toNat_of_lt (by omega)

/-- A left fold by `and` from 1 over ones is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

section
variable (x : IVec S4096x200 32) (hx : ∀ i, (x i).toNat < 1000000)
include hx

/-- The start index of token (r, s) is its word: the word is not negative, so the where's select keeps it. -/
theorem idx_apply (r : Fin 4096) (s : Fin 200) (k : Fin 1) : RefRun.idx x (ix3 r s k) = x (ix2 r s) := by
  have hc : IntOp.cmpi .slt (x (ix2 r s)) 0#32 = 0#1 := by
    refine eq_zero_of_ne_one fun h1 => ?_
    have h2 := IntOp.cmpi_slt.1 h1
    rw [toInt_eq_toNat _ (hx _)] at h2
    have e0 : (0#32 : BitVec 32).toInt = 0 := by decide
    omega
  unfold RefRun.idx
  rw [bcast_unit_axis]
  show Scalar.select (IntOp.cmpi .slt (x (ix2 r s)) 0#32) _ (x (ix2 r s)) = _
  rw [hc, select_zero]

/-- The range mask is 1 at every token. -/
theorem mask_apply (j : S4096x200.Idx) : RefRun.mask x j = 1#1 := by
  show Host.reduce IntOp.andi _ _ _ _ j = 1#1
  rw [Host.reduce_eq_foldl]
  refine foldl_andi_one _ _ fun i _ => ?_
  obtain ⟨r, s, k, rfl⟩ : ∃ r s k, i = ix3 r s k := ⟨i 0, i 1, i 2, eq_ix3 i⟩
  show IntOp.andi (IntOp.cmpi .sge (RefRun.idx x (ix3 r s k)) 0#32)
    (IntOp.cmpi .sle (RefRun.idx x (ix3 r s k)) 999999#32) = 1#1
  rw [idx_apply x hx]
  have e0 : (0#32 : BitVec 32).toInt = 0 := by decide
  have e1 : (999999#32 : BitVec 32).toInt = 999999 := by decide
  have hlt := hx (ix2 r s)
  refine IntOp.andi_eq_one.2 ⟨IntOp.cmpi_sge.2 ?_, IntOp.cmpi_sle.2 ?_⟩
  · rw [toInt_eq_toNat _ hlt, e0]; omega
  · rw [toInt_eq_toNat _ hlt, e1]; omega

/-- THE EMBEDDED TOKEN (r, s) at column d: the table at (the row its word names; d). -/
theorem taken_apply {F : FTy → Type} [FloatOps F] (table : FVec F S1000000x64 .f32) (r : Fin 4096) (s : Fin 200)
    (d : Fin 64) :
    RefRun.taken x table (ix3 r s d) = table (ix2 (Spec.row (x (ix2 r s))) d) := by
  show Scalar.select (broadcastInDim S4096x200x64 ![0, 1] bcast_S4096x200_S4096x200x64_0_1 (RefRun.mask x) (ix3 r s d))
    (Host.gather RefGather.D table (RefRun.idx x) (ix3 r s d)) _ = _
  rw [bcast_cols, mask_apply x hx, select_one, RefGather.gather_apply]
  -- the clamp is the identity: the start index is the word, which read signed is itself, below 1000000
  have e : (x (ix2 r s)).toInt.toNat = (x (ix2 r s)).toNat := by
    rw [toInt_eq_toNat _ (hx _)]; exact Int.toNat_natCast _
  have hrow : (⟨min (RefRun.idx x (ix3 r s 0)).toInt.toNat 999999, by omega⟩ : Fin 1000000)
      = Spec.row (x (ix2 r s)) :=
    Fin.ext (by show min _ _ = min _ _; rw [idx_apply x hx, e])
  rw [hrow]

end

end Cert.Proof.RefTaken

end
-- ==== Proof.RefConsts.lean ====
/-
  The float constants the reference spells, as the extended reals their f32 patterns denote:
  0x00000000 is 0, 0x43480000 is 200 (sign 0, exponent 134, fraction 0x480000: 1.5625 · 2^7), 0x3F800000 is 1.
-/
import proofs.«203335_g10582799417878_cont_week2_139_36_alg».proof.Proof.Domain

noncomputable section

namespace Cert.Proof.RefConsts

open Idealize.ShloMosaic

/-- `+0.0` denotes 0. -/
theorem ofBits_zero : Ideal.ofBits .f32 0x00000000#32 = 0 := by
  simp [Ideal.ofBits, Ideal.ieee]

/-- `200.0`, the reference's divisor (the number of tokens per example), denotes the real 200. -/
theorem ofBits_200 : Ideal.ofBits .f32 0x43480000#32 = ((200 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

end Cert.Proof.RefConsts

end
-- ==== Proof.SumLaw.lean ====
/-
  The law that joins the reference's mean-then-affine to the specification's sum of scaled scores, for real entries.

  For one example with embedded rows T[s, ·] (s over its 200 tokens), weights w and bias b:
      Σ_d ((0 + Σ_s T[s,d]) · (1/200)) · w[d]  +  b   =   Σ_s ((Σ_d w[d] · T[s,d]) + b) · (1/200).
  Both sides are (1/200) · Σ_s Σ_d w[d] · T[s,d] + b: the affine form is linear in the row, and the bias, scaled by
  1/200 and summed over the 200 tokens, is the bias.  Stated over the extended reals at real entries, where the
  coercion commutes with finite sums, products and sums of two.
-/
import Idealize.ShloMosaic.PureOps.Ideal

noncomputable section

open scoped BigOperators

namespace Cert.Proof.SumLaw

/-- The coercion of the reals into the extended reals commutes with a finite sum. -/
theorem coe_sum {ι : Type*} (s : Finset ι) (f : ι → ℝ) : ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-- The law over the reals. -/
theorem mean_affine_real (T : Fin 200 → Fin 64 → ℝ) (w : Fin 64 → ℝ) (b : ℝ) :
    (∑ d : Fin 64, ((∑ s : Fin 200, T s d) * (1 / 200)) * w d) + b
      = ∑ s : Fin 200, ((∑ d : Fin 64, w d * T s d) + b) * (1 / 200) := by
  simp only [add_mul, Finset.sum_add_distrib, Finset.sum_const, Finset.card_univ, Fintype.card_fin, nsmul_eq_mul]
  have hb : ((200 : ℕ) : ℝ) * (b * (1 / 200)) = b := by push_cast; ring
  rw [hb]
  congr 1
  simp only [Finset.sum_mul]
  rw [Finset.sum_comm]
  exact Finset.sum_congr rfl fun s _ => Finset.sum_congr rfl fun d _ => by ring

/-- The law over the extended reals at real entries, in the shape the two programs' terms have (the reference's
    reduction starts from the constant 0). -/
theorem mean_affine (T : Fin 200 → Fin 64 → ℝ) (w : Fin 64 → ℝ) (b : ℝ) :
    (∑ d : Fin 64, (((0 : EReal) + ∑ s : Fin 200, ((T s d : ℝ) : EReal)) * ((1 / 200 : ℝ) : EReal)) * ((w d : ℝ) : EReal))
        + ((b : ℝ) : EReal)
      = ∑ s : Fin 200, ((∑ d : Fin 64, ((w d : ℝ) : EReal) * ((T s d : ℝ) : EReal)) + ((b : ℝ) : EReal))
          * ((1 / 200 : ℝ) : EReal) := by
  simp only [zero_add, ← coe_sum, ← EReal.coe_mul, ← EReal.coe_add]
  exact congrArg _ (mean_affine_real T w b)

end Cert.Proof.SumLaw

end
-- ==== Proof.RefValue.lean ====
/-
  The reference's composed term IS the specification, at the ideal values and on the stated domain.

  Read index by index: the embedded token (r, s) at column d is the table entry at (row of x[r, s]; d); the host sum
  over the 200 tokens starts from the constant 0; dividing by the constant 200 is multiplying by the real 1/200; the
  dot_general against the transposed weights is the sum over the 64 columns of mean · W[0, d]; then the bias.  That is
  the mean-then-affine form, and the specification's logit is the sum over the tokens of the scaled scores: the two
  agree because every entry is a real number (this is where finiteness is used: the extended reals do not distribute
  at the infinities), by the law of the sum module.  The rest is entrywise: negate, exponential, 1 +, 1 /, with the
  constant 1.0 read as 1 and 0 - z as -z.
-/
import proofs.«203335_g10582799417878_cont_week2_139_36_alg».proof.Proof.RefTaken
import proofs.«203335_g10582799417878_cont_week2_139_36_alg».proof.Proof.RefConsts
import proofs.«203335_g10582799417878_cont_week2_139_36_alg».proof.Proof.SumLaw
import Idealize.ShloMosaic.PureOps.Ideal.Laws
import Idealize.ShloMosaic.Lib.ValueLayout

noncomputable section

open scoped BigOperators

namespace Cert.Proof.RefValue

open Cert.ReferenceIdeal Cert.ReferenceIdeal.Gen Idealize.ShloMosaic Idealize.ShloMosaic.ValueIdx

/-- The dot_general's dimension numbers, by a short name: [4096,64] · [64,1], contracting the 64. -/
abbrev Dd : DotDims S4096x64 S64x1 S4096x1 := dot_S4096x64_S64x1_S4096x1_1_0_0_1_n_n

/-- The contraction index is its one coordinate, a column of the table. -/
def colEquiv : Dd.contr.Idx ≃ Fin 64 := contrEquiv1 Dd 64 rfl rfl

/-- The index the host sum over the token axis inserts: (r, d) and token s give (r, s, d). -/
theorem lift_eq (h : S4096x200x64.Reduces [1] S4096x64) (r : Fin 4096) (d : Fin 64) (s : Fin 200) :
    h.lift (ix2 r d) s = ix3 r s d := by
  funext a
  refine Fin.ext ?_
  match a with
  | ⟨0, _⟩ => rfl
  | ⟨1, _⟩ => rfl
  | ⟨2, _⟩ => rfl

/-- The bias, broadcast to [4096,1], is b[0] everywhere. -/
theorem bias_apply {α : Type} (b : S1.Idx → α) (r : Fin 4096) (k : Fin 1) :
    broadcastInDim S4096x1 ![0, 1] bcast_S1x1_S4096x1_0_1 (broadcastInDim S1x1 ![1] bcast_S1_S1x1_1 b) (ix2 r k)
      = b (ix1 0) := by
  unfold broadcastInDim
  congr 1
  funext a
  match a with
  | ⟨0, _⟩ => rfl

/-- The left operand of the dot_general is read at (r, d) … -/
theorem lhsIdx_eq (r : Fin 4096) (k : Fin 1) (d : Fin 64) : Dd.lhsIdx (ix2 r k) (colEquiv.symm d) = ix2 r d := by
  funext a
  refine Fin.ext ?_
  match a with
  | ⟨0, _⟩ => rfl
  | ⟨1, _⟩ => exact contrEquiv1_symm_val Dd 64 rfl rfl d

/-- … and the transposed weights at (d, k), which is W[0, d]. -/
theorem rhs_eq {α : Type} (W : S1x64.Idx → α) (r : Fin 4096) (k : Fin 1) (d : Fin 64) :
    transpose S64x1 [1, 0] W transposes_S1x64_S64x1_1_0 (Dd.rhsIdx (ix2 r k) (colEquiv.symm d)) = W (ix2 0 d) := by
  unfold transpose
  congr 1
  funext a
  refine Fin.ext ?_
  have e1 : ∀ q : Fin 1, q.val = 0 := fun q => Fin.val_eq_zero q
  match a with
  | ⟨0, _⟩ => exact (e1 _).trans (e1 _).symm
  | ⟨1, _⟩ => exact contrEquiv1_symm_val Dd 64 rfl rfl d

/-! ## The three stages over an arbitrary operand array (so that no step looks inside the take) -/

/-- The mean stage at (r, d), for any [4096,200,64] array: the sum from 0 over the 200 tokens, times 1/200 (the host
    sum over one axis is the initial value plus the sum over that axis's coordinates; dividing by the real 200 is
    multiplying by 1/200). -/
theorem mean_of (Tk : FVec Ideal S4096x200x64 .f32) (r : Fin 4096) (d : Fin 64) (g : Fin 200 → EReal)
    (hg : ∀ s, Tk (ix3 r s d) = g s) :
    Host.divf (Host.reduceAdd Tk (constant S_ .f32 0x00000000#32) reducesTo_S4096x200x64_S4096x64_d1 h_S_)
        (broadcastInDim S4096x64 ![] bcast_S_S4096x64 (constant S_ .f32 0x43480000#32)) (ix2 r d)
      = (0 + ∑ s : Fin 200, g s) * ((1 / 200 : ℝ) : EReal) := by
  have hR : S4096x200x64.Reduces [1] S4096x64 := by decide
  show Ideal.div (Ideal.hostReduceAdd reducesTo_S4096x200x64_S4096x64_d1 Tk (Ideal.ofBits .f32 0x00000000#32) (ix2 r d))
    (Ideal.ofBits .f32 0x43480000#32) = _
  rw [RefConsts.ofBits_200, Ideal.div_coe (by norm_num), Ideal.hostReduceAdd_single _ hR, RefConsts.ofBits_zero]
  refine congrArg (· * _) (congrArg (0 + ·) (Finset.sum_congr rfl fun s _ => ?_))
  exact (congrArg Tk (lift_eq hR r d s)).trans (hg s)

/-- The affine stage at (r, k), for any [4096,64] array M: the sum over the 64 columns of M[r, d] · W[0, d], plus b[0]
    (the dot_general is the sum over its contraction index, re-indexed by the column). -/
theorem affine_of (M : FVec Ideal S4096x64 .f32) (W : FVec Ideal S1x64 .f32) (b : FVec Ideal S1 .f32) (r : Fin 4096)
    (k : Fin 1) :
    addf (Host.dotGeneral Dd none M (transpose S64x1 [1, 0] W transposes_S1x64_S64x1_1_0))
        (broadcastInDim S4096x1 ![0, 1] bcast_S1x1_S4096x1_0_1 (broadcastInDim S1x1 ![1] bcast_S1_S1x1_1 b)) (ix2 r k)
      = (∑ d : Fin 64, M (ix2 r d) * W (ix2 0 d)) + b (ix1 0) := by
  show FloatOps.dotGeneral Dd none .single M (transpose S64x1 [1, 0] W transposes_S1x64_S64x1_1_0) (ix2 r k)
    + broadcastInDim S4096x1 ![0, 1] bcast_S1x1_S4096x1_0_1 (broadcastInDim S1x1 ![1] bcast_S1_S1x1_1 b) (ix2 r k) = _
  rw [Ideal.dotGeneral_apply, bias_apply, ← Equiv.sum_comp colEquiv.symm]
  refine congrArg (· + _) (Finset.sum_congr rfl fun d _ => ?_)
  exact congrArg₂ (· * ·) (congrArg M (lhsIdx_eq r k d)) (rhs_eq W r k d)

/-- The logistic stage at an index, for any [4096,1] array A: 1 / (1 + exp (-A)), the constant 1.0 read as 1. -/
theorem logistic_of (A : FVec Ideal S4096x1 .f32) (i : S4096x1.Idx) :
    Host.divf (broadcastInDim S4096x1 ![] bcast_S_S4096x1 (constant S_ .f32 0x3F800000#32))
        (addf (broadcastInDim S4096x1 ![] bcast_S_S4096x1 (constant S_ .f32 0x3F800000#32)) (Host.exp (Host.negf A))) i
      = Ideal.div 1 (1 + Ideal.exp (-(A i))) := by
  show Ideal.div (Ideal.ofBits .f32 0x3F800000#32) (Ideal.ofBits .f32 0x3F800000#32 + Ideal.exp (-(A i))) = _
  rw [RefConsts.ofBits_one]

/-! ## The reference's term -/

section
variable (x : IVec S4096x200 32) (table : FVec Ideal S1000000x64 .f32) (W : FVec Ideal S1x64 .f32)
  (b : FVec Ideal S1 .f32)

/-- The mean over the tokens at (r, d): the sum from 0 of the 200 embedded entries, times 1/200. -/
theorem mean_apply (hx : ∀ i, (x i).toNat < 1000000) (r : Fin 4096) (d : Fin 64) :
    RefRun.mean (F := Ideal) x table (ix2 r d)
      = (0 + ∑ s : Fin 200, table (ix2 (Spec.row (x (ix2 r s))) d)) * ((1 / 200 : ℝ) : EReal) := by
  exact mean_of (RefRun.taken x table) r d (fun s => table (ix2 (Spec.row (x (ix2 r s))) d))
    (fun s => RefTaken.taken_apply x hx table r s d)

/-- THE AFFINE FORM OF THE MEAN at example r is the specification's logit: the sum of the tokens' scaled scores. -/
theorem affine_apply (dom : Spec.Dom x table W b) (r : Fin 4096) (k : Fin 1) :
    RefRun.affine (F := Ideal) x table W b (ix2 r k) = Spec.logit x table W b r := by
  have hx := dom.token_lt
  choose tr htr using dom.table_real
  choose wr hwr using dom.W_real
  choose br hbr using dom.b_real
  refine (affine_of (RefRun.mean x table) W b r k).trans ?_
  simp only [mean_apply x table hx]
  unfold Spec.logit Spec.score
  simp only [htr, hwr, hbr]
  exact SumLaw.mean_affine (fun s d => tr (ix2 (Spec.row (x (ix2 r s))) d)) (fun d => wr (ix2 0 d)) (br (ix1 0))

/-- THE REFERENCE'S TERM IS THE SPECIFICATION. -/
theorem out_eq (dom : Spec.Dom x table W b) : RefRun.out (F := Ideal) x table W b = Spec.out x table W b := by
  funext i
  obtain ⟨r, k, rfl⟩ : ∃ r k, i = ix2 r k := ⟨i 0, i 1, eq_ix2 i⟩
  refine (logistic_of (RefRun.affine x table W b) (ix2 r k)).trans ?_
  rw [affine_apply x table W b dom]
  show _ = Ideal.div 1 (1 + Ideal.exp (0 - Spec.logit x table W b r))
  rw [zero_sub]

end

end Cert.Proof.RefValue

end
-- ==== Proof.RefSide.lean ====
/-
  The reference side of the certificate, as one statement: under the stated precondition every weakly fair execution
  of the reference program terminates, without a fault, with its result buffer holding the specification's function of
  the four argument arrays, and the argument arrays unchanged.

  It is the run of the program (its result buffer at the composed term of the arguments), the decoding of the
  precondition into the domain (every float entry a real number, every token word a row of the table), and, on that
  domain, the composed term read index by index as the specification.  The frame claim keeps the unchanged arguments.
-/
import proofs.«203335_g10582799417878_cont_week2_139_36_alg».proof.Defs
import proofs.«203335_g10582799417878_cont_week2_139_36_alg».proof.Proof.Gen.ReferenceIdeal
import proofs.«203335_g10582799417878_cont_week2_139_36_alg».proof.Proof.Gen.Pre_input_domain
import proofs.«203335_g10582799417878_cont_week2_139_36_alg».proof.Proof.Domain
import proofs.«203335_g10582799417878_cont_week2_139_36_alg».proof.Proof.RefRun
import proofs.«203335_g10582799417878_cont_week2_139_36_alg».proof.Proof.RefValue

noncomputable section

namespace Cert.Proof.RefSide

open Idealize.ShloMosaic Idealize.SL.Sem

/-- Under the precondition, the reference runs to the specification of its arguments and leaves them unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v14)
          = Cert.Proof.Spec.out (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono
    (fun _ h c => ⟨(h c).1.trans (RefValue.out_eq _ _ _ _ (Domain.dom_of_pre _ _ _ _ (hpre c))), (h c).2⟩)
    (RefRun.run (F := Ideal) m g)

/-- The reference's frame: it runs, and its argument arrays end unchanged. -/
theorem frame : Cert.frame_ReferenceIdeal :=
  fun m g hpre => (θ_run _ _ _).mono (fun _ h c => (h c).2) (run m g hpre)

end Cert.Proof.RefSide

end
-- ==== Proof.Claims.lean ====
/-
  The claims, assembled.  The kernel program's proof has two halves still stated apart — the subcores' task and @main on
  the TensorCore — and they enter here as hypotheses, for every launch memory the precondition admits: at the word-level
  instance with nothing said of the result's values, at the ideal instance with the result array at the specification of the
  four arguments.  From them: both frame claims of the kernel, the reference's, the sanctioned renaming of the constant
  1/200, and the algebraic claim — the kernel's result and the reference's are the same function of the arguments.
-/
import proofs.«203335_g10582799417878_cont_week2_139_36_alg».proof.Proof.Run
import proofs.«203335_g10582799417878_cont_week2_139_36_alg».proof.Proof.RunK
import proofs.«203335_g10582799417878_cont_week2_139_36_alg».proof.Proof.RefSide

noncomputable section

namespace Cert.Proof.Claims

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## The two halves of the kernel's proof, as hypotheses -/

/-- At the word-level instance: for every admissible launch memory there are contents of the re-laid tokens and of the
    scores, and a result function, for which the subcores' task is proved and @main on the TensorCore runs to the four
    arguments unchanged and the result array at anything. -/
def WordHalves : Prop :=
  ∀ (m : (ℓ : Loc Cert.Kernel.nD Cert.Kernel.τ Cert.Kernel.sig) → Buf (Elt Bits) ℓ) (ρ : Dev Cert.Kernel.nD → PrngReg), Cert.Pre_Kernel m →
    ∃ (xtF : (d : Dev Cert.Kernel.nD) → Buf (Elt Bits) (KB.xtLoc d)) (tF : (d : Dev Cert.Kernel.nD) → Buf (Elt Bits) (KB.tLoc d)) (nG : ℕ)
      (oF : (d : Dev Cert.Kernel.nD) → Buf (Elt Bits) (KB.tLoc d) → Buf (Elt Bits) (KB.oLoc d)),
      (KB.K (F := Bits)).TileObl (KB.D (F := Bits)) KB.𝒱 (KB.P xtF tF nG oF) KB.v₀ 0
      ∧ ∀ (κ : GSem Cert.Kernel.nD Cert.Kernel.τ Cert.Kernel.sig → ℕ) (d : Dev Cert.Kernel.nD),
        iprop((KB.K (F := Bits)).ctx KB.EH (KB.P xtF tF nG oF) κ ∗ (KB.K (F := Bits)).tcSt KB.EH d 0 ∗ (KB.K (F := Bits)).tcRes m ρ d ∗ KB.G (F := Bits) d)
          ⊢ wp frame (wpE ((KB.K (F := Bits)).defs (KB.D (F := Bits))) KB.𝒱 (SparseCore.T d) none) Set.univ (Cert.Kernel.main d)
              fun _ => iprop((KB.K (F := Bits)).tcSt KB.EH d 1 ∗ KB.FIN m (fun _ _ => True) d)

/-- What the result array holds at the ideal instance: the specification of the four arguments as launched. -/
def specOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v6) :=
  Cert.Proof.Spec.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

/-- At the ideal instance: the same, with the result array at the specification of the arguments. -/
def IdealHalves : Prop :=
  ∀ (m : (ℓ : Loc Cert.KernelIdeal.nD Cert.KernelIdeal.τ Cert.KernelIdeal.sig) → Buf (Elt Ideal) ℓ) (ρ : Dev Cert.KernelIdeal.nD → PrngReg), Cert.Pre_KernelIdeal m →
    ∃ (xtF : (d : Dev Cert.KernelIdeal.nD) → Buf (Elt Ideal) (KI.xtLoc d)) (tF : (d : Dev Cert.KernelIdeal.nD) → Buf (Elt Ideal) (KI.tLoc d)) (nG : ℕ)
      (oF : (d : Dev Cert.KernelIdeal.nD) → Buf (Elt Ideal) (KI.tLoc d) → Buf (Elt Ideal) (KI.oLoc d)),
      (KI.K (F := Ideal)).TileObl (KI.D (F := Ideal)) KI.𝒱 (KI.P xtF tF nG oF) KI.v₀ 0
      ∧ ∀ (κ : GSem Cert.KernelIdeal.nD Cert.KernelIdeal.τ Cert.KernelIdeal.sig → ℕ) (d : Dev Cert.KernelIdeal.nD),
        iprop((KI.K (F := Ideal)).ctx KI.EH (KI.P xtF tF nG oF) κ ∗ (KI.K (F := Ideal)).tcSt KI.EH d 0 ∗ (KI.K (F := Ideal)).tcRes m ρ d ∗ KI.G (F := Ideal) d)
          ⊢ wp frame (wpE ((KI.K (F := Ideal)).defs (KI.D (F := Ideal))) KI.𝒱 (SparseCore.T d) none) Set.univ (Cert.KernelIdeal.main d)
              fun _ => iprop((KI.K (F := Ideal)).tcSt KI.EH d 1 ∗ KI.FIN m (fun d f => f = specOf m d) d)

/-! ## The kernel's runs -/

/-- The word-level kernel runs and leaves its arguments unchanged. -/
theorem frame_Kernel (h : WordHalves) : Cert.frame_Kernel := fun m ρ hpre => by
  obtain ⟨xtF, tF, nG, oF, htile, hmain⟩ := h m ρ hpre
  exact (θ_run _ _ _).mono (fun _ hq c => (hq c).2) (KB.run_main (F := Bits) m ρ xtF tF nG oF (fun _ _ => True) htile hmain)

/-- The idealized kernel runs to the specification of its arguments and leaves them unchanged. -/
theorem run_KernelIdeal (h : IdealHalves) (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v6) = specOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  obtain ⟨xtF, tF, nG, oF, htile, hmain⟩ := h m ρ hpre
  refine (θ_run _ _ _).mono (fun _ hq c => ?_) (KI.run_main (F := Ideal) m ρ xtF tF nG oF (fun d f => f = specOf m d) htile hmain)
  obtain ⟨⟨f, hf, hm⟩, hrest⟩ := hq c
  exact ⟨hm.trans hf, hrest⟩

theorem frame_KernelIdeal (h : IdealHalves) : Cert.frame_KernelIdeal := fun m ρ hpre =>
  (θ_run _ _ _).mono (fun _ hq c => (hq c).2) (run_KernelIdeal h m ρ hpre)

/-! ## The sanctioned idealization -/

/-- The one rewrite of the ideal pass: the f32 word nearest 1/200 is named, and at the ideal values the name is 1/200. -/
theorem preserves : Cert.preserves_Kernel_KernelIdeal :=
  IdealRules.named_const.statement Cert.KernelIdeal.κ "inv_200" .f32 0x3BA3D70A#32 ((1 / 200 : ℝ) : EReal) rfl

/-! ## The kernel against the reference -/

/-- From memories that agree on the four arguments, the idealized kernel and the idealized reference both run, end with
    the same result — the specification of the arguments — and leave the arguments unchanged. -/
theorem algebraic (h : IdealHalves) : Cert.algebraic_KernelIdeal_ReferenceIdeal := fun m g m' g' hpre hag => by
  have hpre' : Cert.Pre_ReferenceIdeal m' := fun c => by
    obtain ⟨h0, h1, h2, h3⟩ := hag c
    have := hpre c
    rw [← h0, ← h1, ← h2, ← h3] at this
    exact this
  refine ⟨specOf m, run_KernelIdeal h m g hpre, (θ_run _ _ _).mono (fun _ hq c => ?_) (RefSide.run m' g' hpre')⟩
  obtain ⟨h0, h1, h2, h3⟩ := hag c
  refine ⟨(hq c).1.trans ?_, (hq c).2⟩
  unfold specOf
  rw [h0, h1, h2, h3]

/-! ## Everything -/

/-- The certificate's claim, from the two halves at the two instances. -/
theorem claim_of (hB : WordHalves) (hI : IdealHalves) : Cert.Claim :=
  ⟨Cert.Kernel.Gen.facts, Cert.KernelIdeal.Gen.facts, Cert.ReferenceIdeal.Gen.facts, Cert.Pre_input_domain.Gen.facts,
    frame_Kernel hB, frame_KernelIdeal hI, RefSide.frame, preserves, algebraic hI⟩

end Cert.Proof.Claims

end
-- ==== Proof.RegionArr.lean ====
import proofs.«203335_g10582799417878_cont_week2_139_36_alg».proof.Proof.RegionData
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

open Idealize.ShloMosaic.ValueIdx

/-! ## The result arrays block by block

Each of the two results is written back at every one of the 32 points, block `t` at point `t`: the blocks are
pairwise disjoint, so after the last write-back block `t` of the array holds the leading part of what the body
left in the staging buffer at point `t`, whatever the later points wrote elsewhere. -/

section General

variable {Val : EltTy → Type} {Λ : Labels} {cfg : Pipeline.Cfg sig Λ} {c : Dev nD}
  (rd : RDat τ Val Ix Name U Lvl cfg c)

/-- DISJOINT WRITE-BACKS, READ BACK: whatever an output array may hold after the write-backs below `n`, its block at
    a flushing point `t < n`, read back, is the moved part of SOME contents the body may have left in the staging
    buffer at `t`, when no other flushing point's block meets `t`'s. -/
theorem read_blk_ArrAt (w : Fin cfg.W)
    (hdisj : ∀ t t' : Fin cfg.N, (cfg.win w).flush t = true → (cfg.win w).flush t' = true → t ≠ t' →
      Disjoint ((cfg.win w).blk t).view.set ((cfg.win w).blk t').view.set) :
    ∀ (n : Nat), n ≤ cfg.N → ∀ G, rd.ArrAt w n G → ∀ t : Fin cfg.N, t.val < n → (cfg.win w).flush t = true →
      ∃ X, rd.Leaves w t X ∧ ((cfg.win w).blk t).view.read Val G = (cfg.win w).cut (cfg.grid.coords t) X
  | 0, _, _, _, t, ht, _ => absurd ht (Nat.not_lt_zero _)
  | n + 1, hn, G, hG, t, ht, hf => by
    have hn' : n < cfg.N := hn
    have hG' := (congrFun (rd.ArrAt_succ w ⟨n, hn'⟩) G).mp hG
    by_cases hfn : (cfg.win w).flush ⟨n, hn'⟩ = true
    · rw [if_pos hfn] at hG'
      obtain ⟨G₀, X, hG₀, hX, rfl⟩ := hG'
      by_cases htn : t.val = n
      · have e : t = ⟨n, hn'⟩ := Fin.ext htn
        subst e
        exact ⟨X, hX, View.read_write_univ _ _⟩
      · obtain ⟨X', hX', hr⟩ := read_blk_ArrAt w hdisj n (Nat.le_of_lt hn') G₀ hG₀ t (by omega) hf
        refine ⟨X', hX', Eq.trans ?_ hr⟩
        exact View.read_congr fun i hi => View.write_of_not_mem _ _ _
          (Finset.disjoint_left.mp (hdisj t ⟨n, hn'⟩ hf hfn (fun e => htn (congrArg Fin.val e))) hi)
    · rw [if_neg hfn] at hG'
      have htn : t.val ≠ n := fun e => hfn (by have : t = ⟨n, hn'⟩ := Fin.ext e; exact this ▸ hf)
      exact read_blk_ArrAt w hdisj n (Nat.le_of_lt hn') G hG' t (by omega) hf

end General

/-! ## The index maps, decided over the 32 points -/

/-- Point `t` stages block `t` of the table and of the tokens along their second axis, and writes back block `t`
    of each result along its first. -/
theorem idx_facts : ∀ t : Fin cfg0.N, win0_0.index t = ![0, t.val] ∧ win0_3.index t = ![0, t.val]
    ∧ win0_4.index t = ![t.val, 0, 0] ∧ win0_5.index t = ![t.val, 0, 0]
    ∧ win0_1.index t = ![0, 0] ∧ win0_2.index t = ![0] :=
  (by decide +kernel : ∀ t : Fin grid0.N, _)

theorem idx_inj4 : ∀ t t' : Fin cfg0.N, win0_4.index t = win0_4.index t' → t = t' := fun t t' h => by
  have h1 := (idx_facts t).2.2.1; have h2 := (idx_facts t').2.2.1
  rw [h1, h2] at h
  exact Fin.ext (by simpa using congrFun h 0)
theorem idx_inj5 : ∀ t t' : Fin cfg0.N, win0_5.index t = win0_5.index t' → t = t' := fun t t' h => by
  have h1 := (idx_facts t).2.2.2.1; have h2 := (idx_facts t').2.2.2.1
  rw [h1, h2] at h
  exact Fin.ext (by simpa using congrFun h 0)

/-- Two points' result blocks share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

end Cert.KernelIdeal.Region

end
-- ==== Proof.RegionXt.lean ====
import proofs.«203335_g10582799417878_cont_week2_139_36_alg».proof.Proof.RegionArr

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

open Idealize.ShloMosaic.ValueIdx

/-! ## The second result: the tokens, regrouped

The second result has shape [32, 200, 128]; point `i` writes its block `i` (all 200 × 128 entries of it) with the
token block the pipeline staged at that point: rows 0 … 199, columns `128·i … 128·i + 127` of the transposed tokens.
So entry `(i, s, r)` of the result is entry `(s, 128·i + r)` of the transposed tokens — data movement only, the same
at every float instance. -/

section Xt

variable (c : Dev nD) (V : (b : Ref sig .tc) → Buf (Elt F) ((c : Thread nD τ).loc b))
  (O : CellTallies nD τ sig Ix) (B₀ : Set (SemLoc sig × Ix))

/-- The body's second payload adds a unit axis in front: entry `(0, s, r)` is entry `(s, r)` of the token block. -/
theorem out5_apply (x : Vec F S200x128 .i32) (s : Fin 200) (r : Fin 128) :
    out5 (F := F) x (ix3 (0 : Fin 1) s r) = x (ix2 s r) := by
  show shapeCast S1x200x128 (shapeCast S200x128 x shapeCasts_S200x128_S200x128) shapeCasts_S200x128_S1x200x128 (ix3 (0 : Fin 1) s r) = _
  rw [shapeCast_addUnit_apply ![200, 128], shapeCast_self]
  exact congrArg x (funext fun a => by match a with | ⟨0, _⟩ => rfl | ⟨1, _⟩ => rfl)

/-- THE SECOND RESULT after the region, whatever contents the write-backs may have left: entry `(i, s, r)` is the
    transposed tokens' entry `(s, 128·i + r)` as the region found them. -/
theorem final_xt (G) (hG : (rdats (Name := Name) (U := U) (Lvl := Lvl) c V O B₀).ArrAt 5 cfg0.N G)
    (i : Fin 32) (s : Fin 200) (r : Fin 128) (k : Fin 4096) (hk : k.val = 128 * i.val + r.val) :
    G (ix3 i s r) = V main_v1 (ix2 s k) := by
  obtain ⟨t, ht⟩ : ∃ t : Fin cfg0.N, t.val = i.val := ⟨⟨i.val, i.isLt⟩, rfl⟩
  obtain ⟨X, ⟨Y, -, hXa⟩, hr⟩ := read_blk_ArrAt (rdats (Name := Name) (U := U) (Lvl := Lvl) c V O B₀) 5 disjoint5 cfg0.N le_rfl G hG t t.isLt (flush0_5 t)
  have hX : X = out5 (F := F) (iblk c V 3 t) := (after5 c V O B₀ t Y X).mp hXa
  obtain ⟨-, e3, -, e5, -, -⟩ := idx_facts t
  have e50 : win0_5.index t (0 : Fin 3) = t.val := by rw [e5]; rfl
  have e51 : win0_5.index t (1 : Fin 3) = 0 := by rw [e5]; rfl
  have e52 : win0_5.index t (2 : Fin 3) = 0 := by rw [e5]; rfl
  have e30 : win0_3.index t (0 : Fin 2) = 0 := by rw [e3]; rfl
  have e31 : win0_3.index t (1 : Fin 2) = t.val := by rw [e3]; rfl
  -- the result's entry sits in block `t` at `(0, s, r)`
  have he : ((cfg0.win 5).blk t).view.emb (ix3 (0 : Fin 1) s r) = ix3 i s r := by
    funext a; apply Fin.ext
    match a with
    | ⟨0, _⟩ => show win0_5.index t (0 : Fin 3) * 1 + 1 * 0 = i.val; omega
    | ⟨1, _⟩ => show win0_5.index t (1 : Fin 3) * 200 + 1 * s.val = s.val; omega
    | ⟨2, _⟩ => show win0_5.index t (2 : Fin 3) * 128 + 1 * r.val = r.val; omega
  -- and the token block's entry `(s, r)` is the array's `(s, 128·t + r)`
  have hb : ((cfg0.win 3).blk t).view.emb (ix2 s r) = ix2 s k := by
    funext a; apply Fin.ext
    match a with
    | ⟨0, _⟩ => show win0_3.index t (0 : Fin 2) * 200 + 1 * s.val = s.val; omega
    | ⟨1, _⟩ => show win0_3.index t (1 : Fin 2) * 128 + 1 * r.val = k.val; omega
  have h : G (((cfg0.win 5).blk t).view.emb (ix3 (0 : Fin 1) s r)) = X (ix3 (0 : Fin 1) s r) := congrFun hr (ix3 (0 : Fin 1) s r)
  rw [he, hX, out5_apply] at h
  rw [h]
  show V (Pipeline.arrRef spec0 3) (((cfg0.win 3).blk t).view.emb (ix2 s r)) = _
  rw [hb]

end Xt

end Cert.KernelIdeal.Region

end
-- ==== Proof.ValX.lean ====
/-
  The re-laid tokens, as a function of the launch memory.

  The TensorCore half of the program transposes the token array [4096,200] to [200,4096]; the kernel region copies, at
  point i, the 200 × 128 block of columns 128·i … 128·i + 127 into block i of a [32,200,128] array; and that array is
  flattened to 819200 words.  So word j of the flat array — with i = j / 25600, s = (j % 25600) / 128, r = j % 128 —
  is the transposed tokens' entry (s, 128·i + r), which is the token array's entry (128·i + r, s): example
  128·i + r, token position s.  Data movement only, the same at every float instance.
-/
import proofs.«203335_g10582799417878_cont_week2_139_36_alg».proof.Proof.Vals
import proofs.«203335_g10582799417878_cont_week2_139_36_alg».proof.Proof.RegionXt
import Idealize.ShloMosaic.Lib.ValueLayout
import Idealize.ShloMosaic.Lib.Pipeline.Value

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL.Sem

variable {F : FTy → Type} [FloatOps F] [Named F]

/-- The re-laid tokens read off the launch memory: word `j` is the token of example `128·(j / 25600) + j % 128` at
    position `(j % 25600) / 128`. -/
def xtFm (m : (ℓ : Loc nD τ sig) → Buf (Elt F) ℓ) (d : Dev nD) : Buf (Elt F) (xtLoc d) := fun j =>
  (m ((SparseCore.T d).loc main_arg0) : Vec F S4096x200 .i32)
    (ix2 (⟨128 * ((j 0).val / 25600) + (j 0).val % 128, by have : (j 0).val < 819200 := (j 0).isLt; omega⟩ : Fin 4096)
      (⟨(j 0).val % 25600 / 128, by have : (j 0).val < 819200 := (j 0).isLt; omega⟩ : Fin 200))

/-- Every re-laid token is a token of the array: a bound on the tokens is a bound on them. -/
theorem xt_lt (m : (ℓ : Loc nD τ sig) → Buf (Elt F) ℓ) (d : Dev nD)
    (h : ∀ i, ((m ((SparseCore.T d).loc main_arg0) : Vec F S4096x200 .i32) i).toNat < 1000000) :
    ∀ j, ((xtFm m d : Vec F S819200 .i32) j).toNat < 1000000 := fun j => h _

/-- The region's valuation at the transposed tokens: the launch memory's token array, transposed. -/
theorem VR2_v1 (m : (ℓ : Loc nD τ sig) → Buf (Elt F) ℓ) (d : Dev nD) (s : Fin 200) (k : Fin 4096) :
    (VR2 m d main_v1 : Vec F S200x4096 .i32) (ix2 s k)
      = (m ((SparseCore.T d).loc main_arg0) : Vec F S4096x200 .i32) (ix2 k s) := by
  show Vd2 m d (Proc.devRef .tc main_v1) (ix2 s k) = _
  unfold Vd2
  rw [StableHlo.unary_result, transpose_ix2_apply, StableHlo.unary_result_ne (r := main_arg0) (h := by decide)]
  rfl

/-- THE RE-LAID TOKENS after the region and the flattening, whatever the write-backs may have left: the function of
    the launch memory above. -/
theorem xt_after (m : (ℓ : Loc nD τ sig) → Buf (Elt F) ℓ) (d : Dev nD) (O : CellTallies nD τ sig (HIx 1))
    (Bs : Set (SemLoc sig × HIx 1)) (G5)
    (hG : (Cert.KernelIdeal.Region.rdats (Name := ℕ) (U := UU) (Lvl := ℕ) d (VR2 m d) O Bs).ArrAt 5 cfg0.N G5) :
    (fun i => shapeCast S819200 (G5 : Vec F S32x200x128 .i32) shapeCasts_S32x200x128_S819200 i) = xtFm m d := by
  funext j
  have hj : (j 0).val < 819200 := (j 0).isLt
  -- the word's block, row and column
  obtain ⟨i, hi⟩ : ∃ i : Fin 32, i.val = (j 0).val / 25600 := ⟨⟨(j 0).val / 25600, by omega⟩, rfl⟩
  obtain ⟨s, hs⟩ : ∃ s : Fin 200, s.val = (j 0).val % 25600 / 128 := ⟨⟨(j 0).val % 25600 / 128, by omega⟩, rfl⟩
  obtain ⟨r, hr⟩ : ∃ r : Fin 128, r.val = (j 0).val % 128 := ⟨⟨(j 0).val % 128, by omega⟩, rfl⟩
  obtain ⟨k, hk⟩ : ∃ k : Fin 4096, k.val = 128 * i.val + r.val := ⟨⟨128 * i.val + r.val, by omega⟩, rfl⟩
  have h1 : shapeCast S819200 (G5 : Vec F S32x200x128 .i32) shapeCasts_S32x200x128_S819200 j = G5 (ix3 i s r) :=
    shapeCast_apply _ _ j (ix3 i s r) (by
      rw [Shape.rowMajor_val_three, Shape.rowMajor_val_one]
      show (i.val * 200 + s.val) * 128 + r.val = (j 0).val
      omega)
  rw [h1, Cert.KernelIdeal.Region.final_xt d (VR2 m d) O Bs G5 hG i s r k hk, VR2_v1]
  show _ = (m ((SparseCore.T d).loc main_arg0) : Vec F S4096x200 .i32) (ix2 _ _)
  refine congrArg _ (funext fun a => Fin.ext ?_)
  match a with
  | ⟨0, _⟩ => show k.val = 128 * ((j 0).val / 25600) + (j 0).val % 128; omega
  | ⟨1, _⟩ => show s.val = (j 0).val % 25600 / 128; omega

end Cert.Proof.KI

end
-- ==== Proof.TileDefs.lean ====
/-
  The vector subcore at a grid point of the gather kernel: the arrays as the kernel's text slices them, those slices as
  the pieces the hand-over is stated in, and the subcore's own buffers and semaphores with the kernel's set apart.
-/
import proofs.«203335_g10582799417878_cont_week2_139_36_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The subcore at grid point `L`, and the arrays as the kernel's text addresses them -/

abbrev cV (L : grid1.Coords) : Fin τ.nSC := (L 0).castLE hcore1
abbrev jV (L : grid1.Coords) : Fin τ.nSub := (L 1).castLE hsub1
omit [FloatOps F] [Named F] in
theorem bound_zero : grid1.bound 0 = 2 := rfl
omit [FloatOps F] [Named F] in
theorem bound_one : grid1.bound 1 = 16 := rfl
abbrev cL (L : grid1.Coords) : Fin 2 := Fin.cast bound_zero (L 0)
abbrev jL (L : grid1.Coords) : Fin 16 := Fin.cast bound_one (L 1)

abbrev xV : Memref sig .scVector .hbm S819200 .i32 := Memref.whole main_v4_scv
abbrev tV : Memref sig .scVector .hbm S1003520 .f32 := Memref.whole main_v3_scv
abbrev oV : Memref sig .scVector .hbm S4096 .f32 := Memref.whole main_v5_scv
abbrev s0V : Memref sig .scVector .vmem S25600 .i32 := Memref.whole cc1_scratch0
abbrev s1V : Memref sig .scVector .vmem S25600 .f32 := Memref.whole cc1_scratch1
abbrev s2V : Memref sig .scVector .vmem S128 .f32 := Memref.whole cc1_scratch2
abbrev shV : Memref sig .scVector .shared S1003520 .f32 := Memref.whole cc1_scratch3

abbrev xRect (L : grid1.Coords) : Rect S819200 := Rect.unit (s := S819200) (k1_off1 L) S25600.size (k1_off1_inb L)
abbrev tRect (L : grid1.Coords) : Rect S1003520 := Rect.unit (s := S1003520) (k1_off2 L) S62720.size (k1_off2_inb L)
abbrev oRect (L : grid1.Coords) : Rect S4096 := Rect.unit (s := S4096) (k1_off5 L) S128.size (k1_off5_inb L)
/-- The subcore's piece of the tokens, its slice of the scores in HBM and in the shared memory, its piece of the result. -/
abbrev xK (L : grid1.Coords) : Memref sig .scVector .hbm S25600 .i32 := (xV).slice (xRect L) (fun _ => rfl)
abbrev tK (L : grid1.Coords) : Memref sig .scVector .hbm S62720 .f32 := (tV).slice (tRect L) (fun _ => rfl)
abbrev shK (L : grid1.Coords) : Memref sig .scVector .shared S62720 .f32 := (shV).slice (tRect L) (fun _ => rfl)
abbrev oK (L : grid1.Coords) : Memref sig .scVector .hbm S128 .f32 := (oV).slice (oRect L) (fun _ => rfl)
/-- The whole shared memory as the gathers slice it. -/
abbrev shW : Memref sig .scVector .shared S1003520 .f32 := (shV).slice (Rect.unit (s := S1003520) ![0] S1003520.size inb_S1003520_S1003520_0) (fun _ => rfl)
/-- The two halves of the token list and of the gathered scores. -/
abbrev i1K : Memref sig .scVector .vmem S12800 .i32 := (s0V).slice (Rect.unit (s := S25600) ![0] S12800.size inb_S25600_S12800_0) (fun _ => rfl)
abbrev i2K : Memref sig .scVector .vmem S12800 .i32 := (s0V).slice (Rect.unit (s := S25600) ![12800] S12800.size inb_S25600_S12800_12800) (fun _ => rfl)
abbrev v1K : Memref sig .scVector .vmem S12800 .f32 := (s1V).slice (Rect.unit (s := S25600) ![0] S12800.size inb_S25600_S12800_0) (fun _ => rfl)
abbrev v2K : Memref sig .scVector .vmem S12800 .f32 := (s1V).slice (Rect.unit (s := S25600) ![12800] S12800.size inb_S25600_S12800_12800) (fun _ => rfl)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_reduce (coordsV c s)
          xV (Memref.isWhole_whole _) tV (Memref.isWhole_whole _) oV (Memref.isWhole_whole _) s0V (Memref.isWhole_whole _) s1V (Memref.isWhole_whole _)
          s2V (Memref.isWhole_whole _) shV (Memref.isWhole_whole _) cc1_scratch4 cc1_scratch5 cc1_scratch6 cc1_scoped0 cc1_scoped1) ⟨⟩ c s := rfl

/-! ## The slices are the pieces -/

omit [FloatOps F] [Named F] in
theorem xRect_eq (L : grid1.Coords) : xRect L = xRow (wid (cL L) (jL L)) := by
  unfold xRect xRow Rect.part Rect.block
  congr 1 <;> funext a
  · rw [k1_off1_eq]
    match a with
    | 0 => simp [Shape.partIx, Shape.partSize, wid]; omega
  · match a with
    | 0 => simp [Shape.partSize]
omit [FloatOps F] [Named F] in
theorem tRect_eq (L : grid1.Coords) : tRect L = tRow (jL L) := by
  unfold tRect tRow Rect.part Rect.block
  congr 1 <;> funext a
  · rw [k1_off2_eq]
    match a with
    | 0 => simp [Shape.partIx, Shape.partSize]; omega
  · match a with
    | 0 => simp [Shape.partSize]
omit [FloatOps F] [Named F] in
theorem oRect_eq (L : grid1.Coords) : oRect L = oRow (wid (cL L) (jL L)) := by
  unfold oRect oRow Rect.part Rect.block
  congr 1 <;> funext a
  · rw [k1_off5_eq]
    match a with
    | 0 => simp [Shape.partIx, Shape.partSize, wid]; omega
  · match a with
    | 0 => simp [Shape.partSize]

omit [FloatOps F] [Named F] in
theorem set_xK (L : grid1.Coords) : (xK L).view.set = xSet (wid (cL L) (jL L)) := by
  show ((xV).view.slice (xRect L)).set = _
  rw [View.set_slice, xRect_eq]; exact Finset.map_refl
omit [FloatOps F] [Named F] in
theorem set_tK (L : grid1.Coords) : (tK L).view.set = tSet (jL L) := by
  show ((tV).view.slice (tRect L)).set = _
  rw [View.set_slice, tRect_eq]; exact Finset.map_refl
omit [FloatOps F] [Named F] in
theorem set_shK (L : grid1.Coords) : (shK L).view.set = tSet (jL L) := by
  show ((shV).view.slice (tRect L)).set = _
  rw [View.set_slice, tRect_eq]; exact Finset.map_refl
omit [FloatOps F] [Named F] in
theorem set_oK (L : grid1.Coords) : (oK L).view.set = oSet (wid (cL L) (jL L)) := by
  show ((oV).view.slice (oRect L)).set = _
  rw [View.set_slice, oRect_eq]; exact Finset.map_refl
omit [FloatOps F] [Named F] in
theorem set_shW : (shW).view.set = Finset.univ := by
  show ((shV).view.slice (Rect.unit (s := S1003520) ![0] S1003520.size inb_S1003520_S1003520_0)).set = _
  rw [View.set_slice, Rect.set_eq_univ_of_whole _ (fun a => by match a with | 0 => exact ⟨rfl, rfl, rfl⟩)]; exact Finset.map_refl

/-! ## The subcore's own buffers and semaphores, the kernel's set apart -/

abbrev b0Ref (d : Dev nD) (L : grid1.Coords) : DevRef τ sig := (Proc.scVector (cV L) (jV L)).devRef cc1_scratch0
abbrev b1Ref (d : Dev nD) (L : grid1.Coords) : DevRef τ sig := (Proc.scVector (cV L) (jV L)).devRef cc1_scratch1
abbrev b2Ref (d : Dev nD) (L : grid1.Coords) : DevRef τ sig := (Proc.scVector (cV L) (jV L)).devRef cc1_scratch2

omit [FloatOps F] [Named F] in
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase (b0Ref d L)).erase (b1Ref d L)).erase (b2Ref d L))
              fun b => iprop(∃ f, ((d, b) : Loc nD τ sig) ↦{fullShare} f)) := by
  unfold SparseCore.Cfg.ownBufs
  have hne : ∀ a b : Ref sig .scVector, a ≠ b → (Proc.scVector (cV L) (jV L)).devRef a ≠ (Proc.scVector (cV L) (jV L)).devRef b :=
    fun a b h e => h (Proc.devRef_injective _ e)
  rw [SparseCore.bigSep_erase' (SparseCore.Cfg.mem_ownRefs_of_owner (p := Proc.scVector (cV L) (jV L)) (b := b0Ref d L) rfl),
    SparseCore.bigSep_erase' (Finset.mem_erase.mpr ⟨hne _ _ (by decide), SparseCore.Cfg.mem_ownRefs_of_owner (p := Proc.scVector (cV L) (jV L)) (b := b1Ref d L) rfl⟩),
    SparseCore.bigSep_erase' (Finset.mem_erase.mpr ⟨hne _ _ (by decide), Finset.mem_erase.mpr ⟨hne _ _ (by decide), SparseCore.Cfg.mem_ownRefs_of_owner (p := Proc.scVector (cV L) (jV L)) (b := b2Ref d L) rfl⟩⟩)]

abbrev cell (d : Dev nD) (L : grid1.Coords) (sm : DmaSems sig S_) : GSem nD τ sig := (V d (cV L) (jV L), .dma sm.sem)

omit [FloatOps F] [Named F] in
theorem mem_cell (d : Dev nD) (L : grid1.Coords) (sm : DmaSems sig S_) (h : (SemLoc.dma sm.sem : SemLoc sig).isScoped .scVector = true) :
    cell d L sm ∈ ownCells (V d (cV L) (jV L)) := (mem_ownCells (g := cell d L sm)).mpr ⟨rfl, h⟩

omit [FloatOps F] [Named F] in
theorem ownSems0_V (d : Dev nD) (L : grid1.Coords) :
    (ownSems0 (V d (cV L) (jV L)) : sProp 𝕄)
      = iprop(semVal (cell d L cc1_scratch4) 0 ∗ semVal (cell d L cc1_scratch5) 0 ∗ semVal (cell d L cc1_scratch6) 0
          ∗ semVal (cell d L cc1_scoped0) 0 ∗ semVal (cell d L cc1_scoped1) 0
          ∗ bigSep (((((ownCells (V d (cV L) (jV L))).erase (cell d L cc1_scratch4)).erase (cell d L cc1_scratch5)).erase (cell d L cc1_scratch6)).erase (cell d L cc1_scoped0)
              |>.erase (cell d L cc1_scoped1)) fun g => semVal g 0) := by
  unfold SparseCore.Cfg.ownSems0
  have hne : ∀ a b : DmaSems sig S_, a.sem ≠ b.sem → cell d L a ≠ cell d L b := fun a b h e => h (SemLoc.dma.inj (Prod.mk.inj e).2)
  rw [SparseCore.bigSep_erase' (mem_cell d L cc1_scratch4 (by decide)),
    SparseCore.bigSep_erase' (Finset.mem_erase.mpr ⟨hne _ _ (by decide), mem_cell d L cc1_scratch5 (by decide)⟩),
    SparseCore.bigSep_erase' (Finset.mem_erase.mpr ⟨hne _ _ (by decide), Finset.mem_erase.mpr ⟨hne _ _ (by decide), mem_cell d L cc1_scratch6 (by decide)⟩⟩),
    SparseCore.bigSep_erase' (Finset.mem_erase.mpr ⟨hne _ _ (by decide), Finset.mem_erase.mpr ⟨hne _ _ (by decide), Finset.mem_erase.mpr ⟨hne _ _ (by decide), mem_cell d L cc1_scoped0 (by decide)⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), mem_cell d L cc1_scoped1 (by decide)⟩⟩⟩⟩)]

end Cert.Proof.KI

end
-- ==== Proof.TileVal.lean ====
/-
  What the gather kernel computes, as a function of the token array and of the scores its SparseCore's shared memory holds:
  per example the logistic function of the sum, over the 200 token positions, of the score the token there names.
-/
import proofs.«203335_g10582799417878_cont_week2_139_36_alg».proof.Proof.TileDefs
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx

/-! ## The result as a function of the tokens and of the scores the shared memory holds -/

/-- The logistic function of a vector of sums, in the kernel's own operations: the payload of the first store. -/
abbrev sigm (a : FVec F S16 .f32) : FVec F S16 .f32 := k1_pay27 a

section Val
variable {d : Dev nD} (xt : Buf (Elt F) (xtLoc d)) (tg : Buf (Elt F) (tLoc d))

/-- The score that word `j` of piece `w` of the tokens names. -/
def valAt (w : Fin 32) (j : ℕ) : F .f32 :=
  tg (ix1 (n := 1003520) ⟨(xt (ix1 (n := 819200) ⟨(25600 * w.val + j) % 819200, Nat.mod_lt _ (by decide)⟩)).toNat % 1003520, Nat.mod_lt _ (by decide)⟩)

/-- The accumulator of group `g` (sixteen examples) of piece `w` before trip `k`: zero, then trip by trip the sixteen
    scores of that trip's token position added. -/
def accAt (w : Fin 32) (g : ℕ) : ℕ → FVec F S16 .f32
  | 0 => k1_pay3
  | k + 1 => addf (accAt w g k) (fun l => valAt xt tg w (128 * k + 16 * g + (l 0).val))

/-- What piece `w`'s result scratch holds after the eight stores: at `16·g + l` the logistic function of group `g`'s sum
    over the 200 token positions, lane `l`. -/
def outG (w : Fin 32) : S128.Idx → F .f32 := fun y =>
  sigm (accAt xt tg w ((y 0).val / 16) 200) (ix1 (n := 16) ⟨(y 0).val % 16, Nat.mod_lt _ (by decide)⟩)

/-- The result, by position: at `128·w + r` what piece `w`'s scratch holds at `r`. -/
def oFofAt (n : ℕ) : F .f32 :=
  outG xt tg ⟨n / 128 % 32, Nat.mod_lt _ (by decide)⟩ (ix1 (n := 128) ⟨n % 128, Nat.mod_lt _ (by decide)⟩)

/-- The result: at `128·w + 16·g + l` the logistic function of group `g`'s sum over the 200 token positions, lane `l`. -/
def oFof1 : Buf (Elt F) (oLoc d) := fun j => oFofAt xt tg (j 0).val

end Val

end Cert.Proof.KI

end
-- ==== Proof.ValO.lean ====
/-
  The gather kernel's result function read at the ideal values.

  Piece w's result at r = 16·g + l is the kernel's logistic payload of group g's accumulator after the 200 trips, lane l.
  The accumulator starts at the constant 0 and trip t adds the score that word 128·t + 16·g + l of the piece's tokens
  names, so after 200 trips it is the sum over the 200 token positions of those scores (the extended reals' addition
  is associative, so the trip-by-trip sum is the sum).  The payload is 1 / (1 + exp (0 - a)) entrywise, its constants
  0.0 and 1.0 read as 0 and 1 and its final shape cast the identity.
-/
import proofs.«203335_g10582799417878_cont_week2_139_36_alg».proof.Proof.TileVal
import proofs.«203335_g10582799417878_cont_week2_139_36_alg».proof.Proof.RefConsts
import Idealize.ShloMosaic.Lib.Pipeline.Value

noncomputable section

open scoped BigOperators

namespace Cert.Proof.KI

open Cert.KernelIdeal Cert.KernelIdeal.Gen
open Idealize.ShloMosaic Idealize.ShloMosaic.ValueIdx
open Idealize.SL.Sem

/-- The logistic payload at a lane: 1 / (1 + exp (0 - a)). -/
theorem sigm_apply (a : FVec Ideal S16 .f32) (l : S16.Idx) :
    sigm a l = Ideal.div 1 (1 + Ideal.exp (0 - a l)) := by
  simp only [sigm, k1_pay27, shapeCast_self]
  show Ideal.div (Ideal.ofBits .f32 0x3F800000#32)
    (Ideal.ofBits .f32 0x3F800000#32 + Ideal.exp (Ideal.ofBits .f32 0x00000000#32 - a l)) = _
  rw [RefConsts.ofBits_one, RefConsts.ofBits_zero]

section
variable {d : Dev nD} (xt : Buf (Elt Ideal) (xtLoc d)) (tg : Buf (Elt Ideal) (tLoc d))

/-- The accumulator before trip `k`, at a lane: the sum over the trips so far of the scores added. -/
theorem accAt_apply (w : Fin 32) (g k : ℕ) (l : S16.Idx) :
    accAt xt tg w g k l = ∑ t ∈ Finset.range k, valAt xt tg w (128 * t + 16 * g + (l 0).val) := by
  induction k with
  | zero =>
    rw [Finset.range_zero, Finset.sum_empty]
    show Ideal.ofBits .f32 0x00000000#32 = 0
    exact RefConsts.ofBits_zero
  | succ k ih =>
    rw [Finset.sum_range_succ, ← ih]
    rfl

/-- THE RESULT FUNCTION at example `128·w + r`: the logistic function of the sum, over the 200 token positions, of the
    score that word `128·s + r` of piece `w`'s tokens names. -/
theorem oFof1_at (w : Fin 32) (r : Fin 128) :
    (oFof1 xt tg : Vec Ideal S4096 .f32) (ix1 (n := 4096) ⟨128 * w.val + r.val, by omega⟩)
      = Ideal.div 1 (1 + Ideal.exp (0 - ∑ s : Fin 200, valAt xt tg w (128 * s.val + r.val))) := by
  have hw : (⟨(128 * w.val + r.val) / 128 % 32, Nat.mod_lt _ (by decide)⟩ : Fin 32) = w :=
    Fin.ext (by show (128 * w.val + r.val) / 128 % 32 = w.val; omega)
  show sigm (accAt xt tg ⟨(128 * w.val + r.val) / 128 % 32, Nat.mod_lt _ (by decide)⟩
      ((128 * w.val + r.val) % 128 / 16) 200)
    (ix1 (n := 16) ⟨(128 * w.val + r.val) % 128 % 16, Nat.mod_lt _ (by decide)⟩) = _
  rw [hw, sigm_apply, accAt_apply, Finset.sum_range]
  refine congrArg (fun z => Ideal.div 1 (1 + Ideal.exp (0 - z))) (Finset.sum_congr rfl fun s _ => ?_)
  refine congrArg (valAt xt tg w) ?_
  show 128 * s.val + 16 * ((128 * w.val + r.val) % 128 / 16) + (128 * w.val + r.val) % 128 % 16 = 128 * s.val + r.val
  omega

end

end Cert.Proof.KI

end
-- ==== Proof.RegionPay.lean ====
import proofs.«203335_g10582799417878_cont_week2_139_36_alg».proof.Proof.RegionBody
import Idealize.ShloMosaic.Lib.ValueIdx
import Idealize.ShloMosaic.Lib.Pipeline.Value
import Idealize.ShloMosaic.PureOps.IdealRules
import Idealize.ShloMosaic.PureOps.Ideal.Laws

set_option maxRecDepth 16384

noncomputable section

namespace Cert.KernelIdeal.Region

open Cert.KernelIdeal Cert.KernelIdeal.Gen
open Idealize.ShloMosaic Idealize.ShloMosaic.ValueIdx
open scoped BigOperators

/-! ## The first payload at an index, at the ideal values

The body broadcasts the weight row to eight rows, multiplies the 8 × 64 matrix by the 64 × 31360 table block into a
zero accumulator, keeps row 0 of the product, adds the bias word to every entry, multiplies every entry by the named
constant, and stores the row as a 1 × 1 × 31360 block. At the ideal values the matrix product is the exact sum, so
entry `(0, 0, j)` of the payload is `(∑ d, w(0, d) · x(d, j) + b) · (1/200)`: it reads column `j` of the table block
and no other. -/

/-- The matrix product's left operand index at output `(p, j)` and contraction coordinate `d` is `(p, d)`, -/
theorem dot_lhsIdx (p : Fin 8) (j : Fin 31360) (d : Fin 64) :
    dot_S8x64_S64x31360_S8x31360_1_0_0_1_n_n.lhsIdx (ix2 p j) ((contrEquiv1 dot_S8x64_S64x31360_S8x31360_1_0_0_1_n_n 64 rfl rfl).symm d) = ix2 p d := by
  have c2 := contrEquiv1_symm_val dot_S8x64_S64x31360_S8x31360_1_0_0_1_n_n 64 rfl rfl d
  funext ax; apply Fin.ext
  match ax with
  | ⟨0, _⟩ => simp [DotDims.lhsIdx, dot_S8x64_S64x31360_S8x31360_1_0_0_1_n_n]; rfl
  | ⟨1, _⟩ => simp [DotDims.lhsIdx, dot_S8x64_S64x31360_S8x31360_1_0_0_1_n_n]; exact c2
/-- and the right operand's is `(d, j)`. -/
theorem dot_rhsIdx (p : Fin 8) (j : Fin 31360) (d : Fin 64) :
    dot_S8x64_S64x31360_S8x31360_1_0_0_1_n_n.rhsIdx (ix2 p j) ((contrEquiv1 dot_S8x64_S64x31360_S8x31360_1_0_0_1_n_n 64 rfl rfl).symm d) = ix2 d j := by
  have c2 := contrEquiv1_symm_val dot_S8x64_S64x31360_S8x31360_1_0_0_1_n_n 64 rfl rfl d
  funext ax; apply Fin.ext
  match ax with
  | ⟨0, _⟩ => simp [DotDims.rhsIdx, dot_S8x64_S64x31360_S8x31360_1_0_0_1_n_n]; exact c2
  | ⟨1, _⟩ => simp [DotDims.rhsIdx, dot_S8x64_S64x31360_S8x31360_1_0_0_1_n_n]; rfl

/-- The payload's last step adds a unit axis in front of the row: entry `(0, 0, j)` is the row's entry `(0, j)`. -/
theorem cast3_apply {α : Type} (v : S1x31360.Idx → α) (j : Fin 31360) :
    shapeCast S1x1x31360 v shapeCasts_S1x31360_S1x1x31360 (ix3 (0 : Fin 1) (0 : Fin 1) j) = v (ix2 (0 : Fin 1) j) := by
  rw [shapeCast_addUnit_apply ![1, 31360]]
  exact congrArg v (funext fun a => by match a with | ⟨0, _⟩ => rfl | ⟨1, _⟩ => rfl)

/-- Entry `(0, 0, j)` of the first payload. -/
theorem out4_apply (x0 : Vec Ideal S64x31360 .f32) (x1 : Vec Ideal S1x64 .f32) (x2 : Vec Ideal S1 .f32) (j : Fin 31360) :
    out4 (F := Ideal) x0 x1 x2 (ix3 (0 : Fin 1) (0 : Fin 1) j)
      = ((∑ d : Fin 64, (x1 (ix2 (0 : Fin 1) d) : EReal) * (x0 (ix2 d j) : EReal)) + (x2 i0 : EReal)) * ((1 / 200 : ℝ) : EReal) := by
  unfold out4 k0_pay1
  rw [cast3_apply]
  rw [mulf_apply, addf_apply, broadcast_apply, broadcast_apply,
    IdealRules.named_const.ideal_named_scalar κ "inv_200" _ _ rfl]
  rw [extractStridedSlice_apply ![0, 0] _ slices_S8x31360_o0_0_S1x31360 _ (ix2 (0 : Fin 8) j)
    (fun a => by match a with | ⟨0, _⟩ => (show (0 : ℕ) = 0 + 0; rfl) | ⟨1, _⟩ => (show j.val = 0 + j.val; omega))]
  simp only [matmul]
  rw [Ideal.matmul_constant_zero_apply, ← Equiv.sum_comp (contrEquiv1 dot_S8x64_S64x31360_S8x31360_1_0_0_1_n_n 64 rfl rfl).symm]
  refine congrArg (fun s : EReal => (s + (x2 i0 : EReal)) * ((1 / 200 : ℝ) : EReal)) ?_
  refine Finset.sum_congr rfl fun d _ => ?_
  rw [dot_lhsIdx, dot_rhsIdx, shapeCast_self,
    broadcastTo_apply _ broadcasts_S1x64_S8x64 (ix2 (0 : Fin 8) d) (ix2 (0 : Fin 1) d)
      (fun a => by match a with | ⟨0, _⟩ => rfl | ⟨1, _⟩ => rfl),
    shapeCast_self]

end Cert.KernelIdeal.Region

end
-- ==== Proof.RegionT.lean ====
import proofs.«203335_g10582799417878_cont_week2_139_36_alg».proof.Proof.RegionArr
import proofs.«203335_g10582799417878_cont_week2_139_36_alg».proof.Proof.RegionPay

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat RDat Cfg Window)
open scoped BigOperators

variable {Ix : Type} [DecidableEq Ix] {Name : Type} [DecidableEq Name] {U : Type} [URA U] {Lvl : Type} [Preorder Lvl]

/-! ## The first result: the row products, at the ideal values

The first result has shape [32, 1, 31360]; point `i` writes its block `i` with the body's first payload. Entry
`(i, 0, j)` is column `j` of the table block staged at point `i`, that is column `31360·i + j` of the transposed
table, dotted with the weight row, plus the bias, times 1/200 — as long as that column exists (`31360·i + j <
1000000`). The last block's remaining 3520 entries are computed from words nothing names, and nothing is said of
them. -/

/-- A coordinate whose position in the array is inside the array is among those the cut transfer moves. -/
theorem lt_extent_of {ix k d j : Nat} (hj : j < k) (h : ix * k + j < d) : j < (Pipeline.Clip.of ix k d).extent k := by
  unfold Pipeline.Clip.of
  split
  · exact hj
  · show j < d - ix * k; omega

/-- An f32 array's contents at the ideal values, as a function into the extended reals. -/
abbrev asReal (S : Shape) (f : S.Idx → Elt Ideal .f32) : S.Idx → EReal := f

section T

variable (c : Dev nD) (V : (b : Ref sig .tc) → Buf (Elt Ideal) ((c : Thread nD τ).loc b))
  (O : CellTallies nD τ sig Ix) (B₀ : Set (SemLoc sig × Ix))

/-- The table's staging buffer after the fetch at point `t`, at a column the array has: the transposed table's entry. -/
theorem tab_apply (t : Fin cfg0.N) (d : S64x31360.Idx → Elt Ideal .f32) (p : Fin 64) (j : Fin 31360) (col : Fin 1000000)
    (hcol : col.val = 31360 * t.val + j.val) : tab c V t d (ix2 p j) = V main_v0 (ix2 p col) := by
  obtain ⟨e0, -, -, -, -, -⟩ := idx_facts t
  have e00 : win0_0.index t (0 : Fin 2) = 0 := by rw [e0]; rfl
  have e01 : win0_0.index t (1 : Fin 2) = t.val := by rw [e0]; rfl
  have hm : ∀ a, ((ix2 p j : S64x31360.Idx) a).val < win0_0.xsize (grid0.coords t) a := fun a => by
    match a with
    | ⟨0, _⟩ =>
      show p.val < (Pipeline.Clip.of (win0_0.index t (0 : Fin 2)) 64 64).extent 64
      exact lt_extent_of p.isLt (by rw [e00]; have := p.isLt; omega)
    | ⟨1, _⟩ =>
      show j.val < (Pipeline.Clip.of (win0_0.index t (1 : Fin 2)) 31360 1000000).extent 31360
      exact lt_extent_of j.isLt (by rw [e01]; have := col.isLt; omega)
  let y : (win0_0.xblock (grid0.coords t)).Idx := fun a => ⟨((ix2 p j : S64x31360.Idx) a).val, hm a⟩
  have h1 : tab c V t d (ix2 p j) = iblk c V 0 t y := win0_0.fill_xinj (grid0.coords t) d (iblk c V 0 t) y
  rw [h1]
  show V (Pipeline.arrRef spec0 0) (((cfg0.win 0).blk t).view.emb y) = _
  refine congrArg (V main_v0) (funext fun a => Fin.ext ?_)
  match a with
  | ⟨0, _⟩ => show win0_0.index t (0 : Fin 2) * 64 + 1 * p.val = p.val; omega
  | ⟨1, _⟩ => show win0_0.index t (1 : Fin 2) * 31360 + 1 * j.val = col.val; omega

/-- THE FIRST RESULT after the region, whatever contents the write-backs may have left, at every entry whose column
    the table has: the weight row times that column of the transposed table, plus the bias, times 1/200. -/
theorem final_t (G) (hG : (rdats (F := Ideal) (Name := Name) (U := U) (Lvl := Lvl) c V O B₀).ArrAt 4 cfg0.N G)
    (i : Fin 32) (j : Fin 31360) (col : Fin 1000000) (hcol : col.val = 31360 * i.val + j.val) :
    asReal S32x1x31360 G (ix3 i (0 : Fin 1) j)
      = ((∑ d : Fin 64, asReal S1x64 (V main_arg2) (ix2 (0 : Fin 1) d) * asReal S64x1000000 (V main_v0) (ix2 d col)) + asReal S1 (V main_arg3) (ix1 (0 : Fin 1)))
        * ((1 / 200 : ℝ) : EReal) := by
  show G (ix3 i (0 : Fin 1) j) = _
  obtain ⟨t, ht⟩ : ∃ t : Fin cfg0.N, t.val = i.val := ⟨⟨i.val, i.isLt⟩, rfl⟩
  obtain ⟨X, ⟨Y, -, hXa⟩, hr⟩ := read_blk_ArrAt (rdats (F := Ideal) (Name := Name) (U := U) (Lvl := Lvl) c V O B₀) 4 disjoint4 cfg0.N le_rfl G hG t t.isLt (flush0_4 t)
  obtain ⟨d, hX⟩ := (after4 c V O B₀ t Y X).mp hXa
  obtain ⟨-, -, e4, -, e1, e2⟩ := idx_facts t
  have e40 : win0_4.index t (0 : Fin 3) = t.val := by rw [e4]; rfl
  have e41 : win0_4.index t (1 : Fin 3) = 0 := by rw [e4]; rfl
  have e42 : win0_4.index t (2 : Fin 3) = 0 := by rw [e4]; rfl
  have e10 : win0_1.index t (0 : Fin 2) = 0 := by rw [e1]; rfl
  have e11 : win0_1.index t (1 : Fin 2) = 0 := by rw [e1]; rfl
  have e20 : win0_2.index t (0 : Fin 1) = 0 := by rw [e2]; rfl
  have he : ((cfg0.win 4).blk t).view.emb (ix3 (0 : Fin 1) (0 : Fin 1) j) = ix3 i (0 : Fin 1) j := by
    funext a; apply Fin.ext
    match a with
    | ⟨0, _⟩ => show win0_4.index t (0 : Fin 3) * 1 + 1 * 0 = i.val; omega
    | ⟨1, _⟩ => show win0_4.index t (1 : Fin 3) * 1 + 1 * 0 = 0; omega
    | ⟨2, _⟩ => show win0_4.index t (2 : Fin 3) * 31360 + 1 * j.val = j.val; omega
  have h : G (((cfg0.win 4).blk t).view.emb (ix3 (0 : Fin 1) (0 : Fin 1) j)) = X (ix3 (0 : Fin 1) (0 : Fin 1) j) :=
    congrFun hr (ix3 (0 : Fin 1) (0 : Fin 1) j)
  rw [he, hX] at h
  rw [h, out4_apply]
  -- the weight row's and the bias's blocks are their whole arrays
  have hw : ∀ d' : Fin 64, (iblk c V 1 t : Vec Ideal S1x64 .f32) (ix2 (0 : Fin 1) d') = V main_arg2 (ix2 (0 : Fin 1) d') := fun d' => by
    show V (Pipeline.arrRef spec0 1) (((cfg0.win 1).blk t).view.emb (ix2 (0 : Fin 1) d')) = _
    refine congrArg (V main_arg2) (funext fun a => Fin.ext ?_)
    match a with
    | ⟨0, _⟩ => show win0_1.index t (0 : Fin 2) * 1 + 1 * 0 = 0; omega
    | ⟨1, _⟩ => show win0_1.index t (1 : Fin 2) * 64 + 1 * d'.val = d'.val; omega
  have hb : (iblk c V 2 t : Vec Ideal S1 .f32) i0 = V main_arg3 (ix1 (0 : Fin 1)) := by
    show V (Pipeline.arrRef spec0 2) (((cfg0.win 2).blk t).view.emb i0) = _
    refine congrArg (V main_arg3) (funext fun a => Fin.ext ?_)
    match a with
    | ⟨0, _⟩ => show win0_2.index t (0 : Fin 1) * 1 + 1 * 0 = 0; omega
  rw [hb]
  congr 2
  refine Finset.sum_congr rfl fun d' _ => ?_
  rw [hw d', tab_apply c V t d d' j col (by omega)]

end T

end Cert.KernelIdeal.Region

end
-- ==== Proof.ValI.lean ====
/-
  The value bridge of the kernel side, at the ideal values.

  The scores: after the kernel region and the flattening, word v of the score array, for every vocabulary row
  v < 1000000, is the specification's score of row v — the weight row times column v of the transposed table (which
  is row v of the table), plus the bias, times 1/200.  Nothing is said of the 3520 words past the vocabulary.

  The result: example e = 128·w + r lies in piece w, which subcore (c, i) with 2·i + c = w computes from the re-laid
  tokens and from what its shared memory holds, contents right on every vocabulary row.  Its 200 re-laid tokens, words
  25600·w + 128·s + r, are the tokens of example e; each is below 1000000 on the stated domain, so the word the
  gather reads is that row's score.  The sum of the 200 scores is the specification's logit and the logistic function
  of it the specification's result.
-/
import proofs.«203335_g10582799417878_cont_week2_139_36_alg».proof.Proof.ValX
import proofs.«203335_g10582799417878_cont_week2_139_36_alg».proof.Proof.Spec
import proofs.«203335_g10582799417878_cont_week2_139_36_alg».proof.Proof.TileVal
import proofs.«203335_g10582799417878_cont_week2_139_36_alg».proof.Proof.ValO
import proofs.«203335_g10582799417878_cont_week2_139_36_alg».proof.Proof.RegionT
import Idealize.ShloMosaic.Lib.ValueLayout
import Idealize.ShloMosaic.Lib.Pipeline.Value

noncomputable section

open scoped BigOperators

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL.Sem

section
variable (m : (ℓ : Loc nD τ sig) → Buf (Elt Ideal) ℓ) (d : Dev nD)

/-- The four argument arrays of device `d`, read off the launch memory. -/
abbrev xA : IVec Spec.SX 32 := m ((SparseCore.T d).loc main_arg0)
abbrev tableA : FVec Ideal Spec.STable .f32 := m ((SparseCore.T d).loc main_arg1)
abbrev WA : FVec Ideal Spec.SW .f32 := m ((SparseCore.T d).loc main_arg2)
abbrev bA : FVec Ideal Spec.SB .f32 := m ((SparseCore.T d).loc main_arg3)

/-- The scores: word `v` is the specification's score of vocabulary row `v`; past the vocabulary, nothing (0). -/
def tFI : Buf (Elt Ideal) (tLoc d) := fun j =>
  ((if h : (j 0).val < 1000000 then Spec.score (tableA m d) (WA m d) (bA m d) ⟨(j 0).val, h⟩ else (0 : EReal)) : EReal)

/-- The region's valuation at the weights, the bias and the transposed table: the launch memory's. -/
theorem VR2_a2 (i : S1x64.Idx) : (VR2 m d main_arg2 : Vec Ideal S1x64 .f32) i = WA m d i := by
  show Vd2 m d (Proc.devRef .tc main_arg2) i = _
  unfold Vd2
  rw [StableHlo.unary_result_ne (r := main_arg2) (h := by decide), StableHlo.unary_result_ne (r := main_arg2) (h := by decide)]
  rfl

theorem VR2_a3 (i : S1.Idx) : (VR2 m d main_arg3 : Vec Ideal S1 .f32) i = bA m d i := by
  show Vd2 m d (Proc.devRef .tc main_arg3) i = _
  unfold Vd2
  rw [StableHlo.unary_result_ne (r := main_arg3) (h := by decide), StableHlo.unary_result_ne (r := main_arg3) (h := by decide)]
  rfl

theorem VR2_v0 (p : Fin 64) (v : Fin 1000000) :
    (VR2 m d main_v0 : Vec Ideal S64x1000000 .f32) (ix2 p v) = tableA m d (ix2 v p) := by
  show Vd2 m d (Proc.devRef .tc main_v0) (ix2 p v) = _
  unfold Vd2
  rw [StableHlo.unary_result_ne (r := main_v0) (h := by decide), StableHlo.unary_result, transpose_ix2_apply]
  rfl

/-- THE SCORES after the region and the flattening, whatever the write-backs may have left: right on every vocabulary
    row.  Word `v = 31360·i + q` of the flat array is entry `(i, 0, q)` of the score blocks. -/
theorem t_after (O : CellTallies nD τ sig (HIx 1)) (Bs : Set (SemLoc sig × HIx 1)) (G4)
    (hG : (Cert.KernelIdeal.Region.rdats (F := Ideal) (Name := ℕ) (U := UU) (Lvl := ℕ) d (VR2 m d) O Bs).ArrAt 4 cfg0.N G4) :
    TGood (tFI m) 1000000 d
      (fun i => shapeCast S1003520 (G4 : Vec Ideal S32x1x31360 .f32) shapeCasts_S32x1x31360_S1003520 i) := by
  intro j hj
  have hj' : (j 0).val < 1003520 := (j 0).isLt
  obtain ⟨i, hi⟩ : ∃ i : Fin 32, i.val = (j 0).val / 31360 := ⟨⟨(j 0).val / 31360, by omega⟩, rfl⟩
  obtain ⟨q, hq⟩ : ∃ q : Fin 31360, q.val = (j 0).val % 31360 := ⟨⟨(j 0).val % 31360, Nat.mod_lt _ (by decide)⟩, rfl⟩
  have h1 : shapeCast S1003520 (G4 : Vec Ideal S32x1x31360 .f32) shapeCasts_S32x1x31360_S1003520 j
      = G4 (ix3 i (0 : Fin 1) q) :=
    shapeCast_apply _ _ j (ix3 i (0 : Fin 1) q) (by
      rw [Shape.rowMajor_val_three, Shape.rowMajor_val_one]
      show (i.val * 1 + 0) * 31360 + q.val = (j 0).val
      omega)
  show shapeCast S1003520 (G4 : Vec Ideal S32x1x31360 .f32) shapeCasts_S32x1x31360_S1003520 j = tFI m d j
  rw [h1]
  refine (Cert.KernelIdeal.Region.final_t d (VR2 m d) O Bs G4 hG i q ⟨(j 0).val, hj⟩
    (by show (j 0).val = 31360 * i.val + q.val; omega)).trans ?_
  unfold tFI
  refine Eq.trans ?_ (dif_pos hj).symm
  unfold Spec.score
  simp only [Cert.KernelIdeal.Region.asReal, VR2_a2, VR2_a3, VR2_v0]

/-- A word of piece `w` of the result: index `e` with `e / 128 = w`. -/
theorem mem_oSet (w : Fin 32) (e : Fin 4096) (h : e.val / 128 = w.val) : (ix1 e : S4096.Idx) ∈ oSet w := by
  refine Rect.mem_set_unit.mpr fun a => ?_
  match a with
  | ⟨0, _⟩ =>
    show w.val * (4096 / 32) ≤ e.val ∧ e.val < w.val * (4096 / 32) + 4096 / 32
    omega

/-- The score array read at equal words is read at equal places. -/
theorem tg_congr (tg : Vec Ideal S1003520 .f32) (a c : BitVec 32) (h : a = c) :
    tg (ix1 (n := 1003520) ⟨a.toNat % 1003520, Nat.mod_lt _ (by decide)⟩)
      = tg (ix1 (n := 1003520) ⟨c.toNat % 1003520, Nat.mod_lt _ (by decide)⟩) := by
  subst h; rfl

/-- The score the gather reads for token position `s` of example `e = 128·w + r`: the specification's score of the
    row that token names.  The re-laid word `25600·w + 128·s + r` is the token `x[e, s]`; it is below 1000000, so it
    names a word of the score array on which the shared memory's contents are right. -/
theorem val_eq (hdom : Spec.Dom (xA m d) (tableA m d) (WA m d) (bA m d)) (g : Buf (Elt Ideal) (tLoc d))
    (hg : TGood (tFI m) 1000000 d g) (w : Fin 32) (r : Fin 128) (e : Fin 4096) (he : e.val = 128 * w.val + r.val)
    (s : Fin 200) :
    valAt (xtFm m d) g w (128 * s.val + r.val)
      = Spec.score (tableA m d) (WA m d) (bA m d) (Spec.row (xA m d (ix2 e s))) := by
  have ht : (xtFm m d : Vec Ideal S819200 .i32)
      (ix1 (n := 819200) ⟨(25600 * w.val + (128 * s.val + r.val)) % 819200, Nat.mod_lt _ (by decide)⟩)
        = xA m d (ix2 e s) := by
    unfold xtFm
    refine congrArg _ (funext fun a => Fin.ext ?_)
    match a with
    | ⟨0, _⟩ =>
      show 128 * ((25600 * w.val + (128 * s.val + r.val)) % 819200 / 25600)
        + (25600 * w.val + (128 * s.val + r.val)) % 819200 % 128 = e.val
      omega
    | ⟨1, _⟩ =>
      show (25600 * w.val + (128 * s.val + r.val)) % 819200 % 25600 / 128 = s.val
      omega
  have hlt : (xA m d (ix2 e s)).toNat < 1000000 := hdom.token_lt (ix2 e s)
  have hv : valAt (xtFm m d) g w (128 * s.val + r.val)
      = (g : Vec Ideal S1003520 .f32) (ix1 (n := 1003520) ⟨(xA m d (ix2 e s)).toNat % 1003520, Nat.mod_lt _ (by decide)⟩) :=
    tg_congr g _ _ ht
  have hlt' : (xA m d (ix2 e s)).toNat % 1003520 < 1000000 := by omega
  rw [hv, hg _ hlt']
  unfold tFI
  refine (dif_pos hlt').trans ?_
  refine congrArg _ (Fin.ext ?_)
  show (xA m d (ix2 e s)).toNat % 1003520 = min (xA m d (ix2 e s)).toNat 999999
  omega

/-- THE RESULT after the SparseCore call and the last reshape is the specification's, given what the gather kernel
    computes entry by entry (`hof`: per example the logistic function of the sum of the 200 scores its tokens name). -/
theorem result_eq (hdom : Spec.Dom (xA m d) (tableA m d) (WA m d) (bA m d))
    (hof : ∀ (xt : Buf (Elt Ideal) (xtLoc d)) (tg : Buf (Elt Ideal) (tLoc d)) (w : Fin 32) (r : Fin 128),
      (oFof1 xt tg : Vec Ideal S4096 .f32) (ix1 (n := 4096) ⟨128 * w.val + r.val, by omega⟩)
        = Ideal.div 1 (1 + Ideal.exp (0 - ∑ s : Fin 200, valAt xt tg w (128 * s.val + r.val))))
    (gs : Fin 2 → Fin 16 → Buf (Elt Ideal) (tLoc d)) (hgs : ∀ c i, TGood (tFI m) 1000000 d (gs c i))
    (o : Buf (Elt Ideal) (oLoc d)) (ho : ∀ c i, ∀ idx ∈ oSet (wid c i), o idx = oFof1 (xtFm m d) (gs c i) idx) :
    (fun i => shapeCast S4096x1 (o : Vec Ideal S4096 .f32) shapeCasts_S4096_S4096x1 i)
      = Spec.out (xA m d) (tableA m d) (WA m d) (bA m d) := by
  funext j
  obtain ⟨e, k, rfl⟩ : ∃ e k, j = ix2 e k := ⟨j 0, j 1, eq_ix2 j⟩
  have he : e.val < 4096 := e.isLt
  have h1 : shapeCast S4096x1 (o : Vec Ideal S4096 .f32) shapeCasts_S4096_S4096x1 (ix2 e k) = o (ix1 e) :=
    shapeCast_apply _ _ _ (ix1 e) (by
      rw [Shape.rowMajor_val_one, Shape.rowMajor_val_two]
      show e.val = e.val * 1 + k.val
      omega)
  -- the piece the example lies in, and the subcore that computes it
  obtain ⟨w, hw⟩ : ∃ w : Fin 32, w.val = e.val / 128 := ⟨⟨e.val / 128, by omega⟩, rfl⟩
  obtain ⟨r, hr⟩ : ∃ r : Fin 128, r.val = e.val % 128 := ⟨⟨e.val % 128, by omega⟩, rfl⟩
  obtain ⟨c, hc⟩ : ∃ c : Fin 2, c.val = w.val % 2 := ⟨⟨w.val % 2, by omega⟩, rfl⟩
  obtain ⟨i, hi⟩ : ∃ i : Fin 16, i.val = w.val / 2 := ⟨⟨w.val / 2, by omega⟩, rfl⟩
  have hwid : wid c i = w := Fin.ext (by show 2 * i.val + c.val = w.val; omega)
  have hee : (⟨128 * w.val + r.val, by omega⟩ : Fin 4096) = e := Fin.ext (by show 128 * w.val + r.val = e.val; omega)
  have hmem : (ix1 e : S4096.Idx) ∈ oSet (wid c i) := by rw [hwid]; exact mem_oSet w e hw.symm
  have h2 := hof (xtFm m d) (gs c i) w r
  rw [hee] at h2
  show shapeCast S4096x1 (o : Vec Ideal S4096 .f32) shapeCasts_S4096_S4096x1 (ix2 e k) = _
  rw [h1, ho c i (ix1 e) hmem, h2]
  show _ = Ideal.div 1 (1 + Ideal.exp (0 - Spec.logit (xA m d) (tableA m d) (WA m d) (bA m d) e))
  unfold Spec.logit
  refine congrArg (fun z => Ideal.div 1 (1 + Ideal.exp (0 - z))) (Finset.sum_congr rfl fun s _ => ?_)
  exact val_eq m d hdom (gs c i) (hgs c i) w r e (by omega) s

/-- THE RESULT after the SparseCore call and the last reshape is the specification's: the gather kernel's result
    function read at the ideal values, put in. -/
theorem result_eq' (hdom : Spec.Dom (xA m d) (tableA m d) (WA m d) (bA m d))
    (gs : Fin 2 → Fin 16 → Buf (Elt Ideal) (tLoc d)) (hgs : ∀ c i, TGood (tFI m) 1000000 d (gs c i))
    (o : Buf (Elt Ideal) (oLoc d)) (ho : ∀ c i, ∀ idx ∈ oSet (wid c i), o idx = oFof1 (xtFm m d) (gs c i) idx) :
    (fun i => shapeCast S4096x1 (o : Vec Ideal S4096 .f32) shapeCasts_S4096_S4096x1 i)
      = Spec.out (xA m d) (tableA m d) (WA m d) (bA m d) :=
  result_eq m d hdom (fun xt tg w r => oFof1_at xt tg w r) gs hgs o ho

end

end Cert.Proof.KI

end
-- ==== Proof.Arrs.lean ====
/-
  The kernel region's six arrays, held as its windows and held as a set under one valuation: the same resources.  After the
  region the four input arrays hold what they held, the two results some contents the write-backs may have left.
-/
import proofs.«203335_g10582799417878_cont_week2_139_36_alg».proof.Proof.Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo (held held_split held_sdiff_result wp_hlo_within held_congr held_sub_split)
open Idealize.ShloMosaic.TcCoe

variable (m : (ℓ : Loc nD τ sig) → Buf (Elt F) ℓ)

omit [FloatOps F] [Named F] in
theorem hSWin : (SWin : Finset (DevRef τ sig)) ⊆ SAll := by decide

/-- The kernel region's proof data on device `d`: from the valuation after the transposes, the TensorCore owing what it
    owes before its first call, its recorded waits at level 0. -/
abbrev rd (d : Dev nD) : Pipeline.RDat τ (Elt F) (HIx 1) ℕ UU ℕ cfg0 d :=
  Cert.KernelIdeal.Region.rdats (Name := ℕ) (U := UU) (Lvl := ℕ) d (VR2 m d) ((K (F := F)).Otc d 0) (B₀ (F := F) d)

theorem arrays_eq (d : Dev nD) : ((rd m d).arrays (rd m d).A : sProp 𝕄) = held (SparseCore.T d) SWin (Vd2 m d) := by
  unfold Pipeline.RDat.arrays held
  rw [bigSep_W0, SparseCore.bigSep_insert' (by decide), SparseCore.bigSep_insert' (by decide), SparseCore.bigSep_insert' (by decide),
    SparseCore.bigSep_insert' (by decide), SparseCore.bigSep_insert' (by decide), bigSep_singleton]
  have hs : ∀ w, (rd m d).share w = fullShare := Pipeline.RDat.share_full _ (fun _ => rfl)
  rw [hs 0, hs 1, hs 2, hs 3, hs 4, hs 5]
  rw [Cert.KernelIdeal.Region.A_eq, Cert.KernelIdeal.Region.A_eq, Cert.KernelIdeal.Region.A_eq, Cert.KernelIdeal.Region.A_eq,
    Cert.KernelIdeal.Region.A_eq, Cert.KernelIdeal.Region.A_eq]
  show iprop((View.loc (d : Thread nD τ) (Memref.whole (main_v0 : Ref sig .tc)).view ↦[(Memref.whole (main_v0 : Ref sig .tc)).view.set]{fullShare} _) ∗
        (View.loc (d : Thread nD τ) (Memref.whole (main_arg2 : Ref sig .tc)).view ↦[(Memref.whole (main_arg2 : Ref sig .tc)).view.set]{fullShare} _) ∗
          (View.loc (d : Thread nD τ) (Memref.whole (main_arg3 : Ref sig .tc)).view ↦[(Memref.whole (main_arg3 : Ref sig .tc)).view.set]{fullShare} _) ∗
            (View.loc (d : Thread nD τ) (Memref.whole (main_v1 : Ref sig .tc)).view ↦[(Memref.whole (main_v1 : Ref sig .tc)).view.set]{fullShare} _) ∗
              (View.loc (d : Thread nD τ) (Memref.whole (main_v2_0 : Ref sig .tc)).view ↦[(Memref.whole (main_v2_0 : Ref sig .tc)).view.set]{fullShare} _) ∗
                View.loc (d : Thread nD τ) (Memref.whole (main_v2_1 : Ref sig .tc)).view ↦[(Memref.whole (main_v2_1 : Ref sig .tc)).view.set]{fullShare} _) = _
  simp only [Memref.view_whole, View.set_whole]
  rfl

/-- The valuation after the kernel region: the score blocks and the re-laid token blocks at what the region left. -/
def Vd3 (d : Dev nD) (G4 : Buf (Elt F) ((cfg0.win 4).arr.view.loc (d : Thread nD τ))) (G5 : Buf (Elt F) ((cfg0.win 5).arr.view.loc (d : Thread nD τ))) :
    Valuation τ sig (Elt F) :=
  Function.update (Function.update (Vd2 m d) v20' G4) v21' G5

omit [Named F] in
theorem Vd3_v20 (d : Dev nD) (G4) (G5) : Vd3 m d G4 G5 v20' = G4 := by
  unfold Vd3; rw [Function.update_of_ne (show (v20' : DevRef τ sig) ≠ v21' by decide), Function.update_self]
omit [Named F] in
theorem Vd3_v21 (d : Dev nD) (G4) (G5) : Vd3 m d G4 G5 v21' = G5 := Function.update_self _ _ _
omit [Named F] in
theorem Vd3_other (d : Dev nD) (G4) (G5) (b : DevRef τ sig) (h1 : b ≠ v20') (h2 : b ≠ v21') : Vd3 m d G4 G5 b = Vd2 m d b := by
  unfold Vd3; rw [Function.update_of_ne h2, Function.update_of_ne h1]

omit [Named F] in
theorem win_pt0 (d : Dev nD) (f : Buf (Elt F) ((cfg0.win 0).arr.view.loc (d : Thread nD τ))) :
    ((cfg0.win 0).arr.view.loc (d : Thread nD τ) ↦[(cfg0.win 0).arr.view.set]{fullShare} f : sProp 𝕄) = ((d, v0') : Loc nD τ sig) ↦{fullShare} f := by
  show (View.loc (d : Thread nD τ) (Memref.whole (main_v0 : Ref sig .tc)).view ↦[(Memref.whole (main_v0 : Ref sig .tc)).view.set]{fullShare} _) = _
  simp only [Memref.view_whole, View.set_whole]
omit [Named F] in
theorem win_pt1 (d : Dev nD) (f : Buf (Elt F) ((cfg0.win 1).arr.view.loc (d : Thread nD τ))) :
    ((cfg0.win 1).arr.view.loc (d : Thread nD τ) ↦[(cfg0.win 1).arr.view.set]{fullShare} f : sProp 𝕄) = ((d, a2') : Loc nD τ sig) ↦{fullShare} f := by
  show (View.loc (d : Thread nD τ) (Memref.whole (main_arg2 : Ref sig .tc)).view ↦[(Memref.whole (main_arg2 : Ref sig .tc)).view.set]{fullShare} _) = _
  simp only [Memref.view_whole, View.set_whole]
omit [Named F] in
theorem win_pt2 (d : Dev nD) (f : Buf (Elt F) ((cfg0.win 2).arr.view.loc (d : Thread nD τ))) :
    ((cfg0.win 2).arr.view.loc (d : Thread nD τ) ↦[(cfg0.win 2).arr.view.set]{fullShare} f : sProp 𝕄) = ((d, a3') : Loc nD τ sig) ↦{fullShare} f := by
  show (View.loc (d : Thread nD τ) (Memref.whole (main_arg3 : Ref sig .tc)).view ↦[(Memref.whole (main_arg3 : Ref sig .tc)).view.set]{fullShare} _) = _
  simp only [Memref.view_whole, View.set_whole]
omit [Named F] in
theorem win_pt3 (d : Dev nD) (f : Buf (Elt F) ((cfg0.win 3).arr.view.loc (d : Thread nD τ))) :
    ((cfg0.win 3).arr.view.loc (d : Thread nD τ) ↦[(cfg0.win 3).arr.view.set]{fullShare} f : sProp 𝕄) = ((d, v1') : Loc nD τ sig) ↦{fullShare} f := by
  show (View.loc (d : Thread nD τ) (Memref.whole (main_v1 : Ref sig .tc)).view ↦[(Memref.whole (main_v1 : Ref sig .tc)).view.set]{fullShare} _) = _
  simp only [Memref.view_whole, View.set_whole]
omit [Named F] in
theorem win_pt4 (d : Dev nD) (f : Buf (Elt F) ((cfg0.win 4).arr.view.loc (d : Thread nD τ))) :
    ((cfg0.win 4).arr.view.loc (d : Thread nD τ) ↦[(cfg0.win 4).arr.view.set]{fullShare} f : sProp 𝕄) = ((d, v20') : Loc nD τ sig) ↦{fullShare} f := by
  show (View.loc (d : Thread nD τ) (Memref.whole (main_v2_0 : Ref sig .tc)).view ↦[(Memref.whole (main_v2_0 : Ref sig .tc)).view.set]{fullShare} _) = _
  simp only [Memref.view_whole, View.set_whole]
omit [Named F] in
theorem win_pt5 (d : Dev nD) (f : Buf (Elt F) ((cfg0.win 5).arr.view.loc (d : Thread nD τ))) :
    ((cfg0.win 5).arr.view.loc (d : Thread nD τ) ↦[(cfg0.win 5).arr.view.set]{fullShare} f : sProp 𝕄) = ((d, v21') : Loc nD τ sig) ↦{fullShare} f := by
  show (View.loc (d : Thread nD τ) (Memref.whole (main_v2_1 : Ref sig .tc)).view ↦[(Memref.whole (main_v2_1 : Ref sig .tc)).view.set]{fullShare} _) = _
  simp only [Memref.view_whole, View.set_whole]

omit [Named F] in
theorem VR2_arr0 (d : Dev nD) : VR2 m d (Pipeline.arrRef spec0 0) = Vd2 m d v0' := rfl
omit [Named F] in
theorem VR2_arr1 (d : Dev nD) : VR2 m d (Pipeline.arrRef spec0 1) = Vd2 m d a2' := rfl
omit [Named F] in
theorem VR2_arr2 (d : Dev nD) : VR2 m d (Pipeline.arrRef spec0 2) = Vd2 m d a3' := rfl
omit [Named F] in
theorem VR2_arr3 (d : Dev nD) : VR2 m d (Pipeline.arrRef spec0 3) = Vd2 m d v1' := rfl

set_option maxHeartbeats 1000000 in
theorem arraysAt_elim (d : Dev nD) :
    ((rd m d).arraysAt cfg0.N : sProp 𝕄)
      ⊢ iprop(∃ G4 G5, ⌜(rd m d).ArrAt 4 cfg0.N G4 ∧ (rd m d).ArrAt 5 cfg0.N G5⌝ ∗ held (SparseCore.T d) SWin (Vd3 m d G4 G5)) := by
  unfold Pipeline.RDat.arraysAt
  rw [bigSep_W0]
  have hs : ∀ w, (rd m d).share w = fullShare := Pipeline.RDat.share_full _ (fun _ => rfl)
  rw [hs 0, hs 1, hs 2, hs 3, hs 4, hs 5,
    (rd m d).ArrAt_in 0 rfl, (rd m d).ArrAt_in 1 rfl, (rd m d).ArrAt_in 2 rfl, (rd m d).ArrAt_in 3 rfl,
    Cert.KernelIdeal.Region.A_eq, Cert.KernelIdeal.Region.A_eq, Cert.KernelIdeal.Region.A_eq, Cert.KernelIdeal.Region.A_eq,
    VR2_arr0, VR2_arr1, VR2_arr2, VR2_arr3]
  iintro ⟨⟨%F0, %h0, H0⟩, ⟨%F1, %h1, H1⟩, ⟨%F2, %h2, H2⟩, ⟨%F3, %h3, H3⟩, ⟨%G4, %h4, H4⟩, ⟨%G5, %h5, H5⟩⟩
  subst h0 h1 h2 h3
  iexists G4; iexists G5
  isplitr; · ipureintro; exact ⟨h4, h5⟩
  unfold held
  rw [SparseCore.bigSep_insert' (by decide), SparseCore.bigSep_insert' (by decide), SparseCore.bigSep_insert' (by decide),
    SparseCore.bigSep_insert' (by decide), SparseCore.bigSep_insert' (by decide), bigSep_singleton]
  rw [Vd3_other m d G4 G5 v0' (by decide) (by decide), Vd3_other m d G4 G5 a2' (by decide) (by decide),
    Vd3_other m d G4 G5 a3' (by decide) (by decide), Vd3_other m d G4 G5 v1' (by decide) (by decide), Vd3_v20, Vd3_v21]
  ihave H0' := (Entails.of_eq (win_pt0 d _)) $$ H0
  ihave H1' := (Entails.of_eq (win_pt1 d _)) $$ H1
  ihave H2' := (Entails.of_eq (win_pt2 d _)) $$ H2
  ihave H3' := (Entails.of_eq (win_pt3 d _)) $$ H3
  ihave H4' := (Entails.of_eq (win_pt4 d _)) $$ H4
  ihave H5' := (Entails.of_eq (win_pt5 d _)) $$ H5
  isplitl [H0']; · iexact H0'
  isplitl [H1']; · iexact H1'
  isplitl [H2']; · iexact H2'
  isplitl [H3']; · iexact H3'
  isplitl [H4']; · iexact H4'
  iexact H5'

end Cert.Proof.KI

end
-- ==== Proof.ValAll.lean ====
/-
  The three facts the kernel program's run takes as hypotheses, at the ideal values and under the stated precondition.

  From the launch memory `m`: the re-laid tokens are `xtFm m`; the scores are `tFI m`, right on every vocabulary row
  (1000000 of them); the result function of a SparseCore's shared memory is the gather kernel's, over the re-laid
  tokens; and what the program leaves in its result buffer is the specification's function of the four arguments.
  The precondition enters only through the stated domain: every token word names a row of the table.
-/
import proofs.«203335_g10582799417878_cont_week2_139_36_alg».proof.Proof.ValI
import proofs.«203335_g10582799417878_cont_week2_139_36_alg».proof.Proof.Domain
import proofs.«203335_g10582799417878_cont_week2_139_36_alg».proof.Proof.Arrs

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL.Sem

section Generic
variable {F : FTy → Type} [FloatOps F] [Named F]

/-- Every re-laid token names a row of the table, at any float instance: the precondition bounds the token words. -/
theorem hxt_all_of (m : (ℓ : Loc nD τ sig) → Buf (Elt F) ℓ)
    (hpre : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) = (fun _ => 1#1)) :
    ∀ d j, ((xtFm m d : Vec F S819200 .i32) j).toNat < 1000000 :=
  fun d => xt_lt m d (Cert.Proof.Domain.token_lt_of_pre _ _ _ _ (hpre d))

end Generic

variable (m : (ℓ : Loc nD τ sig) → Buf (Elt Ideal) ℓ)

/-- Every re-laid token names a row of the table. -/
theorem hxt_all (hpre : Cert.Pre_KernelIdeal m) : ∀ d j, ((xtFm m d : Vec Ideal S819200 .i32) j).toNat < 1000000 :=
  hxt_all_of m hpre

/-- The result function of the SparseCore call: the gather kernel's, over the re-laid tokens. -/
def oFI (d : Dev nD) (g : Buf (Elt Ideal) (tLoc d)) : Buf (Elt Ideal) (oLoc d) := oFof1 (xtFm m d) g

/-- What the program leaves in its result buffer: the specification's function of the four arguments. -/
def RGI (d : Dev nD) (f : Buf (Elt Ideal) ((d, v6') : Loc nD τ sig)) : Prop :=
  f = Spec.out (xA m d) (tableA m d) (WA m d) (bA m d)

/-- The precondition gives the stated domain on every device. -/
theorem dom_of_hpre (hpre : Cert.Pre_KernelIdeal m) (d : Dev nD) :
    Spec.Dom (xA m d) (tableA m d) (WA m d) (bA m d) :=
  Cert.Proof.Domain.dom_of_pre _ _ _ _ (hpre d)

/-- The re-laid tokens after the region and the flattening. -/
theorem hXT_I : ∀ d G5, (rd m d).ArrAt 5 cfg0.N G5 →
    (fun i => shapeCast S819200 (G5 : Vec Ideal S32x200x128 .i32) shapeCasts_S32x200x128_S819200 i) = xtFm m d :=
  fun d G5 h => xt_after m d _ _ G5 h

/-- The scores after the region and the flattening: right on every vocabulary row. -/
theorem hTG_I : ∀ d G4, (rd m d).ArrAt 4 cfg0.N G4 →
    TGood (tFI m) 1000000 d
      (fun i => shapeCast S1003520 (G4 : Vec Ideal S32x1x31360 .f32) shapeCasts_S32x1x31360_S1003520 i) :=
  fun d G4 h => t_after m d _ _ G4 h

/-- The result after the SparseCore call and the last reshape: the specification's. -/
theorem hRG_I (hpre : Cert.Pre_KernelIdeal m) :
    ∀ d (gs : Fin 32 → Buf (Elt Ideal) (tLoc d)) (o : Buf (Elt Ideal) (oLoc d)),
      (∀ w, TGood (tFI m) 1000000 d (gs w)) → (∀ w, ∀ idx ∈ oSet w, o idx = oFI m d (gs w) idx) →
      RGI m d (fun i => shapeCast S4096x1 (o : Vec Ideal S4096 .f32) shapeCasts_S4096_S4096x1 i) :=
  fun d gs o hgs ho =>
    result_eq' m d (dom_of_hpre m hpre d) (fun c i => gs (wid c i)) (fun c i => hgs (wid c i)) o
      (fun c i => ho (wid c i))

end Cert.Proof.KI

end
-- ==== Proof.Halves.lean ====
/-
  The two halves of the kernel's proof at the ideal instance, put together for every admissible launch memory: the
  subcores' task over the re-laid tokens and the scores of the launch memory, and @main on the TensorCore run to the
  specification of the four arguments.  The two theorems themselves enter as hypotheses in the form they are stated.
-/
import proofs.«203335_g10582799417878_cont_week2_139_36_alg».proof.Proof.Claims
import proofs.«203335_g10582799417878_cont_week2_139_36_alg».proof.Proof.ValAll
import proofs.«203335_g10582799417878_cont_week2_139_36_alg».proof.Proof.TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section Halves

variable {F : FTy → Type} [FloatOps F] [Named F] [∀ e, Nonempty (Elt F e)]

local notation "𝕄" => MT nD τ sig (HIx 1) (Elt F) ℕ UU ℕ

/-- The subcores' task, as it is stated: for any re-laid tokens that name rows of the table, any scores and any count of
    rows, with the result function the gather kernel's over those tokens. -/
abbrev TileThm (F : FTy → Type) [FloatOps F] [Named F] : Prop :=
  ∀ (xtF : (d : Dev nD) → Buf (Elt F) (xtLoc d)) (tF : (d : Dev nD) → Buf (Elt F) (tLoc d)) (nG : ℕ) (hF : (K (F := F)).Facts)
    (hxt : ∀ d j, ((xtF d : Vec F S819200 .i32) j).toNat < 1000000),
    (K (F := F)).TileObl (D (F := F)) 𝒱 (P xtF tF nG (fun d g => oFof1 (xtF d) g)) v₀ 0

/-- @main on the TensorCore, as it is stated: from what the region leaves in the re-laid tokens (`hXT`) and the scores
    (`hTG`) and what the SparseCore call's result makes of the result array (`hRG`). -/
abbrev MainThm (F : FTy → Type) [FloatOps F] [Named F] : Prop :=
  ∀ (m : (ℓ : Loc nD τ sig) → Buf (Elt F) ℓ) (ρ : Dev nD → PrngReg)
    (xtF : (d : Dev nD) → Buf (Elt F) (xtLoc d)) (tF : (d : Dev nD) → Buf (Elt F) (tLoc d)) (nG : ℕ)
    (oF : (d : Dev nD) → Buf (Elt F) (tLoc d) → Buf (Elt F) (oLoc d))
    (RG : (d : Dev nD) → Buf (Elt F) ((d, v6') : Loc nD τ sig) → Prop)
    (hXT : ∀ d G5, (rd m d).ArrAt 5 cfg0.N G5 → (fun i => shapeCast S819200 (G5 : Vec F S32x200x128 .i32) shapeCasts_S32x200x128_S819200 i) = xtF d)
    (hTG : ∀ d G4, (rd m d).ArrAt 4 cfg0.N G4 → TGood tF nG d (fun i => shapeCast S1003520 (G4 : Vec F S32x1x31360 .f32) shapeCasts_S32x1x31360_S1003520 i))
    (hRG : ∀ d (gs : Fin 32 → Buf (Elt F) (tLoc d)) (o : Buf (Elt F) (oLoc d)), (∀ w, TGood tF nG d (gs w)) → (∀ w, ∀ idx ∈ oSet w, o idx = oF d (gs w) idx) →
        RG d (fun i => shapeCast S4096x1 (o : Vec F S4096 .f32) shapeCasts_S4096_S4096x1 i))
    (κ : GSem nD τ sig → ℕ) (d : Dev nD),
    iprop((K (F := F)).ctx EH (P xtF tF nG oF) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m RG d)

end Halves

/-- The two halves at the ideal instance, from the two theorems: the re-laid tokens, the scores (right on all 1000000
    vocabulary rows) and the result function are those of the launch memory; the result array ends at the specification. -/
theorem idealHalves (tileObl : TileThm Ideal) (hmain : MainThm Ideal) : Claims.IdealHalves := fun m ρ hpre =>
  ⟨xtFm m, tFI m, 1000000, oFI m, tileObl (xtFm m) (tFI m) 1000000 facts (hxt_all m hpre),
    fun κ d => hmain m ρ (xtFm m) (tFI m) 1000000 (oFI m) (fun d f => f = Claims.specOf m d) (hXT_I m) (hTG_I m)
      (fun d gs o h1 h2 => hRG_I m hpre d gs o h1 h2) κ d⟩

end Cert.Proof.KI

end
-- ==== Proof.RegionKArr.lean ====
import proofs.«203335_g10582799417878_cont_week2_139_36_alg».proof.Proof.RegionKData
import Idealize.ShloMosaic.Lib.ValueIdx

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

open Idealize.ShloMosaic.ValueIdx

/-! ## The result arrays block by block

Each of the two results is written back at every one of the 32 points, block `t` at point `t`: the blocks are
pairwise disjoint, so after the last write-back block `t` of the array holds the leading part of what the body
left in the staging buffer at point `t`, whatever the later points wrote elsewhere. -/

section General

variable {Val : EltTy → Type} {Λ : Labels} {cfg : Pipeline.Cfg sig Λ} {c : Dev nD}
  (rd : RDat τ Val Ix Name U Lvl cfg c)

/-- DISJOINT WRITE-BACKS, READ BACK: whatever an output array may hold after the write-backs below `n`, its block at
    a flushing point `t < n`, read back, is the moved part of SOME contents the body may have left in the staging
    buffer at `t`, when no other flushing point's block meets `t`'s. -/
theorem read_blk_ArrAt (w : Fin cfg.W)
    (hdisj : ∀ t t' : Fin cfg.N, (cfg.win w).flush t = true → (cfg.win w).flush t' = true → t ≠ t' →
      Disjoint ((cfg.win w).blk t).view.set ((cfg.win w).blk t').view.set) :
    ∀ (n : Nat), n ≤ cfg.N → ∀ G, rd.ArrAt w n G → ∀ t : Fin cfg.N, t.val < n → (cfg.win w).flush t = true →
      ∃ X, rd.Leaves w t X ∧ ((cfg.win w).blk t).view.read Val G = (cfg.win w).cut (cfg.grid.coords t) X
  | 0, _, _, _, t, ht, _ => absurd ht (Nat.not_lt_zero _)
  | n + 1, hn, G, hG, t, ht, hf => by
    have hn' : n < cfg.N := hn
    have hG' := (congrFun (rd.ArrAt_succ w ⟨n, hn'⟩) G).mp hG
    by_cases hfn : (cfg.win w).flush ⟨n, hn'⟩ = true
    · rw [if_pos hfn] at hG'
      obtain ⟨G₀, X, hG₀, hX, rfl⟩ := hG'
      by_cases htn : t.val = n
      · have e : t = ⟨n, hn'⟩ := Fin.ext htn
        subst e
        exact ⟨X, hX, View.read_write_univ _ _⟩
      · obtain ⟨X', hX', hr⟩ := read_blk_ArrAt w hdisj n (Nat.le_of_lt hn') G₀ hG₀ t (by omega) hf
        refine ⟨X', hX', Eq.trans ?_ hr⟩
        exact View.read_congr fun i hi => View.write_of_not_mem _ _ _
          (Finset.disjoint_left.mp (hdisj t ⟨n, hn'⟩ hf hfn (fun e => htn (congrArg Fin.val e))) hi)
    · rw [if_neg hfn] at hG'
      have htn : t.val ≠ n := fun e => hfn (by have : t = ⟨n, hn'⟩ := Fin.ext e; exact this ▸ hf)
      exact read_blk_ArrAt w hdisj n (Nat.le_of_lt hn') G hG' t (by omega) hf

end General

/-! ## The index maps, decided over the 32 points -/

/-- Point `t` stages block `t` of the table and of the tokens along their second axis, and writes back block `t`
    of each result along its first. -/
theorem idx_facts : ∀ t : Fin cfg0.N, win0_0.index t = ![0, t.val] ∧ win0_3.index t = ![0, t.val]
    ∧ win0_4.index t = ![t.val, 0, 0] ∧ win0_5.index t = ![t.val, 0, 0]
    ∧ win0_1.index t = ![0, 0] ∧ win0_2.index t = ![0] :=
  (by decide +kernel : ∀ t : Fin grid0.N, _)

theorem idx_inj4 : ∀ t t' : Fin cfg0.N, win0_4.index t = win0_4.index t' → t = t' := fun t t' h => by
  have h1 := (idx_facts t).2.2.1; have h2 := (idx_facts t').2.2.1
  rw [h1, h2] at h
  exact Fin.ext (by simpa using congrFun h 0)
theorem idx_inj5 : ∀ t t' : Fin cfg0.N, win0_5.index t = win0_5.index t' → t = t' := fun t t' h => by
  have h1 := (idx_facts t).2.2.2.1; have h2 := (idx_facts t').2.2.2.1
  rw [h1, h2] at h
  exact Fin.ext (by simpa using congrFun h 0)

/-- Two points' result blocks share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

end Cert.Kernel.Region

end
-- ==== Proof.RegionKXt.lean ====
import proofs.«203335_g10582799417878_cont_week2_139_36_alg».proof.Proof.RegionKArr

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

open Idealize.ShloMosaic.ValueIdx

/-! ## The second result: the tokens, regrouped

The second result has shape [32, 200, 128]; point `i` writes its block `i` (all 200 × 128 entries of it) with the
token block the pipeline staged at that point: rows 0 … 199, columns `128·i … 128·i + 127` of the transposed tokens.
So entry `(i, s, r)` of the result is entry `(s, 128·i + r)` of the transposed tokens — data movement only, the same
at every float instance. -/

section Xt

variable (c : Dev nD) (V : (b : Ref sig .tc) → Buf (Elt F) ((c : Thread nD τ).loc b))
  (O : CellTallies nD τ sig Ix) (B₀ : Set (SemLoc sig × Ix))

/-- The body's second payload adds a unit axis in front: entry `(0, s, r)` is entry `(s, r)` of the token block. -/
theorem out5_apply (x : Vec F S200x128 .i32) (s : Fin 200) (r : Fin 128) :
    out5 (F := F) x (ix3 (0 : Fin 1) s r) = x (ix2 s r) := by
  show shapeCast S1x200x128 (shapeCast S200x128 x shapeCasts_S200x128_S200x128) shapeCasts_S200x128_S1x200x128 (ix3 (0 : Fin 1) s r) = _
  rw [shapeCast_addUnit_apply ![200, 128], shapeCast_self]
  exact congrArg x (funext fun a => by match a with | ⟨0, _⟩ => rfl | ⟨1, _⟩ => rfl)

/-- THE SECOND RESULT after the region, whatever contents the write-backs may have left: entry `(i, s, r)` is the
    transposed tokens' entry `(s, 128·i + r)` as the region found them. -/
theorem final_xt (G) (hG : (rdats (Name := Name) (U := U) (Lvl := Lvl) c V O B₀).ArrAt 5 cfg0.N G)
    (i : Fin 32) (s : Fin 200) (r : Fin 128) (k : Fin 4096) (hk : k.val = 128 * i.val + r.val) :
    G (ix3 i s r) = V main_v1 (ix2 s k) := by
  obtain ⟨t, ht⟩ : ∃ t : Fin cfg0.N, t.val = i.val := ⟨⟨i.val, i.isLt⟩, rfl⟩
  obtain ⟨X, ⟨Y, -, hXa⟩, hr⟩ := read_blk_ArrAt (rdats (Name := Name) (U := U) (Lvl := Lvl) c V O B₀) 5 disjoint5 cfg0.N le_rfl G hG t t.isLt (flush0_5 t)
  have hX : X = out5 (F := F) (iblk c V 3 t) := (after5 c V O B₀ t Y X).mp hXa
  obtain ⟨-, e3, -, e5, -, -⟩ := idx_facts t
  have e50 : win0_5.index t (0 : Fin 3) = t.val := by rw [e5]; rfl
  have e51 : win0_5.index t (1 : Fin 3) = 0 := by rw [e5]; rfl
  have e52 : win0_5.index t (2 : Fin 3) = 0 := by rw [e5]; rfl
  have e30 : win0_3.index t (0 : Fin 2) = 0 := by rw [e3]; rfl
  have e31 : win0_3.index t (1 : Fin 2) = t.val := by rw [e3]; rfl
  -- the result's entry sits in block `t` at `(0, s, r)`
  have he : ((cfg0.win 5).blk t).view.emb (ix3 (0 : Fin 1) s r) = ix3 i s r := by
    funext a; apply Fin.ext
    match a with
    | ⟨0, _⟩ => show win0_5.index t (0 : Fin 3) * 1 + 1 * 0 = i.val; omega
    | ⟨1, _⟩ => show win0_5.index t (1 : Fin 3) * 200 + 1 * s.val = s.val; omega
    | ⟨2, _⟩ => show win0_5.index t (2 : Fin 3) * 128 + 1 * r.val = r.val; omega
  -- and the token block's entry `(s, r)` is the array's `(s, 128·t + r)`
  have hb : ((cfg0.win 3).blk t).view.emb (ix2 s r) = ix2 s k := by
    funext a; apply Fin.ext
    match a with
    | ⟨0, _⟩ => show win0_3.index t (0 : Fin 2) * 200 + 1 * s.val = s.val; omega
    | ⟨1, _⟩ => show win0_3.index t (1 : Fin 2) * 128 + 1 * r.val = k.val; omega
  have h : G (((cfg0.win 5).blk t).view.emb (ix3 (0 : Fin 1) s r)) = X (ix3 (0 : Fin 1) s r) := congrFun hr (ix3 (0 : Fin 1) s r)
  rw [he, hX, out5_apply] at h
  rw [h]
  show V (Pipeline.arrRef spec0 3) (((cfg0.win 3).blk t).view.emb (ix2 s r)) = _
  rw [hb]

end Xt

end Cert.Kernel.Region

end
-- ==== Proof.ValXK.lean ====
/-
  The re-laid tokens, as a function of the launch memory.

  The TensorCore half of the program transposes the token array [4096,200] to [200,4096]; the kernel region copies, at
  point i, the 200 × 128 block of columns 128·i … 128·i + 127 into block i of a [32,200,128] array; and that array is
  flattened to 819200 words.  So word j of the flat array — with i = j / 25600, s = (j % 25600) / 128, r = j % 128 —
  is the transposed tokens' entry (s, 128·i + r), which is the token array's entry (128·i + r, s): example
  128·i + r, token position s.  Data movement only, the same at every float instance.
-/
import proofs.«203335_g10582799417878_cont_week2_139_36_alg».proof.Proof.ValsK
import proofs.«203335_g10582799417878_cont_week2_139_36_alg».proof.Proof.RegionKXt
import Idealize.ShloMosaic.Lib.ValueLayout
import Idealize.ShloMosaic.Lib.Pipeline.Value

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL.Sem

variable {F : FTy → Type} [FloatOps F]

/-- The re-laid tokens read off the launch memory: word `j` is the token of example `128·(j / 25600) + j % 128` at
    position `(j % 25600) / 128`. -/
def xtFm (m : (ℓ : Loc nD τ sig) → Buf (Elt F) ℓ) (d : Dev nD) : Buf (Elt F) (xtLoc d) := fun j =>
  (m ((SparseCore.T d).loc main_arg0) : Vec F S4096x200 .i32)
    (ix2 (⟨128 * ((j 0).val / 25600) + (j 0).val % 128, by have : (j 0).val < 819200 := (j 0).isLt; omega⟩ : Fin 4096)
      (⟨(j 0).val % 25600 / 128, by have : (j 0).val < 819200 := (j 0).isLt; omega⟩ : Fin 200))

/-- Every re-laid token is a token of the array: a bound on the tokens is a bound on them. -/
theorem xt_lt (m : (ℓ : Loc nD τ sig) → Buf (Elt F) ℓ) (d : Dev nD)
    (h : ∀ i, ((m ((SparseCore.T d).loc main_arg0) : Vec F S4096x200 .i32) i).toNat < 1000000) :
    ∀ j, ((xtFm m d : Vec F S819200 .i32) j).toNat < 1000000 := fun j => h _

/-- The region's valuation at the transposed tokens: the launch memory's token array, transposed. -/
theorem VR2_v1 (m : (ℓ : Loc nD τ sig) → Buf (Elt F) ℓ) (d : Dev nD) (s : Fin 200) (k : Fin 4096) :
    (VR2 m d main_v1 : Vec F S200x4096 .i32) (ix2 s k)
      = (m ((SparseCore.T d).loc main_arg0) : Vec F S4096x200 .i32) (ix2 k s) := by
  show Vd2 m d (Proc.devRef .tc main_v1) (ix2 s k) = _
  unfold Vd2
  rw [StableHlo.unary_result, transpose_ix2_apply, StableHlo.unary_result_ne (r := main_arg0) (h := by decide)]
  rfl

/-- THE RE-LAID TOKENS after the region and the flattening, whatever the write-backs may have left: the function of
    the launch memory above. -/
theorem xt_after (m : (ℓ : Loc nD τ sig) → Buf (Elt F) ℓ) (d : Dev nD) (O : CellTallies nD τ sig (HIx 1))
    (Bs : Set (SemLoc sig × HIx 1)) (G5)
    (hG : (Cert.Kernel.Region.rdats (Name := ℕ) (U := UU) (Lvl := ℕ) d (VR2 m d) O Bs).ArrAt 5 cfg0.N G5) :
    (fun i => shapeCast S819200 (G5 : Vec F S32x200x128 .i32) shapeCasts_S32x200x128_S819200 i) = xtFm m d := by
  funext j
  have hj : (j 0).val < 819200 := (j 0).isLt
  -- the word's block, row and column
  obtain ⟨i, hi⟩ : ∃ i : Fin 32, i.val = (j 0).val / 25600 := ⟨⟨(j 0).val / 25600, by omega⟩, rfl⟩
  obtain ⟨s, hs⟩ : ∃ s : Fin 200, s.val = (j 0).val % 25600 / 128 := ⟨⟨(j 0).val % 25600 / 128, by omega⟩, rfl⟩
  obtain ⟨r, hr⟩ : ∃ r : Fin 128, r.val = (j 0).val % 128 := ⟨⟨(j 0).val % 128, by omega⟩, rfl⟩
  obtain ⟨k, hk⟩ : ∃ k : Fin 4096, k.val = 128 * i.val + r.val := ⟨⟨128 * i.val + r.val, by omega⟩, rfl⟩
  have h1 : shapeCast S819200 (G5 : Vec F S32x200x128 .i32) shapeCasts_S32x200x128_S819200 j = G5 (ix3 i s r) :=
    shapeCast_apply _ _ j (ix3 i s r) (by
      rw [Shape.rowMajor_val_three, Shape.rowMajor_val_one]
      show (i.val * 200 + s.val) * 128 + r.val = (j 0).val
      omega)
  rw [h1, Cert.Kernel.Region.final_xt d (VR2 m d) O Bs G5 hG i s r k hk, VR2_v1]
  show _ = (m ((SparseCore.T d).loc main_arg0) : Vec F S4096x200 .i32) (ix2 _ _)
  refine congrArg _ (funext fun a => Fin.ext ?_)
  match a with
  | ⟨0, _⟩ => show k.val = 128 * ((j 0).val / 25600) + (j 0).val % 128; omega
  | ⟨1, _⟩ => show s.val = (j 0).val % 25600 / 128; omega

end Cert.Proof.KB

end
-- ==== Proof.ArrsK.lean ====
/-
  The kernel region's six arrays, held as its windows and held as a set under one valuation: the same resources.  After the
  region the four input arrays hold what they held, the two results some contents the write-backs may have left.
-/
import proofs.«203335_g10582799417878_cont_week2_139_36_alg».proof.Proof.ValsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_split held_sdiff_result wp_hlo_within held_congr held_sub_split)
open Idealize.ShloMosaic.TcCoe

variable (m : (ℓ : Loc nD τ sig) → Buf (Elt F) ℓ)

omit [FloatOps F] in
theorem hSWin : (SWin : Finset (DevRef τ sig)) ⊆ SAll := by decide

/-- The kernel region's proof data on device `d`: from the valuation after the transposes, the TensorCore owing what it
    owes before its first call, its recorded waits at level 0. -/
abbrev rd (d : Dev nD) : Pipeline.RDat τ (Elt F) (HIx 1) ℕ UU ℕ cfg0 d :=
  Cert.Kernel.Region.rdats (Name := ℕ) (U := UU) (Lvl := ℕ) d (VR2 m d) ((K (F := F)).Otc d 0) (B₀ (F := F) d)

theorem arrays_eq (d : Dev nD) : ((rd m d).arrays (rd m d).A : sProp 𝕄) = held (SparseCore.T d) SWin (Vd2 m d) := by
  unfold Pipeline.RDat.arrays held
  rw [bigSep_W0, SparseCore.bigSep_insert' (by decide), SparseCore.bigSep_insert' (by decide), SparseCore.bigSep_insert' (by decide),
    SparseCore.bigSep_insert' (by decide), SparseCore.bigSep_insert' (by decide), bigSep_singleton]
  have hs : ∀ w, (rd m d).share w = fullShare := Pipeline.RDat.share_full _ (fun _ => rfl)
  rw [hs 0, hs 1, hs 2, hs 3, hs 4, hs 5]
  rw [Cert.Kernel.Region.A_eq, Cert.Kernel.Region.A_eq, Cert.Kernel.Region.A_eq, Cert.Kernel.Region.A_eq,
    Cert.Kernel.Region.A_eq, Cert.Kernel.Region.A_eq]
  show iprop((View.loc (d : Thread nD τ) (Memref.whole (main_v0 : Ref sig .tc)).view ↦[(Memref.whole (main_v0 : Ref sig .tc)).view.set]{fullShare} _) ∗
        (View.loc (d : Thread nD τ) (Memref.whole (main_arg2 : Ref sig .tc)).view ↦[(Memref.whole (main_arg2 : Ref sig .tc)).view.set]{fullShare} _) ∗
          (View.loc (d : Thread nD τ) (Memref.whole (main_arg3 : Ref sig .tc)).view ↦[(Memref.whole (main_arg3 : Ref sig .tc)).view.set]{fullShare} _) ∗
            (View.loc (d : Thread nD τ) (Memref.whole (main_v1 : Ref sig .tc)).view ↦[(Memref.whole (main_v1 : Ref sig .tc)).view.set]{fullShare} _) ∗
              (View.loc (d : Thread nD τ) (Memref.whole (main_v2_0 : Ref sig .tc)).view ↦[(Memref.whole (main_v2_0 : Ref sig .tc)).view.set]{fullShare} _) ∗
                View.loc (d : Thread nD τ) (Memref.whole (main_v2_1 : Ref sig .tc)).view ↦[(Memref.whole (main_v2_1 : Ref sig .tc)).view.set]{fullShare} _) = _
  simp only [Memref.view_whole, View.set_whole]
  rfl

/-- The valuation after the kernel region: the score blocks and the re-laid token blocks at what the region left. -/
def Vd3 (d : Dev nD) (G4 : Buf (Elt F) ((cfg0.win 4).arr.view.loc (d : Thread nD τ))) (G5 : Buf (Elt F) ((cfg0.win 5).arr.view.loc (d : Thread nD τ))) :
    Valuation τ sig (Elt F) :=
  Function.update (Function.update (Vd2 m d) v20' G4) v21' G5

theorem Vd3_v20 (d : Dev nD) (G4) (G5) : Vd3 m d G4 G5 v20' = G4 := by
  unfold Vd3; rw [Function.update_of_ne (show (v20' : DevRef τ sig) ≠ v21' by decide), Function.update_self]
theorem Vd3_v21 (d : Dev nD) (G4) (G5) : Vd3 m d G4 G5 v21' = G5 := Function.update_self _ _ _
theorem Vd3_other (d : Dev nD) (G4) (G5) (b : DevRef τ sig) (h1 : b ≠ v20') (h2 : b ≠ v21') : Vd3 m d G4 G5 b = Vd2 m d b := by
  unfold Vd3; rw [Function.update_of_ne h2, Function.update_of_ne h1]

theorem win_pt0 (d : Dev nD) (f : Buf (Elt F) ((cfg0.win 0).arr.view.loc (d : Thread nD τ))) :
    ((cfg0.win 0).arr.view.loc (d : Thread nD τ) ↦[(cfg0.win 0).arr.view.set]{fullShare} f : sProp 𝕄) = ((d, v0') : Loc nD τ sig) ↦{fullShare} f := by
  show (View.loc (d : Thread nD τ) (Memref.whole (main_v0 : Ref sig .tc)).view ↦[(Memref.whole (main_v0 : Ref sig .tc)).view.set]{fullShare} _) = _
  simp only [Memref.view_whole, View.set_whole]
theorem win_pt1 (d : Dev nD) (f : Buf (Elt F) ((cfg0.win 1).arr.view.loc (d : Thread nD τ))) :
    ((cfg0.win 1).arr.view.loc (d : Thread nD τ) ↦[(cfg0.win 1).arr.view.set]{fullShare} f : sProp 𝕄) = ((d, a2') : Loc nD τ sig) ↦{fullShare} f := by
  show (View.loc (d : Thread nD τ) (Memref.whole (main_arg2 : Ref sig .tc)).view ↦[(Memref.whole (main_arg2 : Ref sig .tc)).view.set]{fullShare} _) = _
  simp only [Memref.view_whole, View.set_whole]
theorem win_pt2 (d : Dev nD) (f : Buf (Elt F) ((cfg0.win 2).arr.view.loc (d : Thread nD τ))) :
    ((cfg0.win 2).arr.view.loc (d : Thread nD τ) ↦[(cfg0.win 2).arr.view.set]{fullShare} f : sProp 𝕄) = ((d, a3') : Loc nD τ sig) ↦{fullShare} f := by
  show (View.loc (d : Thread nD τ) (Memref.whole (main_arg3 : Ref sig .tc)).view ↦[(Memref.whole (main_arg3 : Ref sig .tc)).view.set]{fullShare} _) = _
  simp only [Memref.view_whole, View.set_whole]
theorem win_pt3 (d : Dev nD) (f : Buf (Elt F) ((cfg0.win 3).arr.view.loc (d : Thread nD τ))) :
    ((cfg0.win 3).arr.view.loc (d : Thread nD τ) ↦[(cfg0.win 3).arr.view.set]{fullShare} f : sProp 𝕄) = ((d, v1') : Loc nD τ sig) ↦{fullShare} f := by
  show (View.loc (d : Thread nD τ) (Memref.whole (main_v1 : Ref sig .tc)).view ↦[(Memref.whole (main_v1 : Ref sig .tc)).view.set]{fullShare} _) = _
  simp only [Memref.view_whole, View.set_whole]
theorem win_pt4 (d : Dev nD) (f : Buf (Elt F) ((cfg0.win 4).arr.view.loc (d : Thread nD τ))) :
    ((cfg0.win 4).arr.view.loc (d : Thread nD τ) ↦[(cfg0.win 4).arr.view.set]{fullShare} f : sProp 𝕄) = ((d, v20') : Loc nD τ sig) ↦{fullShare} f := by
  show (View.loc (d : Thread nD τ) (Memref.whole (main_v2_0 : Ref sig .tc)).view ↦[(Memref.whole (main_v2_0 : Ref sig .tc)).view.set]{fullShare} _) = _
  simp only [Memref.view_whole, View.set_whole]
theorem win_pt5 (d : Dev nD) (f : Buf (Elt F) ((cfg0.win 5).arr.view.loc (d : Thread nD τ))) :
    ((cfg0.win 5).arr.view.loc (d : Thread nD τ) ↦[(cfg0.win 5).arr.view.set]{fullShare} f : sProp 𝕄) = ((d, v21') : Loc nD τ sig) ↦{fullShare} f := by
  show (View.loc (d : Thread nD τ) (Memref.whole (main_v2_1 : Ref sig .tc)).view ↦[(Memref.whole (main_v2_1 : Ref sig .tc)).view.set]{fullShare} _) = _
  simp only [Memref.view_whole, View.set_whole]

theorem VR2_arr0 (d : Dev nD) : VR2 m d (Pipeline.arrRef spec0 0) = Vd2 m d v0' := rfl
theorem VR2_arr1 (d : Dev nD) : VR2 m d (Pipeline.arrRef spec0 1) = Vd2 m d a2' := rfl
theorem VR2_arr2 (d : Dev nD) : VR2 m d (Pipeline.arrRef spec0 2) = Vd2 m d a3' := rfl
theorem VR2_arr3 (d : Dev nD) : VR2 m d (Pipeline.arrRef spec0 3) = Vd2 m d v1' := rfl

set_option maxHeartbeats 1000000 in
theorem arraysAt_elim (d : Dev nD) :
    ((rd m d).arraysAt cfg0.N : sProp 𝕄)
      ⊢ iprop(∃ G4 G5, ⌜(rd m d).ArrAt 4 cfg0.N G4 ∧ (rd m d).ArrAt 5 cfg0.N G5⌝ ∗ held (SparseCore.T d) SWin (Vd3 m d G4 G5)) := by
  unfold Pipeline.RDat.arraysAt
  rw [bigSep_W0]
  have hs : ∀ w, (rd m d).share w = fullShare := Pipeline.RDat.share_full _ (fun _ => rfl)
  rw [hs 0, hs 1, hs 2, hs 3, hs 4, hs 5,
    (rd m d).ArrAt_in 0 rfl, (rd m d).ArrAt_in 1 rfl, (rd m d).ArrAt_in 2 rfl, (rd m d).ArrAt_in 3 rfl,
    Cert.Kernel.Region.A_eq, Cert.Kernel.Region.A_eq, Cert.Kernel.Region.A_eq, Cert.Kernel.Region.A_eq,
    VR2_arr0, VR2_arr1, VR2_arr2, VR2_arr3]
  iintro ⟨⟨%F0, %h0, H0⟩, ⟨%F1, %h1, H1⟩, ⟨%F2, %h2, H2⟩, ⟨%F3, %h3, H3⟩, ⟨%G4, %h4, H4⟩, ⟨%G5, %h5, H5⟩⟩
  subst h0 h1 h2 h3
  iexists G4; iexists G5
  isplitr; · ipureintro; exact ⟨h4, h5⟩
  unfold held
  rw [SparseCore.bigSep_insert' (by decide), SparseCore.bigSep_insert' (by decide), SparseCore.bigSep_insert' (by decide),
    SparseCore.bigSep_insert' (by decide), SparseCore.bigSep_insert' (by decide), bigSep_singleton]
  rw [Vd3_other m d G4 G5 v0' (by decide) (by decide), Vd3_other m d G4 G5 a2' (by decide) (by decide),
    Vd3_other m d G4 G5 a3' (by decide) (by decide), Vd3_other m d G4 G5 v1' (by decide) (by decide), Vd3_v20, Vd3_v21]
  ihave H0' := (Entails.of_eq (win_pt0 d _)) $$ H0
  ihave H1' := (Entails.of_eq (win_pt1 d _)) $$ H1
  ihave H2' := (Entails.of_eq (win_pt2 d _)) $$ H2
  ihave H3' := (Entails.of_eq (win_pt3 d _)) $$ H3
  ihave H4' := (Entails.of_eq (win_pt4 d _)) $$ H4
  ihave H5' := (Entails.of_eq (win_pt5 d _)) $$ H5
  isplitl [H0']; · iexact H0'
  isplitl [H1']; · iexact H1'
  isplitl [H2']; · iexact H2'
  isplitl [H3']; · iexact H3'
  isplitl [H4']; · iexact H4'
  iexact H5'

end Cert.Proof.KB

end
-- ==== Proof.TileKDefs.lean ====
/-
  The vector subcore at a grid point of the gather kernel: the arrays as the kernel's text slices them, those slices as
  the pieces the hand-over is stated in, and the subcore's own buffers and semaphores with the kernel's set apart.
-/
import proofs.«203335_g10582799417878_cont_week2_139_36_alg».proof.Proof.SetupK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The subcore at grid point `L`, and the arrays as the kernel's text addresses them -/

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

abbrev xV : Memref sig .scVector .hbm S819200 .i32 := Memref.whole main_v4_scv
abbrev tV : Memref sig .scVector .hbm S1003520 .f32 := Memref.whole main_v3_scv
abbrev oV : Memref sig .scVector .hbm S4096 .f32 := Memref.whole main_v5_scv
abbrev s0V : Memref sig .scVector .vmem S25600 .i32 := Memref.whole cc1_scratch0
abbrev s1V : Memref sig .scVector .vmem S25600 .f32 := Memref.whole cc1_scratch1
abbrev s2V : Memref sig .scVector .vmem S128 .f32 := Memref.whole cc1_scratch2
abbrev shV : Memref sig .scVector .shared S1003520 .f32 := Memref.whole cc1_scratch3

abbrev xRect (L : grid1.Coords) : Rect S819200 := Rect.unit (s := S819200) (k1_off1 L) S25600.size (k1_off1_inb L)
abbrev tRect (L : grid1.Coords) : Rect S1003520 := Rect.unit (s := S1003520) (k1_off2 L) S62720.size (k1_off2_inb L)
abbrev oRect (L : grid1.Coords) : Rect S4096 := Rect.unit (s := S4096) (k1_off5 L) S128.size (k1_off5_inb L)
/-- The subcore's piece of the tokens, its slice of the scores in HBM and in the shared memory, its piece of the result. -/
abbrev xK (L : grid1.Coords) : Memref sig .scVector .hbm S25600 .i32 := (xV).slice (xRect L) (fun _ => rfl)
abbrev tK (L : grid1.Coords) : Memref sig .scVector .hbm S62720 .f32 := (tV).slice (tRect L) (fun _ => rfl)
abbrev shK (L : grid1.Coords) : Memref sig .scVector .shared S62720 .f32 := (shV).slice (tRect L) (fun _ => rfl)
abbrev oK (L : grid1.Coords) : Memref sig .scVector .hbm S128 .f32 := (oV).slice (oRect L) (fun _ => rfl)
/-- The whole shared memory as the gathers slice it. -/
abbrev shW : Memref sig .scVector .shared S1003520 .f32 := (shV).slice (Rect.unit (s := S1003520) ![0] S1003520.size inb_S1003520_S1003520_0) (fun _ => rfl)
/-- The two halves of the token list and of the gathered scores. -/
abbrev i1K : Memref sig .scVector .vmem S12800 .i32 := (s0V).slice (Rect.unit (s := S25600) ![0] S12800.size inb_S25600_S12800_0) (fun _ => rfl)
abbrev i2K : Memref sig .scVector .vmem S12800 .i32 := (s0V).slice (Rect.unit (s := S25600) ![12800] S12800.size inb_S25600_S12800_12800) (fun _ => rfl)
abbrev v1K : Memref sig .scVector .vmem S12800 .f32 := (s1V).slice (Rect.unit (s := S25600) ![0] S12800.size inb_S25600_S12800_0) (fun _ => rfl)
abbrev v2K : Memref sig .scVector .vmem S12800 .f32 := (s1V).slice (Rect.unit (s := S25600) ![12800] S12800.size inb_S25600_S12800_12800) (fun _ => rfl)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_reduce (coordsV c s)
          xV (Memref.isWhole_whole _) tV (Memref.isWhole_whole _) oV (Memref.isWhole_whole _) s0V (Memref.isWhole_whole _) s1V (Memref.isWhole_whole _)
          s2V (Memref.isWhole_whole _) shV (Memref.isWhole_whole _) cc1_scratch4 cc1_scratch5 cc1_scratch6 cc1_scoped0 cc1_scoped1) ⟨⟩ c s := rfl

/-! ## The slices are the pieces -/

omit [FloatOps F] in
theorem xRect_eq (L : grid1.Coords) : xRect L = xRow (wid (cL L) (jL L)) := by
  unfold xRect xRow Rect.part Rect.block
  congr 1 <;> funext a
  · rw [k1_off1_eq]
    match a with
    | 0 => simp [Shape.partIx, Shape.partSize, wid]; omega
  · match a with
    | 0 => simp [Shape.partSize]
omit [FloatOps F] in
theorem tRect_eq (L : grid1.Coords) : tRect L = tRow (jL L) := by
  unfold tRect tRow Rect.part Rect.block
  congr 1 <;> funext a
  · rw [k1_off2_eq]
    match a with
    | 0 => simp [Shape.partIx, Shape.partSize]; omega
  · match a with
    | 0 => simp [Shape.partSize]
omit [FloatOps F] in
theorem oRect_eq (L : grid1.Coords) : oRect L = oRow (wid (cL L) (jL L)) := by
  unfold oRect oRow Rect.part Rect.block
  congr 1 <;> funext a
  · rw [k1_off5_eq]
    match a with
    | 0 => simp [Shape.partIx, Shape.partSize, wid]; omega
  · match a with
    | 0 => simp [Shape.partSize]

omit [FloatOps F] in
theorem set_xK (L : grid1.Coords) : (xK L).view.set = xSet (wid (cL L) (jL L)) := by
  show ((xV).view.slice (xRect L)).set = _
  rw [View.set_slice, xRect_eq]; exact Finset.map_refl
omit [FloatOps F] in
theorem set_tK (L : grid1.Coords) : (tK L).view.set = tSet (jL L) := by
  show ((tV).view.slice (tRect L)).set = _
  rw [View.set_slice, tRect_eq]; exact Finset.map_refl
omit [FloatOps F] in
theorem set_shK (L : grid1.Coords) : (shK L).view.set = tSet (jL L) := by
  show ((shV).view.slice (tRect L)).set = _
  rw [View.set_slice, tRect_eq]; exact Finset.map_refl
omit [FloatOps F] in
theorem set_oK (L : grid1.Coords) : (oK L).view.set = oSet (wid (cL L) (jL L)) := by
  show ((oV).view.slice (oRect L)).set = _
  rw [View.set_slice, oRect_eq]; exact Finset.map_refl
omit [FloatOps F] in
theorem set_shW : (shW).view.set = Finset.univ := by
  show ((shV).view.slice (Rect.unit (s := S1003520) ![0] S1003520.size inb_S1003520_S1003520_0)).set = _
  rw [View.set_slice, Rect.set_eq_univ_of_whole _ (fun a => by match a with | 0 => exact ⟨rfl, rfl, rfl⟩)]; exact Finset.map_refl

/-! ## The subcore's own buffers and semaphores, the kernel's set apart -/

abbrev b0Ref (d : Dev nD) (L : grid1.Coords) : DevRef τ sig := (Proc.scVector (cV L) (jV L)).devRef cc1_scratch0
abbrev b1Ref (d : Dev nD) (L : grid1.Coords) : DevRef τ sig := (Proc.scVector (cV L) (jV L)).devRef cc1_scratch1
abbrev b2Ref (d : Dev nD) (L : grid1.Coords) : DevRef τ sig := (Proc.scVector (cV L) (jV L)).devRef cc1_scratch2

omit [FloatOps F] in
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase (b0Ref d L)).erase (b1Ref d L)).erase (b2Ref d L))
              fun b => iprop(∃ f, ((d, b) : Loc nD τ sig) ↦{fullShare} f)) := by
  unfold SparseCore.Cfg.ownBufs
  have hne : ∀ a b : Ref sig .scVector, a ≠ b → (Proc.scVector (cV L) (jV L)).devRef a ≠ (Proc.scVector (cV L) (jV L)).devRef b :=
    fun a b h e => h (Proc.devRef_injective _ e)
  rw [SparseCore.bigSep_erase' (SparseCore.Cfg.mem_ownRefs_of_owner (p := Proc.scVector (cV L) (jV L)) (b := b0Ref d L) rfl),
    SparseCore.bigSep_erase' (Finset.mem_erase.mpr ⟨hne _ _ (by decide), SparseCore.Cfg.mem_ownRefs_of_owner (p := Proc.scVector (cV L) (jV L)) (b := b1Ref d L) rfl⟩),
    SparseCore.bigSep_erase' (Finset.mem_erase.mpr ⟨hne _ _ (by decide), Finset.mem_erase.mpr ⟨hne _ _ (by decide), SparseCore.Cfg.mem_ownRefs_of_owner (p := Proc.scVector (cV L) (jV L)) (b := b2Ref d L) rfl⟩⟩)]

abbrev cell (d : Dev nD) (L : grid1.Coords) (sm : DmaSems sig S_) : GSem nD τ sig := (V d (cV L) (jV L), .dma sm.sem)

omit [FloatOps F] in
theorem mem_cell (d : Dev nD) (L : grid1.Coords) (sm : DmaSems sig S_) (h : (SemLoc.dma sm.sem : SemLoc sig).isScoped .scVector = true) :
    cell d L sm ∈ ownCells (V d (cV L) (jV L)) := (mem_ownCells (g := cell d L sm)).mpr ⟨rfl, h⟩

omit [FloatOps F] in
theorem ownSems0_V (d : Dev nD) (L : grid1.Coords) :
    (ownSems0 (V d (cV L) (jV L)) : sProp 𝕄)
      = iprop(semVal (cell d L cc1_scratch4) 0 ∗ semVal (cell d L cc1_scratch5) 0 ∗ semVal (cell d L cc1_scratch6) 0
          ∗ semVal (cell d L cc1_scoped0) 0 ∗ semVal (cell d L cc1_scoped1) 0
          ∗ bigSep (((((ownCells (V d (cV L) (jV L))).erase (cell d L cc1_scratch4)).erase (cell d L cc1_scratch5)).erase (cell d L cc1_scratch6)).erase (cell d L cc1_scoped0)
              |>.erase (cell d L cc1_scoped1)) fun g => semVal g 0) := by
  unfold SparseCore.Cfg.ownSems0
  have hne : ∀ a b : DmaSems sig S_, a.sem ≠ b.sem → cell d L a ≠ cell d L b := fun a b h e => h (SemLoc.dma.inj (Prod.mk.inj e).2)
  rw [SparseCore.bigSep_erase' (mem_cell d L cc1_scratch4 (by decide)),
    SparseCore.bigSep_erase' (Finset.mem_erase.mpr ⟨hne _ _ (by decide), mem_cell d L cc1_scratch5 (by decide)⟩),
    SparseCore.bigSep_erase' (Finset.mem_erase.mpr ⟨hne _ _ (by decide), Finset.mem_erase.mpr ⟨hne _ _ (by decide), mem_cell d L cc1_scratch6 (by decide)⟩⟩),
    SparseCore.bigSep_erase' (Finset.mem_erase.mpr ⟨hne _ _ (by decide), Finset.mem_erase.mpr ⟨hne _ _ (by decide), Finset.mem_erase.mpr ⟨hne _ _ (by decide), mem_cell d L cc1_scoped0 (by decide)⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), mem_cell d L cc1_scoped1 (by decide)⟩⟩⟩⟩)]

end Cert.Proof.KB

end
-- ==== Proof.TileKVal.lean ====
/-
  What the gather kernel computes, as a function of the token array and of the scores its SparseCore's shared memory holds:
  per example the logistic function of the sum, over the 200 token positions, of the score the token there names.
-/
import proofs.«203335_g10582799417878_cont_week2_139_36_alg».proof.Proof.TileKDefs
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-! ## The result as a function of the tokens and of the scores the shared memory holds -/

/-- The logistic function of a vector of sums, in the kernel's own operations: the payload of the first store. -/
abbrev sigm (a : FVec F S16 .f32) : FVec F S16 .f32 := k1_pay27 a

section Val
variable {d : Dev nD} (xt : Buf (Elt F) (xtLoc d)) (tg : Buf (Elt F) (tLoc d))

/-- The score that word `j` of piece `w` of the tokens names. -/
def valAt (w : Fin 32) (j : ℕ) : F .f32 :=
  tg (ix1 (n := 1003520) ⟨(xt (ix1 (n := 819200) ⟨(25600 * w.val + j) % 819200, Nat.mod_lt _ (by decide)⟩)).toNat % 1003520, Nat.mod_lt _ (by decide)⟩)

/-- The accumulator of group `g` (sixteen examples) of piece `w` before trip `k`: zero, then trip by trip the sixteen
    scores of that trip's token position added. -/
def accAt (w : Fin 32) (g : ℕ) : ℕ → FVec F S16 .f32
  | 0 => k1_pay3
  | k + 1 => addf (accAt w g k) (fun l => valAt xt tg w (128 * k + 16 * g + (l 0).val))

/-- What piece `w`'s result scratch holds after the eight stores: at `16·g + l` the logistic function of group `g`'s sum
    over the 200 token positions, lane `l`. -/
def outG (w : Fin 32) : S128.Idx → F .f32 := fun y =>
  sigm (accAt xt tg w ((y 0).val / 16) 200) (ix1 (n := 16) ⟨(y 0).val % 16, Nat.mod_lt _ (by decide)⟩)

/-- The result, by position: at `128·w + r` what piece `w`'s scratch holds at `r`. -/
def oFofAt (n : ℕ) : F .f32 :=
  outG xt tg ⟨n / 128 % 32, Nat.mod_lt _ (by decide)⟩ (ix1 (n := 128) ⟨n % 128, Nat.mod_lt _ (by decide)⟩)

/-- The result: at `128·w + 16·g + l` the logistic function of group `g`'s sum over the 200 token positions, lane `l`. -/
def oFof1 : Buf (Elt F) (oLoc d) := fun j => oFofAt xt tg (j 0).val

end Val

end Cert.Proof.KB

end
-- ==== Proof.HalvesK.lean ====
/-
  The two halves of the kernel's proof at the word-level instance, put together for every admissible launch memory: the
  subcores' task over the re-laid tokens of the launch memory, and @main on the TensorCore run to the four arguments
  unchanged.  Nothing is said of the values: no row of the score array is claimed right, and the result array may end at
  anything.  The two theorems themselves enter as hypotheses in the form they are stated.
-/
import proofs.«203335_g10582799417878_cont_week2_139_36_alg».proof.Proof.Claims
import proofs.«203335_g10582799417878_cont_week2_139_36_alg».proof.Proof.ValXK
import proofs.«203335_g10582799417878_cont_week2_139_36_alg».proof.Proof.ArrsK
import proofs.«203335_g10582799417878_cont_week2_139_36_alg».proof.Proof.TileKVal
import proofs.«203335_g10582799417878_cont_week2_139_36_alg».proof.Proof.Domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section Halves

variable {F : FTy → Type} [FloatOps F] [∀ e, Nonempty (Elt F e)]

local notation "𝕄" => MT nD τ sig (HIx 1) (Elt F) ℕ UU ℕ

/-- The subcores' task, as it is stated: for any re-laid tokens that name rows of the table, any scores and any count of
    rows, with the result function the gather kernel's over those tokens. -/
abbrev TileThm (F : FTy → Type) [FloatOps F] : Prop :=
  ∀ (xtF : (d : Dev nD) → Buf (Elt F) (xtLoc d)) (tF : (d : Dev nD) → Buf (Elt F) (tLoc d)) (nG : ℕ) (hF : (K (F := F)).Facts)
    (hxt : ∀ d j, ((xtF d : Vec F S819200 .i32) j).toNat < 1000000),
    (K (F := F)).TileObl (D (F := F)) 𝒱 (P xtF tF nG (fun d g => oFof1 (xtF d) g)) v₀ 0

/-- @main on the TensorCore, as it is stated: from what the region leaves in the re-laid tokens (`hXT`) and the scores
    (`hTG`) and what the SparseCore call's result makes of the result array (`hRG`). -/
abbrev MainThm (F : FTy → Type) [FloatOps F] : Prop :=
  ∀ (m : (ℓ : Loc nD τ sig) → Buf (Elt F) ℓ) (ρ : Dev nD → PrngReg)
    (xtF : (d : Dev nD) → Buf (Elt F) (xtLoc d)) (tF : (d : Dev nD) → Buf (Elt F) (tLoc d)) (nG : ℕ)
    (oF : (d : Dev nD) → Buf (Elt F) (tLoc d) → Buf (Elt F) (oLoc d))
    (RG : (d : Dev nD) → Buf (Elt F) ((d, v6') : Loc nD τ sig) → Prop)
    (hXT : ∀ d G5, (rd m d).ArrAt 5 cfg0.N G5 → (fun i => shapeCast S819200 (G5 : Vec F S32x200x128 .i32) shapeCasts_S32x200x128_S819200 i) = xtF d)
    (hTG : ∀ d G4, (rd m d).ArrAt 4 cfg0.N G4 → TGood tF nG d (fun i => shapeCast S1003520 (G4 : Vec F S32x1x31360 .f32) shapeCasts_S32x1x31360_S1003520 i))
    (hRG : ∀ d (gs : Fin 32 → Buf (Elt F) (tLoc d)) (o : Buf (Elt F) (oLoc d)), (∀ w, TGood tF nG d (gs w)) → (∀ w, ∀ idx ∈ oSet w, o idx = oF d (gs w) idx) →
        RG d (fun i => shapeCast S4096x1 (o : Vec F S4096 .f32) shapeCasts_S4096_S4096x1 i))
    (κ : GSem nD τ sig → ℕ) (d : Dev nD),
    iprop((K (F := F)).ctx EH (P xtF tF nG oF) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m RG d)

end Halves

/-- The two halves at the word-level instance, from the two theorems: the re-laid tokens are those of the launch memory
    (the precondition bounds every token word, so each names a row of the table); of the scores nothing is asked. -/
theorem wordHalves (tileObl : TileThm Bits) (hmain : MainThm Bits) : Claims.WordHalves := fun m ρ hpre =>
  ⟨xtFm m, fun d => m ((SparseCore.T d).loc main_v3), 0, fun d g => oFof1 (xtFm m d) g,
    tileObl (xtFm m) (fun d => m ((SparseCore.T d).loc main_v3)) 0 facts
      (fun d => xt_lt m d (Cert.Proof.Domain.token_lt_of_pre _ _ _ _ (hpre d))),
    fun κ d => hmain m ρ (xtFm m) (fun d => m ((SparseCore.T d).loc main_v3)) 0 (fun d g => oFof1 (xtFm m d) g) (fun _ _ => True)
      (fun d G5 h => xt_after m d _ _ G5 h) (fun d G4 _ j hj => absurd hj (Nat.not_lt_zero _)) (fun _ _ _ _ _ => trivial) κ d⟩

end Cert.Proof.KB

end
-- ==== Proof.Vals2.lean ====
/-
  The TensorCore's handshake state split into what it owes and the rest, and the valuation of @main's arrays after the
  two flattenings that follow the kernel region: the token array holds the region's re-laid blocks flattened, the score
  array the region's score blocks flattened, the arguments what they held at the launch.
-/
import proofs.«203335_g10582799417878_cont_week2_139_36_alg».proof.Proof.Arrs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo (held held_split held_sdiff_result wp_hlo_within held_congr held_sub_split)
open Idealize.ShloMosaic.TcCoe

variable [∀ e, Nonempty (Elt F e)]
variable (m : (ℓ : Loc nD τ sig) → Buf (Elt F) ℓ) (ρ : Dev nD → PrngReg)
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

/-- The TensorCore's handshake state beside what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := rfl

/-! ## The valuation after the two flattenings -/

abbrev Vd5 (d : Dev nD) (G4 : Buf (Elt F) ((cfg0.win 4).arr.view.loc (d : Thread nD τ))) (G5 : Buf (Elt F) ((cfg0.win 5).arr.view.loc (d : Thread nD τ))) :
    Valuation τ sig (Elt F) := (opR4 (F := F)).result ((opR3 (F := F)).result (Vd3 m d G4 G5))

omit [Named F] [∀ e, Nonempty (Elt F e)] in
theorem Vd5_v4 (d : Dev nD) (G4) (G5) :
    Vd5 m d G4 G5 v4' = fun i => shapeCast S819200 (G5 : Vec F S32x200x128 .i32) shapeCasts_S32x200x128_S819200 i := by
  unfold Vd5
  rw [StableHlo.reshape_result', StableHlo.reshape_result_ne' (r := main_v2_1) (h := by decide), Vd3_v21]
  rfl
omit [Named F] [∀ e, Nonempty (Elt F e)] in
theorem Vd5_v3 (d : Dev nD) (G4) (G5) :
    Vd5 m d G4 G5 v3' = fun i => shapeCast S1003520 (G4 : Vec F S32x1x31360 .f32) shapeCasts_S32x1x31360_S1003520 i := by
  unfold Vd5
  rw [StableHlo.reshape_result_ne' (r := main_v3) (h := by decide), StableHlo.reshape_result', Vd3_v20]
  rfl
omit [Named F] [∀ e, Nonempty (Elt F e)] in
/-- The arguments are never written. -/
theorem Vd5_arg (d : Dev nD) (G4) (G5) (r : Ref sig .tc) (h0 : r ≠ main_v0) (h1 : r ≠ main_v1) (h20 : r ≠ main_v2_0) (h21 : r ≠ main_v2_1)
    (h3 : r ≠ main_v3) (h4 : r ≠ main_v4) :
    Vd5 m d G4 G5 (Proc.devRef .tc r) = m (d, Proc.devRef .tc r) := by
  unfold Vd5
  rw [StableHlo.reshape_result_ne' (h := h4), StableHlo.reshape_result_ne' (h := h3),
    Vd3_other m d G4 G5 _ (StableHlo.devRef_ne_of_ne h20) (StableHlo.devRef_ne_of_ne h21)]
  unfold Vd2
  rw [StableHlo.unary_result_ne' (h := h1), StableHlo.unary_result_ne' (h := h0)]
  rfl

end Cert.Proof.KI

end
-- ==== Proof.MainAux.lean ====
/-
  @main on the TensorCore, small steps around the SparseCore call: the call's three arrays out of the held set and, after
  the call, the result array put back at what the subcores computed; the last reshape read off the held set as the four
  arguments at their launch contents and the result array at the call's result, one column wide; and the TensorCore's
  recorded waits after the kernel region still at the lowest level.
-/
import proofs.«203335_g10582799417878_cont_week2_139_36_alg».proof.Proof.Vals2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo (held held_split held_sdiff_result wp_hlo_within held_congr held_sub_split)
open Idealize.ShloMosaic.TcCoe

variable (m : (ℓ : Loc nD τ sig) → Buf (Elt F) ℓ)

/-! ## The SparseCore call's three arrays -/

omit [FloatOps F] [Named F] in
/-- The call's arrays held as a set are the score array, the token array and the result array, each held whole. -/
theorem held_SCall (d : Dev nD) (Vv : Valuation τ sig (Elt F)) :
    (held (SparseCore.T d) SCall Vv : sProp 𝕄)
      = iprop((tLoc d ↦{fullShare} Vv v3') ∗ (xtLoc d ↦{fullShare} Vv v4') ∗ (oLoc d ↦{fullShare} Vv v5')) := by
  unfold held
  rw [SparseCore.bigSep_insert' (by decide), SparseCore.bigSep_insert' (by decide), bigSep_singleton]

/-! ## After the call: the result array back among the others -/

/-- What is held for the last reshape: everything but the call's score and token arrays. -/
abbrev SFin : Finset (DevRef τ sig) := insert v5' (SAll \ SCall)

omit [Named F] in
theorem hR5' : (opR5 (F := F)).bufs ⊆ SFin := show ({v5', v6'} : Finset (DevRef τ sig)) ⊆ SFin by decide

/-- The valuation after the call: the result array at what the call left, the rest as after the flattenings. -/
def Vd6 (d : Dev nD) (G4 : Buf (Elt F) ((cfg0.win 4).arr.view.loc (d : Thread nD τ))) (G5 : Buf (Elt F) ((cfg0.win 5).arr.view.loc (d : Thread nD τ)))
    (o : Buf (Elt F) (oLoc d)) : Valuation τ sig (Elt F) := Function.update (Vd5 m d G4 G5) v5' o

omit [Named F] in
theorem Vd6_v5 (d : Dev nD) (G4) (G5) (o : Buf (Elt F) (oLoc d)) : Vd6 m d G4 G5 o v5' = o := Function.update_self _ _ _
omit [Named F] in
theorem Vd6_other (d : Dev nD) (G4) (G5) (o : Buf (Elt F) (oLoc d)) (b : DevRef τ sig) (h : b ≠ v5') :
    Vd6 m d G4 G5 o b = Vd5 m d G4 G5 b := Function.update_of_ne h _ _

omit [Named F] in
/-- The result array at the call's result beside the others is the set held for the last reshape. -/
theorem held_SFin (d : Dev nD) (G4) (G5) (o : Buf (Elt F) (oLoc d)) :
    iprop((oLoc d ↦{fullShare} o) ∗ held (SparseCore.T d) (SAll \ SCall) (Vd5 m d G4 G5))
      ⊢ (held (SparseCore.T d) SFin (Vd6 m d G4 G5 o) : sProp 𝕄) := by
  have h1 : (held (SparseCore.T d) SFin (Vd6 m d G4 G5 o) : sProp 𝕄)
      = iprop((((d, v5') : Loc nD τ sig) ↦{fullShare} Vd6 m d G4 G5 o v5') ∗ held (SparseCore.T d) (SAll \ SCall) (Vd6 m d G4 G5 o)) := by
    unfold held; exact SparseCore.bigSep_insert' (by decide)
  have h2 : (held (SparseCore.T d) (SAll \ SCall) (Vd6 m d G4 G5 o) : sProp 𝕄) = held (SparseCore.T d) (SAll \ SCall) (Vd5 m d G4 G5) :=
    held_congr (SparseCore.T d) fun b hb => Vd6_other m d G4 G5 o b (fun e => by rw [e] at hb; exact absurd hb (by decide))
  rw [h1, h2, Vd6_v5]

/-! ## The last reshape, read -/

omit [Named F] in
/-- After the last reshape an argument array is as launched, -/
theorem out_arg (d : Dev nD) (G4) (G5) (o : Buf (Elt F) (oLoc d)) (r : Ref sig .tc) (h0 : r ≠ main_v0) (h1 : r ≠ main_v1) (h20 : r ≠ main_v2_0)
    (h21 : r ≠ main_v2_1) (h3 : r ≠ main_v3) (h4 : r ≠ main_v4) (h5 : r ≠ main_v5) (h6 : r ≠ main_v6) :
    (opR5 (F := F)).result (Vd6 m d G4 G5 o) (Proc.devRef .tc r) = m (d, Proc.devRef .tc r) := by
  rw [StableHlo.reshape_result_ne' (h := h6), Vd6_other m d G4 G5 o _ (StableHlo.devRef_ne_of_ne h5), Vd5_arg m d G4 G5 r h0 h1 h20 h21 h3 h4]

omit [Named F] in
/-- and the program's result is the call's result as one column. -/
theorem out_v6 (d : Dev nD) (G4) (G5) (o : Buf (Elt F) (oLoc d)) :
    (opR5 (F := F)).result (Vd6 m d G4 G5 o) v6' = fun i => shapeCast S4096x1 (o : Vec F S4096 .f32) shapeCasts_S4096_S4096x1 i := by
  rw [StableHlo.reshape_result', Vd6_v5]
  rfl

/-- The five arrays the claim speaks of. -/
abbrev SOut : Finset (DevRef τ sig) := {a0', a1', a2', a3', v6'}

omit [Named F] in
theorem held_out (d : Dev nD) (G4) (G5) (o : Buf (Elt F) (oLoc d)) :
    (held (SparseCore.T d) SFin ((opR5 (F := F)).result (Vd6 m d G4 G5 o)) : sProp 𝕄)
      ⊢ iprop((((d, a0') : Loc nD τ sig) ↦{fullShare} m (d, a0')) ∗ (((d, a1') : Loc nD τ sig) ↦{fullShare} m (d, a1'))
        ∗ (((d, a2') : Loc nD τ sig) ↦{fullShare} m (d, a2')) ∗ (((d, a3') : Loc nD τ sig) ↦{fullShare} m (d, a3'))
        ∗ ((d, v6') : Loc nD τ sig) ↦{fullShare} (fun i => shapeCast S4096x1 (o : Vec F S4096 .f32) shapeCasts_S4096_S4096x1 i)) := by
  rw [held_sub_split (SparseCore.T d) (T := SOut) (by decide)]
  refine sep_elim_left.trans ?_
  unfold held
  rw [SparseCore.bigSep_insert' (by decide), SparseCore.bigSep_insert' (by decide), SparseCore.bigSep_insert' (by decide),
    SparseCore.bigSep_insert' (by decide), bigSep_singleton,
    out_arg m d G4 G5 o main_arg0 (by decide) (by decide) (by decide) (by decide) (by decide) (by decide) (by decide) (by decide),
    out_arg m d G4 G5 o main_arg1 (by decide) (by decide) (by decide) (by decide) (by decide) (by decide) (by decide) (by decide),
    out_arg m d G4 G5 o main_arg2 (by decide) (by decide) (by decide) (by decide) (by decide) (by decide) (by decide) (by decide),
    out_arg m d G4 G5 o main_arg3 (by decide) (by decide) (by decide) (by decide) (by decide) (by decide) (by decide) (by decide),
    out_v6]

/-! ## The TensorCore's recorded waits after the region -/

/-- Whatever waits the TensorCore has recorded when the kernel region ends — those it came with, at the lowest level, and
    the pipeline's own on its staging semaphores, which sit at no call's index — are all at the lowest level. -/
theorem wbelow_after (d : Dev nD) (W' : Waits sig (HIx 1))
    (h : (↑W' : Set (SemLoc sig × HIx 1)) ⊆ (rd m d).bound none (Fin.last cfg0.N)) :
    (K (F := F)).WBelow (SparseCore.T d) W' (8 * 0) := fun p hp => by
  rcases h (Finset.mem_coe.mpr hp) with hB | ⟨w, s, rfl⟩
  · exact hB
  · exact le_of_eq ((K (F := F)).lev_none _)

end Cert.Proof.KI

end
-- ==== Proof.MainRegion.lean ====
import proofs.«203335_g10582799417878_cont_week2_139_36_alg».proof.Proof.MainAux
/-
  The kernel region as one step of @main: entered holding its six arrays, the TensorCore still owing its start signals —
  every wait of the region sits at the kernels' own level, below them —, and left with the two result arrays at contents
  the write-backs may have left and the recorded waits still at that level.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo (held held_split held_sdiff_result wp_hlo_within held_congr held_sub_split)
open Idealize.ShloMosaic.TcCoe

variable [∀ e, Nonempty (Elt F e)]
variable (m : (ℓ : Loc nD τ sig) → Buf (Elt F) ℓ)

/-! ## The region's rule at this program -/

omit [Named F] [∀ e, Nonempty (Elt F e)] in
/-- The pipeline has no prefetched table: its configuration with the (empty) tables pinned is the configuration. -/
theorem pin_eq : Pipeline.pin (pcfgs (F := F)) (fun p => (cfgs p).toPCfg_adm) = cfgs := funext fun p => (cfgs p).toPCfg_at _

omit [Named F] [∀ e, Nonempty (Elt F e)] in
theorem phinj : Function.Injective (Pipeline.cellOf (nD := nD) (τ := τ) (Pipeline.pin (pcfgs (F := F)) (fun p => (cfgs p).toPCfg_adm))) := by
  rw [pin_eq]; exact cellOf_inj

omit [Named F] [∀ e, Nonempty (Elt F e)] in
theorem cellsGhost_pin (d : Dev nD) :
    (Pipeline.cellsGhost (Pipeline.pin (pcfgs (F := F)) (fun p => (cfgs p).toPCfg_adm)) EP 0 d : sProp 𝕄) = Pipeline.cellsGhost cfgs EP 0 d :=
  congrArg (fun cf => (Pipeline.cellsGhost (nD := nD) (τ := τ) cf EP (0 : Fin 1) d : sProp 𝕄)) pin_eq
omit [Named F] [∀ e, Nonempty (Elt F e)] in
theorem toksInit_pin (d : Dev nD) :
    (Pipeline.toksInit (Pipeline.pin (pcfgs (F := F)) (fun p => (cfgs p).toPCfg_adm)) EP 0 d : sProp 𝕄) = Pipeline.toksInit cfgs EP 0 d :=
  congrArg (fun cf => (Pipeline.toksInit (nD := nD) (τ := τ) cf EP (0 : Fin 1) d : sProp 𝕄)) pin_eq

set_option backward.isDefEq.respectTransparency.types false in
set_option maxHeartbeats 1000000 in
/-- The region's rule, at this program's one pipeline and its proof data, in the rule's own spelling. -/
def regionRule (d : Dev nD) (Q : PUnit → sProp 𝕄) :=
  Pipeline.RDat.RegionSeg.wp (pcfgs (F := F)) (fun p => (cfgs p).toPCfg_adm)
    (Cert.KernelIdeal.Region.rds (Name := ℕ) (U := UU) (Lvl := ℕ) (VR2 m) ((K (F := F)).Otc d 0) (B₀ (F := F) d)) none (phinj (F := F)) EP (defs₀ (F := F)) Variants.none
    (K (F := F)).L (K (F := F)).lev
    (Cert.KernelIdeal.Region.seg (VR2 m) ((K (F := F)).Otc d 0) (B₀ (F := F) d) none (K (F := F)).L (K (F := F)).lev (hwaits m d)) d none
    (fun u hu => nomatch hu) (fun x => .ret x) Q

set_option backward.isDefEq.respectTransparency.types false in
set_option maxHeartbeats 1000000 in
/-- The same, over the names this proof uses: from the boundary, the six arrays at their entry contents, the TensorCore's
    `owes`, the level facts and the staging cells' launch state, the region's call runs; the continuation is entered with
    the boundary, the arrays at contents they may hold after every write-back, and the `owes`. -/
theorem region_rule (d : Dev nD) (Q : PUnit → sProp 𝕄) :
    iprop((iprop(boundary (SparseCore.T d) ∗ (rd m d).arraysAt cfg0.N ∗ (rd m d).owesAt none (Fin.last cfg0.N))
          -∗ wp frame (wpE (D (F := F)) 𝒱 (SparseCore.T d) none) Set.univ (.ret PUnit.unit) Q)
        ∗ boundary (SparseCore.T d) ∗ ((rd m d).arrays (rd m d).A ∗ (rd m d).owesAt none 0) ∗ levAts (K (F := F)).L (K (F := F)).lev
        ∗ Pipeline.cellsGhost (Pipeline.pin (pcfgs (F := F)) (fun p => (cfgs p).toPCfg_adm)) EP 0 d
        ∗ Pipeline.toksInit (Pipeline.pin (pcfgs (F := F)) (fun p => (cfgs p).toPCfg_adm)) EP 0 d)
      ⊢ wp frame (wpE (D (F := F)) 𝒱 (SparseCore.T d) none) Set.univ (Prog.lift (.customCall (Pipeline.entry 0) ())) Q :=
  regionRule m d Q

set_option maxHeartbeats 1000000 in
theorem region_step (d : Dev nD) (W : Waits sig (HIx 1)) (hW : (K (F := F)).WBelow (SparseCore.T d) W (8 * 0)) :
    iprop(levAts (K (F := F)).L (K (F := F)).lev ∗ boundary (SparseCore.T d) ∗ held (SparseCore.T d) SWin (Vd2 m d)
        ∗ owes (SparseCore.T d) ((K (F := F)).Otc d 0) W ∗ G (F := F) d)
      ⊢ wp frame (wpE ((K (F := F)).defs (D (F := F))) 𝒱 (SparseCore.T d) none) Set.univ
          (Prog.lift (.customCall (SparseCore.inner (Pipeline.entry 0)) ()))
          fun _ => iprop(∃ G4 G5 W', ⌜((rd m d).ArrAt 4 cfg0.N G4 ∧ (rd m d).ArrAt 5 cfg0.N G5) ∧ (K (F := F)).WBelow (SparseCore.T d) W' (8 * 0)⌝
            ∗ boundary (SparseCore.T d) ∗ held (SparseCore.T d) SWin (Vd3 m d G4 G5) ∗ owes (SparseCore.T d) ((K (F := F)).Otc d 0) W') := by
  unfold G
  iintro ⟨#Hlev, Hb, Hwin, HO, Hcg, Hti⟩
  ihave Harr := (Entails.of_eq (arrays_eq m d).symm) $$ Hwin
  ihave Hcg' := (Entails.of_eq (cellsGhost_pin (F := F) d).symm) $$ Hcg
  ihave Hti' := (Entails.of_eq (toksInit_pin (F := F) d).symm) $$ Hti
  iapply ((K (F := F)).wp_liftProg (D (F := F)) 𝒱 (SparseCore.T d) Set.univ none (Prog.lift (.customCall (Pipeline.entry 0) ())) _)
  iapply (region_rule m d _) $$ [Hb Harr HO Hcg' Hti']
  isplitr
  swap
  · isplitl [Hb]; · iexact Hb
    isplitl [Harr HO]
    · isplitl [Harr]; · iexact Harr
      iexists W; isplitr
      · ipureintro; exact fun p hp => Or.inl (hW p hp)
      iexact HO
    isplitr; · iexact Hlev
    isplitl [Hcg']; · iexact Hcg'
    iexact Hti'
  iintro ⟨Hb, Harr, HO⟩
  rw [wp_ret]; imodintro
  ihave Ha := (arraysAt_elim m d) $$ Harr
  icases Ha with ⟨%G4, %G5, %hG, Hwin⟩
  icases HO with ⟨%W', %hW', HO⟩
  iexists G4; iexists G5; iexists W'
  isplitr
  · ipureintro; exact ⟨hG, wbelow_after m d W' hW'⟩
  isplitl [Hb]; · iexact Hb
  isplitl [Hwin]; · iexact Hwin
  iexact HO

end Cert.Proof.KI

end
-- ==== Proof.CallRes.lean ====
/-
  The SparseCore call's operands, regrouped: before the call the three HBM arrays, held whole, are cut into what the two
  SparseCores' sequencers are handed (per subcore: its piece of the tokens, its slice of the scores at its SparseCore's
  read share, its piece of the result); after the call the 32 pieces of the result that come back are the result array,
  whole, each piece computed from score contents that are right on every vocabulary row.
-/
import proofs.«203335_g10582799417878_cont_week2_139_36_alg».proof.Proof.Setup
import proofs.«203335_g10582799417878_cont_week2_139_36_alg».proof.Proof.Split
import proofs.«203335_g10582799417878_cont_week2_139_36_alg».proof.Proof.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

/-- The call's SparseCores are the chip's two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A slice of the score array held at contents right on every vocabulary row. -/
theorem t_piece (d : Dev nD) (f3 : Buf (Elt F) (tLoc d)) (hf3 : TGood tF nG d f3) (q : PosShare TreeShare) (i : Fin 16) :
    (tLoc d ↦[tSet i]{q} f3 : sProp 𝕄) ⊢ tPts tF nG d (tSet i) q := by
  unfold tPts
  iintro H; iexists f3; isplitr; · ipureintro; exact hf3
  iexact H

/-- One read share of the score array, at contents right on every vocabulary row, is that share of each of its sixteen
    slices at such contents. -/
theorem t_share_slices (d : Dev nD) (f3 : Buf (Elt F) (tLoc d)) (hf3 : TGood tF nG d f3) (q : PosShare TreeShare) :
    (tLoc d ↦{q} f3 : sProp 𝕄) ⊢ bigSep Finset.univ fun i : Fin 16 => tPts tF nG d (tSet i) q := by
  rw [t_slices]
  exact SparseCore.ent (bigSep_mono (Φ := fun i => (tLoc d ↦[tSet i]{q} f3 : sProp 𝕄)) (Ψ := fun i => tPts tF nG d (tSet i) q)
    fun i _ => t_piece tF nG d f3 hf3 q i)

/-- A piece of the result held at some contents is held at contents nobody names. -/
theorem o_piece_any (d : Dev nD) (g5 : Buf (Elt F) (oLoc d)) :
    (bigSep Finset.univ fun c : Fin 2 => bigSep Finset.univ fun i : Fin 16 => (oLoc d ↦[oSet (wid c i)]{fullShare} g5 : sProp 𝕄))
      ⊢ bigSep Finset.univ fun c : Fin 2 => bigSep Finset.univ fun i : Fin 16 => iprop(∃ f, (oLoc d ↦[oSet (wid c i)]{fullShare} f : sProp 𝕄)) :=
  SparseCore.ent (bigSep_mono (Φ := fun c : Fin 2 => bigSep Finset.univ fun i : Fin 16 => (oLoc d ↦[oSet (wid c i)]{fullShare} g5 : sProp 𝕄))
    (Ψ := fun c : Fin 2 => bigSep Finset.univ fun i : Fin 16 => iprop(∃ f, (oLoc d ↦[oSet (wid c i)]{fullShare} f : sProp 𝕄)))
    fun c _ => SparseCore.ent (bigSep_mono (Φ := fun i : Fin 16 => (oLoc d ↦[oSet (wid c i)]{fullShare} g5 : sProp 𝕄))
      (Ψ := fun i : Fin 16 => iprop(∃ f, (oLoc d ↦[oSet (wid c i)]{fullShare} f : sProp 𝕄)))
      fun i _ => BI.BIClass.exists_intro (Φ := fun f => (oLoc d ↦[oSet (wid c i)]{fullShare} f : sProp 𝕄)) g5))

/-- BEFORE THE CALL: the score array at contents right on every vocabulary row, the token array at the re-laid tokens and
    the result array at anything, each held whole, are what the two sequencers are handed: the tokens and the result cut
    into their 32 pieces; of the scores, one read share per SparseCore (the remainder is let go), each cut into the sixteen
    slices. -/
theorem call_pre (d : Dev nD) (f3 : Buf (Elt F) (tLoc d)) (g5 : Buf (Elt F) (oLoc d)) (hf3 : TGood tF nG d f3) :
    iprop((tLoc d ↦{fullShare} f3) ∗ (xtLoc d ↦{fullShare} xtF d) ∗ (oLoc d ↦{fullShare} g5))
      ⊢ (bigSep Finset.univ fun c : Fin ((K (F := F)).nCore 0) => (P xtF tF nG oF).st 0 d c : sProp 𝕄) := by
  show _ ⊢ bigSep Finset.univ fun c : Fin ((K (F := F)).nCore 0) =>
    (fun c' : Fin 2 => bigSep Finset.univ fun i : Fin 16 => goRes xtF tF nG d c' i) (Fin.cast nCore_zero c)
  rw [bigSep_cores (F := F) (fun c' : Fin 2 => bigSep Finset.univ fun i : Fin 16 => goRes xtF tF nG d c' i)]
  unfold goRes
  simp only [bigSep_sep']
  rw [xt_pieces, o_pieces]
  iintro ⟨Ht, Hx, Ho⟩
  isplitl [Hx]; · iexact Hx
  isplitl [Ht]
  · ihave H := (Transfers.pointsTo_toks_split (ℓ := tLoc d) (S := Finset.univ) (f := f3) fullShare 2) $$ Ht
    icases H with ⟨-, Hs⟩
    iapply (SparseCore.ent (bigSep_mono (Φ := fun c : Fin 2 => (tLoc d ↦{Transfers.shareTok fullShare 2 c} f3 : sProp 𝕄))
      (Ψ := fun c : Fin 2 => bigSep Finset.univ fun i : Fin 16 => tPts tF nG d (tSet i) (Transfers.shareTok fullShare 2 c))
      fun c _ => t_share_slices tF nG d f3 hf3 (Transfers.shareTok fullShare 2 c)))
    iexact Hs
  iapply (o_piece_any d g5)
  iexact Ho

/-- AFTER THE CALL: the 32 pieces of the result the sequencers hand back, each at the result computed from score contents
    right on every vocabulary row, are the result array, whole, at contents that are on each piece that result. -/
theorem call_post (d : Dev nD) :
    (bigSep Finset.univ fun c : Fin ((K (F := F)).nCore 0) => (P xtF tF nG oF).dn 0 d c : sProp 𝕄)
      ⊢ iprop(∃ (gs : Fin 32 → Buf (Elt F) (tLoc d)) (o : Buf (Elt F) (oLoc d)),
          ⌜(∀ w, TGood tF nG d (gs w)) ∧ ∀ w, ∀ idx ∈ oSet w, o idx = oF d (gs w) idx⌝ ∗ oLoc d ↦{fullShare} o) := by
  show (bigSep Finset.univ fun c : Fin ((K (F := F)).nCore 0) =>
    (fun c' : Fin 2 => bigSep Finset.univ fun i : Fin 16 =>
      (fun w : Fin 32 => iprop(∃ g : Buf (Elt F) (tLoc d), ⌜TGood tF nG d g⌝ ∗ (oLoc d ↦[oSet w]{fullShare} oF d g : sProp 𝕄))) (wid c' i)) (Fin.cast nCore_zero c)) ⊢ _
  rw [bigSep_cores (F := F) (fun c' : Fin 2 => bigSep Finset.univ fun i : Fin 16 =>
      (fun w : Fin 32 => iprop(∃ g : Buf (Elt F) (tLoc d), ⌜TGood tF nG d g⌝ ∗ (oLoc d ↦[oSet w]{fullShare} oF d g : sProp 𝕄))) (wid c' i)),
    ← bigSep_pieces (fun w : Fin 32 => iprop(∃ g : Buf (Elt F) (tLoc d), ⌜TGood tF nG d g⌝ ∗ (oLoc d ↦[oSet w]{fullShare} oF d g : sProp 𝕄)))]
  iintro H
  ihave H1 := (bigSep_exists_pi Finset.univ (fun (w : Fin 32) (g : Buf (Elt F) (tLoc d)) =>
    iprop(⌜TGood tF nG d g⌝ ∗ (oLoc d ↦[oSet w]{fullShare} oF d g : sProp 𝕄)))) $$ H
  icases H1 with ⟨%gs, H1⟩
  ihave H2 := (bigSep_pure_sep Finset.univ (fun w : Fin 32 => TGood tF nG d (gs w))
    (fun w : Fin 32 => (oLoc d ↦[oSet w]{fullShare} oF d (gs w) : sProp 𝕄))) $$ H1
  icases H2 with ⟨%hgs, H2⟩
  ihave H3 := (pointsTo_biUnion_join (ℓ := oLoc d) (q := fullShare) Finset.univ oSet (fun w => oF d (gs w)) (oF d (gs 0)) oSets_disjoint) $$ H2
  icases H3 with ⟨%o, %ho, H3⟩
  rw [oSets_cover]
  iexists gs; iexists o
  isplitr
  · ipureintro; exact ⟨fun w => hgs w (Finset.mem_univ w), fun w idx hidx => ho w (Finset.mem_univ w) idx hidx⟩
  iexact H3

end Cert.Proof.KI

end
-- ==== Proof.MainTail.lean ====
/-
  The tail of @main on the TensorCore, from the end of the kernel region on: the two flattenings of the region's
  results, the SparseCore call on the flattened arrays, and the reshape of the call's result into one column.  Entered
  holding all twelve arrays at the valuation the region leaves; left holding the four arguments as launched and the result
  array at contents the stated relation admits.
-/
import proofs.«203335_g10582799417878_cont_week2_139_36_alg».proof.Proof.MainAux
import proofs.«203335_g10582799417878_cont_week2_139_36_alg».proof.Proof.CallRes
import proofs.«203335_g10582799417878_cont_week2_139_36_alg».proof.Proof.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo (held held_split held_sdiff_result wp_hlo_within held_congr held_sub_split)
open Idealize.ShloMosaic.TcCoe

variable [∀ e, Nonempty (Elt F e)]
variable (m : (ℓ : Loc nD τ sig) → Buf (Elt F) ℓ) (ρ : Dev nD → PrngReg)
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

omit [FloatOps F] [Named F] [∀ e, Nonempty (Elt F e)] in
theorem hSCall : (SCall : Finset (DevRef τ sig)) ⊆ SAll := by decide

omit [Named F] [∀ e, Nonempty (Elt F e)] in
/-- The call's three arrays after the two flattenings: the score array at the region's score blocks flattened, the token
    array at the re-laid tokens, the result array at whatever it held. -/
theorem call_arrays (d : Dev nD) (G4) (G5)
    (hx : (fun i => shapeCast S819200 (G5 : Vec F S32x200x128 .i32) shapeCasts_S32x200x128_S819200 i) = xtF d) :
    (held (SparseCore.T d) SCall (Vd5 m d G4 G5) : sProp 𝕄)
      = iprop((tLoc d ↦{fullShare} (fun i => shapeCast S1003520 (G4 : Vec F S32x1x31360 .f32) shapeCasts_S32x1x31360_S1003520 i))
        ∗ (xtLoc d ↦{fullShare} xtF d) ∗ (oLoc d ↦{fullShare} Vd5 m d G4 G5 v5')) := by
  rw [held_SCall, Vd5_v3, Vd5_v4, hx]

set_option maxHeartbeats 2000000 in
theorem main_tail (RG : (d : Dev nD) → Buf (Elt F) ((d, v6') : Loc nD τ sig) → Prop)
    (hXT : ∀ d G5, (rd m d).ArrAt 5 cfg0.N G5 → (fun i => shapeCast S819200 (G5 : Vec F S32x200x128 .i32) shapeCasts_S32x200x128_S819200 i) = xtF d)
    (hTG : ∀ d G4, (rd m d).ArrAt 4 cfg0.N G4 → TGood tF nG d (fun i => shapeCast S1003520 (G4 : Vec F S32x1x31360 .f32) shapeCasts_S32x1x31360_S1003520 i))
    (hRG : ∀ d (gs : Fin 32 → Buf (Elt F) (tLoc d)) (o : Buf (Elt F) (oLoc d)), (∀ w, TGood tF nG d (gs w)) → (∀ w, ∀ idx ∈ oSet w, o idx = oF d (gs w) idx) →
        RG d (fun i => shapeCast S4096x1 (o : Vec F S4096 .f32) shapeCasts_S4096_S4096x1 i))
    (κ : GSem nD τ sig → ℕ) (d : Dev nD) (G4) (G5) (hG : (rd m d).ArrAt 4 cfg0.N G4 ∧ (rd m d).ArrAt 5 cfg0.N G5)
    (W' : Waits sig (HIx 1)) (hWB : (K (F := F)).WBelow (SparseCore.T d) W' (8 * 0)) :
    iprop((K (F := F)).ctx EH (P xtF tF nG oF) κ ∗ owes (SparseCore.T d) ((K (F := F)).Otc d 0) W' ∗ tcRest (F := F) d 0 ∗ boundary (SparseCore.T d)
        ∗ held (SparseCore.T d) SAll (Vd3 m d G4 G5))
      ⊢ wp frame (wpE ((K (F := F)).defs (D (F := F))) 𝒱 (SparseCore.T d) none) Set.univ (hlo rfl (opR3 (F := F)) fun _ => .ret PUnit.unit) fun _ =>
          wp frame (wpE ((K (F := F)).defs (D (F := F))) 𝒱 (SparseCore.T d) none) Set.univ (hlo rfl (opR4 (F := F)) fun _ => .ret PUnit.unit) fun _ =>
            wp frame (wpE ((K (F := F)).defs (D (F := F))) 𝒱 (SparseCore.T d) none) Set.univ ((sc (F := F)).run d 0) fun _ =>
              wp frame (wpE ((K (F := F)).defs (D (F := F))) 𝒱 (SparseCore.T d) none) Set.univ (hlo rfl (opR5 (F := F)) fun _ => .ret PUnit.unit) fun _ =>
                iprop(|={Set.univ}=> ((K (F := F)).tcSt EH d 1 ∗ FIN m RG d)) := by
  iintro ⟨#Hctx, HO, Hrest, Hb, Hall⟩
  -- the two flattenings
  iapply (wp_hlo_within 𝒱 (SparseCore.T d) none Set.univ (op := opR3 (F := F)) (S := SAll) hR3 (V := Vd3 m d G4 G5)) $$ [Hb Hall]
  · isplitl [Hb]; · iexact Hb
    iexact Hall
  iintro ⟨Hb, Hall⟩
  rw [wp_ret]; imodintro
  iapply (wp_hlo_within 𝒱 (SparseCore.T d) none Set.univ (op := opR4 (F := F)) (S := SAll) hR4 (V := (opR3 (F := F)).result (Vd3 m d G4 G5))) $$ [Hb Hall]
  · isplitl [Hb]; · iexact Hb
    iexact Hall
  iintro ⟨Hb, Hall⟩
  rw [wp_ret]; imodintro
  -- the call's three arrays out of the twelve, cut into what the sequencers are handed
  ihave Hh := (show (held (SparseCore.T d) SAll (Vd5 m d G4 G5) : sProp 𝕄)
      ⊢ iprop(held (SparseCore.T d) SCall (Vd5 m d G4 G5) ∗ held (SparseCore.T d) (SAll \ SCall) (Vd5 m d G4 G5)) from
    Entails.of_eq (held_sub_split (SparseCore.T d) hSCall (Vd5 m d G4 G5))) $$ Hall
  icases Hh with ⟨Hcall, Hoth⟩
  ihave Hc := (Entails.of_eq (call_arrays m xtF d G4 G5 (hXT d G5 hG.2))) $$ Hcall
  ihave Hst := (call_pre xtF tF nG oF d _ _ (hTG d G4 hG.1)) $$ Hc
  ihave Hst0 := (show iprop((∃ W, ⌜(K (F := F)).WBelow (SparseCore.T d) W (8 * 0)⌝ ∗ owes (SparseCore.T d) ((K (F := F)).Otc d 0) W) ∗ tcRest (F := F) d 0)
      ⊢ ((K (F := F)).tcSt EH d 0 : sProp 𝕄) from Entails.of_eq (tcSt_eq (F := F) d 0).symm) $$ [HO Hrest]
  · isplitl [HO]
    · iexists W'; isplitr; · ipureintro; exact hWB
      iexact HO
    iexact Hrest
  -- the call
  iapply ((K (F := F)).wp_run (D (F := F)) 𝒱 (EH := EH) (P := P xtF tF nG oF) κ d 0) $$ [Hst0 Hst Hb Hoth]
  isplitr; · iexact Hctx
  isplitl [Hst0]; · iexact Hst0
  isplitl [Hst]; · iexact Hst
  iintro ⟨Hst1, Hdn⟩
  ihave Hp := (call_post xtF tF nG oF d) $$ Hdn
  icases Hp with ⟨%gs, %o, %hgo, Ho⟩
  ihave Hfin := (held_SFin m d G4 G5 o) $$ [Ho Hoth]
  · isplitl [Ho]; · iexact Ho
    iexact Hoth
  -- the last reshape
  iapply (wp_hlo_within 𝒱 (SparseCore.T d) none Set.univ (op := opR5 (F := F)) (S := SFin) hR5' (V := Vd6 m d G4 G5 o)) $$ [Hb Hfin]
  · isplitl [Hb]; · iexact Hb
    iexact Hfin
  iintro ⟨Hb, Hfin⟩
  rw [wp_ret]; imodintro
  ihave Hout := (held_out m d G4 G5 o) $$ Hfin
  icases Hout with ⟨H0, H1, H2, H3, H6⟩
  imodintro
  isplitl [Hst1]; · iexact Hst1
  unfold FIN
  isplitl [H0]; · iexact H0
  isplitl [H1]; · iexact H1
  isplitl [H2]; · iexact H2
  isplitl [H3]; · iexact H3
  iexists _; isplitr
  · ipureintro; exact hRG d gs o hgo.1 hgo.2
  iexact H6

end Cert.Proof.KI

end
-- ==== Proof.Main.lean ====
/-
  @main on the TensorCore of a device, whole: the two transposes, the kernel region, and the tail (the two flattenings, the
  SparseCore call, the last reshape).  The region's step and the tail are proved apart; here they are chained: what the
  region leaves — the two result arrays at contents the write-backs may have left, the TensorCore's debt unchanged and its
  recorded waits still at the kernels' own level — is what the tail starts from.
-/
import proofs.«203335_g10582799417878_cont_week2_139_36_alg».proof.Proof.MainRegion
import proofs.«203335_g10582799417878_cont_week2_139_36_alg».proof.Proof.MainTail

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo (held held_split held_sdiff_result wp_hlo_within held_congr held_sub_split)
open Idealize.ShloMosaic.TcCoe

variable [∀ e, Nonempty (Elt F e)]
variable (m : (ℓ : Loc nD τ sig) → Buf (Elt F) ℓ) (ρ : Dev nD → PrngReg)
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

set_option maxHeartbeats 2000000 in
theorem hmain (RG : (d : Dev nD) → Buf (Elt F) ((d, v6') : Loc nD τ sig) → Prop)
    (hXT : ∀ d G5, (rd m d).ArrAt 5 cfg0.N G5 → (fun i => shapeCast S819200 (G5 : Vec F S32x200x128 .i32) shapeCasts_S32x200x128_S819200 i) = xtF d)
    (hTG : ∀ d G4, (rd m d).ArrAt 4 cfg0.N G4 → TGood tF nG d (fun i => shapeCast S1003520 (G4 : Vec F S32x1x31360 .f32) shapeCasts_S32x1x31360_S1003520 i))
    (hRG : ∀ d (gs : Fin 32 → Buf (Elt F) (tLoc d)) (o : Buf (Elt F) (oLoc d)), (∀ w, TGood tF nG d (gs w)) → (∀ w, ∀ idx ∈ oSet w, o idx = oF d (gs w) idx) →
        RG d (fun i => shapeCast S4096x1 (o : Vec F S4096 .f32) shapeCasts_S4096_S4096x1 i))
    (κ : GSem nD τ sig → ℕ) (d : Dev nD) :
    iprop((K (F := F)).ctx EH (P xtF tF nG oF) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m RG d) := by
  unfold SparseCore.Cfg.tcRes
  rw [show (fun b : Ref sig .tc => m ((SparseCore.T d).loc b)) = (fun b : Ref sig .tc => Vd0 m d (Proc.devRef .tc b)) from rfl, unscoped_held,
    tcSt_eq (F := F) d 0]
  simp only [main, wp_bind, wp_pure]
  iintro ⟨#Hctx, ⟨⟨%W, %hW, HO⟩, Hrest⟩, ⟨Hb, Hheld, Hsems, Hprng⟩, HG⟩
  ihave Hlev := ((K (F := F)).ctx_levAts κ) $$ Hctx
  -- the two transposes
  iapply (wp_hlo_within 𝒱 (SparseCore.T d) none Set.univ (op := opT1 (F := F)) (S := SAll) hT1 (V := Vd0 m d)) $$ [Hb Hheld]
  · isplitl [Hb]; · iexact Hb
    iexact Hheld
  iintro ⟨Hb, Hheld⟩
  rw [wp_ret]; imodintro
  iapply (wp_hlo_within 𝒱 (SparseCore.T d) none Set.univ (op := opT2 (F := F)) (S := SAll) hT2 (V := (opT1 (F := F)).result (Vd0 m d))) $$ [Hb Hheld]
  · isplitl [Hb]; · iexact Hb
    iexact Hheld
  iintro ⟨Hb, Hheld⟩
  rw [wp_ret]; imodintro
  -- the kernel region, then the tail from what it leaves
  ihave Hh := (show (held (SparseCore.T d) SAll ((opT2 (F := F)).result ((opT1 (F := F)).result (Vd0 m d))) : sProp 𝕄)
      ⊢ iprop(held (SparseCore.T d) SWin (Vd2 m d) ∗ held (SparseCore.T d) (SAll \ SWin) (Vd2 m d)) from
    Entails.of_eq (held_sub_split (SparseCore.T d) hSWin (Vd2 m d))) $$ Hheld
  icases Hh with ⟨Hwin, Hoth⟩
  iapply (wp_wand_r frame _ Set.univ)
  isplitl [Hlev Hb Hwin HO HG]
  · iapply (region_step m d W hW)
    isplitl [Hlev]; · iexact Hlev
    isplitl [Hb]; · iexact Hb
    isplitl [Hwin]; · iexact Hwin
    isplitl [HO]; · iexact HO
    iexact HG
  iintro %a ⟨%G4, %G5, %W', %h, Hb, Hwin, HO⟩
  ihave Hoth' := (Entails.of_eq (held_congr (SparseCore.T d) (S := SAll \ SWin) (V := Vd2 m d) (V' := Vd3 m d G4 G5)
    (fun b hb => (Vd3_other m d G4 G5 b (fun e => (Finset.mem_sdiff.mp hb).2 (e ▸ (by decide : (v20' : DevRef τ sig) ∈ SWin)))
      (fun e => (Finset.mem_sdiff.mp hb).2 (e ▸ (by decide : (v21' : DevRef τ sig) ∈ SWin)))).symm))) $$ Hoth
  ihave Hall := (Entails.of_eq (held_sub_split (SparseCore.T d) hSWin (Vd3 m d G4 G5)).symm) $$ [Hwin Hoth']
  · isplitl [Hwin]; · iexact Hwin
    iexact Hoth'
  iapply (main_tail m xtF tF nG oF RG hXT hTG hRG κ d G4 G5 h.1 W' h.2)
  isplitr; · iexact Hctx
  isplitl [HO]; · iexact HO
  isplitl [Hrest]; · iexact Hrest
  isplitl [Hb]; · iexact Hb
  iexact Hall

end Cert.Proof.KI

end
-- ==== Proof.Vals2K.lean ====
/-
  The TensorCore's handshake state split into what it owes and the rest, and the valuation of @main's arrays after the
  two flattenings that follow the kernel region: the token array holds the region's re-laid blocks flattened, the score
  array the region's score blocks flattened, the arguments what they held at the launch.
-/
import proofs.«203335_g10582799417878_cont_week2_139_36_alg».proof.Proof.ArrsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_split held_sdiff_result wp_hlo_within held_congr held_sub_split)
open Idealize.ShloMosaic.TcCoe

variable [∀ e, Nonempty (Elt F e)]
variable (m : (ℓ : Loc nD τ sig) → Buf (Elt F) ℓ) (ρ : Dev nD → PrngReg)
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

/-- The TensorCore's handshake state beside what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := rfl

/-! ## The valuation after the two flattenings -/

abbrev Vd5 (d : Dev nD) (G4 : Buf (Elt F) ((cfg0.win 4).arr.view.loc (d : Thread nD τ))) (G5 : Buf (Elt F) ((cfg0.win 5).arr.view.loc (d : Thread nD τ))) :
    Valuation τ sig (Elt F) := (opR4 (F := F)).result ((opR3 (F := F)).result (Vd3 m d G4 G5))

omit [∀ e, Nonempty (Elt F e)] in
theorem Vd5_v4 (d : Dev nD) (G4) (G5) :
    Vd5 m d G4 G5 v4' = fun i => shapeCast S819200 (G5 : Vec F S32x200x128 .i32) shapeCasts_S32x200x128_S819200 i := by
  unfold Vd5
  rw [StableHlo.reshape_result', StableHlo.reshape_result_ne' (r := main_v2_1) (h := by decide), Vd3_v21]
  rfl
omit [∀ e, Nonempty (Elt F e)] in
theorem Vd5_v3 (d : Dev nD) (G4) (G5) :
    Vd5 m d G4 G5 v3' = fun i => shapeCast S1003520 (G4 : Vec F S32x1x31360 .f32) shapeCasts_S32x1x31360_S1003520 i := by
  unfold Vd5
  rw [StableHlo.reshape_result_ne' (r := main_v3) (h := by decide), StableHlo.reshape_result', Vd3_v20]
  rfl
omit [∀ e, Nonempty (Elt F e)] in
/-- The arguments are never written. -/
theorem Vd5_arg (d : Dev nD) (G4) (G5) (r : Ref sig .tc) (h0 : r ≠ main_v0) (h1 : r ≠ main_v1) (h20 : r ≠ main_v2_0) (h21 : r ≠ main_v2_1)
    (h3 : r ≠ main_v3) (h4 : r ≠ main_v4) :
    Vd5 m d G4 G5 (Proc.devRef .tc r) = m (d, Proc.devRef .tc r) := by
  unfold Vd5
  rw [StableHlo.reshape_result_ne' (h := h4), StableHlo.reshape_result_ne' (h := h3),
    Vd3_other m d G4 G5 _ (StableHlo.devRef_ne_of_ne h20) (StableHlo.devRef_ne_of_ne h21)]
  unfold Vd2
  rw [StableHlo.unary_result_ne' (h := h1), StableHlo.unary_result_ne' (h := h0)]
  rfl

end Cert.Proof.KB

end
-- ==== Proof.MainAuxK.lean ====
/-
  @main on the TensorCore, small steps around the SparseCore call: the call's three arrays out of the held set and, after
  the call, the result array put back at what the subcores computed; the last reshape read off the held set as the four
  arguments at their launch contents and the result array at the call's result, one column wide; and the TensorCore's
  recorded waits after the kernel region still at the lowest level.
-/
import proofs.«203335_g10582799417878_cont_week2_139_36_alg».proof.Proof.Vals2K

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_split held_sdiff_result wp_hlo_within held_congr held_sub_split)
open Idealize.ShloMosaic.TcCoe

variable (m : (ℓ : Loc nD τ sig) → Buf (Elt F) ℓ)

/-! ## The SparseCore call's three arrays -/

omit [FloatOps F] in
/-- The call's arrays held as a set are the score array, the token array and the result array, each held whole. -/
theorem held_SCall (d : Dev nD) (Vv : Valuation τ sig (Elt F)) :
    (held (SparseCore.T d) SCall Vv : sProp 𝕄)
      = iprop((tLoc d ↦{fullShare} Vv v3') ∗ (xtLoc d ↦{fullShare} Vv v4') ∗ (oLoc d ↦{fullShare} Vv v5')) := by
  unfold held
  rw [SparseCore.bigSep_insert' (by decide), SparseCore.bigSep_insert' (by decide), bigSep_singleton]

/-! ## After the call: the result array back among the others -/

/-- What is held for the last reshape: everything but the call's score and token arrays. -/
abbrev SFin : Finset (DevRef τ sig) := insert v5' (SAll \ SCall)

theorem hR5' : (opR5 (F := F)).bufs ⊆ SFin := show ({v5', v6'} : Finset (DevRef τ sig)) ⊆ SFin by decide

/-- The valuation after the call: the result array at what the call left, the rest as after the flattenings. -/
def Vd6 (d : Dev nD) (G4 : Buf (Elt F) ((cfg0.win 4).arr.view.loc (d : Thread nD τ))) (G5 : Buf (Elt F) ((cfg0.win 5).arr.view.loc (d : Thread nD τ)))
    (o : Buf (Elt F) (oLoc d)) : Valuation τ sig (Elt F) := Function.update (Vd5 m d G4 G5) v5' o

theorem Vd6_v5 (d : Dev nD) (G4) (G5) (o : Buf (Elt F) (oLoc d)) : Vd6 m d G4 G5 o v5' = o := Function.update_self _ _ _
theorem Vd6_other (d : Dev nD) (G4) (G5) (o : Buf (Elt F) (oLoc d)) (b : DevRef τ sig) (h : b ≠ v5') :
    Vd6 m d G4 G5 o b = Vd5 m d G4 G5 b := Function.update_of_ne h _ _

/-- The result array at the call's result beside the others is the set held for the last reshape. -/
theorem held_SFin (d : Dev nD) (G4) (G5) (o : Buf (Elt F) (oLoc d)) :
    iprop((oLoc d ↦{fullShare} o) ∗ held (SparseCore.T d) (SAll \ SCall) (Vd5 m d G4 G5))
      ⊢ (held (SparseCore.T d) SFin (Vd6 m d G4 G5 o) : sProp 𝕄) := by
  have h1 : (held (SparseCore.T d) SFin (Vd6 m d G4 G5 o) : sProp 𝕄)
      = iprop((((d, v5') : Loc nD τ sig) ↦{fullShare} Vd6 m d G4 G5 o v5') ∗ held (SparseCore.T d) (SAll \ SCall) (Vd6 m d G4 G5 o)) := by
    unfold held; exact SparseCore.bigSep_insert' (by decide)
  have h2 : (held (SparseCore.T d) (SAll \ SCall) (Vd6 m d G4 G5 o) : sProp 𝕄) = held (SparseCore.T d) (SAll \ SCall) (Vd5 m d G4 G5) :=
    held_congr (SparseCore.T d) fun b hb => Vd6_other m d G4 G5 o b (fun e => by rw [e] at hb; exact absurd hb (by decide))
  rw [h1, h2, Vd6_v5]

/-! ## The last reshape, read -/

/-- After the last reshape an argument array is as launched, -/
theorem out_arg (d : Dev nD) (G4) (G5) (o : Buf (Elt F) (oLoc d)) (r : Ref sig .tc) (h0 : r ≠ main_v0) (h1 : r ≠ main_v1) (h20 : r ≠ main_v2_0)
    (h21 : r ≠ main_v2_1) (h3 : r ≠ main_v3) (h4 : r ≠ main_v4) (h5 : r ≠ main_v5) (h6 : r ≠ main_v6) :
    (opR5 (F := F)).result (Vd6 m d G4 G5 o) (Proc.devRef .tc r) = m (d, Proc.devRef .tc r) := by
  rw [StableHlo.reshape_result_ne' (h := h6), Vd6_other m d G4 G5 o _ (StableHlo.devRef_ne_of_ne h5), Vd5_arg m d G4 G5 r h0 h1 h20 h21 h3 h4]

/-- and the program's result is the call's result as one column. -/
theorem out_v6 (d : Dev nD) (G4) (G5) (o : Buf (Elt F) (oLoc d)) :
    (opR5 (F := F)).result (Vd6 m d G4 G5 o) v6' = fun i => shapeCast S4096x1 (o : Vec F S4096 .f32) shapeCasts_S4096_S4096x1 i := by
  rw [StableHlo.reshape_result', Vd6_v5]
  rfl

/-- The five arrays the claim speaks of. -/
abbrev SOut : Finset (DevRef τ sig) := {a0', a1', a2', a3', v6'}

theorem held_out (d : Dev nD) (G4) (G5) (o : Buf (Elt F) (oLoc d)) :
    (held (SparseCore.T d) SFin ((opR5 (F := F)).result (Vd6 m d G4 G5 o)) : sProp 𝕄)
      ⊢ iprop((((d, a0') : Loc nD τ sig) ↦{fullShare} m (d, a0')) ∗ (((d, a1') : Loc nD τ sig) ↦{fullShare} m (d, a1'))
        ∗ (((d, a2') : Loc nD τ sig) ↦{fullShare} m (d, a2')) ∗ (((d, a3') : Loc nD τ sig) ↦{fullShare} m (d, a3'))
        ∗ ((d, v6') : Loc nD τ sig) ↦{fullShare} (fun i => shapeCast S4096x1 (o : Vec F S4096 .f32) shapeCasts_S4096_S4096x1 i)) := by
  rw [held_sub_split (SparseCore.T d) (T := SOut) (by decide)]
  refine sep_elim_left.trans ?_
  unfold held
  rw [SparseCore.bigSep_insert' (by decide), SparseCore.bigSep_insert' (by decide), SparseCore.bigSep_insert' (by decide),
    SparseCore.bigSep_insert' (by decide), bigSep_singleton,
    out_arg m d G4 G5 o main_arg0 (by decide) (by decide) (by decide) (by decide) (by decide) (by decide) (by decide) (by decide),
    out_arg m d G4 G5 o main_arg1 (by decide) (by decide) (by decide) (by decide) (by decide) (by decide) (by decide) (by decide),
    out_arg m d G4 G5 o main_arg2 (by decide) (by decide) (by decide) (by decide) (by decide) (by decide) (by decide) (by decide),
    out_arg m d G4 G5 o main_arg3 (by decide) (by decide) (by decide) (by decide) (by decide) (by decide) (by decide) (by decide),
    out_v6]

/-! ## The TensorCore's recorded waits after the region -/

/-- Whatever waits the TensorCore has recorded when the kernel region ends — those it came with, at the lowest level, and
    the pipeline's own on its staging semaphores, which sit at no call's index — are all at the lowest level. -/
theorem wbelow_after (d : Dev nD) (W' : Waits sig (HIx 1))
    (h : (↑W' : Set (SemLoc sig × HIx 1)) ⊆ (rd m d).bound none (Fin.last cfg0.N)) :
    (K (F := F)).WBelow (SparseCore.T d) W' (8 * 0) := fun p hp => by
  rcases h (Finset.mem_coe.mpr hp) with hB | ⟨w, s, rfl⟩
  · exact hB
  · exact le_of_eq ((K (F := F)).lev_none _)

end Cert.Proof.KB

end
-- ==== Proof.MainRegionK.lean ====
import proofs.«203335_g10582799417878_cont_week2_139_36_alg».proof.Proof.MainAuxK
/-
  The kernel region as one step of @main: entered holding its six arrays, the TensorCore still owing its start signals —
  every wait of the region sits at the kernels' own level, below them —, and left with the two result arrays at contents
  the write-backs may have left and the recorded waits still at that level.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_split held_sdiff_result wp_hlo_within held_congr held_sub_split)
open Idealize.ShloMosaic.TcCoe

variable [∀ e, Nonempty (Elt F e)]
variable (m : (ℓ : Loc nD τ sig) → Buf (Elt F) ℓ)

/-! ## The region's rule at this program -/

omit [∀ e, Nonempty (Elt F e)] in
/-- The pipeline has no prefetched table: its configuration with the (empty) tables pinned is the configuration. -/
theorem pin_eq : Pipeline.pin (pcfgs (F := F)) (fun p => (cfgs p).toPCfg_adm) = cfgs := funext fun p => (cfgs p).toPCfg_at _

omit [∀ e, Nonempty (Elt F e)] in
theorem phinj : Function.Injective (Pipeline.cellOf (nD := nD) (τ := τ) (Pipeline.pin (pcfgs (F := F)) (fun p => (cfgs p).toPCfg_adm))) := by
  rw [pin_eq]; exact cellOf_inj

omit [∀ e, Nonempty (Elt F e)] in
theorem cellsGhost_pin (d : Dev nD) :
    (Pipeline.cellsGhost (Pipeline.pin (pcfgs (F := F)) (fun p => (cfgs p).toPCfg_adm)) EP 0 d : sProp 𝕄) = Pipeline.cellsGhost cfgs EP 0 d :=
  congrArg (fun cf => (Pipeline.cellsGhost (nD := nD) (τ := τ) cf EP (0 : Fin 1) d : sProp 𝕄)) pin_eq
omit [∀ e, Nonempty (Elt F e)] in
theorem toksInit_pin (d : Dev nD) :
    (Pipeline.toksInit (Pipeline.pin (pcfgs (F := F)) (fun p => (cfgs p).toPCfg_adm)) EP 0 d : sProp 𝕄) = Pipeline.toksInit cfgs EP 0 d :=
  congrArg (fun cf => (Pipeline.toksInit (nD := nD) (τ := τ) cf EP (0 : Fin 1) d : sProp 𝕄)) pin_eq

set_option backward.isDefEq.respectTransparency.types false in
set_option maxHeartbeats 1000000 in
/-- The region's rule, at this program's one pipeline and its proof data, in the rule's own spelling. -/
def regionRule (d : Dev nD) (Q : PUnit → sProp 𝕄) :=
  Pipeline.RDat.RegionSeg.wp (pcfgs (F := F)) (fun p => (cfgs p).toPCfg_adm)
    (Cert.Kernel.Region.rds (Name := ℕ) (U := UU) (Lvl := ℕ) (VR2 m) ((K (F := F)).Otc d 0) (B₀ (F := F) d)) none (phinj (F := F)) EP (defs₀ (F := F)) Variants.none
    (K (F := F)).L (K (F := F)).lev
    (Cert.Kernel.Region.seg (VR2 m) ((K (F := F)).Otc d 0) (B₀ (F := F) d) none (K (F := F)).L (K (F := F)).lev (hwaits m d)) d none
    (fun u hu => nomatch hu) (fun x => .ret x) Q

set_option backward.isDefEq.respectTransparency.types false in
set_option maxHeartbeats 1000000 in
/-- The same, over the names this proof uses: from the boundary, the six arrays at their entry contents, the TensorCore's
    `owes`, the level facts and the staging cells' launch state, the region's call runs; the continuation is entered with
    the boundary, the arrays at contents they may hold after every write-back, and the `owes`. -/
theorem region_rule (d : Dev nD) (Q : PUnit → sProp 𝕄) :
    iprop((iprop(boundary (SparseCore.T d) ∗ (rd m d).arraysAt cfg0.N ∗ (rd m d).owesAt none (Fin.last cfg0.N))
          -∗ wp frame (wpE (D (F := F)) 𝒱 (SparseCore.T d) none) Set.univ (.ret PUnit.unit) Q)
        ∗ boundary (SparseCore.T d) ∗ ((rd m d).arrays (rd m d).A ∗ (rd m d).owesAt none 0) ∗ levAts (K (F := F)).L (K (F := F)).lev
        ∗ Pipeline.cellsGhost (Pipeline.pin (pcfgs (F := F)) (fun p => (cfgs p).toPCfg_adm)) EP 0 d
        ∗ Pipeline.toksInit (Pipeline.pin (pcfgs (F := F)) (fun p => (cfgs p).toPCfg_adm)) EP 0 d)
      ⊢ wp frame (wpE (D (F := F)) 𝒱 (SparseCore.T d) none) Set.univ (Prog.lift (.customCall (Pipeline.entry 0) ())) Q :=
  regionRule m d Q

set_option maxHeartbeats 1000000 in
theorem region_step (d : Dev nD) (W : Waits sig (HIx 1)) (hW : (K (F := F)).WBelow (SparseCore.T d) W (8 * 0)) :
    iprop(levAts (K (F := F)).L (K (F := F)).lev ∗ boundary (SparseCore.T d) ∗ held (SparseCore.T d) SWin (Vd2 m d)
        ∗ owes (SparseCore.T d) ((K (F := F)).Otc d 0) W ∗ G (F := F) d)
      ⊢ wp frame (wpE ((K (F := F)).defs (D (F := F))) 𝒱 (SparseCore.T d) none) Set.univ
          (Prog.lift (.customCall (SparseCore.inner (Pipeline.entry 0)) ()))
          fun _ => iprop(∃ G4 G5 W', ⌜((rd m d).ArrAt 4 cfg0.N G4 ∧ (rd m d).ArrAt 5 cfg0.N G5) ∧ (K (F := F)).WBelow (SparseCore.T d) W' (8 * 0)⌝
            ∗ boundary (SparseCore.T d) ∗ held (SparseCore.T d) SWin (Vd3 m d G4 G5) ∗ owes (SparseCore.T d) ((K (F := F)).Otc d 0) W') := by
  unfold G
  iintro ⟨#Hlev, Hb, Hwin, HO, Hcg, Hti⟩
  ihave Harr := (Entails.of_eq (arrays_eq m d).symm) $$ Hwin
  ihave Hcg' := (Entails.of_eq (cellsGhost_pin (F := F) d).symm) $$ Hcg
  ihave Hti' := (Entails.of_eq (toksInit_pin (F := F) d).symm) $$ Hti
  iapply ((K (F := F)).wp_liftProg (D (F := F)) 𝒱 (SparseCore.T d) Set.univ none (Prog.lift (.customCall (Pipeline.entry 0) ())) _)
  iapply (region_rule m d _) $$ [Hb Harr HO Hcg' Hti']
  isplitr
  swap
  · isplitl [Hb]; · iexact Hb
    isplitl [Harr HO]
    · isplitl [Harr]; · iexact Harr
      iexists W; isplitr
      · ipureintro; exact fun p hp => Or.inl (hW p hp)
      iexact HO
    isplitr; · iexact Hlev
    isplitl [Hcg']; · iexact Hcg'
    iexact Hti'
  iintro ⟨Hb, Harr, HO⟩
  rw [wp_ret]; imodintro
  ihave Ha := (arraysAt_elim m d) $$ Harr
  icases Ha with ⟨%G4, %G5, %hG, Hwin⟩
  icases HO with ⟨%W', %hW', HO⟩
  iexists G4; iexists G5; iexists W'
  isplitr
  · ipureintro; exact ⟨hG, wbelow_after m d W' hW'⟩
  isplitl [Hb]; · iexact Hb
  isplitl [Hwin]; · iexact Hwin
  iexact HO

end Cert.Proof.KB

end
-- ==== Proof.CallResK.lean ====
/-
  The SparseCore call's operands, regrouped: before the call the three HBM arrays, held whole, are cut into what the two
  SparseCores' sequencers are handed (per subcore: its piece of the tokens, its slice of the scores at its SparseCore's
  read share, its piece of the result); after the call the 32 pieces of the result that come back are the result array,
  whole, each piece computed from score contents that are right on every vocabulary row.
-/
import proofs.«203335_g10582799417878_cont_week2_139_36_alg».proof.Proof.SetupK
import proofs.«203335_g10582799417878_cont_week2_139_36_alg».proof.Proof.SplitK
import proofs.«203335_g10582799417878_cont_week2_139_36_alg».proof.Proof.PiecesK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

/-- The call's SparseCores are the chip's two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A slice of the score array held at contents right on every vocabulary row. -/
theorem t_piece (d : Dev nD) (f3 : Buf (Elt F) (tLoc d)) (hf3 : TGood tF nG d f3) (q : PosShare TreeShare) (i : Fin 16) :
    (tLoc d ↦[tSet i]{q} f3 : sProp 𝕄) ⊢ tPts tF nG d (tSet i) q := by
  unfold tPts
  iintro H; iexists f3; isplitr; · ipureintro; exact hf3
  iexact H

/-- One read share of the score array, at contents right on every vocabulary row, is that share of each of its sixteen
    slices at such contents. -/
theorem t_share_slices (d : Dev nD) (f3 : Buf (Elt F) (tLoc d)) (hf3 : TGood tF nG d f3) (q : PosShare TreeShare) :
    (tLoc d ↦{q} f3 : sProp 𝕄) ⊢ bigSep Finset.univ fun i : Fin 16 => tPts tF nG d (tSet i) q := by
  rw [t_slices]
  exact SparseCore.ent (bigSep_mono (Φ := fun i => (tLoc d ↦[tSet i]{q} f3 : sProp 𝕄)) (Ψ := fun i => tPts tF nG d (tSet i) q)
    fun i _ => t_piece tF nG d f3 hf3 q i)

/-- A piece of the result held at some contents is held at contents nobody names. -/
theorem o_piece_any (d : Dev nD) (g5 : Buf (Elt F) (oLoc d)) :
    (bigSep Finset.univ fun c : Fin 2 => bigSep Finset.univ fun i : Fin 16 => (oLoc d ↦[oSet (wid c i)]{fullShare} g5 : sProp 𝕄))
      ⊢ bigSep Finset.univ fun c : Fin 2 => bigSep Finset.univ fun i : Fin 16 => iprop(∃ f, (oLoc d ↦[oSet (wid c i)]{fullShare} f : sProp 𝕄)) :=
  SparseCore.ent (bigSep_mono (Φ := fun c : Fin 2 => bigSep Finset.univ fun i : Fin 16 => (oLoc d ↦[oSet (wid c i)]{fullShare} g5 : sProp 𝕄))
    (Ψ := fun c : Fin 2 => bigSep Finset.univ fun i : Fin 16 => iprop(∃ f, (oLoc d ↦[oSet (wid c i)]{fullShare} f : sProp 𝕄)))
    fun c _ => SparseCore.ent (bigSep_mono (Φ := fun i : Fin 16 => (oLoc d ↦[oSet (wid c i)]{fullShare} g5 : sProp 𝕄))
      (Ψ := fun i : Fin 16 => iprop(∃ f, (oLoc d ↦[oSet (wid c i)]{fullShare} f : sProp 𝕄)))
      fun i _ => BI.BIClass.exists_intro (Φ := fun f => (oLoc d ↦[oSet (wid c i)]{fullShare} f : sProp 𝕄)) g5))

/-- BEFORE THE CALL: the score array at contents right on every vocabulary row, the token array at the re-laid tokens and
    the result array at anything, each held whole, are what the two sequencers are handed: the tokens and the result cut
    into their 32 pieces; of the scores, one read share per SparseCore (the remainder is let go), each cut into the sixteen
    slices. -/
theorem call_pre (d : Dev nD) (f3 : Buf (Elt F) (tLoc d)) (g5 : Buf (Elt F) (oLoc d)) (hf3 : TGood tF nG d f3) :
    iprop((tLoc d ↦{fullShare} f3) ∗ (xtLoc d ↦{fullShare} xtF d) ∗ (oLoc d ↦{fullShare} g5))
      ⊢ (bigSep Finset.univ fun c : Fin ((K (F := F)).nCore 0) => (P xtF tF nG oF).st 0 d c : sProp 𝕄) := by
  show _ ⊢ bigSep Finset.univ fun c : Fin ((K (F := F)).nCore 0) =>
    (fun c' : Fin 2 => bigSep Finset.univ fun i : Fin 16 => goRes xtF tF nG d c' i) (Fin.cast nCore_zero c)
  rw [bigSep_cores (F := F) (fun c' : Fin 2 => bigSep Finset.univ fun i : Fin 16 => goRes xtF tF nG d c' i)]
  unfold goRes
  simp only [bigSep_sep']
  rw [xt_pieces, o_pieces]
  iintro ⟨Ht, Hx, Ho⟩
  isplitl [Hx]; · iexact Hx
  isplitl [Ht]
  · ihave H := (Transfers.pointsTo_toks_split (ℓ := tLoc d) (S := Finset.univ) (f := f3) fullShare 2) $$ Ht
    icases H with ⟨-, Hs⟩
    iapply (SparseCore.ent (bigSep_mono (Φ := fun c : Fin 2 => (tLoc d ↦{Transfers.shareTok fullShare 2 c} f3 : sProp 𝕄))
      (Ψ := fun c : Fin 2 => bigSep Finset.univ fun i : Fin 16 => tPts tF nG d (tSet i) (Transfers.shareTok fullShare 2 c))
      fun c _ => t_share_slices tF nG d f3 hf3 (Transfers.shareTok fullShare 2 c)))
    iexact Hs
  iapply (o_piece_any d g5)
  iexact Ho

/-- AFTER THE CALL: the 32 pieces of the result the sequencers hand back, each at the result computed from score contents
    right on every vocabulary row, are the result array, whole, at contents that are on each piece that result. -/
theorem call_post (d : Dev nD) :
    (bigSep Finset.univ fun c : Fin ((K (F := F)).nCore 0) => (P xtF tF nG oF).dn 0 d c : sProp 𝕄)
      ⊢ iprop(∃ (gs : Fin 32 → Buf (Elt F) (tLoc d)) (o : Buf (Elt F) (oLoc d)),
          ⌜(∀ w, TGood tF nG d (gs w)) ∧ ∀ w, ∀ idx ∈ oSet w, o idx = oF d (gs w) idx⌝ ∗ oLoc d ↦{fullShare} o) := by
  show (bigSep Finset.univ fun c : Fin ((K (F := F)).nCore 0) =>
    (fun c' : Fin 2 => bigSep Finset.univ fun i : Fin 16 =>
      (fun w : Fin 32 => iprop(∃ g : Buf (Elt F) (tLoc d), ⌜TGood tF nG d g⌝ ∗ (oLoc d ↦[oSet w]{fullShare} oF d g : sProp 𝕄))) (wid c' i)) (Fin.cast nCore_zero c)) ⊢ _
  rw [bigSep_cores (F := F) (fun c' : Fin 2 => bigSep Finset.univ fun i : Fin 16 =>
      (fun w : Fin 32 => iprop(∃ g : Buf (Elt F) (tLoc d), ⌜TGood tF nG d g⌝ ∗ (oLoc d ↦[oSet w]{fullShare} oF d g : sProp 𝕄))) (wid c' i)),
    ← bigSep_pieces (fun w : Fin 32 => iprop(∃ g : Buf (Elt F) (tLoc d), ⌜TGood tF nG d g⌝ ∗ (oLoc d ↦[oSet w]{fullShare} oF d g : sProp 𝕄)))]
  iintro H
  ihave H1 := (bigSep_exists_pi Finset.univ (fun (w : Fin 32) (g : Buf (Elt F) (tLoc d)) =>
    iprop(⌜TGood tF nG d g⌝ ∗ (oLoc d ↦[oSet w]{fullShare} oF d g : sProp 𝕄)))) $$ H
  icases H1 with ⟨%gs, H1⟩
  ihave H2 := (bigSep_pure_sep Finset.univ (fun w : Fin 32 => TGood tF nG d (gs w))
    (fun w : Fin 32 => (oLoc d ↦[oSet w]{fullShare} oF d (gs w) : sProp 𝕄))) $$ H1
  icases H2 with ⟨%hgs, H2⟩
  ihave H3 := (pointsTo_biUnion_join (ℓ := oLoc d) (q := fullShare) Finset.univ oSet (fun w => oF d (gs w)) (oF d (gs 0)) oSets_disjoint) $$ H2
  icases H3 with ⟨%o, %ho, H3⟩
  rw [oSets_cover]
  iexists gs; iexists o
  isplitr
  · ipureintro; exact ⟨fun w => hgs w (Finset.mem_univ w), fun w idx hidx => ho w (Finset.mem_univ w) idx hidx⟩
  iexact H3

end Cert.Proof.KB

end
-- ==== Proof.MainTailK.lean ====
/-
  The tail of @main on the TensorCore, from the end of the kernel region on: the two flattenings of the region's
  results, the SparseCore call on the flattened arrays, and the reshape of the call's result into one column.  Entered
  holding all twelve arrays at the valuation the region leaves; left holding the four arguments as launched and the result
  array at contents the stated relation admits.
-/
import proofs.«203335_g10582799417878_cont_week2_139_36_alg».proof.Proof.MainAuxK
import proofs.«203335_g10582799417878_cont_week2_139_36_alg».proof.Proof.CallResK
import proofs.«203335_g10582799417878_cont_week2_139_36_alg».proof.Proof.RunK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_split held_sdiff_result wp_hlo_within held_congr held_sub_split)
open Idealize.ShloMosaic.TcCoe

variable [∀ e, Nonempty (Elt F e)]
variable (m : (ℓ : Loc nD τ sig) → Buf (Elt F) ℓ) (ρ : Dev nD → PrngReg)
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

omit [FloatOps F] [∀ e, Nonempty (Elt F e)] in
theorem hSCall : (SCall : Finset (DevRef τ sig)) ⊆ SAll := by decide

omit [∀ e, Nonempty (Elt F e)] in
/-- The call's three arrays after the two flattenings: the score array at the region's score blocks flattened, the token
    array at the re-laid tokens, the result array at whatever it held. -/
theorem call_arrays (d : Dev nD) (G4) (G5)
    (hx : (fun i => shapeCast S819200 (G5 : Vec F S32x200x128 .i32) shapeCasts_S32x200x128_S819200 i) = xtF d) :
    (held (SparseCore.T d) SCall (Vd5 m d G4 G5) : sProp 𝕄)
      = iprop((tLoc d ↦{fullShare} (fun i => shapeCast S1003520 (G4 : Vec F S32x1x31360 .f32) shapeCasts_S32x1x31360_S1003520 i))
        ∗ (xtLoc d ↦{fullShare} xtF d) ∗ (oLoc d ↦{fullShare} Vd5 m d G4 G5 v5')) := by
  rw [held_SCall, Vd5_v3, Vd5_v4, hx]

set_option maxHeartbeats 2000000 in
theorem main_tail (RG : (d : Dev nD) → Buf (Elt F) ((d, v6') : Loc nD τ sig) → Prop)
    (hXT : ∀ d G5, (rd m d).ArrAt 5 cfg0.N G5 → (fun i => shapeCast S819200 (G5 : Vec F S32x200x128 .i32) shapeCasts_S32x200x128_S819200 i) = xtF d)
    (hTG : ∀ d G4, (rd m d).ArrAt 4 cfg0.N G4 → TGood tF nG d (fun i => shapeCast S1003520 (G4 : Vec F S32x1x31360 .f32) shapeCasts_S32x1x31360_S1003520 i))
    (hRG : ∀ d (gs : Fin 32 → Buf (Elt F) (tLoc d)) (o : Buf (Elt F) (oLoc d)), (∀ w, TGood tF nG d (gs w)) → (∀ w, ∀ idx ∈ oSet w, o idx = oF d (gs w) idx) →
        RG d (fun i => shapeCast S4096x1 (o : Vec F S4096 .f32) shapeCasts_S4096_S4096x1 i))
    (κ : GSem nD τ sig → ℕ) (d : Dev nD) (G4) (G5) (hG : (rd m d).ArrAt 4 cfg0.N G4 ∧ (rd m d).ArrAt 5 cfg0.N G5)
    (W' : Waits sig (HIx 1)) (hWB : (K (F := F)).WBelow (SparseCore.T d) W' (8 * 0)) :
    iprop((K (F := F)).ctx EH (P xtF tF nG oF) κ ∗ owes (SparseCore.T d) ((K (F := F)).Otc d 0) W' ∗ tcRest (F := F) d 0 ∗ boundary (SparseCore.T d)
        ∗ held (SparseCore.T d) SAll (Vd3 m d G4 G5))
      ⊢ wp frame (wpE ((K (F := F)).defs (D (F := F))) 𝒱 (SparseCore.T d) none) Set.univ (hlo rfl (opR3 (F := F)) fun _ => .ret PUnit.unit) fun _ =>
          wp frame (wpE ((K (F := F)).defs (D (F := F))) 𝒱 (SparseCore.T d) none) Set.univ (hlo rfl (opR4 (F := F)) fun _ => .ret PUnit.unit) fun _ =>
            wp frame (wpE ((K (F := F)).defs (D (F := F))) 𝒱 (SparseCore.T d) none) Set.univ ((sc (F := F)).run d 0) fun _ =>
              wp frame (wpE ((K (F := F)).defs (D (F := F))) 𝒱 (SparseCore.T d) none) Set.univ (hlo rfl (opR5 (F := F)) fun _ => .ret PUnit.unit) fun _ =>
                iprop(|={Set.univ}=> ((K (F := F)).tcSt EH d 1 ∗ FIN m RG d)) := by
  iintro ⟨#Hctx, HO, Hrest, Hb, Hall⟩
  -- the two flattenings
  iapply (wp_hlo_within 𝒱 (SparseCore.T d) none Set.univ (op := opR3 (F := F)) (S := SAll) hR3 (V := Vd3 m d G4 G5)) $$ [Hb Hall]
  · isplitl [Hb]; · iexact Hb
    iexact Hall
  iintro ⟨Hb, Hall⟩
  rw [wp_ret]; imodintro
  iapply (wp_hlo_within 𝒱 (SparseCore.T d) none Set.univ (op := opR4 (F := F)) (S := SAll) hR4 (V := (opR3 (F := F)).result (Vd3 m d G4 G5))) $$ [Hb Hall]
  · isplitl [Hb]; · iexact Hb
    iexact Hall
  iintro ⟨Hb, Hall⟩
  rw [wp_ret]; imodintro
  -- the call's three arrays out of the twelve, cut into what the sequencers are handed
  ihave Hh := (show (held (SparseCore.T d) SAll (Vd5 m d G4 G5) : sProp 𝕄)
      ⊢ iprop(held (SparseCore.T d) SCall (Vd5 m d G4 G5) ∗ held (SparseCore.T d) (SAll \ SCall) (Vd5 m d G4 G5)) from
    Entails.of_eq (held_sub_split (SparseCore.T d) hSCall (Vd5 m d G4 G5))) $$ Hall
  icases Hh with ⟨Hcall, Hoth⟩
  ihave Hc := (Entails.of_eq (call_arrays m xtF d G4 G5 (hXT d G5 hG.2))) $$ Hcall
  ihave Hst := (call_pre xtF tF nG oF d _ _ (hTG d G4 hG.1)) $$ Hc
  ihave Hst0 := (show iprop((∃ W, ⌜(K (F := F)).WBelow (SparseCore.T d) W (8 * 0)⌝ ∗ owes (SparseCore.T d) ((K (F := F)).Otc d 0) W) ∗ tcRest (F := F) d 0)
      ⊢ ((K (F := F)).tcSt EH d 0 : sProp 𝕄) from Entails.of_eq (tcSt_eq (F := F) d 0).symm) $$ [HO Hrest]
  · isplitl [HO]
    · iexists W'; isplitr; · ipureintro; exact hWB
      iexact HO
    iexact Hrest
  -- the call
  iapply ((K (F := F)).wp_run (D (F := F)) 𝒱 (EH := EH) (P := P xtF tF nG oF) κ d 0) $$ [Hst0 Hst Hb Hoth]
  isplitr; · iexact Hctx
  isplitl [Hst0]; · iexact Hst0
  isplitl [Hst]; · iexact Hst
  iintro ⟨Hst1, Hdn⟩
  ihave Hp := (call_post xtF tF nG oF d) $$ Hdn
  icases Hp with ⟨%gs, %o, %hgo, Ho⟩
  ihave Hfin := (held_SFin m d G4 G5 o) $$ [Ho Hoth]
  · isplitl [Ho]; · iexact Ho
    iexact Hoth
  -- the last reshape
  iapply (wp_hlo_within 𝒱 (SparseCore.T d) none Set.univ (op := opR5 (F := F)) (S := SFin) hR5' (V := Vd6 m d G4 G5 o)) $$ [Hb Hfin]
  · isplitl [Hb]; · iexact Hb
    iexact Hfin
  iintro ⟨Hb, Hfin⟩
  rw [wp_ret]; imodintro
  ihave Hout := (held_out m d G4 G5 o) $$ Hfin
  icases Hout with ⟨H0, H1, H2, H3, H6⟩
  imodintro
  isplitl [Hst1]; · iexact Hst1
  unfold FIN
  isplitl [H0]; · iexact H0
  isplitl [H1]; · iexact H1
  isplitl [H2]; · iexact H2
  isplitl [H3]; · iexact H3
  iexists _; isplitr
  · ipureintro; exact hRG d gs o hgo.1 hgo.2
  iexact H6

end Cert.Proof.KB

end
-- ==== Proof.MainK.lean ====
/-
  @main on the TensorCore of a device, whole: the two transposes, the kernel region, and the tail (the two flattenings, the
  SparseCore call, the last reshape).  The region's step and the tail are proved apart; here they are chained: what the
  region leaves — the two result arrays at contents the write-backs may have left, the TensorCore's debt unchanged and its
  recorded waits still at the kernels' own level — is what the tail starts from.
-/
import proofs.«203335_g10582799417878_cont_week2_139_36_alg».proof.Proof.MainRegionK
import proofs.«203335_g10582799417878_cont_week2_139_36_alg».proof.Proof.MainTailK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_split held_sdiff_result wp_hlo_within held_congr held_sub_split)
open Idealize.ShloMosaic.TcCoe

variable [∀ e, Nonempty (Elt F e)]
variable (m : (ℓ : Loc nD τ sig) → Buf (Elt F) ℓ) (ρ : Dev nD → PrngReg)
variable (xtF : (d : Dev nD) → Buf (Elt F) (xtLoc d)) (tF : (d : Dev nD) → Buf (Elt F) (tLoc d)) (nG : ℕ)
  (oF : (d : Dev nD) → Buf (Elt F) (tLoc d) → Buf (Elt F) (oLoc d))

set_option maxHeartbeats 2000000 in
theorem hmain (RG : (d : Dev nD) → Buf (Elt F) ((d, v6') : Loc nD τ sig) → Prop)
    (hXT : ∀ d G5, (rd m d).ArrAt 5 cfg0.N G5 → (fun i => shapeCast S819200 (G5 : Vec F S32x200x128 .i32) shapeCasts_S32x200x128_S819200 i) = xtF d)
    (hTG : ∀ d G4, (rd m d).ArrAt 4 cfg0.N G4 → TGood tF nG d (fun i => shapeCast S1003520 (G4 : Vec F S32x1x31360 .f32) shapeCasts_S32x1x31360_S1003520 i))
    (hRG : ∀ d (gs : Fin 32 → Buf (Elt F) (tLoc d)) (o : Buf (Elt F) (oLoc d)), (∀ w, TGood tF nG d (gs w)) → (∀ w, ∀ idx ∈ oSet w, o idx = oF d (gs w) idx) →
        RG d (fun i => shapeCast S4096x1 (o : Vec F S4096 .f32) shapeCasts_S4096_S4096x1 i))
    (κ : GSem nD τ sig → ℕ) (d : Dev nD) :
    iprop((K (F := F)).ctx EH (P xtF tF nG oF) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m RG d) := by
  unfold SparseCore.Cfg.tcRes
  rw [show (fun b : Ref sig .tc => m ((SparseCore.T d).loc b)) = (fun b : Ref sig .tc => Vd0 m d (Proc.devRef .tc b)) from rfl, unscoped_held,
    tcSt_eq (F := F) d 0]
  simp only [main, wp_bind, wp_pure]
  iintro ⟨#Hctx, ⟨⟨%W, %hW, HO⟩, Hrest⟩, ⟨Hb, Hheld, Hsems, Hprng⟩, HG⟩
  ihave Hlev := ((K (F := F)).ctx_levAts κ) $$ Hctx
  -- the two transposes
  iapply (wp_hlo_within 𝒱 (SparseCore.T d) none Set.univ (op := opT1 (F := F)) (S := SAll) hT1 (V := Vd0 m d)) $$ [Hb Hheld]
  · isplitl [Hb]; · iexact Hb
    iexact Hheld
  iintro ⟨Hb, Hheld⟩
  rw [wp_ret]; imodintro
  iapply (wp_hlo_within 𝒱 (SparseCore.T d) none Set.univ (op := opT2 (F := F)) (S := SAll) hT2 (V := (opT1 (F := F)).result (Vd0 m d))) $$ [Hb Hheld]
  · isplitl [Hb]; · iexact Hb
    iexact Hheld
  iintro ⟨Hb, Hheld⟩
  rw [wp_ret]; imodintro
  -- the kernel region, then the tail from what it leaves
  ihave Hh := (show (held (SparseCore.T d) SAll ((opT2 (F := F)).result ((opT1 (F := F)).result (Vd0 m d))) : sProp 𝕄)
      ⊢ iprop(held (SparseCore.T d) SWin (Vd2 m d) ∗ held (SparseCore.T d) (SAll \ SWin) (Vd2 m d)) from
    Entails.of_eq (held_sub_split (SparseCore.T d) hSWin (Vd2 m d))) $$ Hheld
  icases Hh with ⟨Hwin, Hoth⟩
  iapply (wp_wand_r frame _ Set.univ)
  isplitl [Hlev Hb Hwin HO HG]
  · iapply (region_step m d W hW)
    isplitl [Hlev]; · iexact Hlev
    isplitl [Hb]; · iexact Hb
    isplitl [Hwin]; · iexact Hwin
    isplitl [HO]; · iexact HO
    iexact HG
  iintro %a ⟨%G4, %G5, %W', %h, Hb, Hwin, HO⟩
  ihave Hoth' := (Entails.of_eq (held_congr (SparseCore.T d) (S := SAll \ SWin) (V := Vd2 m d) (V' := Vd3 m d G4 G5)
    (fun b hb => (Vd3_other m d G4 G5 b (fun e => (Finset.mem_sdiff.mp hb).2 (e ▸ (by decide : (v20' : DevRef τ sig) ∈ SWin)))
      (fun e => (Finset.mem_sdiff.mp hb).2 (e ▸ (by decide : (v21' : DevRef τ sig) ∈ SWin)))).symm))) $$ Hoth
  ihave Hall := (Entails.of_eq (held_sub_split (SparseCore.T d) hSWin (Vd3 m d G4 G5)).symm) $$ [Hwin Hoth']
  · isplitl [Hwin]; · iexact Hwin
    iexact Hoth'
  iapply (main_tail m xtF tF nG oF RG hXT hTG hRG κ d G4 G5 h.1 W' h.2)
  isplitr; · iexact Hctx
  isplitl [HO]; · iexact HO
  isplitl [Hrest]; · iexact Hrest
  isplitl [Hb]; · iexact Hb
  iexact Hall

end Cert.Proof.KB

end
-- ==== Proof.TileBar.lean ====
/-
  The subcore barrier of the gather kernel, from one subcore's side: what it pays every cell (a read share of its own slice
  of the shared memory, at contents right on every vocabulary row) and what it is paid on its own (its read share of every
  slice, which join into its read share of the whole shared memory).
-/
import proofs.«203335_g10582799417878_cont_week2_139_36_alg».proof.Proof.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Bar
variable (tF : (d : Dev nD) → Buf (Elt F) (tLoc d)) (nG : ℕ)
variable (d : Dev nD) (L : grid1.Coords)

/-- The copy of slice `L 1` of the scores leaves, on that slice of the shared memory, what the score array held there. -/
theorem shK_contents (fsh : Buf (Elt F) (shLoc d (cV L))) (ft : Buf (Elt F) (tLoc d)) :
    ∀ i ∈ (shK L).view.set,
      (shK L).view.writes (Elt F) fsh [⟨Rect.whole S62720, ReadAs.same.apply ((tK L).view.read (Elt F) ft)⟩] i = ft i := by
  intro i hi
  obtain ⟨x, -, rfl⟩ := Finset.mem_map.mp hi
  have h := View.read_writes_cons_emb (shK L).view fsh (Rect.whole S62720) (ReadAs.same.apply ((tK L).view.read (Elt F) ft)) [] x
  rw [Rect.emb_whole_apply] at h
  exact ((View.read_apply _ _).trans (cast_eq _ _)).symm.trans (h.trans ((View.read_apply _ _).trans (cast_eq _ _)))

omit [FloatOps F] [Named F] in
theorem bigSep_bound (Φ : Fin 16 → sProp 𝕄) : (bigSep Finset.univ fun j : Fin (grid1.bound 1) => Φ (Fin.cast bound_one j)) = bigSep Finset.univ Φ :=
  bigSep_congr fun _ _ => congrArg Φ (Fin.ext rfl)

/-- What this subcore's arrival hands subcore `j`: read share `j` of its own slice. -/
theorem bPay_pay (j : Fin (grid1.bound 1)) :
    (bRd tF nG).payload (bcell d (cV L) (j.castLE hsub1)) 0 (jV L).val
      = shPts tF nG d (cV L) (tSet (jL L)) (Transfers.shareTok fullShare 16 (Fin.cast bound_one j)) := by
  show (if h : (jV L).val < 16 then shPts tF nG d (cV L) (tSet ⟨(jV L).val, h⟩) (Transfers.shareTok fullShare 16 (Fin.cast nSub_eq (j.castLE hsub1))) else iprop(emp)) = _
  rw [dif_pos (show (jV L).val < 16 from (L 1).isLt)]; rfl

/-- What subcore `n`'s arrival hands this one: this subcore's read share of slice `n`. -/
theorem bPay_recv (n : Fin τ.nSub) :
    (bRd tF nG).payload (bcell d (cV L) (jV L)) 0 n.val
      = shPts tF nG d (cV L) (tSet (Fin.cast nSub_eq n)) (Transfers.shareTok fullShare 16 (jL L)) := by
  show (if h : n.val < 16 then shPts tF nG d (cV L) (tSet ⟨n.val, h⟩) (Transfers.shareTok fullShare 16 (Fin.cast nSub_eq (jV L))) else iprop(emp)) = _
  rw [dif_pos (show n.val < 16 from n.isLt)]; rfl

theorem shPts_intro (c : Fin τ.nSC) (I : Finset S1003520.Idx) (q : PosShare TreeShare) (ft : Buf (Elt F) (tLoc d)) (hft : TGood tF nG d ft) :
    (shLoc d c ↦[I]{q} (ft : Buf (Elt F) (shLoc d c)) : sProp 𝕄) ⊢ shPts tF nG d c I q := by
  unfold shPts; iintro H; iexists ft; isplitr
  · ipureintro; exact hft
  · iexact H

/-- The arrivals' three families as the barrier takes them. -/
theorem barrier_pay (ft : Buf (Elt F) (tLoc d)) (hft : TGood tF nG d ft) :
    iprop((bigSep Finset.univ fun j : Fin (grid1.bound 1) => dutyTok EB (bcell d (cV L) (j.castLE hsub1)) 0 (jV L).val)
        ∗ (bigSep Finset.univ fun j : Fin (grid1.bound 1) => reached EB (bcell d (cV L) (j.castLE hsub1)) 0)
        ∗ (bigSep Finset.univ fun j : Fin 16 => shLoc d (cV L) ↦[tSet (jL L)]{Transfers.shareTok fullShare 16 j} (ft : Buf (Elt F) (shLoc d (cV L)))))
      ⊢ (bigSep Finset.univ fun j : Fin (grid1.bound 1) => iprop(dutyTok EB (bcell d (cV L) (j.castLE hsub1)) 0 (jV L).val
            ∗ (bRd tF nG).payload (bcell d (cV L) (j.castLE hsub1)) 0 (jV L).val ∗ reached EB (bcell d (cV L) (j.castLE hsub1)) 0) : sProp 𝕄) := by
  rw [bigSep_sep', bigSep_sep']
  simp only [bPay_pay]
  rw [bigSep_bound (F := F) (fun j => shPts tF nG d (cV L) (tSet (jL L)) (Transfers.shareTok fullShare 16 j))]
  iintro ⟨H1, H2, H3⟩
  isplitl [H1]; · iexact H1
  isplitl [H3]
  · iapply (show (bigSep Finset.univ fun j : Fin 16 => shLoc d (cV L) ↦[tSet (jL L)]{Transfers.shareTok fullShare 16 j} (ft : Buf (Elt F) (shLoc d (cV L))))
        ⊢ (bigSep Finset.univ fun j : Fin 16 => shPts tF nG d (cV L) (tSet (jL L)) (Transfers.shareTok fullShare 16 j) : sProp 𝕄) from
      bigSep_mono fun j _ => shPts_intro tF nG d _ _ _ ft hft) $$ [H3]
    iexact H3
  iexact H2

omit [FloatOps F] [Named F] in
theorem tSet_disjoint : ∀ i ∈ (Finset.univ : Finset (Fin τ.nSub)), ∀ j ∈ (Finset.univ : Finset (Fin τ.nSub)), i ≠ j →
    Disjoint (tSet (Fin.cast nSub_eq i)) (tSet (Fin.cast nSub_eq j)) :=
  fun i _ j _ h => Rect.part_disjoint hdivT fun e => h (Fin.ext (congrArg Fin.val e))
omit [FloatOps F] [Named F] in
theorem tSet_cover : (Finset.univ : Finset (Fin τ.nSub)).biUnion (fun n => tSet (Fin.cast nSub_eq n)) = Finset.univ := by
  refine Finset.eq_univ_of_forall fun j => ?_
  obtain ⟨n, -, hn⟩ := Finset.mem_biUnion.mp ((Rect.biUnion_part hdivT : (Finset.univ : Finset (Fin 16)).biUnion tSet = Finset.univ) ▸ Finset.mem_univ j)
  exact Finset.mem_biUnion.mpr ⟨Fin.cast nSub_eq.symm n, Finset.mem_univ _, hn⟩

/-- Leaving the barrier: this subcore's read share of every slice, each right on every vocabulary row, is its read share of
    the whole shared memory at contents right on every vocabulary row. -/
theorem barrier_recv :
    (bigSep ((bRd tF nG).duties (bcell d (cV L) (jV L)) 0 \ ∅) fun m => (bRd tF nG).payload (bcell d (cV L) (jV L)) 0 m)
      ⊢ (iprop(∃ g : Buf (Elt F) (tLoc d), ⌜TGood tF nG d g⌝ ∗ shLoc d (cV L) ↦{Transfers.shareTok fullShare 16 (jL L)} (g : Buf (Elt F) (shLoc d (cV L)))) : sProp 𝕄) := by
  rw [Finset.sdiff_empty, bRd_duties₀, SparseCore.bigSep_image_of_injOn (fun a _ b _ e => Fin.val_injective e)]
  simp only [bPay_recv]
  unfold shPts
  refine (bigSep_exists_pi Finset.univ (fun (n : Fin τ.nSub) (f : Buf (Elt F) (tLoc d)) =>
    iprop(⌜TGood tF nG d f⌝ ∗ shLoc d (cV L) ↦[tSet (Fin.cast nSub_eq n)]{Transfers.shareTok fullShare 16 (jL L)} (f : Buf (Elt F) (shLoc d (cV L)))))).trans ?_
  iintro ⟨%fs, H⟩
  ihave H' := (bigSep_pure_sep Finset.univ (fun n : Fin τ.nSub => TGood tF nG d (fs n))
    (fun n : Fin τ.nSub => shLoc d (cV L) ↦[tSet (Fin.cast nSub_eq n)]{Transfers.shareTok fullShare 16 (jL L)} (fs n : Buf (Elt F) (shLoc d (cV L))))) $$ H
  icases H' with ⟨%hfs, H⟩
  ihave H'' := (pointsTo_biUnion_join (ℓ := shLoc d (cV L)) (q := Transfers.shareTok fullShare 16 (jL L)) (Finset.univ : Finset (Fin τ.nSub)) (fun n => tSet (Fin.cast nSub_eq n))
    (fun n => (fs n : Buf (Elt F) (shLoc d (cV L)))) (fs 0) tSet_disjoint) $$ H
  icases H'' with ⟨%g, %hg, Hg⟩
  rw [tSet_cover]
  iexists g; isplitr
  · ipureintro; intro j hj
    obtain ⟨n, -, hn⟩ := Finset.mem_biUnion.mp (tSet_cover ▸ Finset.mem_univ j)
    exact (hg n (Finset.mem_univ _) j hn).trans (hfs n (Finset.mem_univ _) j hj)
  · iexact Hg

end Bar

end Cert.Proof.KI

end
-- ==== Proof.TileData.lean ====
/-
  The subcore's two scratch arrays in halves (the kernel gathers the scores of the first and of the second half of its
  tokens apart), and the fact the gathers rest on: every word of the token list names a row of the score array.
-/
import proofs.«203335_g10582799417878_cont_week2_139_36_alg».proof.Proof.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Data
variable (d : Dev nD) (L : grid1.Coords)

/-! ## The two halves of the token list and of the gathered scores -/

abbrev R1 : Rect S25600 := Rect.unit (s := S25600) ![0] S12800.size inb_S25600_S12800_0
abbrev R2 : Rect S25600 := Rect.unit (s := S25600) ![12800] S12800.size inb_S25600_S12800_12800

omit [FloatOps F] [Named F] in
theorem halves_disjoint : Disjoint (R1).set (R2).set := Rect.unit_disjoint 0 (Or.inl (by decide))
omit [FloatOps F] [Named F] in
theorem halves_cover : (R1).set ∪ (R2).set = Finset.univ := by
  refine Finset.eq_univ_of_forall fun j => ?_
  rw [Finset.mem_union, Rect.mem_set_unit, Rect.mem_set_unit]
  have hj : (j 0).val < 25600 := (j 0).isLt
  by_cases h : (j 0).val < 12800
  · left; intro a
    match a with
    | 0 => exact ⟨Nat.zero_le _, by show (j 0).val < 0 + 12800; omega⟩
  · right; intro a
    match a with
    | 0 => exact ⟨by show 12800 ≤ (j 0).val; omega, by show (j 0).val < 12800 + 12800; omega⟩

omit [FloatOps F] [Named F] in
theorem set_i1K : (i1K).view.set = (R1).set := by
  show ((s0V).view.slice R1).set = _
  rw [View.set_slice]; exact Finset.map_refl
omit [FloatOps F] [Named F] in
theorem set_i2K : (i2K).view.set = (R2).set := by
  show ((s0V).view.slice R2).set = _
  rw [View.set_slice]; exact Finset.map_refl
omit [FloatOps F] [Named F] in
theorem set_v1K : (v1K).view.set = (R1).set := by
  show ((s1V).view.slice R1).set = _
  rw [View.set_slice]; exact Finset.map_refl
omit [FloatOps F] [Named F] in
theorem set_v2K : (v2K).view.set = (R2).set := by
  show ((s1V).view.slice R2).set = _
  rw [View.set_slice]; exact Finset.map_refl

omit [FloatOps F] [Named F] in
/-- The token list whole is its two halves, -/
theorem s0_halves (q : PosShare TreeShare) (f : Buf (Elt F) ((s0V).view.loc (V d (cV L) (jV L)))) :
    ((s0V).view.loc (V d (cV L) (jV L)) ↦{q} f : sProp 𝕄)
      ⊣⊢ iprop(((i1K).view.loc (V d (cV L) (jV L)) ↦[(i1K).view.set]{q} f) ∗ (i2K).view.loc (V d (cV L) (jV L)) ↦[(i2K).view.set]{q} f) := by
  rw [set_i1K, set_i2K]
  have h : ((s0V).view.loc (V d (cV L) (jV L)) ↦[(R1).set ∪ (R2).set]{q} f : sProp 𝕄)
      ⊣⊢ iprop(((s0V).view.loc (V d (cV L) (jV L)) ↦[(R1).set]{q} f) ∗ (s0V).view.loc (V d (cV L) (jV L)) ↦[(R2).set]{q} f) := pointsTo_union halves_disjoint
  rw [halves_cover] at h
  exact h
omit [FloatOps F] [Named F] in
/-- and so is the scores' scratch. -/
theorem s1_halves (q : PosShare TreeShare) (f : Buf (Elt F) ((s1V).view.loc (V d (cV L) (jV L)))) :
    ((s1V).view.loc (V d (cV L) (jV L)) ↦{q} f : sProp 𝕄)
      ⊣⊢ iprop(((v1K).view.loc (V d (cV L) (jV L)) ↦[(v1K).view.set]{q} f) ∗ (v2K).view.loc (V d (cV L) (jV L)) ↦[(v2K).view.set]{q} f) := by
  rw [set_v1K, set_v2K]
  have h : ((s1V).view.loc (V d (cV L) (jV L)) ↦[(R1).set ∪ (R2).set]{q} f : sProp 𝕄)
      ⊣⊢ iprop(((s1V).view.loc (V d (cV L) (jV L)) ↦[(R1).set]{q} f) ∗ (s1V).view.loc (V d (cV L) (jV L)) ↦[(R2).set]{q} f) := pointsTo_union halves_disjoint
  rw [halves_cover] at h
  exact h

/-- Every word of the token list as the copy landed it is a vocabulary row: below the score array's length. -/
theorem tok_inb (xtF : (d : Dev nD) → Buf (Elt F) (xtLoc d)) (hxt : ∀ d j, (xtF d j).toNat < 1000000)
    (f0 : Buf (Elt F) ((s0V).view.loc (V d (cV L) (jV L)))) (r : Rect S25600) (hr : ∀ a, r.stride a = 1) :
    ∀ x, (((s0V).slice r hr).view.read (Elt F)
        (View.write (Elt F) (s0V).view f0 (ReadAs.same.apply ((xK L).view.read (Elt F) (xtF d))) Finset.univ) x).toNat
      < S1003520.size gathers_S1003520_S12800.axis := by
  intro x
  rw [View.write_whole_univ]
  refine lt_of_lt_of_le ?_ (show 1000000 ≤ S1003520.size gathers_S1003520_S12800.axis by decide)
  rw [(View.read_apply _ _).trans (cast_eq _ _)]
  show ((xK L).view.read (Elt F) (xtF d) _).toNat < 1000000
  rw [(View.read_apply _ _).trans (cast_eq _ _)]
  exact hxt d _

end Data

end Cert.Proof.KI

end
-- ==== Proof.TileLoop.lean ====
/-
  The two accumulation loops of the gather kernel: each trip loads, per group of sixteen examples, the sixteen scores of
  its token position from the half of the scratch its gather filled, and adds them to the group's accumulator.
-/
import proofs.«203335_g10582799417878_cont_week2_139_36_alg».proof.Proof.TileVal
import proofs.«203335_g10582799417878_cont_week2_139_36_alg».proof.Proof.TileData

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx

omit [FloatOps F] [Named F] in
/-- A trip's loads fall inside the half of the scratch its loop reads. -/
theorem load_sub1 (k : Fin k1_t1_loop.trips) (r : Fin 8) :
    ((s1V).access (Rect.unit (s := S25600) (k1_off3 k (BitVec.ofNat 32 (16 * r.val))) S16.size (k1_off3_inb k r))).set ⊆ (v1K).view.set := by
  rw [set_v1K]
  show ((s1V).view.slice _).set ⊆ _
  rw [View.set_slice]
  intro j hj
  obtain ⟨x, hx, rfl⟩ := Finset.mem_map.mp hj
  have hk : k.val < 100 := Nat.lt_of_lt_of_le k.isLt k1_t1_abs.2.1
  rw [Rect.mem_set_unit] at hx ⊢
  intro a
  have h := hx a
  rw [k1_off3_eq] at h
  match a with
  | 0 =>
    have h1 : 128 * k.val + 16 * r.val ≤ (x 0).val := h.1
    have h2 : (x 0).val < 128 * k.val + 16 * r.val + 16 := h.2
    have hr := r.isLt
    exact ⟨Nat.zero_le _, by show (x 0).val < 0 + 12800; omega⟩
omit [FloatOps F] [Named F] in
theorem load_sub2 (k : Fin k1_t2_loop.trips) (r : Fin 8) :
    ((s1V).access (Rect.unit (s := S25600) (k1_off4 k (BitVec.ofNat 32 (16 * r.val))) S16.size (k1_off4_inb k r))).set ⊆ (v2K).view.set := by
  rw [set_v2K]
  show ((s1V).view.slice _).set ⊆ _
  rw [View.set_slice]
  intro j hj
  obtain ⟨x, hx, rfl⟩ := Finset.mem_map.mp hj
  have hk : k.val < 100 := Nat.lt_of_lt_of_le k.isLt k1_t2_abs.2.1
  rw [Rect.mem_set_unit] at hx ⊢
  intro a
  have h := hx a
  rw [k1_off4_eq] at h
  match a with
  | 0 =>
    have h1 : 128 * k.val + 16 * r.val + 12800 ≤ (x 0).val := h.1
    have h2 : (x 0).val < 128 * k.val + 16 * r.val + 12800 + 16 := h.2
    have hr := r.isLt
    exact ⟨by show 12800 ≤ (x 0).val; omega, by show (x 0).val < 12800 + 12800; omega⟩

/-! ## The two accumulation loops, trip by trip -/

section Loop
variable {d : Dev nD} (L : grid1.Coords) (xt : Buf (Elt F) (xtLoc d)) (tg : Buf (Elt F) (tLoc d)) (w : Fin 32)

/-- The eight accumulators a loop carries. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The eight accumulators before trip `k` (of the two loops taken as one of 200 trips). -/
def accs (k : ℕ) : Acc8 F :=
  (accAt xt tg w 0 k, accAt xt tg w 1 k, accAt xt tg w 2 k, accAt xt tg w 3 k, accAt xt tg w 4 k, accAt xt tg w 5 k, accAt xt tg w 6 k, accAt xt tg w 7 k)

/-- What the gathers leave in the scores' scratch: at word `j` the score that token `j` of the piece names. -/
def valsBuf : S25600.Idx → F .f32 := fun j => valAt xt tg w (j 0).val

/-- Before trip `k` of the first loop: the accumulators, and the first half of the scratch at the gathered scores. -/
def I1 (k : ℕ) (acc : Acc8 F) : sProp 𝕄 :=
  iprop(⌜acc = accs xt tg w k⌝ ∗ (v1K).view.loc (V d (cV L) (jV L)) ↦[(v1K).view.set]{fullShare} valsBuf xt tg w)
/-- Before trip `k` of the second loop: the same of the second half, the first hundred trips behind. -/
def I2 (k : ℕ) (acc : Acc8 F) : sProp 𝕄 :=
  iprop(⌜acc = accs xt tg w (100 + k)⌝ ∗ (v2K).view.loc (V d (cV L) (jV L)) ↦[(v2K).view.set]{fullShare} valsBuf xt tg w)

omit [Named F] in
/-- What a trip of the first loop loads for group `r`: the sixteen scores of its token position. -/
theorem load_val1 (k : Fin k1_t1_loop.trips) (r : Fin 8) (l : S16.Idx) :
    View.readAt (Elt F) (s1V).view (Rect.unit (s := S25600) (k1_off3 k (BitVec.ofNat 32 (16 * r.val))) S16.size (k1_off3_inb k r)).toLoadRect (valsBuf xt tg w) l
      = valAt xt tg w (128 * k.val + 16 * r.val + (l 0).val) := by
  show valsBuf xt tg w _ = _
  unfold valsBuf
  congr 1
  show (k1_off3 k (BitVec.ofNat 32 (16 * r.val))) 0 + 1 * (l 0).val = _
  rw [k1_off3_eq]; simp
omit [Named F] in
theorem load_val2 (k : Fin k1_t2_loop.trips) (r : Fin 8) (l : S16.Idx) :
    View.readAt (Elt F) (s1V).view (Rect.unit (s := S25600) (k1_off4 k (BitVec.ofNat 32 (16 * r.val))) S16.size (k1_off4_inb k r)).toLoadRect (valsBuf xt tg w) l
      = valAt xt tg w (128 * (100 + k.val) + 16 * r.val + (l 0).val) := by
  show valsBuf xt tg w _ = _
  unfold valsBuf
  congr 1
  show (k1_off4 k (BitVec.ofNat 32 (16 * r.val))) 0 + 1 * (l 0).val = _
  rw [k1_off4_eq]; simp; omega

omit [Named F] in
/-- One trip's addition is the accumulator's next value. -/
theorem acc_step1 (k : Fin k1_t1_loop.trips) (r : Fin 8) (a : FVec F S16 .f32) (ha : a = accAt xt tg w r.val k.val) :
    addf a (shapeCast S16 (View.readAt (Elt F) (s1V).view (Rect.unit (s := S25600) (k1_off3 k (BitVec.ofNat 32 (16 * r.val))) S16.size (k1_off3_inb k r)).toLoadRect
        (valsBuf xt tg w)) shapeCasts_S16_S16) = accAt xt tg w r.val (k.val + 1) := by
  subst ha
  show _ = addf (accAt xt tg w r.val k.val) _
  congr 1
  funext l
  show View.readAt _ _ _ _ (Shape.reshapeEquiv _ l) = _
  rw [Shape.reshapeEquiv_self, load_val1]
omit [Named F] in
theorem acc_step2 (k : Fin k1_t2_loop.trips) (r : Fin 8) (a : FVec F S16 .f32) (ha : a = accAt xt tg w r.val (100 + k.val)) :
    addf a (shapeCast S16 (View.readAt (Elt F) (s1V).view (Rect.unit (s := S25600) (k1_off4 k (BitVec.ofNat 32 (16 * r.val))) S16.size (k1_off4_inb k r)).toLoadRect
        (valsBuf xt tg w)) shapeCasts_S16_S16) = accAt xt tg w r.val (100 + (k.val + 1)) := by
  subst ha
  show _ = addf (accAt xt tg w r.val (100 + k.val)) _
  congr 1
  funext l
  show View.readAt _ _ _ _ (Shape.reshapeEquiv _ l) = _
  rw [Shape.reshapeEquiv_self, load_val2]; rfl

omit [FloatOps F] [Named F] in
theorem tuple8_ext {α : Type} {a0 a1 a2 a3 a4 a5 a6 a7 b0 b1 b2 b3 b4 b5 b6 b7 : α}
    (h0 : a0 = b0) (h1 : a1 = b1) (h2 : a2 = b2) (h3 : a3 = b3) (h4 : a4 = b4) (h5 : a5 = b5) (h6 : a6 = b6) (h7 : a7 = b7) :
    (a0, a1, a2, a3, a4, a5, a6, a7) = (b0, b1, b2, b3, b4, b5, b6, b7) := by
  subst h0 h1 h2 h3 h4 h5 h6 h7; rfl

set_option maxHeartbeats 2000000 in
/-- One trip of the first loop. -/
theorem trip1 (k : Fin k1_t1_loop.trips) (acc : Acc8 F) (v18 v19 v20 v21 v22 v23 v24 : FVec F S16 .f32) :
    I1 (d := d) L xt tg w k.val acc ⊢ wp frame (wpE (defs₀ (F := F)) 𝒱₀ (V d (cV L) (jV L)) none) Set.univ
      (k1_t1_body L xV (Memref.isWhole_whole _) tV (Memref.isWhole_whole _) oV (Memref.isWhole_whole _) s0V (Memref.isWhole_whole _) s1V (Memref.isWhole_whole _)
        s2V (Memref.isWhole_whole _) shV (Memref.isWhole_whole _) cc1_scratch4 cc1_scratch5 cc1_scratch6 cc1_scoped0 cc1_scoped1 v18 v19 v20 v21 v22 v23 v24 k acc)
      (I1 (d := d) L xt tg w (k.val + 1)) := by
  obtain ⟨a0, a1, a2, a3, a4, a5, a6, a7⟩ := acc
  unfold k1_t1_body I1
  iintro ⟨%hacc, Hv⟩
  obtain ⟨e0, e1, e2, e3, e4, e5, e6, e7⟩ : a0 = accAt xt tg w 0 k.val ∧ a1 = accAt xt tg w 1 k.val ∧ a2 = accAt xt tg w 2 k.val ∧ a3 = accAt xt tg w 3 k.val
      ∧ a4 = accAt xt tg w 4 k.val ∧ a5 = accAt xt tg w 5 k.val ∧ a6 = accAt xt tg w 6 k.val ∧ a7 = accAt xt tg w 7 k.val := by
    simpa only [accs, Prod.mk.injEq] using hacc
  have h0 : ((s1V).access (Rect.unit (s := S25600) (k1_off3 k 0#32) S16.size (k1_off3_inb k 0))).set ⊆ (v1K).view.set := load_sub1 k 0
  have h1 : ((s1V).access (Rect.unit (s := S25600) (k1_off3 k 16#32) S16.size (k1_off3_inb k 1))).set ⊆ (v1K).view.set := load_sub1 k 1
  have h2 : ((s1V).access (Rect.unit (s := S25600) (k1_off3 k 32#32) S16.size (k1_off3_inb k 2))).set ⊆ (v1K).view.set := load_sub1 k 2
  have h3 : ((s1V).access (Rect.unit (s := S25600) (k1_off3 k 48#32) S16.size (k1_off3_inb k 3))).set ⊆ (v1K).view.set := load_sub1 k 3
  have h4 : ((s1V).access (Rect.unit (s := S25600) (k1_off3 k 64#32) S16.size (k1_off3_inb k 4))).set ⊆ (v1K).view.set := load_sub1 k 4
  have h5 : ((s1V).access (Rect.unit (s := S25600) (k1_off3 k 80#32) S16.size (k1_off3_inb k 5))).set ⊆ (v1K).view.set := load_sub1 k 5
  have h6 : ((s1V).access (Rect.unit (s := S25600) (k1_off3 k 96#32) S16.size (k1_off3_inb k 6))).set ⊆ (v1K).view.set := load_sub1 k 6
  have h7 : ((s1V).access (Rect.unit (s := S25600) (k1_off3 k 112#32) S16.size (k1_off3_inb k 7))).set ⊆ (v1K).view.set := load_sub1 k 7
  sl_exec
  sl_step
  isplitr
  · ipureintro
    exact tuple8_ext (acc_step1 xt tg w k 0 a0 e0) (acc_step1 xt tg w k 1 a1 e1) (acc_step1 xt tg w k 2 a2 e2) (acc_step1 xt tg w k 3 a3 e3)
      (acc_step1 xt tg w k 4 a4 e4) (acc_step1 xt tg w k 5 a5 e5) (acc_step1 xt tg w k 6 a6 e6) (acc_step1 xt tg w k 7 a7 e7)
  · iexact Hv

set_option maxHeartbeats 2000000 in
/-- One trip of the second loop. -/
theorem trip2 (k : Fin k1_t2_loop.trips) (acc : Acc8 F) (v18 v19 v20 v21 v22 v23 v24 : FVec F S16 .f32) :
    I2 (d := d) L xt tg w k.val acc ⊢ wp frame (wpE (defs₀ (F := F)) 𝒱₀ (V d (cV L) (jV L)) none) Set.univ
      (k1_t2_body L xV (Memref.isWhole_whole _) tV (Memref.isWhole_whole _) oV (Memref.isWhole_whole _) s0V (Memref.isWhole_whole _) s1V (Memref.isWhole_whole _)
        s2V (Memref.isWhole_whole _) shV (Memref.isWhole_whole _) cc1_scratch4 cc1_scratch5 cc1_scratch6 cc1_scoped0 cc1_scoped1 v18 v19 v20 v21 v22 v23 v24 k acc)
      (I2 (d := d) L xt tg w (k.val + 1)) := by
  obtain ⟨a0, a1, a2, a3, a4, a5, a6, a7⟩ := acc
  unfold k1_t2_body I2
  iintro ⟨%hacc, Hv⟩
  obtain ⟨e0, e1, e2, e3, e4, e5, e6, e7⟩ : a0 = accAt xt tg w 0 (100 + k.val) ∧ a1 = accAt xt tg w 1 (100 + k.val) ∧ a2 = accAt xt tg w 2 (100 + k.val) ∧ a3 = accAt xt tg w 3 (100 + k.val)
      ∧ a4 = accAt xt tg w 4 (100 + k.val) ∧ a5 = accAt xt tg w 5 (100 + k.val) ∧ a6 = accAt xt tg w 6 (100 + k.val) ∧ a7 = accAt xt tg w 7 (100 + k.val) := by
    simpa only [accs, Prod.mk.injEq] using hacc
  have h0 : ((s1V).access (Rect.unit (s := S25600) (k1_off4 k 0#32) S16.size (k1_off4_inb k 0))).set ⊆ (v2K).view.set := load_sub2 k 0
  have h1 : ((s1V).access (Rect.unit (s := S25600) (k1_off4 k 16#32) S16.size (k1_off4_inb k 1))).set ⊆ (v2K).view.set := load_sub2 k 1
  have h2 : ((s1V).access (Rect.unit (s := S25600) (k1_off4 k 32#32) S16.size (k1_off4_inb k 2))).set ⊆ (v2K).view.set := load_sub2 k 2
  have h3 : ((s1V).access (Rect.unit (s := S25600) (k1_off4 k 48#32) S16.size (k1_off4_inb k 3))).set ⊆ (v2K).view.set := load_sub2 k 3
  have h4 : ((s1V).access (Rect.unit (s := S25600) (k1_off4 k 64#32) S16.size (k1_off4_inb k 4))).set ⊆ (v2K).view.set := load_sub2 k 4
  have h5 : ((s1V).access (Rect.unit (s := S25600) (k1_off4 k 80#32) S16.size (k1_off4_inb k 5))).set ⊆ (v2K).view.set := load_sub2 k 5
  have h6 : ((s1V).access (Rect.unit (s := S25600) (k1_off4 k 96#32) S16.size (k1_off4_inb k 6))).set ⊆ (v2K).view.set := load_sub2 k 6
  have h7 : ((s1V).access (Rect.unit (s := S25600) (k1_off4 k 112#32) S16.size (k1_off4_inb k 7))).set ⊆ (v2K).view.set := load_sub2 k 7
  sl_exec
  sl_step
  isplitr
  · ipureintro
    exact tuple8_ext (acc_step2 xt tg w k 0 a0 e0) (acc_step2 xt tg w k 1 a1 e1) (acc_step2 xt tg w k 2 a2 e2) (acc_step2 xt tg w k 3 a3 e3)
      (acc_step2 xt tg w k 4 a4 e4) (acc_step2 xt tg w k 5 a5 e5) (acc_step2 xt tg w k 6 a6 e6) (acc_step2 xt tg w k 7 a7 e7)
  · iexact Hv

end Loop

end Cert.Proof.KI

end
-- ==== Proof.TileGather.lean ====
/-
  What an indirect gather of half the token list leaves in its half of the scores' scratch: at each word the score the
  token there names, read off the shared memory's contents.
-/
import proofs.«203335_g10582799417878_cont_week2_139_36_alg».proof.Proof.TileLoop

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx

section Gather
variable (d : Dev nD) (L : grid1.Coords)

omit [Named F] in
/-- An array of the scores' shape is read at an index by the index's one coordinate. -/
theorem tg_apply (tg : Buf (Elt F) (tLoc d)) (j : S1003520.Idx) :
    tg j = tg (ix1 (n := 1003520) ⟨(j 0).val % 1003520, Nat.mod_lt _ (by decide)⟩) :=
  congrArg tg ((eq_ix1 j).trans (congrArg ix1 (Fin.ext (Nat.mod_eq_of_lt (j 0).isLt).symm)))
omit [Named F] in
theorem xt_apply (xt : Buf (Elt F) (xtLoc d)) (j : S819200.Idx) :
    xt j = xt (ix1 (n := 819200) ⟨(j 0).val % 819200, Nat.mod_lt _ (by decide)⟩) :=
  congrArg xt ((eq_ix1 j).trans (congrArg ix1 (Fin.ext (Nat.mod_eq_of_lt (j 0).isLt).symm)))

omit [Named F] in
theorem rows_val {si : Shape} {o z : ℕ} (idx : si.Idx → Elt F .i32) (hn : si.numel = o) (h : ∀ x, (idx x).toNat < z) (k : Fin o) :
    (SparseCore.rows (F := F) idx hn h k).val = (idx (si.rowMajor.symm (k.cast hn.symm))).toNat := rfl

set_option maxRecDepth 8192 in
omit [Named F] in
/-- What a gather of half the token list leaves in its half of the scratch: the scores the tokens name. -/
theorem gather_vals_at (off : ℕ) (inb : ∀ a, (![off] : Fin 1 → ℕ) a + S12800.size a ≤ S25600.size a)
    (xtF : (d : Dev nD) → Buf (Elt F) (xtLoc d)) (hxt : ∀ d j, (xtF d j).toNat < 1000000)
    (f0 : Buf (Elt F) ((s0V).view.loc (V d (cV L) (jV L)))) (g : Buf (Elt F) (tLoc d))
    (junk : Buf (Elt F) ((s1V).view.loc (V d (cV L) (jV L)))) (pay : S12800.Idx → Elt F .f32)
    (hn : S12800.numel = S12800.size gathers_S1003520_S12800.axis')
    (hin' : ∀ x, (((s0V).slice (Rect.unit (s := S25600) ![off] S12800.size inb) (fun _ => rfl)).view.read (Elt F)
        (View.write (Elt F) (s0V).view f0 (ReadAs.same.apply ((xK L).view.read (Elt F) (xtF d))) Finset.univ) x).toNat
      < S1003520.size gathers_S1003520_S12800.axis)
    (hpay : pay = SparseCore.gatherPayload gathers_S1003520_S12800 ((shW).view.read (Elt F) (g : Buf (Elt F) (shLoc d (cV L))))
      (SparseCore.rows (((s0V).slice (Rect.unit (s := S25600) ![off] S12800.size inb) (fun _ => rfl)).view.read (Elt F)
        (View.write (Elt F) (s0V).view f0 (ReadAs.same.apply ((xK L).view.read (Elt F) (xtF d))) Finset.univ)) hn hin')) :
    ∀ x : S12800.Idx,
      ((s1V).slice (Rect.unit (s := S25600) ![off] S12800.size inb) (fun _ => rfl)).view.writes (Elt F) junk [⟨Rect.whole S12800, pay⟩]
          (((s1V).slice (Rect.unit (s := S25600) ![off] S12800.size inb) (fun _ => rfl)).view.emb x)
        = valsBuf (xtF d) g (wid (cL L) (jL L)) (((s1V).slice (Rect.unit (s := S25600) ![off] S12800.size inb) (fun _ => rfl)).view.emb x) := by
  subst hpay
  intro x
  have h := View.read_writes_cons_emb ((s1V).slice (Rect.unit (s := S25600) ![off] S12800.size inb) (fun _ => rfl)).view junk (Rect.whole S12800)
    (SparseCore.gatherPayload gathers_S1003520_S12800 ((shW).view.read (Elt F) (g : Buf (Elt F) (shLoc d (cV L))))
      (SparseCore.rows (((s0V).slice (Rect.unit (s := S25600) ![off] S12800.size inb) (fun _ => rfl)).view.read (Elt F)
        (View.write (Elt F) (s0V).view f0 (ReadAs.same.apply ((xK L).view.read (Elt F) (xtF d))) Finset.univ)) hn hin')) [] x
  have h' := (congrArg (View.read (Elt F) ((s1V).slice (Rect.unit (s := S25600) ![off] S12800.size inb) (fun _ => rfl)).view _) (Rect.emb_whole_apply S12800 x).symm).trans h
  refine ((View.read_apply _ _).trans (cast_eq _ _)).symm.trans (h'.trans ?_)
  unfold SparseCore.gatherPayload valsBuf valAt
  rw [(View.read_apply _ _).trans (cast_eq _ _), tg_apply d g]
  refine congrArg g (congrArg ix1 (Fin.ext ?_))
  refine congrArg (fun n : ℕ => n % 1003520) ?_
  have e1 : ∀ y : S1003520.Idx, (((shW).view.emb y) 0).val = (y 0).val := fun y => by
    show (![0] : Fin 1 → ℕ) 0 + 1 * (y 0).val = (y 0).val
    simp
  have hax : ∀ rws : Fin (S12800.size gathers_S1003520_S12800.axis') → Fin (S1003520.size gathers_S1003520_S12800.axis),
      (gathers_S1003520_S12800.idx rws x) 0 = rws (x 0) := fun rws => Shape.Gathers.idx_axis gathers_S1003520_S12800 rws x
  rw [e1, hax, rows_val]
  have hy : ((S12800.rowMajor.symm ((x 0).cast hn.symm)) 0).val = (x 0).val := by
    have h := Shape.rowMajor_val_one (S12800.rowMajor.symm ((x 0).cast hn.symm))
    rw [Equiv.apply_symm_apply] at h
    exact h.symm
  rw [View.write_whole_univ, (View.read_apply _ _).trans (cast_eq _ _)]
  show ((xK L).view.read (Elt F) (xtF d) _).toNat = _
  rw [(View.read_apply _ _).trans (cast_eq _ _), xt_apply d (xtF d)]
  refine congrArg (fun j => (xtF d j).toNat) (congrArg ix1 (Fin.ext ?_))
  refine congrArg (fun n : ℕ => n % 819200) ?_
  show (k1_off1 L) 0 + 1 * ((![off] : Fin 1 → ℕ) 0 + 1 * ((S12800.rowMajor.symm ((x 0).cast hn.symm)) 0).val)
    = 25600 * (wid (cL L) (jL L)).val + ((![off] : Fin 1 → ℕ) 0 + 1 * (x 0).val)
  rw [k1_off1_eq, hy]; simp [wid]; omega

omit [Named F] in
theorem gather_vals (off : ℕ) (inb : ∀ a, (![off] : Fin 1 → ℕ) a + S12800.size a ≤ S25600.size a)
    (xtF : (d : Dev nD) → Buf (Elt F) (xtLoc d)) (hxt : ∀ d j, (xtF d j).toNat < 1000000)
    (f0 : Buf (Elt F) ((s0V).view.loc (V d (cV L) (jV L)))) (g : Buf (Elt F) (tLoc d))
    (junk : Buf (Elt F) ((s1V).view.loc (V d (cV L) (jV L)))) (pay : S12800.Idx → Elt F .f32)
    (hn : S12800.numel = S12800.size gathers_S1003520_S12800.axis')
    (hin' : ∀ x, (((s0V).slice (Rect.unit (s := S25600) ![off] S12800.size inb) (fun _ => rfl)).view.read (Elt F)
        (View.write (Elt F) (s0V).view f0 (ReadAs.same.apply ((xK L).view.read (Elt F) (xtF d))) Finset.univ) x).toNat
      < S1003520.size gathers_S1003520_S12800.axis)
    (hpay : pay = SparseCore.gatherPayload gathers_S1003520_S12800 ((shW).view.read (Elt F) (g : Buf (Elt F) (shLoc d (cV L))))
      (SparseCore.rows (((s0V).slice (Rect.unit (s := S25600) ![off] S12800.size inb) (fun _ => rfl)).view.read (Elt F)
        (View.write (Elt F) (s0V).view f0 (ReadAs.same.apply ((xK L).view.read (Elt F) (xtF d))) Finset.univ)) hn hin')) :
    ∀ i ∈ ((s1V).slice (Rect.unit (s := S25600) ![off] S12800.size inb) (fun _ => rfl)).view.set,
      ((s1V).slice (Rect.unit (s := S25600) ![off] S12800.size inb) (fun _ => rfl)).view.writes (Elt F) junk [⟨Rect.whole S12800, pay⟩] i
        = valsBuf (xtF d) g (wid (cL L) (jL L)) i := by
  intro i hi
  obtain ⟨x, -, rfl⟩ := Finset.mem_map.mp hi
  exact gather_vals_at d L off inb xtF hxt f0 g junk pay hn hin' hpay x

end Gather

end Cert.Proof.KI

end
-- ==== Proof.TileOut.lean ====
/-
  The end of the gather kernel: the eight stores fill the result scratch with the logistic function of the eight groups'
  sums, and the copy-out lands it on the subcore's piece of the result — which is then the result function there.
-/
import proofs.«203335_g10582799417878_cont_week2_139_36_alg».proof.Proof.TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx

section Out
variable {d : Dev nD} (L : grid1.Coords) (xt : Buf (Elt F) (xtLoc d)) (tg : Buf (Elt F) (tLoc d)) (w : Fin 32)

omit [Named F] in
/-- The payload of group `gI`'s store is, word by word, what the result scratch is to hold there. -/
theorem piece_ok (gI : Fin 8) (inb : ∀ a, (![16 * gI.val] : Fin 1 → ℕ) a + S16.size a ≤ S128.size a) (x : S16.Idx) :
    sigm (accAt xt tg w gI.val 200) x = outG xt tg w ((Rect.unit (s := S128) ![16 * gI.val] S16.size inb).emb x) := by
  unfold outG
  have hx : (x 0).val < 16 := (x 0).isLt
  have he : (((Rect.unit (s := S128) ![16 * gI.val] S16.size inb).emb x) 0).val = 16 * gI.val + (x 0).val := by
    rw [Rect.emb_apply]; simp
  have h1 : (16 * gI.val + (x 0).val) / 16 = gI.val := by omega
  have h2 : (16 * gI.val + (x 0).val) % 16 = (x 0).val := by omega
  have hE1 : (((Rect.unit (s := S128) ![16 * gI.val] S16.size inb).emb x) 0).val / 16 = gI.val := by rw [he]; exact h1
  have hE2 : (((Rect.unit (s := S128) ![16 * gI.val] S16.size inb).emb x) 0).val % 16 = (x 0).val := by rw [he]; exact h2
  exact congr (congrArg (fun n => sigm (accAt xt tg w n 200)) hE1.symm) ((eq_ix1 x).trans (congrArg ix1 (Fin.ext hE2.symm)))

/-- The eight stores, the last first. -/
def outPieces (p0 p1 p2 p3 p4 p5 p6 p7 : S16.Idx → Elt F .f32) : List (View.Piece (Elt F) S128 .f32) :=
  [⟨Rect.unit (s := S128) ![112] S16.size inb_S128_S16_112, p7⟩, ⟨Rect.unit (s := S128) ![96] S16.size inb_S128_S16_96, p6⟩,
   ⟨Rect.unit (s := S128) ![80] S16.size inb_S128_S16_80, p5⟩, ⟨Rect.unit (s := S128) ![64] S16.size inb_S128_S16_64, p4⟩,
   ⟨Rect.unit (s := S128) ![48] S16.size inb_S128_S16_48, p3⟩, ⟨Rect.unit (s := S128) ![32] S16.size inb_S128_S16_32, p2⟩,
   ⟨Rect.unit (s := S128) ![16] S16.size inb_S128_S16_16, p1⟩, ⟨Rect.unit (s := S128) ![0] S16.size inb_S128_S16_0, p0⟩]

omit [Named F] in
theorem outPieces_ok (p0 p1 p2 p3 p4 p5 p6 p7 : S16.Idx → Elt F .f32)
    (h0 : p0 = sigm (accAt xt tg w 0 200)) (h1 : p1 = sigm (accAt xt tg w 1 200)) (h2 : p2 = sigm (accAt xt tg w 2 200)) (h3 : p3 = sigm (accAt xt tg w 3 200))
    (h4 : p4 = sigm (accAt xt tg w 4 200)) (h5 : p5 = sigm (accAt xt tg w 5 200)) (h6 : p6 = sigm (accAt xt tg w 6 200)) (h7 : p7 = sigm (accAt xt tg w 7 200)) :
    ∀ p ∈ outPieces p0 p1 p2 p3 p4 p5 p6 p7, ∀ x : p.1.shape.Idx, p.2 x = outG xt tg w (p.1.emb x) := by
  subst h0 h1 h2 h3 h4 h5 h6 h7
  intro p hp
  simp only [outPieces, List.mem_cons, List.not_mem_nil, or_false] at hp
  rcases hp with rfl | rfl | rfl | rfl | rfl | rfl | rfl | rfl
  · exact piece_ok xt tg w 7 inb_S128_S16_112
  · exact piece_ok xt tg w 6 inb_S128_S16_96
  · exact piece_ok xt tg w 5 inb_S128_S16_80
  · exact piece_ok xt tg w 4 inb_S128_S16_64
  · exact piece_ok xt tg w 3 inb_S128_S16_48
  · exact piece_ok xt tg w 2 inb_S128_S16_32
  · exact piece_ok xt tg w 1 inb_S128_S16_16
  · exact piece_ok xt tg w 0 inb_S128_S16_0

omit [FloatOps F] [Named F] in
theorem outPieces_cover (p0 p1 p2 p3 p4 p5 p6 p7 : S16.Idx → Elt F .f32) (y : S128.Idx) :
    ∃ p ∈ outPieces p0 p1 p2 p3 p4 p5 p6 p7, y ∈ p.1.set := by
  have hy : (y 0).val < 128 := (y 0).isLt
  have key : ∀ (o : ℕ) (inb : ∀ a, (![o] : Fin 1 → ℕ) a + S16.size a ≤ S128.size a), o ≤ (y 0).val → (y 0).val < o + 16 →
      y ∈ (Rect.unit (s := S128) ![o] S16.size inb).set := fun o inb h1 h2 => by
    rw [Rect.mem_set_unit]; intro a
    match a with
    | 0 => exact ⟨h1, h2⟩
  simp only [outPieces, List.mem_cons, List.not_mem_nil, or_false, exists_eq_or_imp, exists_eq_left]
  by_cases c7 : 112 ≤ (y 0).val; · exact .inl (key 112 _ c7 (by omega))
  by_cases c6 : 96 ≤ (y 0).val; · exact .inr (.inl (key 96 _ c6 (by omega)))
  by_cases c5 : 80 ≤ (y 0).val; · exact .inr (.inr (.inl (key 80 _ c5 (by omega))))
  by_cases c4 : 64 ≤ (y 0).val; · exact .inr (.inr (.inr (.inl (key 64 _ c4 (by omega)))))
  by_cases c3 : 48 ≤ (y 0).val; · exact .inr (.inr (.inr (.inr (.inl (key 48 _ c3 (by omega))))))
  by_cases c2 : 32 ≤ (y 0).val; · exact .inr (.inr (.inr (.inr (.inr (.inl (key 32 _ c2 (by omega)))))))
  by_cases c1 : 16 ≤ (y 0).val; · exact .inr (.inr (.inr (.inr (.inr (.inr (.inl (key 16 _ c1 (by omega))))))))
  exact .inr (.inr (.inr (.inr (.inr (.inr (.inr (key 0 _ (Nat.zero_le _) (by omega))))))))

omit [Named F] in
/-- After the eight stores the result scratch reads `outG`, whatever it held before. -/
theorem stores_read (base : Buf (Elt F) ((s2V).view.loc (V d (cV L) (jV L)))) (p0 p1 p2 p3 p4 p5 p6 p7 : S16.Idx → Elt F .f32)
    (h0 : p0 = sigm (accAt xt tg w 0 200)) (h1 : p1 = sigm (accAt xt tg w 1 200)) (h2 : p2 = sigm (accAt xt tg w 2 200)) (h3 : p3 = sigm (accAt xt tg w 3 200))
    (h4 : p4 = sigm (accAt xt tg w 4 200)) (h5 : p5 = sigm (accAt xt tg w 5 200)) (h6 : p6 = sigm (accAt xt tg w 6 200)) (h7 : p7 = sigm (accAt xt tg w 7 200)) (y : S128.Idx) :
    (s2V).view.read (Elt F) ((s2V).view.writes (Elt F) base (outPieces p0 p1 p2 p3 p4 p5 p6 p7)) y = outG xt tg w y :=
  View.read_writes_apply_of_pieces (s2V).view base (outG xt tg w) _ (outPieces_ok xt tg w p0 p1 p2 p3 p4 p5 p6 p7 h0 h1 h2 h3 h4 h5 h6 h7) y
    (outPieces_cover p0 p1 p2 p3 p4 p5 p6 p7 y)

omit [Named F] in
/-- The copy-out leaves, on the subcore's piece of the result, the result. -/
theorem out_contents (fo : Buf (Elt F) (oLoc d)) (c2 : Buf (Elt F) ((s2V).view.loc (V d (cV L) (jV L)))) (wpay : S128.Idx → Elt F .f32)
    (hw : wpay = ReadAs.same.apply ((s2V).view.read (Elt F) c2))
    (hc2 : ∀ y, (s2V).view.read (Elt F) c2 y = outG xt tg (wid (cL L) (jL L)) y) :
    ∀ i ∈ (oK L).view.set, (oK L).view.writes (Elt F) fo [⟨Rect.whole S128, wpay⟩] i = oFof1 xt tg i := by
  subst hw
  intro i hi
  obtain ⟨x, -, rfl⟩ := Finset.mem_map.mp hi
  have h := View.read_writes_cons_emb (oK L).view fo (Rect.whole S128) (ReadAs.same.apply ((s2V).view.read (Elt F) c2)) [] x
  have h' := (congrArg (View.read (Elt F) (oK L).view _) (Rect.emb_whole_apply S128 x).symm).trans h
  refine ((View.read_apply _ _).trans (cast_eq _ _)).symm.trans (h'.trans ?_)
  show (s2V).view.read (Elt F) c2 x = _
  rw [hc2]
  unfold oFof1 oFofAt
  have hx : (x 0).val < 128 := (x 0).isLt
  have he : ((((oK L).view.emb x) 0).val) = 128 * (wid (cL L) (jL L)).val + (x 0).val := by
    show (k1_off5 L) 0 + 1 * (x 0).val = _
    rw [k1_off5_eq]; simp [wid]; omega
  have h1 : ((((oK L).view.emb x) 0).val) / 128 % 32 = (wid (cL L) (jL L)).val := by
    rw [he]; have := (wid (cL L) (jL L)).isLt; omega
  have h2 : ((((oK L).view.emb x) 0).val) % 128 = (x 0).val := by rw [he]; omega
  exact congr (congrArg (outG xt tg) (Fin.ext h1.symm)) ((eq_ix1 x).trans (congrArg ix1 (Fin.ext h2.symm)))

end Out

end Cert.Proof.KI

end
-- ==== Proof.Tile.lean ====
/-
  The body obligation of the gather kernel, for a vector subcore at a symbolic grid point: the token copy and the copy of
  the subcore's slice of the scores into the shared memory, the barrier (sixteen read shares of that slice out, the
  subcore's read share of every slice in), the two gathers, the two accumulation loops (the accumulators carried as the
  partial sums trip by trip), the eight stores of the logistic function of the sums and the copy-out; at the end the
  subcore's piece of the result holds the result function, and everything else goes back as it came.
-/
import proofs.«203335_g10582799417878_cont_week2_139_36_alg».proof.Proof.TileBar
import proofs.«203335_g10582799417878_cont_week2_139_36_alg».proof.Proof.TileGather
import proofs.«203335_g10582799417878_cont_week2_139_36_alg».proof.Proof.TileOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx

section Tile
variable (xtF : (d : Dev nD) → Buf (Elt F) (xtLoc d)) (tF : (d : Dev nD) → Buf (Elt F) (tLoc d)) (nG : ℕ)
variable (d : Dev nD) (L : grid1.Coords)

/-! ## The held arrays in the kernel's spelling -/

omit [FloatOps F] [Named F] in
theorem pts_xK (q : PosShare TreeShare) (f : Buf (Elt F) (xtLoc d)) :
    ((xK L).view.loc (V d (cV L) (jV L)) ↦[(xK L).view.set]{q} f : sProp 𝕄) = xtLoc d ↦[xSet (wid (cL L) (jL L))]{q} f := by rw [set_xK]
omit [FloatOps F] [Named F] in
theorem pts_tK (q : PosShare TreeShare) (f : Buf (Elt F) (tLoc d)) :
    ((tK L).view.loc (V d (cV L) (jV L)) ↦[(tK L).view.set]{q} f : sProp 𝕄) = tLoc d ↦[tSet (jL L)]{q} f := by rw [set_tK]
omit [FloatOps F] [Named F] in
theorem pts_oK (q : PosShare TreeShare) (f : Buf (Elt F) (oLoc d)) :
    ((oK L).view.loc (V d (cV L) (jV L)) ↦[(oK L).view.set]{q} f : sProp 𝕄) = oLoc d ↦[oSet (wid (cL L) (jL L))]{q} f := by rw [set_oK]
omit [FloatOps F] [Named F] in
theorem pts_shK (q : PosShare TreeShare) (f : Buf (Elt F) (shLoc d (cV L))) :
    ((shK L).view.loc (V d (cV L) (jV L)) ↦[(shK L).view.set]{q} f : sProp 𝕄) = shLoc d (cV L) ↦[tSet (jL L)]{q} f := by rw [set_shK]; rfl
omit [FloatOps F] [Named F] in
theorem pts_shW (q : PosShare TreeShare) (f : Buf (Elt F) (shLoc d (cV L))) :
    ((shW).view.loc (V d (cV L) (jV L)) ↦[(shW).view.set]{q} f : sProp 𝕄) = shLoc d (cV L) ↦{q} f := by rw [set_shW]; rfl

/-- The copy of slice `L 1` of the scores leaves, on that slice of the shared memory, what the score array held there. -/
theorem shK_contents' (fsh : Buf (Elt F) (shLoc d (cV L))) (ft : Buf (Elt F) (tLoc d)) (w : S62720.Idx → Elt F .f32)
    (hw : w = ReadAs.same.apply ((tK L).view.read (Elt F) ft)) :
    ∀ i ∈ (shK L).view.set, (shK L).view.writes (Elt F) fsh [⟨Rect.whole S62720, w⟩] i = ft i := by
  subst hw; exact shK_contents d L fsh ft

omit [Named F] in
theorem I1_elim (xt : Buf (Elt F) (xtLoc d)) (tg : Buf (Elt F) (tLoc d)) (w : Fin 32) (k : ℕ) (acc : Acc8 F) :
    I1 (d := d) L xt tg w k acc ⊢ iprop(⌜acc = accs xt tg w k⌝ ∗ (v1K).view.loc (V d (cV L) (jV L)) ↦[(v1K).view.set]{fullShare} valsBuf xt tg w) := by
  unfold I1; exact .rfl
omit [Named F] in
theorem I2_elim (xt : Buf (Elt F) (xtLoc d)) (tg : Buf (Elt F) (tLoc d)) (w : Fin 32) (k : ℕ) (acc : Acc8 F) :
    I2 (d := d) L xt tg w k acc ⊢ iprop(⌜acc = accs xt tg w (100 + k)⌝ ∗ (v2K).view.loc (V d (cV L) (jV L)) ↦[(v2K).view.set]{fullShare} valsBuf xt tg w) := by
  unfold I2; exact .rfl

/-! ## The body -/

set_option maxHeartbeats 4000000 in
theorem tile_body (hF : (K (F := F)).Facts) (hxt : ∀ d j, (xtF d j).toNat < 1000000) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit tF nG d (cV L) (jV L)
        ∗ (goRes xtF tF nG d (cL L) (jL L) ∗ shGo d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_gather_reduce L xV (Memref.isWhole_whole _) tV (Memref.isWhole_whole _) oV (Memref.isWhole_whole _) s0V (Memref.isWhole_whole _) s1V (Memref.isWhole_whole _)
            s2V (Memref.isWhole_whole _) shV (Memref.isWhole_whole _) cc1_scratch4 cc1_scratch5 cc1_scratch6 cc1_scoped0 cc1_scoped1)
          fun _ => iprop((tdRes tF nG (fun d g => oFof1 (xtF d) g) d (cL L) (jL L) ∗ shTd d (cV L) (jL L)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_gather_reduce_eq_skeleton]; unfold cc1_gather_reduce_skel
  simp only [k1_part1_eq_skeleton, k1_part2_eq_skeleton, k1_part3_eq_skeleton]
  rw [(K (F := F)).scopedBufs_V hF d (cV L) (jV L), SparseCore.Cfg.scopedSems0_V (Val := Elt F) d (cV L) (jV L), ownSems0_V, ownBufs_V]
  unfold bkit goRes tPts shGo
  iintro ⟨#Hlv, ⟨⟨%κ, #Hinv⟩, Htoks, Hreached, Hat, Hcred⟩, ⟨⟨Hx, ⟨%ft, %hft, Ht⟩, ⟨%fo, Ho⟩⟩, ⟨%fsh, Hsh⟩⟩, ⟨⟨%f0, H0⟩, ⟨%f1, H1⟩, ⟨%f2, H2⟩, Hbufs⟩, ⟨Hs4, Hs5, Hs6, Hc0, Hc1, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xK (F := F) d L _ _).symm) $$ Hx
  ihave Ht' := (Entails.of_eq (pts_tK (F := F) d L _ _).symm) $$ Ht
  ihave Ho' := (Entails.of_eq (pts_oK (F := F) d L _ _).symm) $$ Ho
  ihave Hsh' := (Entails.of_eq (pts_shK (F := F) d L _ _).symm) $$ Hsh
  ihave H0' := (show ((V d (cV L) (jV L)).loc cc1_scratch0 ↦{fullShare} f0 : sProp 𝕄) ⊢ (s0V).view.loc (V d (cV L) (jV L)) ↦{fullShare} f0 from Entails.of_eq rfl) $$ H0
  ihave H1' := (show ((V d (cV L) (jV L)).loc cc1_scratch1 ↦{fullShare} f1 : sProp 𝕄) ⊢ (s1V).view.loc (V d (cV L) (jV L)) ↦{fullShare} f1 from Entails.of_eq rfl) $$ H1
  ihave H2' := (show ((V d (cV L) (jV L)).loc cc1_scratch2 ↦{fullShare} f2 : sProp 𝕄) ⊢ (s2V).view.loc (V d (cV L) (jV L)) ↦{fullShare} f2 from Entails.of_eq rfl) $$ H2
  sl_exec

  -- the slice of the shared memory at the scores' contents, in its sixteen read shares and the remainder
  ihave Hsh2 := (Entails.of_eq ((pointsTo_congr (q := fullShare) (shK_contents' d L fsh ft (tile_body.sl.dma0_1 d L ft) rfl)).trans (pts_shK (F := F) d L fullShare ft))) $$ Hsh'
  ihave Hsp := (Transfers.pointsTo_toks_split fullShare 16) $$ Hsh2
  icases Hsp with ⟨Hdrop, Hshares⟩
  ihave Hpayin := (barrier_pay tF nG d L ft hft) $$ [Htoks Hreached Hshares]
  · isplitl [Htoks]; · iexact Htoks
    isplitl [Hreached]; · iexact Hreached
    iexact Hshares
  -- the barrier
  iapply (SparseCore.wp_subcoreBarrier 𝒱₀ none EB (bRd tF nG) d (sc := cV L) (i := jV L) sc_bar0 (grid1.bound 1) hsub1 (L 1) rfl κ (fun _ => 0) (jV L).val
      (fun j => bRd_mem₀ tF nG d _ _ _) (fun _ => rfl) (bRd_expect tF nG d _ _) (some 0) O _) $$ [HO Hpayin Hcred Hat]
  · isplitr; · iexact Hinv
    isplitl [HO]; · iexact HO
    isplitl [Hpayin]; · iexact Hpayin
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hpay⟩
  -- this subcore's read share of the whole shared memory, in two halves for the two gathers
  ihave Hg := (barrier_recv tF nG d L) $$ Hpay
  icases Hg with ⟨%g, %hg, Hg⟩
  ihave Hgs := (pointsTo_share (PosShare.mem_left_op_right _)).1 $$ Hg
  icases Hgs with ⟨HgA, HgB⟩
  ihave HgA' := (Entails.of_eq (pts_shW (F := F) d L _ _).symm) $$ HgA
  ihave HgB' := (Entails.of_eq (pts_shW (F := F) d L _ _).symm) $$ HgB
  ihave H0s := (s0_halves (F := F) d L _ _).1 $$ H0'
  icases H0s with ⟨Hi1, Hi2⟩
  ihave H1s := (s1_halves (F := F) d L _ _).1 $$ H1'
  icases H1s with ⟨Hv1, Hv2⟩
  have hin := tok_inb (F := F) d L xtF hxt f0
  sl_exec

  -- the first half of the scratch at the scores its tokens name; the first loop
  ihave Hv1' := (Entails.of_eq (pointsTo_congr (q := fullShare) (gather_vals d L 0 inb_S25600_S12800_0 xtF hxt f0 g _ (tile_body.sl.gather0 xtF d L f0 g hin) _ _ rfl))) $$ Hv1
  sl_for (I1 (d := d) L (xtF d) g (wid (cL L) (jL L))) $$ [Hv1']
  · intro k acc; exact trip1 L (xtF d) g (wid (cL L) (jL L)) k acc _ _ _ _ _ _ _
  · unfold I1; isplitr
    · ipureintro; rfl
    · iexact Hv1'
  iintro %acc1 HI
  ihave HI' := (I1_elim d L (xtF d) g (wid (cL L) (jL L)) _ acc1) $$ HI
  icases HI' with ⟨%hacc1, Hv1⟩
  subst hacc1
  -- the second gather's wait; the second half; the second loop
  sl_exec
  ihave Hv2' := (Entails.of_eq (pointsTo_congr (q := fullShare) (gather_vals d L 12800 inb_S25600_S12800_12800 xtF hxt f0 g _ (tile_body.sl.gather1 xtF d L f0 g hin) _ _ rfl))) $$ Hv2
  sl_for (I2 (d := d) L (xtF d) g (wid (cL L) (jL L))) $$ [Hv2']
  · intro k acc; exact trip2 L (xtF d) g (wid (cL L) (jL L)) k acc _ _ _ _ _ _ _
  · unfold I2; isplitr
    · ipureintro; rfl
    · iexact Hv2'
  iintro %acc2 HI
  ihave HI' := (I2_elim d L (xtF d) g (wid (cL L) (jL L)) _ acc2) $$ HI
  icases HI' with ⟨%hacc2, Hv2⟩
  subst hacc2
  -- the eight stores, the copy-out and its wait
  sl_exec
  sl_step

  -- the result piece at the result; what is left of the shared memory
  isplitl [Ho' Hdrop HgA' HgB']
  · isplitl [Ho']
    · unfold tdRes
      iexists g; isplitr
      · ipureintro; exact hg
      · ihave Ho2 := (Entails.of_eq ((pointsTo_congr (q := fullShare) (out_contents L (xtF d) g fo _ (tile_body.sl.dma16 xtF d L f2 g) rfl
            (fun y => stores_read L (xtF d) g (wid (cL L) (jL L)) f2 _ _ _ _ _ _ _ _ rfl rfl rfl rfl rfl rfl rfl rfl y))).trans
            (pts_oK (F := F) d L fullShare _))) $$ Ho'
        iexact Ho2
    · unfold shTd
      isplitl [Hdrop]
      · iexists _; iexact Hdrop
      · ihave HgA := (Entails.of_eq (pts_shW (F := F) d L _ _)) $$ HgA'
        ihave HgB := (Entails.of_eq (pts_shW (F := F) d L _ _)) $$ HgB'
        ihave Hg := (pointsTo_share (PosShare.mem_left_op_right _)).2 $$ [HgA HgB]
        · isplitl [HgA]; · iexact HgA
          iexact HgB
        iexists _; iexact Hg
  -- the subcore's own buffers, whole again
  isplitl [Hi1 Hi2 Hv1 Hv2 H2' Hbufs]
  · isplitl [Hi1 Hi2]
    · ihave H0 := (s0_halves (F := F) d L _ _).2 $$ [Hi1 Hi2]
      · isplitl [Hi1]; · iexact Hi1
        iexact Hi2
      iexists _; iexact H0
    isplitl [Hv1 Hv2]
    · ihave H1 := (s1_halves (F := F) d L _ _).2 $$ [Hv1 Hv2]
      · isplitl [Hv1]; · iexact Hv1
        iexact Hv2
      iexists _; iexact H1
    isplitl [H2']
    · iexists _; iexact H2'
    iexact Hbufs
  -- its semaphores at zero
  isplitl [Hs4 Hs5 Hs6 Hc0 Hc1 Hsems]
  · isplitl [Hs4]; · iexact Hs4
    isplitl [Hs5]; · iexact Hs5
    isplitl [Hs6]; · iexact Hs6
    isplitl [Hc0]; · iexact Hc0
    isplitl [Hc1]; · iexact Hc1
    iexact Hsems
  -- what it waited on
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

/-! ## The obligation -/

set_option maxRecDepth 16384 in
theorem tileObl (xtF : (d : Dev nD) → Buf (Elt F) (xtLoc d)) (tF : (d : Dev nD) → Buf (Elt F) (tLoc d)) (nG : ℕ)
    (hF : (K (F := F)).Facts) (hxt : ∀ d j, (xtF d j).toNat < 1000000) :
    (K (F := F)).TileObl (D (F := F)) 𝒱 (P xtF tF nG (fun d g => oFof1 (xtF d) g)) v₀ 0 := by
  intro d c i O W hO hOlev _
  have hci : ((K (F := F)).core 0 c).val < grid1.bound 0 ∧ ((K (F := F)).sub 0 i).val < grid1.bound 1 := ⟨c.isLt, i.isLt⟩
  rw [show (P xtF tF nG (fun d g => oFof1 (xtF d) g)).ox 0 (V d ((K (F := F)).core 0 c) ((K (F := F)).sub 0 i)) = oxV d ((K (F := F)).core 0 c) from rfl,
    show (P xtF tF nG (fun d g => oFof1 (xtF d) g)).x 0 (V d ((K (F := F)).core 0 c) ((K (F := F)).sub 0 i))
      = bkit tF nG d ((K (F := F)).core 0 c) ((K (F := F)).sub 0 i) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body xtF tF nG d (coordsV ⟨_, hci.1⟩ ⟨_, hci.2⟩) hF hxt O W hO hOlev

end Tile

end Cert.Proof.KI

end
-- ==== Proof.TileKBar.lean ====
/-
  The subcore barrier of the gather kernel, from one subcore's side: what it pays every cell (a read share of its own slice
  of the shared memory, at contents right on every vocabulary row) and what it is paid on its own (its read share of every
  slice, which join into its read share of the whole shared memory).
-/
import proofs.«203335_g10582799417878_cont_week2_139_36_alg».proof.Proof.TileKDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Bar
variable (tF : (d : Dev nD) → Buf (Elt F) (tLoc d)) (nG : ℕ)
variable (d : Dev nD) (L : grid1.Coords)

/-- The copy of slice `L 1` of the scores leaves, on that slice of the shared memory, what the score array held there. -/
theorem shK_contents (fsh : Buf (Elt F) (shLoc d (cV L))) (ft : Buf (Elt F) (tLoc d)) :
    ∀ i ∈ (shK L).view.set,
      (shK L).view.writes (Elt F) fsh [⟨Rect.whole S62720, ReadAs.same.apply ((tK L).view.read (Elt F) ft)⟩] i = ft i := by
  intro i hi
  obtain ⟨x, -, rfl⟩ := Finset.mem_map.mp hi
  have h := View.read_writes_cons_emb (shK L).view fsh (Rect.whole S62720) (ReadAs.same.apply ((tK L).view.read (Elt F) ft)) [] x
  rw [Rect.emb_whole_apply] at h
  exact ((View.read_apply _ _).trans (cast_eq _ _)).symm.trans (h.trans ((View.read_apply _ _).trans (cast_eq _ _)))

omit [FloatOps F] in
theorem bigSep_bound (Φ : Fin 16 → sProp 𝕄) : (bigSep Finset.univ fun j : Fin (grid1.bound 1) => Φ (Fin.cast bound_one j)) = bigSep Finset.univ Φ :=
  bigSep_congr fun _ _ => congrArg Φ (Fin.ext rfl)

/-- What this subcore's arrival hands subcore `j`: read share `j` of its own slice. -/
theorem bPay_pay (j : Fin (grid1.bound 1)) :
    (bRd tF nG).payload (bcell d (cV L) (j.castLE hsub1)) 0 (jV L).val
      = shPts tF nG d (cV L) (tSet (jL L)) (Transfers.shareTok fullShare 16 (Fin.cast bound_one j)) := by
  show (if h : (jV L).val < 16 then shPts tF nG d (cV L) (tSet ⟨(jV L).val, h⟩) (Transfers.shareTok fullShare 16 (Fin.cast nSub_eq (j.castLE hsub1))) else iprop(emp)) = _
  rw [dif_pos (show (jV L).val < 16 from (L 1).isLt)]; rfl

/-- What subcore `n`'s arrival hands this one: this subcore's read share of slice `n`. -/
theorem bPay_recv (n : Fin τ.nSub) :
    (bRd tF nG).payload (bcell d (cV L) (jV L)) 0 n.val
      = shPts tF nG d (cV L) (tSet (Fin.cast nSub_eq n)) (Transfers.shareTok fullShare 16 (jL L)) := by
  show (if h : n.val < 16 then shPts tF nG d (cV L) (tSet ⟨n.val, h⟩) (Transfers.shareTok fullShare 16 (Fin.cast nSub_eq (jV L))) else iprop(emp)) = _
  rw [dif_pos (show n.val < 16 from n.isLt)]; rfl

theorem shPts_intro (c : Fin τ.nSC) (I : Finset S1003520.Idx) (q : PosShare TreeShare) (ft : Buf (Elt F) (tLoc d)) (hft : TGood tF nG d ft) :
    (shLoc d c ↦[I]{q} (ft : Buf (Elt F) (shLoc d c)) : sProp 𝕄) ⊢ shPts tF nG d c I q := by
  unfold shPts; iintro H; iexists ft; isplitr
  · ipureintro; exact hft
  · iexact H

/-- The arrivals' three families as the barrier takes them. -/
theorem barrier_pay (ft : Buf (Elt F) (tLoc d)) (hft : TGood tF nG d ft) :
    iprop((bigSep Finset.univ fun j : Fin (grid1.bound 1) => dutyTok EB (bcell d (cV L) (j.castLE hsub1)) 0 (jV L).val)
        ∗ (bigSep Finset.univ fun j : Fin (grid1.bound 1) => reached EB (bcell d (cV L) (j.castLE hsub1)) 0)
        ∗ (bigSep Finset.univ fun j : Fin 16 => shLoc d (cV L) ↦[tSet (jL L)]{Transfers.shareTok fullShare 16 j} (ft : Buf (Elt F) (shLoc d (cV L)))))
      ⊢ (bigSep Finset.univ fun j : Fin (grid1.bound 1) => iprop(dutyTok EB (bcell d (cV L) (j.castLE hsub1)) 0 (jV L).val
            ∗ (bRd tF nG).payload (bcell d (cV L) (j.castLE hsub1)) 0 (jV L).val ∗ reached EB (bcell d (cV L) (j.castLE hsub1)) 0) : sProp 𝕄) := by
  rw [bigSep_sep', bigSep_sep']
  simp only [bPay_pay]
  rw [bigSep_bound (F := F) (fun j => shPts tF nG d (cV L) (tSet (jL L)) (Transfers.shareTok fullShare 16 j))]
  iintro ⟨H1, H2, H3⟩
  isplitl [H1]; · iexact H1
  isplitl [H3]
  · iapply (show (bigSep Finset.univ fun j : Fin 16 => shLoc d (cV L) ↦[tSet (jL L)]{Transfers.shareTok fullShare 16 j} (ft : Buf (Elt F) (shLoc d (cV L))))
        ⊢ (bigSep Finset.univ fun j : Fin 16 => shPts tF nG d (cV L) (tSet (jL L)) (Transfers.shareTok fullShare 16 j) : sProp 𝕄) from
      bigSep_mono fun j _ => shPts_intro tF nG d _ _ _ ft hft) $$ [H3]
    iexact H3
  iexact H2

omit [FloatOps F] in
theorem tSet_disjoint : ∀ i ∈ (Finset.univ : Finset (Fin τ.nSub)), ∀ j ∈ (Finset.univ : Finset (Fin τ.nSub)), i ≠ j →
    Disjoint (tSet (Fin.cast nSub_eq i)) (tSet (Fin.cast nSub_eq j)) :=
  fun i _ j _ h => Rect.part_disjoint hdivT fun e => h (Fin.ext (congrArg Fin.val e))
omit [FloatOps F] in
theorem tSet_cover : (Finset.univ : Finset (Fin τ.nSub)).biUnion (fun n => tSet (Fin.cast nSub_eq n)) = Finset.univ := by
  refine Finset.eq_univ_of_forall fun j => ?_
  obtain ⟨n, -, hn⟩ := Finset.mem_biUnion.mp ((Rect.biUnion_part hdivT : (Finset.univ : Finset (Fin 16)).biUnion tSet = Finset.univ) ▸ Finset.mem_univ j)
  exact Finset.mem_biUnion.mpr ⟨Fin.cast nSub_eq.symm n, Finset.mem_univ _, hn⟩

/-- Leaving the barrier: this subcore's read share of every slice, each right on every vocabulary row, is its read share of
    the whole shared memory at contents right on every vocabulary row. -/
theorem barrier_recv :
    (bigSep ((bRd tF nG).duties (bcell d (cV L) (jV L)) 0 \ ∅) fun m => (bRd tF nG).payload (bcell d (cV L) (jV L)) 0 m)
      ⊢ (iprop(∃ g : Buf (Elt F) (tLoc d), ⌜TGood tF nG d g⌝ ∗ shLoc d (cV L) ↦{Transfers.shareTok fullShare 16 (jL L)} (g : Buf (Elt F) (shLoc d (cV L)))) : sProp 𝕄) := by
  rw [Finset.sdiff_empty, bRd_duties₀, SparseCore.bigSep_image_of_injOn (fun a _ b _ e => Fin.val_injective e)]
  simp only [bPay_recv]
  unfold shPts
  refine (bigSep_exists_pi Finset.univ (fun (n : Fin τ.nSub) (f : Buf (Elt F) (tLoc d)) =>
    iprop(⌜TGood tF nG d f⌝ ∗ shLoc d (cV L) ↦[tSet (Fin.cast nSub_eq n)]{Transfers.shareTok fullShare 16 (jL L)} (f : Buf (Elt F) (shLoc d (cV L)))))).trans ?_
  iintro ⟨%fs, H⟩
  ihave H' := (bigSep_pure_sep Finset.univ (fun n : Fin τ.nSub => TGood tF nG d (fs n))
    (fun n : Fin τ.nSub => shLoc d (cV L) ↦[tSet (Fin.cast nSub_eq n)]{Transfers.shareTok fullShare 16 (jL L)} (fs n : Buf (Elt F) (shLoc d (cV L))))) $$ H
  icases H' with ⟨%hfs, H⟩
  ihave H'' := (pointsTo_biUnion_join (ℓ := shLoc d (cV L)) (q := Transfers.shareTok fullShare 16 (jL L)) (Finset.univ : Finset (Fin τ.nSub)) (fun n => tSet (Fin.cast nSub_eq n))
    (fun n => (fs n : Buf (Elt F) (shLoc d (cV L)))) (fs 0) tSet_disjoint) $$ H
  icases H'' with ⟨%g, %hg, Hg⟩
  rw [tSet_cover]
  iexists g; isplitr
  · ipureintro; intro j hj
    obtain ⟨n, -, hn⟩ := Finset.mem_biUnion.mp (tSet_cover ▸ Finset.mem_univ j)
    exact (hg n (Finset.mem_univ _) j hn).trans (hfs n (Finset.mem_univ _) j hj)
  · iexact Hg

end Bar

end Cert.Proof.KB

end
-- ==== Proof.TileKData.lean ====
/-
  The subcore's two scratch arrays in halves (the kernel gathers the scores of the first and of the second half of its
  tokens apart), and the fact the gathers rest on: every word of the token list names a row of the score array.
-/
import proofs.«203335_g10582799417878_cont_week2_139_36_alg».proof.Proof.TileKDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Data
variable (d : Dev nD) (L : grid1.Coords)

/-! ## The two halves of the token list and of the gathered scores -/

abbrev R1 : Rect S25600 := Rect.unit (s := S25600) ![0] S12800.size inb_S25600_S12800_0
abbrev R2 : Rect S25600 := Rect.unit (s := S25600) ![12800] S12800.size inb_S25600_S12800_12800

omit [FloatOps F] in
theorem halves_disjoint : Disjoint (R1).set (R2).set := Rect.unit_disjoint 0 (Or.inl (by decide))
omit [FloatOps F] in
theorem halves_cover : (R1).set ∪ (R2).set = Finset.univ := by
  refine Finset.eq_univ_of_forall fun j => ?_
  rw [Finset.mem_union, Rect.mem_set_unit, Rect.mem_set_unit]
  have hj : (j 0).val < 25600 := (j 0).isLt
  by_cases h : (j 0).val < 12800
  · left; intro a
    match a with
    | 0 => exact ⟨Nat.zero_le _, by show (j 0).val < 0 + 12800; omega⟩
  · right; intro a
    match a with
    | 0 => exact ⟨by show 12800 ≤ (j 0).val; omega, by show (j 0).val < 12800 + 12800; omega⟩

omit [FloatOps F] in
theorem set_i1K : (i1K).view.set = (R1).set := by
  show ((s0V).view.slice R1).set = _
  rw [View.set_slice]; exact Finset.map_refl
omit [FloatOps F] in
theorem set_i2K : (i2K).view.set = (R2).set := by
  show ((s0V).view.slice R2).set = _
  rw [View.set_slice]; exact Finset.map_refl
omit [FloatOps F] in
theorem set_v1K : (v1K).view.set = (R1).set := by
  show ((s1V).view.slice R1).set = _
  rw [View.set_slice]; exact Finset.map_refl
omit [FloatOps F] in
theorem set_v2K : (v2K).view.set = (R2).set := by
  show ((s1V).view.slice R2).set = _
  rw [View.set_slice]; exact Finset.map_refl

omit [FloatOps F] in
/-- The token list whole is its two halves, -/
theorem s0_halves (q : PosShare TreeShare) (f : Buf (Elt F) ((s0V).view.loc (V d (cV L) (jV L)))) :
    ((s0V).view.loc (V d (cV L) (jV L)) ↦{q} f : sProp 𝕄)
      ⊣⊢ iprop(((i1K).view.loc (V d (cV L) (jV L)) ↦[(i1K).view.set]{q} f) ∗ (i2K).view.loc (V d (cV L) (jV L)) ↦[(i2K).view.set]{q} f) := by
  rw [set_i1K, set_i2K]
  have h : ((s0V).view.loc (V d (cV L) (jV L)) ↦[(R1).set ∪ (R2).set]{q} f : sProp 𝕄)
      ⊣⊢ iprop(((s0V).view.loc (V d (cV L) (jV L)) ↦[(R1).set]{q} f) ∗ (s0V).view.loc (V d (cV L) (jV L)) ↦[(R2).set]{q} f) := pointsTo_union halves_disjoint
  rw [halves_cover] at h
  exact h
omit [FloatOps F] in
/-- and so is the scores' scratch. -/
theorem s1_halves (q : PosShare TreeShare) (f : Buf (Elt F) ((s1V).view.loc (V d (cV L) (jV L)))) :
    ((s1V).view.loc (V d (cV L) (jV L)) ↦{q} f : sProp 𝕄)
      ⊣⊢ iprop(((v1K).view.loc (V d (cV L) (jV L)) ↦[(v1K).view.set]{q} f) ∗ (v2K).view.loc (V d (cV L) (jV L)) ↦[(v2K).view.set]{q} f) := by
  rw [set_v1K, set_v2K]
  have h : ((s1V).view.loc (V d (cV L) (jV L)) ↦[(R1).set ∪ (R2).set]{q} f : sProp 𝕄)
      ⊣⊢ iprop(((s1V).view.loc (V d (cV L) (jV L)) ↦[(R1).set]{q} f) ∗ (s1V).view.loc (V d (cV L) (jV L)) ↦[(R2).set]{q} f) := pointsTo_union halves_disjoint
  rw [halves_cover] at h
  exact h

/-- Every word of the token list as the copy landed it is a vocabulary row: below the score array's length. -/
theorem tok_inb (xtF : (d : Dev nD) → Buf (Elt F) (xtLoc d)) (hxt : ∀ d j, (xtF d j).toNat < 1000000)
    (f0 : Buf (Elt F) ((s0V).view.loc (V d (cV L) (jV L)))) (r : Rect S25600) (hr : ∀ a, r.stride a = 1) :
    ∀ x, (((s0V).slice r hr).view.read (Elt F)
        (View.write (Elt F) (s0V).view f0 (ReadAs.same.apply ((xK L).view.read (Elt F) (xtF d))) Finset.univ) x).toNat
      < S1003520.size gathers_S1003520_S12800.axis := by
  intro x
  rw [View.write_whole_univ]
  refine lt_of_lt_of_le ?_ (show 1000000 ≤ S1003520.size gathers_S1003520_S12800.axis by decide)
  rw [(View.read_apply _ _).trans (cast_eq _ _)]
  show ((xK L).view.read (Elt F) (xtF d) _).toNat < 1000000
  rw [(View.read_apply _ _).trans (cast_eq _ _)]
  exact hxt d _

end Data

end Cert.Proof.KB

end
-- ==== Proof.TileKLoop.lean ====
/-
  The two accumulation loops of the gather kernel: each trip loads, per group of sixteen examples, the sixteen scores of
  its token position from the half of the scratch its gather filled, and adds them to the group's accumulator.
-/
import proofs.«203335_g10582799417878_cont_week2_139_36_alg».proof.Proof.TileKVal
import proofs.«203335_g10582799417878_cont_week2_139_36_alg».proof.Proof.TileKData

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

omit [FloatOps F] in
/-- A trip's loads fall inside the half of the scratch its loop reads. -/
theorem load_sub1 (k : Fin k1_t1_loop.trips) (r : Fin 8) :
    ((s1V).access (Rect.unit (s := S25600) (k1_off3 k (BitVec.ofNat 32 (16 * r.val))) S16.size (k1_off3_inb k r))).set ⊆ (v1K).view.set := by
  rw [set_v1K]
  show ((s1V).view.slice _).set ⊆ _
  rw [View.set_slice]
  intro j hj
  obtain ⟨x, hx, rfl⟩ := Finset.mem_map.mp hj
  have hk : k.val < 100 := Nat.lt_of_lt_of_le k.isLt k1_t1_abs.2.1
  rw [Rect.mem_set_unit] at hx ⊢
  intro a
  have h := hx a
  rw [k1_off3_eq] at h
  match a with
  | 0 =>
    have h1 : 128 * k.val + 16 * r.val ≤ (x 0).val := h.1
    have h2 : (x 0).val < 128 * k.val + 16 * r.val + 16 := h.2
    have hr := r.isLt
    exact ⟨Nat.zero_le _, by show (x 0).val < 0 + 12800; omega⟩
omit [FloatOps F] in
theorem load_sub2 (k : Fin k1_t2_loop.trips) (r : Fin 8) :
    ((s1V).access (Rect.unit (s := S25600) (k1_off4 k (BitVec.ofNat 32 (16 * r.val))) S16.size (k1_off4_inb k r))).set ⊆ (v2K).view.set := by
  rw [set_v2K]
  show ((s1V).view.slice _).set ⊆ _
  rw [View.set_slice]
  intro j hj
  obtain ⟨x, hx, rfl⟩ := Finset.mem_map.mp hj
  have hk : k.val < 100 := Nat.lt_of_lt_of_le k.isLt k1_t2_abs.2.1
  rw [Rect.mem_set_unit] at hx ⊢
  intro a
  have h := hx a
  rw [k1_off4_eq] at h
  match a with
  | 0 =>
    have h1 : 128 * k.val + 16 * r.val + 12800 ≤ (x 0).val := h.1
    have h2 : (x 0).val < 128 * k.val + 16 * r.val + 12800 + 16 := h.2
    have hr := r.isLt
    exact ⟨by show 12800 ≤ (x 0).val; omega, by show (x 0).val < 12800 + 12800; omega⟩

/-! ## The two accumulation loops, trip by trip -/

section Loop
variable {d : Dev nD} (L : grid1.Coords) (xt : Buf (Elt F) (xtLoc d)) (tg : Buf (Elt F) (tLoc d)) (w : Fin 32)

/-- The eight accumulators a loop carries. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The eight accumulators before trip `k` (of the two loops taken as one of 200 trips). -/
def accs (k : ℕ) : Acc8 F :=
  (accAt xt tg w 0 k, accAt xt tg w 1 k, accAt xt tg w 2 k, accAt xt tg w 3 k, accAt xt tg w 4 k, accAt xt tg w 5 k, accAt xt tg w 6 k, accAt xt tg w 7 k)

/-- What the gathers leave in the scores' scratch: at word `j` the score that token `j` of the piece names. -/
def valsBuf : S25600.Idx → F .f32 := fun j => valAt xt tg w (j 0).val

/-- Before trip `k` of the first loop: the accumulators, and the first half of the scratch at the gathered scores. -/
def I1 (k : ℕ) (acc : Acc8 F) : sProp 𝕄 :=
  iprop(⌜acc = accs xt tg w k⌝ ∗ (v1K).view.loc (V d (cV L) (jV L)) ↦[(v1K).view.set]{fullShare} valsBuf xt tg w)
/-- Before trip `k` of the second loop: the same of the second half, the first hundred trips behind. -/
def I2 (k : ℕ) (acc : Acc8 F) : sProp 𝕄 :=
  iprop(⌜acc = accs xt tg w (100 + k)⌝ ∗ (v2K).view.loc (V d (cV L) (jV L)) ↦[(v2K).view.set]{fullShare} valsBuf xt tg w)

/-- What a trip of the first loop loads for group `r`: the sixteen scores of its token position. -/
theorem load_val1 (k : Fin k1_t1_loop.trips) (r : Fin 8) (l : S16.Idx) :
    View.readAt (Elt F) (s1V).view (Rect.unit (s := S25600) (k1_off3 k (BitVec.ofNat 32 (16 * r.val))) S16.size (k1_off3_inb k r)).toLoadRect (valsBuf xt tg w) l
      = valAt xt tg w (128 * k.val + 16 * r.val + (l 0).val) := by
  show valsBuf xt tg w _ = _
  unfold valsBuf
  congr 1
  show (k1_off3 k (BitVec.ofNat 32 (16 * r.val))) 0 + 1 * (l 0).val = _
  rw [k1_off3_eq]; simp
theorem load_val2 (k : Fin k1_t2_loop.trips) (r : Fin 8) (l : S16.Idx) :
    View.readAt (Elt F) (s1V).view (Rect.unit (s := S25600) (k1_off4 k (BitVec.ofNat 32 (16 * r.val))) S16.size (k1_off4_inb k r)).toLoadRect (valsBuf xt tg w) l
      = valAt xt tg w (128 * (100 + k.val) + 16 * r.val + (l 0).val) := by
  show valsBuf xt tg w _ = _
  unfold valsBuf
  congr 1
  show (k1_off4 k (BitVec.ofNat 32 (16 * r.val))) 0 + 1 * (l 0).val = _
  rw [k1_off4_eq]; simp; omega

/-- One trip's addition is the accumulator's next value. -/
theorem acc_step1 (k : Fin k1_t1_loop.trips) (r : Fin 8) (a : FVec F S16 .f32) (ha : a = accAt xt tg w r.val k.val) :
    addf a (shapeCast S16 (View.readAt (Elt F) (s1V).view (Rect.unit (s := S25600) (k1_off3 k (BitVec.ofNat 32 (16 * r.val))) S16.size (k1_off3_inb k r)).toLoadRect
        (valsBuf xt tg w)) shapeCasts_S16_S16) = accAt xt tg w r.val (k.val + 1) := by
  subst ha
  show _ = addf (accAt xt tg w r.val k.val) _
  congr 1
  funext l
  show View.readAt _ _ _ _ (Shape.reshapeEquiv _ l) = _
  rw [Shape.reshapeEquiv_self, load_val1]
theorem acc_step2 (k : Fin k1_t2_loop.trips) (r : Fin 8) (a : FVec F S16 .f32) (ha : a = accAt xt tg w r.val (100 + k.val)) :
    addf a (shapeCast S16 (View.readAt (Elt F) (s1V).view (Rect.unit (s := S25600) (k1_off4 k (BitVec.ofNat 32 (16 * r.val))) S16.size (k1_off4_inb k r)).toLoadRect
        (valsBuf xt tg w)) shapeCasts_S16_S16) = accAt xt tg w r.val (100 + (k.val + 1)) := by
  subst ha
  show _ = addf (accAt xt tg w r.val (100 + k.val)) _
  congr 1
  funext l
  show View.readAt _ _ _ _ (Shape.reshapeEquiv _ l) = _
  rw [Shape.reshapeEquiv_self, load_val2]; rfl

omit [FloatOps F] in
theorem tuple8_ext {α : Type} {a0 a1 a2 a3 a4 a5 a6 a7 b0 b1 b2 b3 b4 b5 b6 b7 : α}
    (h0 : a0 = b0) (h1 : a1 = b1) (h2 : a2 = b2) (h3 : a3 = b3) (h4 : a4 = b4) (h5 : a5 = b5) (h6 : a6 = b6) (h7 : a7 = b7) :
    (a0, a1, a2, a3, a4, a5, a6, a7) = (b0, b1, b2, b3, b4, b5, b6, b7) := by
  subst h0 h1 h2 h3 h4 h5 h6 h7; rfl

set_option maxHeartbeats 2000000 in
/-- One trip of the first loop. -/
theorem trip1 (k : Fin k1_t1_loop.trips) (acc : Acc8 F) (v18 v19 v20 v21 v22 v23 v24 : FVec F S16 .f32) :
    I1 (d := d) L xt tg w k.val acc ⊢ wp frame (wpE (defs₀ (F := F)) 𝒱₀ (V d (cV L) (jV L)) none) Set.univ
      (k1_t1_body L xV (Memref.isWhole_whole _) tV (Memref.isWhole_whole _) oV (Memref.isWhole_whole _) s0V (Memref.isWhole_whole _) s1V (Memref.isWhole_whole _)
        s2V (Memref.isWhole_whole _) shV (Memref.isWhole_whole _) cc1_scratch4 cc1_scratch5 cc1_scratch6 cc1_scoped0 cc1_scoped1 v18 v19 v20 v21 v22 v23 v24 k acc)
      (I1 (d := d) L xt tg w (k.val + 1)) := by
  obtain ⟨a0, a1, a2, a3, a4, a5, a6, a7⟩ := acc
  unfold k1_t1_body I1
  iintro ⟨%hacc, Hv⟩
  obtain ⟨e0, e1, e2, e3, e4, e5, e6, e7⟩ : a0 = accAt xt tg w 0 k.val ∧ a1 = accAt xt tg w 1 k.val ∧ a2 = accAt xt tg w 2 k.val ∧ a3 = accAt xt tg w 3 k.val
      ∧ a4 = accAt xt tg w 4 k.val ∧ a5 = accAt xt tg w 5 k.val ∧ a6 = accAt xt tg w 6 k.val ∧ a7 = accAt xt tg w 7 k.val := by
    simpa only [accs, Prod.mk.injEq] using hacc
  have h0 : ((s1V).access (Rect.unit (s := S25600) (k1_off3 k 0#32) S16.size (k1_off3_inb k 0))).set ⊆ (v1K).view.set := load_sub1 k 0
  have h1 : ((s1V).access (Rect.unit (s := S25600) (k1_off3 k 16#32) S16.size (k1_off3_inb k 1))).set ⊆ (v1K).view.set := load_sub1 k 1
  have h2 : ((s1V).access (Rect.unit (s := S25600) (k1_off3 k 32#32) S16.size (k1_off3_inb k 2))).set ⊆ (v1K).view.set := load_sub1 k 2
  have h3 : ((s1V).access (Rect.unit (s := S25600) (k1_off3 k 48#32) S16.size (k1_off3_inb k 3))).set ⊆ (v1K).view.set := load_sub1 k 3
  have h4 : ((s1V).access (Rect.unit (s := S25600) (k1_off3 k 64#32) S16.size (k1_off3_inb k 4))).set ⊆ (v1K).view.set := load_sub1 k 4
  have h5 : ((s1V).access (Rect.unit (s := S25600) (k1_off3 k 80#32) S16.size (k1_off3_inb k 5))).set ⊆ (v1K).view.set := load_sub1 k 5
  have h6 : ((s1V).access (Rect.unit (s := S25600) (k1_off3 k 96#32) S16.size (k1_off3_inb k 6))).set ⊆ (v1K).view.set := load_sub1 k 6
  have h7 : ((s1V).access (Rect.unit (s := S25600) (k1_off3 k 112#32) S16.size (k1_off3_inb k 7))).set ⊆ (v1K).view.set := load_sub1 k 7
  sl_exec
  sl_step
  isplitr
  · ipureintro
    exact tuple8_ext (acc_step1 xt tg w k 0 a0 e0) (acc_step1 xt tg w k 1 a1 e1) (acc_step1 xt tg w k 2 a2 e2) (acc_step1 xt tg w k 3 a3 e3)
      (acc_step1 xt tg w k 4 a4 e4) (acc_step1 xt tg w k 5 a5 e5) (acc_step1 xt tg w k 6 a6 e6) (acc_step1 xt tg w k 7 a7 e7)
  · iexact Hv

set_option maxHeartbeats 2000000 in
/-- One trip of the second loop. -/
theorem trip2 (k : Fin k1_t2_loop.trips) (acc : Acc8 F) (v18 v19 v20 v21 v22 v23 v24 : FVec F S16 .f32) :
    I2 (d := d) L xt tg w k.val acc ⊢ wp frame (wpE (defs₀ (F := F)) 𝒱₀ (V d (cV L) (jV L)) none) Set.univ
      (k1_t2_body L xV (Memref.isWhole_whole _) tV (Memref.isWhole_whole _) oV (Memref.isWhole_whole _) s0V (Memref.isWhole_whole _) s1V (Memref.isWhole_whole _)
        s2V (Memref.isWhole_whole _) shV (Memref.isWhole_whole _) cc1_scratch4 cc1_scratch5 cc1_scratch6 cc1_scoped0 cc1_scoped1 v18 v19 v20 v21 v22 v23 v24 k acc)
      (I2 (d := d) L xt tg w (k.val + 1)) := by
  obtain ⟨a0, a1, a2, a3, a4, a5, a6, a7⟩ := acc
  unfold k1_t2_body I2
  iintro ⟨%hacc, Hv⟩
  obtain ⟨e0, e1, e2, e3, e4, e5, e6, e7⟩ : a0 = accAt xt tg w 0 (100 + k.val) ∧ a1 = accAt xt tg w 1 (100 + k.val) ∧ a2 = accAt xt tg w 2 (100 + k.val) ∧ a3 = accAt xt tg w 3 (100 + k.val)
      ∧ a4 = accAt xt tg w 4 (100 + k.val) ∧ a5 = accAt xt tg w 5 (100 + k.val) ∧ a6 = accAt xt tg w 6 (100 + k.val) ∧ a7 = accAt xt tg w 7 (100 + k.val) := by
    simpa only [accs, Prod.mk.injEq] using hacc
  have h0 : ((s1V).access (Rect.unit (s := S25600) (k1_off4 k 0#32) S16.size (k1_off4_inb k 0))).set ⊆ (v2K).view.set := load_sub2 k 0
  have h1 : ((s1V).access (Rect.unit (s := S25600) (k1_off4 k 16#32) S16.size (k1_off4_inb k 1))).set ⊆ (v2K).view.set := load_sub2 k 1
  have h2 : ((s1V).access (Rect.unit (s := S25600) (k1_off4 k 32#32) S16.size (k1_off4_inb k 2))).set ⊆ (v2K).view.set := load_sub2 k 2
  have h3 : ((s1V).access (Rect.unit (s := S25600) (k1_off4 k 48#32) S16.size (k1_off4_inb k 3))).set ⊆ (v2K).view.set := load_sub2 k 3
  have h4 : ((s1V).access (Rect.unit (s := S25600) (k1_off4 k 64#32) S16.size (k1_off4_inb k 4))).set ⊆ (v2K).view.set := load_sub2 k 4
  have h5 : ((s1V).access (Rect.unit (s := S25600) (k1_off4 k 80#32) S16.size (k1_off4_inb k 5))).set ⊆ (v2K).view.set := load_sub2 k 5
  have h6 : ((s1V).access (Rect.unit (s := S25600) (k1_off4 k 96#32) S16.size (k1_off4_inb k 6))).set ⊆ (v2K).view.set := load_sub2 k 6
  have h7 : ((s1V).access (Rect.unit (s := S25600) (k1_off4 k 112#32) S16.size (k1_off4_inb k 7))).set ⊆ (v2K).view.set := load_sub2 k 7
  sl_exec
  sl_step
  isplitr
  · ipureintro
    exact tuple8_ext (acc_step2 xt tg w k 0 a0 e0) (acc_step2 xt tg w k 1 a1 e1) (acc_step2 xt tg w k 2 a2 e2) (acc_step2 xt tg w k 3 a3 e3)
      (acc_step2 xt tg w k 4 a4 e4) (acc_step2 xt tg w k 5 a5 e5) (acc_step2 xt tg w k 6 a6 e6) (acc_step2 xt tg w k 7 a7 e7)
  · iexact Hv

end Loop

end Cert.Proof.KB

end
-- ==== Proof.TileKGather.lean ====
/-
  What an indirect gather of half the token list leaves in its half of the scores' scratch: at each word the score the
  token there names, read off the shared memory's contents.
-/
import proofs.«203335_g10582799417878_cont_week2_139_36_alg».proof.Proof.TileKLoop

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

section Gather
variable (d : Dev nD) (L : grid1.Coords)

/-- An array of the scores' shape is read at an index by the index's one coordinate. -/
theorem tg_apply (tg : Buf (Elt F) (tLoc d)) (j : S1003520.Idx) :
    tg j = tg (ix1 (n := 1003520) ⟨(j 0).val % 1003520, Nat.mod_lt _ (by decide)⟩) :=
  congrArg tg ((eq_ix1 j).trans (congrArg ix1 (Fin.ext (Nat.mod_eq_of_lt (j 0).isLt).symm)))
theorem xt_apply (xt : Buf (Elt F) (xtLoc d)) (j : S819200.Idx) :
    xt j = xt (ix1 (n := 819200) ⟨(j 0).val % 819200, Nat.mod_lt _ (by decide)⟩) :=
  congrArg xt ((eq_ix1 j).trans (congrArg ix1 (Fin.ext (Nat.mod_eq_of_lt (j 0).isLt).symm)))

theorem rows_val {si : Shape} {o z : ℕ} (idx : si.Idx → Elt F .i32) (hn : si.numel = o) (h : ∀ x, (idx x).toNat < z) (k : Fin o) :
    (SparseCore.rows (F := F) idx hn h k).val = (idx (si.rowMajor.symm (k.cast hn.symm))).toNat := rfl

set_option maxRecDepth 8192 in
/-- What a gather of half the token list leaves in its half of the scratch: the scores the tokens name. -/
theorem gather_vals_at (off : ℕ) (inb : ∀ a, (![off] : Fin 1 → ℕ) a + S12800.size a ≤ S25600.size a)
    (xtF : (d : Dev nD) → Buf (Elt F) (xtLoc d)) (hxt : ∀ d j, (xtF d j).toNat < 1000000)
    (f0 : Buf (Elt F) ((s0V).view.loc (V d (cV L) (jV L)))) (g : Buf (Elt F) (tLoc d))
    (junk : Buf (Elt F) ((s1V).view.loc (V d (cV L) (jV L)))) (pay : S12800.Idx → Elt F .f32)
    (hn : S12800.numel = S12800.size gathers_S1003520_S12800.axis')
    (hin' : ∀ x, (((s0V).slice (Rect.unit (s := S25600) ![off] S12800.size inb) (fun _ => rfl)).view.read (Elt F)
        (View.write (Elt F) (s0V).view f0 (ReadAs.same.apply ((xK L).view.read (Elt F) (xtF d))) Finset.univ) x).toNat
      < S1003520.size gathers_S1003520_S12800.axis)
    (hpay : pay = SparseCore.gatherPayload gathers_S1003520_S12800 ((shW).view.read (Elt F) (g : Buf (Elt F) (shLoc d (cV L))))
      (SparseCore.rows (((s0V).slice (Rect.unit (s := S25600) ![off] S12800.size inb) (fun _ => rfl)).view.read (Elt F)
        (View.write (Elt F) (s0V).view f0 (ReadAs.same.apply ((xK L).view.read (Elt F) (xtF d))) Finset.univ)) hn hin')) :
    ∀ x : S12800.Idx,
      ((s1V).slice (Rect.unit (s := S25600) ![off] S12800.size inb) (fun _ => rfl)).view.writes (Elt F) junk [⟨Rect.whole S12800, pay⟩]
          (((s1V).slice (Rect.unit (s := S25600) ![off] S12800.size inb) (fun _ => rfl)).view.emb x)
        = valsBuf (xtF d) g (wid (cL L) (jL L)) (((s1V).slice (Rect.unit (s := S25600) ![off] S12800.size inb) (fun _ => rfl)).view.emb x) := by
  subst hpay
  intro x
  have h := View.read_writes_cons_emb ((s1V).slice (Rect.unit (s := S25600) ![off] S12800.size inb) (fun _ => rfl)).view junk (Rect.whole S12800)
    (SparseCore.gatherPayload gathers_S1003520_S12800 ((shW).view.read (Elt F) (g : Buf (Elt F) (shLoc d (cV L))))
      (SparseCore.rows (((s0V).slice (Rect.unit (s := S25600) ![off] S12800.size inb) (fun _ => rfl)).view.read (Elt F)
        (View.write (Elt F) (s0V).view f0 (ReadAs.same.apply ((xK L).view.read (Elt F) (xtF d))) Finset.univ)) hn hin')) [] x
  have h' := (congrArg (View.read (Elt F) ((s1V).slice (Rect.unit (s := S25600) ![off] S12800.size inb) (fun _ => rfl)).view _) (Rect.emb_whole_apply S12800 x).symm).trans h
  refine ((View.read_apply _ _).trans (cast_eq _ _)).symm.trans (h'.trans ?_)
  unfold SparseCore.gatherPayload valsBuf valAt
  rw [(View.read_apply _ _).trans (cast_eq _ _), tg_apply d g]
  refine congrArg g (congrArg ix1 (Fin.ext ?_))
  refine congrArg (fun n : ℕ => n % 1003520) ?_
  have e1 : ∀ y : S1003520.Idx, (((shW).view.emb y) 0).val = (y 0).val := fun y => by
    show (![0] : Fin 1 → ℕ) 0 + 1 * (y 0).val = (y 0).val
    simp
  have hax : ∀ rws : Fin (S12800.size gathers_S1003520_S12800.axis') → Fin (S1003520.size gathers_S1003520_S12800.axis),
      (gathers_S1003520_S12800.idx rws x) 0 = rws (x 0) := fun rws => Shape.Gathers.idx_axis gathers_S1003520_S12800 rws x
  rw [e1, hax, rows_val]
  have hy : ((S12800.rowMajor.symm ((x 0).cast hn.symm)) 0).val = (x 0).val := by
    have h := Shape.rowMajor_val_one (S12800.rowMajor.symm ((x 0).cast hn.symm))
    rw [Equiv.apply_symm_apply] at h
    exact h.symm
  rw [View.write_whole_univ, (View.read_apply _ _).trans (cast_eq _ _)]
  show ((xK L).view.read (Elt F) (xtF d) _).toNat = _
  rw [(View.read_apply _ _).trans (cast_eq _ _), xt_apply d (xtF d)]
  refine congrArg (fun j => (xtF d j).toNat) (congrArg ix1 (Fin.ext ?_))
  refine congrArg (fun n : ℕ => n % 819200) ?_
  show (k1_off1 L) 0 + 1 * ((![off] : Fin 1 → ℕ) 0 + 1 * ((S12800.rowMajor.symm ((x 0).cast hn.symm)) 0).val)
    = 25600 * (wid (cL L) (jL L)).val + ((![off] : Fin 1 → ℕ) 0 + 1 * (x 0).val)
  rw [k1_off1_eq, hy]; simp [wid]; omega

theorem gather_vals (off : ℕ) (inb : ∀ a, (![off] : Fin 1 → ℕ) a + S12800.size a ≤ S25600.size a)
    (xtF : (d : Dev nD) → Buf (Elt F) (xtLoc d)) (hxt : ∀ d j, (xtF d j).toNat < 1000000)
    (f0 : Buf (Elt F) ((s0V).view.loc (V d (cV L) (jV L)))) (g : Buf (Elt F) (tLoc d))
    (junk : Buf (Elt F) ((s1V).view.loc (V d (cV L) (jV L)))) (pay : S12800.Idx → Elt F .f32)
    (hn : S12800.numel = S12800.size gathers_S1003520_S12800.axis')
    (hin' : ∀ x, (((s0V).slice (Rect.unit (s := S25600) ![off] S12800.size inb) (fun _ => rfl)).view.read (Elt F)
        (View.write (Elt F) (s0V).view f0 (ReadAs.same.apply ((xK L).view.read (Elt F) (xtF d))) Finset.univ) x).toNat
      < S1003520.size gathers_S1003520_S12800.axis)
    (hpay : pay = SparseCore.gatherPayload gathers_S1003520_S12800 ((shW).view.read (Elt F) (g : Buf (Elt F) (shLoc d (cV L))))
      (SparseCore.rows (((s0V).slice (Rect.unit (s := S25600) ![off] S12800.size inb) (fun _ => rfl)).view.read (Elt F)
        (View.write (Elt F) (s0V).view f0 (ReadAs.same.apply ((xK L).view.read (Elt F) (xtF d))) Finset.univ)) hn hin')) :
    ∀ i ∈ ((s1V).slice (Rect.unit (s := S25600) ![off] S12800.size inb) (fun _ => rfl)).view.set,
      ((s1V).slice (Rect.unit (s := S25600) ![off] S12800.size inb) (fun _ => rfl)).view.writes (Elt F) junk [⟨Rect.whole S12800, pay⟩] i
        = valsBuf (xtF d) g (wid (cL L) (jL L)) i := by
  intro i hi
  obtain ⟨x, -, rfl⟩ := Finset.mem_map.mp hi
  exact gather_vals_at d L off inb xtF hxt f0 g junk pay hn hin' hpay x

end Gather

end Cert.Proof.KB

end
-- ==== Proof.TileKOut.lean ====
/-
  The end of the gather kernel: the eight stores fill the result scratch with the logistic function of the eight groups'
  sums, and the copy-out lands it on the subcore's piece of the result — which is then the result function there.
-/
import proofs.«203335_g10582799417878_cont_week2_139_36_alg».proof.Proof.TileKVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

section Out
variable {d : Dev nD} (L : grid1.Coords) (xt : Buf (Elt F) (xtLoc d)) (tg : Buf (Elt F) (tLoc d)) (w : Fin 32)

/-- The payload of group `gI`'s store is, word by word, what the result scratch is to hold there. -/
theorem piece_ok (gI : Fin 8) (inb : ∀ a, (![16 * gI.val] : Fin 1 → ℕ) a + S16.size a ≤ S128.size a) (x : S16.Idx) :
    sigm (accAt xt tg w gI.val 200) x = outG xt tg w ((Rect.unit (s := S128) ![16 * gI.val] S16.size inb).emb x) := by
  unfold outG
  have hx : (x 0).val < 16 := (x 0).isLt
  have he : (((Rect.unit (s := S128) ![16 * gI.val] S16.size inb).emb x) 0).val = 16 * gI.val + (x 0).val := by
    rw [Rect.emb_apply]; simp
  have h1 : (16 * gI.val + (x 0).val) / 16 = gI.val := by omega
  have h2 : (16 * gI.val + (x 0).val) % 16 = (x 0).val := by omega
  have hE1 : (((Rect.unit (s := S128) ![16 * gI.val] S16.size inb).emb x) 0).val / 16 = gI.val := by rw [he]; exact h1
  have hE2 : (((Rect.unit (s := S128) ![16 * gI.val] S16.size inb).emb x) 0).val % 16 = (x 0).val := by rw [he]; exact h2
  exact congr (congrArg (fun n => sigm (accAt xt tg w n 200)) hE1.symm) ((eq_ix1 x).trans (congrArg ix1 (Fin.ext hE2.symm)))

/-- The eight stores, the last first. -/
def outPieces (p0 p1 p2 p3 p4 p5 p6 p7 : S16.Idx → Elt F .f32) : List (View.Piece (Elt F) S128 .f32) :=
  [⟨Rect.unit (s := S128) ![112] S16.size inb_S128_S16_112, p7⟩, ⟨Rect.unit (s := S128) ![96] S16.size inb_S128_S16_96, p6⟩,
   ⟨Rect.unit (s := S128) ![80] S16.size inb_S128_S16_80, p5⟩, ⟨Rect.unit (s := S128) ![64] S16.size inb_S128_S16_64, p4⟩,
   ⟨Rect.unit (s := S128) ![48] S16.size inb_S128_S16_48, p3⟩, ⟨Rect.unit (s := S128) ![32] S16.size inb_S128_S16_32, p2⟩,
   ⟨Rect.unit (s := S128) ![16] S16.size inb_S128_S16_16, p1⟩, ⟨Rect.unit (s := S128) ![0] S16.size inb_S128_S16_0, p0⟩]

theorem outPieces_ok (p0 p1 p2 p3 p4 p5 p6 p7 : S16.Idx → Elt F .f32)
    (h0 : p0 = sigm (accAt xt tg w 0 200)) (h1 : p1 = sigm (accAt xt tg w 1 200)) (h2 : p2 = sigm (accAt xt tg w 2 200)) (h3 : p3 = sigm (accAt xt tg w 3 200))
    (h4 : p4 = sigm (accAt xt tg w 4 200)) (h5 : p5 = sigm (accAt xt tg w 5 200)) (h6 : p6 = sigm (accAt xt tg w 6 200)) (h7 : p7 = sigm (accAt xt tg w 7 200)) :
    ∀ p ∈ outPieces p0 p1 p2 p3 p4 p5 p6 p7, ∀ x : p.1.shape.Idx, p.2 x = outG xt tg w (p.1.emb x) := by
  subst h0 h1 h2 h3 h4 h5 h6 h7
  intro p hp
  simp only [outPieces, List.mem_cons, List.not_mem_nil, or_false] at hp
  rcases hp with rfl | rfl | rfl | rfl | rfl | rfl | rfl | rfl
  · exact piece_ok xt tg w 7 inb_S128_S16_112
  · exact piece_ok xt tg w 6 inb_S128_S16_96
  · exact piece_ok xt tg w 5 inb_S128_S16_80
  · exact piece_ok xt tg w 4 inb_S128_S16_64
  · exact piece_ok xt tg w 3 inb_S128_S16_48
  · exact piece_ok xt tg w 2 inb_S128_S16_32
  · exact piece_ok xt tg w 1 inb_S128_S16_16
  · exact piece_ok xt tg w 0 inb_S128_S16_0

omit [FloatOps F] in
theorem outPieces_cover (p0 p1 p2 p3 p4 p5 p6 p7 : S16.Idx → Elt F .f32) (y : S128.Idx) :
    ∃ p ∈ outPieces p0 p1 p2 p3 p4 p5 p6 p7, y ∈ p.1.set := by
  have hy : (y 0).val < 128 := (y 0).isLt
  have key : ∀ (o : ℕ) (inb : ∀ a, (![o] : Fin 1 → ℕ) a + S16.size a ≤ S128.size a), o ≤ (y 0).val → (y 0).val < o + 16 →
      y ∈ (Rect.unit (s := S128) ![o] S16.size inb).set := fun o inb h1 h2 => by
    rw [Rect.mem_set_unit]; intro a
    match a with
    | 0 => exact ⟨h1, h2⟩
  simp only [outPieces, List.mem_cons, List.not_mem_nil, or_false, exists_eq_or_imp, exists_eq_left]
  by_cases c7 : 112 ≤ (y 0).val; · exact .inl (key 112 _ c7 (by omega))
  by_cases c6 : 96 ≤ (y 0).val; · exact .inr (.inl (key 96 _ c6 (by omega)))
  by_cases c5 : 80 ≤ (y 0).val; · exact .inr (.inr (.inl (key 80 _ c5 (by omega))))
  by_cases c4 : 64 ≤ (y 0).val; · exact .inr (.inr (.inr (.inl (key 64 _ c4 (by omega)))))
  by_cases c3 : 48 ≤ (y 0).val; · exact .inr (.inr (.inr (.inr (.inl (key 48 _ c3 (by omega))))))
  by_cases c2 : 32 ≤ (y 0).val; · exact .inr (.inr (.inr (.inr (.inr (.inl (key 32 _ c2 (by omega)))))))
  by_cases c1 : 16 ≤ (y 0).val; · exact .inr (.inr (.inr (.inr (.inr (.inr (.inl (key 16 _ c1 (by omega))))))))
  exact .inr (.inr (.inr (.inr (.inr (.inr (.inr (key 0 _ (Nat.zero_le _) (by omega))))))))

/-- After the eight stores the result scratch reads `outG`, whatever it held before. -/
theorem stores_read (base : Buf (Elt F) ((s2V).view.loc (V d (cV L) (jV L)))) (p0 p1 p2 p3 p4 p5 p6 p7 : S16.Idx → Elt F .f32)
    (h0 : p0 = sigm (accAt xt tg w 0 200)) (h1 : p1 = sigm (accAt xt tg w 1 200)) (h2 : p2 = sigm (accAt xt tg w 2 200)) (h3 : p3 = sigm (accAt xt tg w 3 200))
    (h4 : p4 = sigm (accAt xt tg w 4 200)) (h5 : p5 = sigm (accAt xt tg w 5 200)) (h6 : p6 = sigm (accAt xt tg w 6 200)) (h7 : p7 = sigm (accAt xt tg w 7 200)) (y : S128.Idx) :
    (s2V).view.read (Elt F) ((s2V).view.writes (Elt F) base (outPieces p0 p1 p2 p3 p4 p5 p6 p7)) y = outG xt tg w y :=
  View.read_writes_apply_of_pieces (s2V).view base (outG xt tg w) _ (outPieces_ok xt tg w p0 p1 p2 p3 p4 p5 p6 p7 h0 h1 h2 h3 h4 h5 h6 h7) y
    (outPieces_cover p0 p1 p2 p3 p4 p5 p6 p7 y)

/-- The copy-out leaves, on the subcore's piece of the result, the result. -/
theorem out_contents (fo : Buf (Elt F) (oLoc d)) (c2 : Buf (Elt F) ((s2V).view.loc (V d (cV L) (jV L)))) (wpay : S128.Idx → Elt F .f32)
    (hw : wpay = ReadAs.same.apply ((s2V).view.read (Elt F) c2))
    (hc2 : ∀ y, (s2V).view.read (Elt F) c2 y = outG xt tg (wid (cL L) (jL L)) y) :
    ∀ i ∈ (oK L).view.set, (oK L).view.writes (Elt F) fo [⟨Rect.whole S128, wpay⟩] i = oFof1 xt tg i := by
  subst hw
  intro i hi
  obtain ⟨x, -, rfl⟩ := Finset.mem_map.mp hi
  have h := View.read_writes_cons_emb (oK L).view fo (Rect.whole S128) (ReadAs.same.apply ((s2V).view.read (Elt F) c2)) [] x
  have h' := (congrArg (View.read (Elt F) (oK L).view _) (Rect.emb_whole_apply S128 x).symm).trans h
  refine ((View.read_apply _ _).trans (cast_eq _ _)).symm.trans (h'.trans ?_)
  show (s2V).view.read (Elt F) c2 x = _
  rw [hc2]
  unfold oFof1 oFofAt
  have hx : (x 0).val < 128 := (x 0).isLt
  have he : ((((oK L).view.emb x) 0).val) = 128 * (wid (cL L) (jL L)).val + (x 0).val := by
    show (k1_off5 L) 0 + 1 * (x 0).val = _
    rw [k1_off5_eq]; simp [wid]; omega
  have h1 : ((((oK L).view.emb x) 0).val) / 128 % 32 = (wid (cL L) (jL L)).val := by
    rw [he]; have := (wid (cL L) (jL L)).isLt; omega
  have h2 : ((((oK L).view.emb x) 0).val) % 128 = (x 0).val := by rw [he]; omega
  exact congr (congrArg (outG xt tg) (Fin.ext h1.symm)) ((eq_ix1 x).trans (congrArg ix1 (Fin.ext h2.symm)))

end Out

end Cert.Proof.KB

end
-- ==== Proof.TileK.lean ====
/-
  The body obligation of the gather kernel, for a vector subcore at a symbolic grid point: the token copy and the copy of
  the subcore's slice of the scores into the shared memory, the barrier (sixteen read shares of that slice out, the
  subcore's read share of every slice in), the two gathers, the two accumulation loops (the accumulators carried as the
  partial sums trip by trip), the eight stores of the logistic function of the sums and the copy-out; at the end the
  subcore's piece of the result holds the result function, and everything else goes back as it came.
-/
import proofs.«203335_g10582799417878_cont_week2_139_36_alg».proof.Proof.TileKBar
import proofs.«203335_g10582799417878_cont_week2_139_36_alg».proof.Proof.TileKGather
import proofs.«203335_g10582799417878_cont_week2_139_36_alg».proof.Proof.TileKOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

section Tile
variable (xtF : (d : Dev nD) → Buf (Elt F) (xtLoc d)) (tF : (d : Dev nD) → Buf (Elt F) (tLoc d)) (nG : ℕ)
variable (d : Dev nD) (L : grid1.Coords)

/-! ## The held arrays in the kernel's spelling -/

omit [FloatOps F] in
theorem pts_xK (q : PosShare TreeShare) (f : Buf (Elt F) (xtLoc d)) :
    ((xK L).view.loc (V d (cV L) (jV L)) ↦[(xK L).view.set]{q} f : sProp 𝕄) = xtLoc d ↦[xSet (wid (cL L) (jL L))]{q} f := by rw [set_xK]
omit [FloatOps F] in
theorem pts_tK (q : PosShare TreeShare) (f : Buf (Elt F) (tLoc d)) :
    ((tK L).view.loc (V d (cV L) (jV L)) ↦[(tK L).view.set]{q} f : sProp 𝕄) = tLoc d ↦[tSet (jL L)]{q} f := by rw [set_tK]
omit [FloatOps F] in
theorem pts_oK (q : PosShare TreeShare) (f : Buf (Elt F) (oLoc d)) :
    ((oK L).view.loc (V d (cV L) (jV L)) ↦[(oK L).view.set]{q} f : sProp 𝕄) = oLoc d ↦[oSet (wid (cL L) (jL L))]{q} f := by rw [set_oK]
omit [FloatOps F] in
theorem pts_shK (q : PosShare TreeShare) (f : Buf (Elt F) (shLoc d (cV L))) :
    ((shK L).view.loc (V d (cV L) (jV L)) ↦[(shK L).view.set]{q} f : sProp 𝕄) = shLoc d (cV L) ↦[tSet (jL L)]{q} f := by rw [set_shK]; rfl
omit [FloatOps F] in
theorem pts_shW (q : PosShare TreeShare) (f : Buf (Elt F) (shLoc d (cV L))) :
    ((shW).view.loc (V d (cV L) (jV L)) ↦[(shW).view.set]{q} f : sProp 𝕄) = shLoc d (cV L) ↦{q} f := by rw [set_shW]; rfl

/-- The copy of slice `L 1` of the scores leaves, on that slice of the shared memory, what the score array held there. -/
theorem shK_contents' (fsh : Buf (Elt F) (shLoc d (cV L))) (ft : Buf (Elt F) (tLoc d)) (w : S62720.Idx → Elt F .f32)
    (hw : w = ReadAs.same.apply ((tK L).view.read (Elt F) ft)) :
    ∀ i ∈ (shK L).view.set, (shK L).view.writes (Elt F) fsh [⟨Rect.whole S62720, w⟩] i = ft i := by
  subst hw; exact shK_contents d L fsh ft

theorem I1_elim (xt : Buf (Elt F) (xtLoc d)) (tg : Buf (Elt F) (tLoc d)) (w : Fin 32) (k : ℕ) (acc : Acc8 F) :
    I1 (d := d) L xt tg w k acc ⊢ iprop(⌜acc = accs xt tg w k⌝ ∗ (v1K).view.loc (V d (cV L) (jV L)) ↦[(v1K).view.set]{fullShare} valsBuf xt tg w) := by
  unfold I1; exact .rfl
theorem I2_elim (xt : Buf (Elt F) (xtLoc d)) (tg : Buf (Elt F) (tLoc d)) (w : Fin 32) (k : ℕ) (acc : Acc8 F) :
    I2 (d := d) L xt tg w k acc ⊢ iprop(⌜acc = accs xt tg w (100 + k)⌝ ∗ (v2K).view.loc (V d (cV L) (jV L)) ↦[(v2K).view.set]{fullShare} valsBuf xt tg w) := by
  unfold I2; exact .rfl

/-! ## The body -/

set_option maxHeartbeats 4000000 in
theorem tile_body (hF : (K (F := F)).Facts) (hxt : ∀ d j, (xtF d j).toNat < 1000000) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit tF nG d (cV L) (jV L)
        ∗ (goRes xtF tF nG d (cL L) (jL L) ∗ shGo d (cV L) (jL L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_gather_reduce L xV (Memref.isWhole_whole _) tV (Memref.isWhole_whole _) oV (Memref.isWhole_whole _) s0V (Memref.isWhole_whole _) s1V (Memref.isWhole_whole _)
            s2V (Memref.isWhole_whole _) shV (Memref.isWhole_whole _) cc1_scratch4 cc1_scratch5 cc1_scratch6 cc1_scoped0 cc1_scoped1)
          fun _ => iprop((tdRes tF nG (fun d g => oFof1 (xtF d) g) d (cL L) (jL L) ∗ shTd d (cV L) (jL L)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_gather_reduce_eq_skeleton]; unfold cc1_gather_reduce_skel
  simp only [k1_part1_eq_skeleton, k1_part2_eq_skeleton, k1_part3_eq_skeleton]
  rw [(K (F := F)).scopedBufs_V hF d (cV L) (jV L), SparseCore.Cfg.scopedSems0_V (Val := Elt F) d (cV L) (jV L), ownSems0_V, ownBufs_V]
  unfold bkit goRes tPts shGo
  iintro ⟨#Hlv, ⟨⟨%κ, #Hinv⟩, Htoks, Hreached, Hat, Hcred⟩, ⟨⟨Hx, ⟨%ft, %hft, Ht⟩, ⟨%fo, Ho⟩⟩, ⟨%fsh, Hsh⟩⟩, ⟨⟨%f0, H0⟩, ⟨%f1, H1⟩, ⟨%f2, H2⟩, Hbufs⟩, ⟨Hs4, Hs5, Hs6, Hc0, Hc1, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xK (F := F) d L _ _).symm) $$ Hx
  ihave Ht' := (Entails.of_eq (pts_tK (F := F) d L _ _).symm) $$ Ht
  ihave Ho' := (Entails.of_eq (pts_oK (F := F) d L _ _).symm) $$ Ho
  ihave Hsh' := (Entails.of_eq (pts_shK (F := F) d L _ _).symm) $$ Hsh
  ihave H0' := (show ((V d (cV L) (jV L)).loc cc1_scratch0 ↦{fullShare} f0 : sProp 𝕄) ⊢ (s0V).view.loc (V d (cV L) (jV L)) ↦{fullShare} f0 from Entails.of_eq rfl) $$ H0
  ihave H1' := (show ((V d (cV L) (jV L)).loc cc1_scratch1 ↦{fullShare} f1 : sProp 𝕄) ⊢ (s1V).view.loc (V d (cV L) (jV L)) ↦{fullShare} f1 from Entails.of_eq rfl) $$ H1
  ihave H2' := (show ((V d (cV L) (jV L)).loc cc1_scratch2 ↦{fullShare} f2 : sProp 𝕄) ⊢ (s2V).view.loc (V d (cV L) (jV L)) ↦{fullShare} f2 from Entails.of_eq rfl) $$ H2
  sl_exec

  -- the slice of the shared memory at the scores' contents, in its sixteen read shares and the remainder
  ihave Hsh2 := (Entails.of_eq ((pointsTo_congr (q := fullShare) (shK_contents' d L fsh ft (tile_body.sl.dma0_1 d L ft) rfl)).trans (pts_shK (F := F) d L fullShare ft))) $$ Hsh'
  ihave Hsp := (Transfers.pointsTo_toks_split fullShare 16) $$ Hsh2
  icases Hsp with ⟨Hdrop, Hshares⟩
  ihave Hpayin := (barrier_pay tF nG d L ft hft) $$ [Htoks Hreached Hshares]
  · isplitl [Htoks]; · iexact Htoks
    isplitl [Hreached]; · iexact Hreached
    iexact Hshares
  -- the barrier
  iapply (SparseCore.wp_subcoreBarrier 𝒱₀ none EB (bRd tF nG) d (sc := cV L) (i := jV L) sc_bar0 (grid1.bound 1) hsub1 (L 1) rfl κ (fun _ => 0) (jV L).val
      (fun j => bRd_mem₀ tF nG d _ _ _) (fun _ => rfl) (bRd_expect tF nG d _ _) (some 0) O _) $$ [HO Hpayin Hcred Hat]
  · isplitr; · iexact Hinv
    isplitl [HO]; · iexact HO
    isplitl [Hpayin]; · iexact Hpayin
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hpay⟩
  -- this subcore's read share of the whole shared memory, in two halves for the two gathers
  ihave Hg := (barrier_recv tF nG d L) $$ Hpay
  icases Hg with ⟨%g, %hg, Hg⟩
  ihave Hgs := (pointsTo_share (PosShare.mem_left_op_right _)).1 $$ Hg
  icases Hgs with ⟨HgA, HgB⟩
  ihave HgA' := (Entails.of_eq (pts_shW (F := F) d L _ _).symm) $$ HgA
  ihave HgB' := (Entails.of_eq (pts_shW (F := F) d L _ _).symm) $$ HgB
  ihave H0s := (s0_halves (F := F) d L _ _).1 $$ H0'
  icases H0s with ⟨Hi1, Hi2⟩
  ihave H1s := (s1_halves (F := F) d L _ _).1 $$ H1'
  icases H1s with ⟨Hv1, Hv2⟩
  have hin := tok_inb (F := F) d L xtF hxt f0
  sl_exec

  -- the first half of the scratch at the scores its tokens name; the first loop
  ihave Hv1' := (Entails.of_eq (pointsTo_congr (q := fullShare) (gather_vals d L 0 inb_S25600_S12800_0 xtF hxt f0 g _ (tile_body.sl.gather0 xtF d L f0 g hin) _ _ rfl))) $$ Hv1
  sl_for (I1 (d := d) L (xtF d) g (wid (cL L) (jL L))) $$ [Hv1']
  · intro k acc; exact trip1 L (xtF d) g (wid (cL L) (jL L)) k acc _ _ _ _ _ _ _
  · unfold I1; isplitr
    · ipureintro; rfl
    · iexact Hv1'
  iintro %acc1 HI
  ihave HI' := (I1_elim d L (xtF d) g (wid (cL L) (jL L)) _ acc1) $$ HI
  icases HI' with ⟨%hacc1, Hv1⟩
  subst hacc1
  -- the second gather's wait; the second half; the second loop
  sl_exec
  ihave Hv2' := (Entails.of_eq (pointsTo_congr (q := fullShare) (gather_vals d L 12800 inb_S25600_S12800_12800 xtF hxt f0 g _ (tile_body.sl.gather1 xtF d L f0 g hin) _ _ rfl))) $$ Hv2
  sl_for (I2 (d := d) L (xtF d) g (wid (cL L) (jL L))) $$ [Hv2']
  · intro k acc; exact trip2 L (xtF d) g (wid (cL L) (jL L)) k acc _ _ _ _ _ _ _
  · unfold I2; isplitr
    · ipureintro; rfl
    · iexact Hv2'
  iintro %acc2 HI
  ihave HI' := (I2_elim d L (xtF d) g (wid (cL L) (jL L)) _ acc2) $$ HI
  icases HI' with ⟨%hacc2, Hv2⟩
  subst hacc2
  -- the eight stores, the copy-out and its wait
  sl_exec
  sl_step

  -- the result piece at the result; what is left of the shared memory
  isplitl [Ho' Hdrop HgA' HgB']
  · isplitl [Ho']
    · unfold tdRes
      iexists g; isplitr
      · ipureintro; exact hg
      · ihave Ho2 := (Entails.of_eq ((pointsTo_congr (q := fullShare) (out_contents L (xtF d) g fo _ (tile_body.sl.dma16 xtF d L f2 g) rfl
            (fun y => stores_read L (xtF d) g (wid (cL L) (jL L)) f2 _ _ _ _ _ _ _ _ rfl rfl rfl rfl rfl rfl rfl rfl y))).trans
            (pts_oK (F := F) d L fullShare _))) $$ Ho'
        iexact Ho2
    · unfold shTd
      isplitl [Hdrop]
      · iexists _; iexact Hdrop
      · ihave HgA := (Entails.of_eq (pts_shW (F := F) d L _ _)) $$ HgA'
        ihave HgB := (Entails.of_eq (pts_shW (F := F) d L _ _)) $$ HgB'
        ihave Hg := (pointsTo_share (PosShare.mem_left_op_right _)).2 $$ [HgA HgB]
        · isplitl [HgA]; · iexact HgA
          iexact HgB
        iexists _; iexact Hg
  -- the subcore's own buffers, whole again
  isplitl [Hi1 Hi2 Hv1 Hv2 H2' Hbufs]
  · isplitl [Hi1 Hi2]
    · ihave H0 := (s0_halves (F := F) d L _ _).2 $$ [Hi1 Hi2]
      · isplitl [Hi1]; · iexact Hi1
        iexact Hi2
      iexists _; iexact H0
    isplitl [Hv1 Hv2]
    · ihave H1 := (s1_halves (F := F) d L _ _).2 $$ [Hv1 Hv2]
      · isplitl [Hv1]; · iexact Hv1
        iexact Hv2
      iexists _; iexact H1
    isplitl [H2']
    · iexists _; iexact H2'
    iexact Hbufs
  -- its semaphores at zero
  isplitl [Hs4 Hs5 Hs6 Hc0 Hc1 Hsems]
  · isplitl [Hs4]; · iexact Hs4
    isplitl [Hs5]; · iexact Hs5
    isplitl [Hs6]; · iexact Hs6
    isplitl [Hc0]; · iexact Hc0
    isplitl [Hc1]; · iexact Hc1
    iexact Hsems
  -- what it waited on
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

/-! ## The obligation -/

set_option maxRecDepth 16384 in
theorem tileObl (xtF : (d : Dev nD) → Buf (Elt F) (xtLoc d)) (tF : (d : Dev nD) → Buf (Elt F) (tLoc d)) (nG : ℕ)
    (hF : (K (F := F)).Facts) (hxt : ∀ d j, (xtF d j).toNat < 1000000) :
    (K (F := F)).TileObl (D (F := F)) 𝒱 (P xtF tF nG (fun d g => oFof1 (xtF d) g)) v₀ 0 := by
  intro d c i O W hO hOlev _
  have hci : ((K (F := F)).core 0 c).val < grid1.bound 0 ∧ ((K (F := F)).sub 0 i).val < grid1.bound 1 := ⟨c.isLt, i.isLt⟩
  rw [show (P xtF tF nG (fun d g => oFof1 (xtF d) g)).ox 0 (V d ((K (F := F)).core 0 c) ((K (F := F)).sub 0 i)) = oxV d ((K (F := F)).core 0 c) from rfl,
    show (P xtF tF nG (fun d g => oFof1 (xtF d) g)).x 0 (V d ((K (F := F)).core 0 c) ((K (F := F)).sub 0 i))
      = bkit tF nG d ((K (F := F)).core 0 c) ((K (F := F)).sub 0 i) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body xtF tF nG d (coordsV ⟨_, hci.1⟩ ⟨_, hci.2⟩) hF hxt O W hO hOlev

end Tile

end Cert.Proof.KB

end
-- ==== Proof.lean ====
/-
  The kernel against its reference: a bag-of-embeddings classifier.  Example `r` of 4096 has 200 tokens; the reference takes
  the mean of their 64-wide embedding rows, applies the affine form `W · + b` and the logistic function.  The kernel turns the
  order round: one TensorCore kernel gives EVERY vocabulary row its score `(W · row + b) / 200` (a matrix product over the
  transposed table, 32 blocks of 31360 columns, the last block overhanging the table: its extra columns are computed from
  padding and are never read, every token naming a row of the table) and re-lays the tokens; then 32 vector subcores of the
  two SparseCores each gather the scores of the 25600 tokens of 128 examples out of their SparseCore's shared memory — filled
  slice by slice by its sixteen subcores, which meet at a barrier before anyone reads it —, add them up per example and
  apply `1 / (1 + e^{-z})`.  The affine form is linear and every input is finite, so the sum of the scaled scores IS the affine
  form of the mean: 200 · (b / 200) = b, and the named constant is the rational 1/200 the source writes (`1.0 / 200`).

  The proof.  The reference's run is read operation by operation and its result shown to be the specification under the
  stated domain (finite floats, tokens in the table).  The kernel program runs on 35 threads; its run is the SparseCore launch
  theorem applied to: one vector subcore's task at a symbolic place (copies, the barrier handing each subcore a read share
  of every slice of the shared memory, two gathers, two accumulation loops, the stores and the copy-out, the values carried
  in the invariants); the split of a SparseCore's operands among its subcores; @main on the TensorCore (two transposes, the
  kernel region with its pipeline, two flattenings, the call, a reshape); and the launch element of the ghost state.  It is
  written once for every float instance and read at the word-level instance for the frame (nothing claimed of the values)
  and at the ideal instance for the frame and the values.
-/
import proofs.«203335_g10582799417878_cont_week2_139_36_alg».proof.Defs
import proofs.«203335_g10582799417878_cont_week2_139_36_alg».proof.Proof.Gen.Kernel
import proofs.«203335_g10582799417878_cont_week2_139_36_alg».proof.Proof.Gen.Kernel.Skeleton
import proofs.«203335_g10582799417878_cont_week2_139_36_alg».proof.Proof.Gen.Kernel.Launch
import proofs.«203335_g10582799417878_cont_week2_139_36_alg».proof.Proof.Gen.Kernel.Points
import proofs.«203335_g10582799417878_cont_week2_139_36_alg».proof.Proof.Gen.KernelIdeal
import proofs.«203335_g10582799417878_cont_week2_139_36_alg».proof.Proof.Gen.KernelIdeal.Skeleton
import proofs.«203335_g10582799417878_cont_week2_139_36_alg».proof.Proof.Gen.KernelIdeal.Launch
import proofs.«203335_g10582799417878_cont_week2_139_36_alg».proof.Proof.Gen.KernelIdeal.Points
import proofs.«203335_g10582799417878_cont_week2_139_36_alg».proof.Proof.Gen.ReferenceIdeal
import proofs.«203335_g10582799417878_cont_week2_139_36_alg».proof.Proof.Gen.Pre_input_domain
import proofs.«203335_g10582799417878_cont_week2_139_36_alg».proof.Proof.Claims
import proofs.«203335_g10582799417878_cont_week2_139_36_alg».proof.Proof.Halves
import proofs.«203335_g10582799417878_cont_week2_139_36_alg».proof.Proof.HalvesK
import proofs.«203335_g10582799417878_cont_week2_139_36_alg».proof.Proof.Main
import proofs.«203335_g10582799417878_cont_week2_139_36_alg».proof.Proof.MainK
import proofs.«203335_g10582799417878_cont_week2_139_36_alg».proof.Proof.Tile
import proofs.«203335_g10582799417878_cont_week2_139_36_alg».proof.Proof.TileK
import Idealize.ShloMosaic.Adequacy
import Idealize.ShloMosaic.Init

noncomputable section

namespace Cert.Proof

open Idealize.ShloMosaic Idealize.SL.Sem Cert.Kernel

/-- The five conjuncts: the two kernel programs' frames and the value claim from the launch theorem's run at the two
    instances, the reference's frame from its run, the named constant's rule. -/
theorem claim : Cert.Claim :=
  Cert.Proof.Claims.claim_of
    (Cert.Proof.KB.wordHalves (fun xtF tF nG hF hxt => Cert.Proof.KB.tileObl xtF tF nG hF hxt)
      (fun m ρ xtF tF nG oF RG hXT hTG hRG κ d => Cert.Proof.KB.hmain m ρ xtF tF nG oF RG hXT hTG hRG κ d))
    (Cert.Proof.KI.idealHalves (fun xtF tF nG hF hxt => Cert.Proof.KI.tileObl xtF tF nG hF hxt)
      (fun m ρ xtF tF nG oF RG hXT hTG hRG κ d => Cert.Proof.KI.hmain m ρ xtF tF nG oF RG hXT hTG hRG κ d))

end Cert.Proof

end
